-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v220)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v220) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v235) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x1 : Shape := ⟨2, ![8388608, 1]⟩
abbrev S256x256x256 : Shape := ⟨3, ![256, 256, 256]⟩
abbrev S167772 : Shape := ⟨1, ![167772]⟩
abbrev S_ : Shape := ⟨0, ![]⟩

class Facts : Prop where
  bcast_S_S8388608x1 : S_.BroadcastsInDim S8388608x1 (![] : Fin 0 → Fin S8388608x1.rank)
  reducesTo_S8388608x1_S_d0_1 : S8388608x1.ReducesTo [0, 1] S_
  h_S_ : 0 < S_.numel

variable [Facts]

def fn {F : FTy → Type} [FloatOps F] (main_arg0 : FVec F S8388608x1 .f32) (main_arg1 : IVec S256x256x256 32) (main_arg2 : IVec S167772 32) : IVec S_ 1 :=
  let main_v0 : FVec F S8388608x1 .f32 := Host.absf main_arg0
  let main_cst : FVec F S_ .f32 := constant S_ .f32 0x7F800000#32
  let main_v1 : FVec F S8388608x1 .f32 := broadcastInDim S8388608x1 ![] bcast_S_S8388608x1 main_cst
  let main_v2 : IVec S8388608x1 1 := cmpf .olt main_v0 main_v1
  let main_c : IVec S_ 1 := constantI S_ 1 1#1
  let main_v3 : IVec S_ 1 := (fun x v => Host.reduce IntOp.andi x v reducesTo_S8388608x1_S_d0_1 h_S_) main_v2 main_c
  main_v3
-- ==== Kernel.lean ====
abbrev S8388608x1 : Shape := ⟨2, ![8388608, 1]⟩
abbrev S256x256x256 : Shape := ⟨3, ![256, 256, 256]⟩
abbrev S167772 : Shape := ⟨1, ![167772]⟩
abbrev S_ : Shape := ⟨0, ![]⟩
abbrev S167772x1 : Shape := ⟨2, ![167772, 1]⟩
abbrev S167772x3 : Shape := ⟨2, ![167772, 3]⟩
abbrev S1x167772 : Shape := ⟨2, ![1, 167772]⟩
abbrev S4x167772 : Shape := ⟨2, ![4, 167772]⟩
abbrev S4x180224 : Shape := ⟨2, ![4, 180224]⟩
abbrev S4x16384 : Shape := ⟨2, ![4, 16384]⟩
abbrev S1x16384 : Shape := ⟨2, ![1, 16384]⟩
abbrev S671088 : Shape := ⟨1, ![671088]⟩
abbrev S671088x1 : Shape := ⟨2, ![671088, 1]⟩

abbrev nBuf : Space → Nat
  | .hbm => 461
  | .vmem => 6
  | .smem => 0
  | _ => 0

abbrev hbmTy0_0 (i : Nat) : BufTy := match i % 128 with
  | 0 => ⟨S8388608x1, .f32⟩
  | 1 => ⟨S256x256x256, .i32⟩
  | 2 => ⟨S167772, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S167772, .i32⟩
  | 10 => ⟨S167772, .i32⟩
  | 11 => ⟨S_, .i32⟩
  | 12 => ⟨S167772, .i32⟩
  | 13 => ⟨S167772, .i1⟩
  | 14 => ⟨S_, .i32⟩
  | 15 => ⟨S167772, .i32⟩
  | 16 => ⟨S167772, .i1⟩
  | 17 => ⟨S_, .i32⟩
  | 18 => ⟨S_, .i1⟩
  | 19 => ⟨S167772, .i1⟩
  | 20 => ⟨S167772, .i1⟩
  | 21 => ⟨S167772, .i1⟩
  | 22 => ⟨S167772, .i32⟩
  | 23 => ⟨S167772, .i32⟩
  | 24 => ⟨S167772, .i32⟩
  | 25 => ⟨S_, .i32⟩
  | 26 => ⟨S_, .i32⟩
  | 27 => ⟨S167772, .i32⟩
  | 28 => ⟨S167772, .i32⟩
  | 29 => ⟨S167772, .i32⟩
  | 30 => ⟨S_, .i32⟩
  | 31 => ⟨S167772, .i32⟩
  | 32 => ⟨S167772, .i1⟩
  | 33 => ⟨S167772, .i32⟩
  | 34 => ⟨S167772, .i32⟩
  | 35 => ⟨S_, .i32⟩
  | 36 => ⟨S167772, .i32⟩
  | 37 => ⟨S167772, .i1⟩
  | 38 => ⟨S167772, .i1⟩
  | 39 => ⟨S_, .i32⟩
  | 40 => ⟨S167772, .i32⟩
  | 41 => ⟨S167772, .i32⟩
  | 42 => ⟨S167772, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S167772, .i32⟩
  | 50 => ⟨S167772, .i32⟩
  | 51 => ⟨S_, .i32⟩
  | 52 => ⟨S167772, .i32⟩
  | 53 => ⟨S167772, .i1⟩
  | 54 => ⟨S_, .i32⟩
  | 55 => ⟨S167772, .i32⟩
  | 56 => ⟨S167772, .i1⟩
  | 57 => ⟨S_, .i32⟩
  | 58 => ⟨S_, .i1⟩
  | 59 => ⟨S167772, .i1⟩
  | 60 => ⟨S167772, .i1⟩
  | 61 => ⟨S167772, .i1⟩
  | 62 => ⟨S167772, .i32⟩
  | 63 => ⟨S167772, .i32⟩
  | 64 => ⟨S167772, .i32⟩
  | 65 => ⟨S_, .i32⟩
  | 66 => ⟨S_, .i32⟩
  | 67 => ⟨S167772, .i32⟩
  | 68 => ⟨S167772, .i32⟩
  | 69 => ⟨S167772, .i32⟩
  | 70 => ⟨S_, .i32⟩
  | 71 => ⟨S167772, .i32⟩
  | 72 => ⟨S167772, .i1⟩
  | 73 => ⟨S167772, .i32⟩
  | 74 => ⟨S167772, .i32⟩
  | 75 => ⟨S_, .i32⟩
  | 76 => ⟨S167772, .i32⟩
  | 77 => ⟨S167772, .i1⟩
  | 78 => ⟨S167772, .i1⟩
  | 79 => ⟨S_, .i32⟩
  | 80 => ⟨S167772, .i32⟩
  | 81 => ⟨S167772, .i32⟩
  | 82 => ⟨S167772, .i32⟩
  | 83 => ⟨S_, .i32⟩
  | 84 => ⟨S167772, .i32⟩
  | 85 => ⟨S167772, .i32⟩
  | 86 => ⟨S_, .i32⟩
  | 87 => ⟨S167772, .i32⟩
  | 88 => ⟨S167772, .i1⟩
  | 89 => ⟨S_, .i32⟩
  | 90 => ⟨S167772, .i32⟩
  | 91 => ⟨S167772, .i32⟩
  | 92 => ⟨S_, .i32⟩
  | 93 => ⟨S167772, .i32⟩
  | 94 => ⟨S167772, .i1⟩
  | 95 => ⟨S_, .i32⟩
  | 96 => ⟨S167772, .i32⟩
  | 97 => ⟨S167772, .i32⟩
  | 98 => ⟨S_, .i32⟩
  | 99 => ⟨S167772, .i32⟩
  | 100 => ⟨S167772, .i1⟩
  | 101 => ⟨S_, .i32⟩
  | 102 => ⟨S167772, .i32⟩
  | 103 => ⟨S167772, .i1⟩
  | 104 => ⟨S_, .i32⟩
  | 105 => ⟨S167772, .i32⟩
  | 106 => ⟨S167772, .i32⟩
  | 107 => ⟨S167772, .i32⟩
  | 108 => ⟨S_, .i32⟩
  | 109 => ⟨S167772, .i32⟩
  | 110 => ⟨S167772, .i1⟩
  | 111 => ⟨S_, .i32⟩
  | 112 => ⟨S167772, .i32⟩
  | 113 => ⟨S167772, .i32⟩
  | 114 => ⟨S167772, .i32⟩
  | 115 => ⟨S_, .i32⟩
  | 116 => ⟨S167772, .i32⟩
  | 117 => ⟨S167772, .i1⟩
  | 118 => ⟨S_, .i32⟩
  | 119 => ⟨S167772, .i32⟩
  | 120 => ⟨S167772, .i32⟩
  | 121 => ⟨S167772, .i32⟩
  | 122 => ⟨S167772x1, .i32⟩
  | 123 => ⟨S167772x1, .i32⟩
  | 124 => ⟨S167772x1, .i32⟩
  | 125 => ⟨S167772x3, .i32⟩
  | 126 => ⟨S167772, .i32⟩
  | 127 => ⟨S_, .i32⟩
  | _ => ⟨S8388608x1, .f32⟩

abbrev hbmTy0_1 (i : Nat) : BufTy := match i % 128 with
  | 0 => ⟨S167772, .i32⟩
  | 1 => ⟨S167772, .i32⟩
  | 2 => ⟨S_, .i32⟩
  | 3 => ⟨S_, .i32⟩
  | 4 => ⟨S_, .i32⟩
  | 5 => ⟨S167772, .i32⟩
  | 6 => ⟨S167772, .i32⟩
  | 7 => ⟨S_, .i32⟩
  | 8 => ⟨S167772, .i32⟩
  | 9 => ⟨S167772, .i32⟩
  | 10 => ⟨S_, .i32⟩
  | 11 => ⟨S_, .i32⟩
  | 12 => ⟨S_, .i32⟩
  | 13 => ⟨S167772, .i32⟩
  | 14 => ⟨S167772, .i32⟩
  | 15 => ⟨S_, .i32⟩
  | 16 => ⟨S167772, .i32⟩
  | 17 => ⟨S167772, .i32⟩
  | 18 => ⟨S_, .i32⟩
  | 19 => ⟨S_, .i32⟩
  | 20 => ⟨S_, .i32⟩
  | 21 => ⟨S167772, .i32⟩
  | 22 => ⟨S167772, .i32⟩
  | 23 => ⟨S_, .i32⟩
  | 24 => ⟨S167772, .i32⟩
  | 25 => ⟨S167772, .i32⟩
  | 26 => ⟨S_, .i32⟩
  | 27 => ⟨S167772, .i32⟩
  | 28 => ⟨S167772, .i1⟩
  | 29 => ⟨S_, .i32⟩
  | 30 => ⟨S167772, .i32⟩
  | 31 => ⟨S167772, .i32⟩
  | 32 => ⟨S167772, .i32⟩
  | 33 => ⟨S_, .i32⟩
  | 34 => ⟨S167772, .i32⟩
  | 35 => ⟨S167772, .i1⟩
  | 36 => ⟨S_, .i32⟩
  | 37 => ⟨S167772, .i32⟩
  | 38 => ⟨S167772, .i32⟩
  | 39 => ⟨S167772, .i32⟩
  | 40 => ⟨S_, .i32⟩
  | 41 => ⟨S167772, .i32⟩
  | 42 => ⟨S167772, .i1⟩
  | 43 => ⟨S_, .i32⟩
  | 44 => ⟨S167772, .i32⟩
  | 45 => ⟨S167772, .i32⟩
  | 46 => ⟨S167772, .i32⟩
  | 47 => ⟨S167772x1, .i32⟩
  | 48 => ⟨S167772x1, .i32⟩
  | 49 => ⟨S167772x1, .i32⟩
  | 50 => ⟨S167772x3, .i32⟩
  | 51 => ⟨S167772, .i32⟩
  | 52 => ⟨S_, .i32⟩
  | 53 => ⟨S167772, .i32⟩
  | 54 => ⟨S167772, .i32⟩
  | 55 => ⟨S_, .i32⟩
  | 56 => ⟨S167772, .i32⟩
  | 57 => ⟨S167772, .i32⟩
  | 58 => ⟨S_, .i32⟩
  | 59 => ⟨S_, .i32⟩
  | 60 => ⟨S_, .i32⟩
  | 61 => ⟨S167772, .i32⟩
  | 62 => ⟨S167772, .i32⟩
  | 63 => ⟨S_, .i32⟩
  | 64 => ⟨S167772, .i32⟩
  | 65 => ⟨S167772, .i32⟩
  | 66 => ⟨S_, .i32⟩
  | 67 => ⟨S_, .i32⟩
  | 68 => ⟨S_, .i32⟩
  | 69 => ⟨S167772, .i32⟩
  | 70 => ⟨S167772, .i32⟩
  | 71 => ⟨S_, .i32⟩
  | 72 => ⟨S167772, .i32⟩
  | 73 => ⟨S167772, .i32⟩
  | 74 => ⟨S_, .i32⟩
  | 75 => ⟨S_, .i32⟩
  | 76 => ⟨S_, .i32⟩
  | 77 => ⟨S167772, .i32⟩
  | 78 => ⟨S167772, .i32⟩
  | 79 => ⟨S_, .i32⟩
  | 80 => ⟨S167772, .i32⟩
  | 81 => ⟨S167772, .i32⟩
  | 82 => ⟨S_, .i32⟩
  | 83 => ⟨S167772, .i32⟩
  | 84 => ⟨S167772, .i1⟩
  | 85 => ⟨S_, .i32⟩
  | 86 => ⟨S167772, .i32⟩
  | 87 => ⟨S167772, .i32⟩
  | 88 => ⟨S167772, .i32⟩
  | 89 => ⟨S_, .i32⟩
  | 90 => ⟨S167772, .i32⟩
  | 91 => ⟨S167772, .i1⟩
  | 92 => ⟨S_, .i32⟩
  | 93 => ⟨S167772, .i32⟩
  | 94 => ⟨S167772, .i32⟩
  | 95 => ⟨S167772, .i32⟩
  | 96 => ⟨S_, .i32⟩
  | 97 => ⟨S167772, .i32⟩
  | 98 => ⟨S167772, .i1⟩
  | 99 => ⟨S_, .i32⟩
  | 100 => ⟨S167772, .i32⟩
  | 101 => ⟨S167772, .i32⟩
  | 102 => ⟨S167772, .i32⟩
  | 103 => ⟨S167772x1, .i32⟩
  | 104 => ⟨S167772x1, .i32⟩
  | 105 => ⟨S167772x1, .i32⟩
  | 106 => ⟨S167772x3, .i32⟩
  | 107 => ⟨S167772, .i32⟩
  | 108 => ⟨S_, .i32⟩
  | 109 => ⟨S167772, .i32⟩
  | 110 => ⟨S167772, .i32⟩
  | 111 => ⟨S_, .i32⟩
  | 112 => ⟨S167772, .i32⟩
  | 113 => ⟨S167772, .i32⟩
  | 114 => ⟨S_, .i32⟩
  | 115 => ⟨S_, .i32⟩
  | 116 => ⟨S_, .i32⟩
  | 117 => ⟨S167772, .i32⟩
  | 118 => ⟨S167772, .i32⟩
  | 119 => ⟨S_, .i32⟩
  | 120 => ⟨S167772, .i32⟩
  | 121 => ⟨S167772, .i32⟩
  | 122 => ⟨S_, .i32⟩
  | 123 => ⟨S_, .i32⟩
  | 124 => ⟨S_, .i32⟩
  | 125 => ⟨S167772, .i32⟩
  | 126 => ⟨S167772, .i32⟩
  | 127 => ⟨S_, .i32⟩
  | _ => ⟨S8388608x1, .f32⟩

abbrev hbmTy0_2 (i : Nat) : BufTy := match i % 128 with
  | 0 => ⟨S167772, .i32⟩
  | 1 => ⟨S167772, .i32⟩
  | 2 => ⟨S_, .i32⟩
  | 3 => ⟨S_, .i32⟩
  | 4 => ⟨S_, .i32⟩
  | 5 => ⟨S167772, .i32⟩
  | 6 => ⟨S167772, .i32⟩
  | 7 => ⟨S_, .i32⟩
  | 8 => ⟨S167772, .i32⟩
  | 9 => ⟨S167772, .i32⟩
  | 10 => ⟨S_, .i32⟩
  | 11 => ⟨S167772, .i32⟩
  | 12 => ⟨S167772, .i1⟩
  | 13 => ⟨S_, .i32⟩
  | 14 => ⟨S167772, .i32⟩
  | 15 => ⟨S167772, .i32⟩
  | 16 => ⟨S167772, .i32⟩
  | 17 => ⟨S_, .i32⟩
  | 18 => ⟨S167772, .i32⟩
  | 19 => ⟨S167772, .i1⟩
  | 20 => ⟨S_, .i32⟩
  | 21 => ⟨S167772, .i32⟩
  | 22 => ⟨S167772, .i32⟩
  | 23 => ⟨S167772, .i32⟩
  | 24 => ⟨S_, .i32⟩
  | 25 => ⟨S167772, .i32⟩
  | 26 => ⟨S167772, .i1⟩
  | 27 => ⟨S_, .i32⟩
  | 28 => ⟨S167772, .i32⟩
  | 29 => ⟨S167772, .i32⟩
  | 30 => ⟨S167772, .i32⟩
  | 31 => ⟨S167772x1, .i32⟩
  | 32 => ⟨S167772x1, .i32⟩
  | 33 => ⟨S167772x1, .i32⟩
  | 34 => ⟨S167772x3, .i32⟩
  | 35 => ⟨S167772, .i32⟩
  | 36 => ⟨S_, .i32⟩
  | 37 => ⟨S167772, .i32⟩
  | 38 => ⟨S167772, .i32⟩
  | 39 => ⟨S_, .i32⟩
  | 40 => ⟨S_, .i32⟩
  | 41 => ⟨S167772, .i32⟩
  | 42 => ⟨S167772, .i32⟩
  | 43 => ⟨S_, .i32⟩
  | 44 => ⟨S167772, .i32⟩
  | 45 => ⟨S167772, .i1⟩
  | 46 => ⟨S_, .i32⟩
  | 47 => ⟨S167772, .i32⟩
  | 48 => ⟨S167772, .i32⟩
  | 49 => ⟨S167772, .i32⟩
  | 50 => ⟨S167772x1, .i32⟩
  | 51 => ⟨S167772x1, .f32⟩
  | 52 => ⟨S_, .i32⟩
  | 53 => ⟨S167772, .i32⟩
  | 54 => ⟨S167772, .i1⟩
  | 55 => ⟨S167772x1, .i1⟩
  | 56 => ⟨S_, .f32⟩
  | 57 => ⟨S_, .f32⟩
  | 58 => ⟨S167772x1, .f32⟩
  | 59 => ⟨S167772x1, .f32⟩
  | 60 => ⟨S167772x1, .i1⟩
  | 61 => ⟨S_, .i32⟩
  | 62 => ⟨S_, .i32⟩
  | 63 => ⟨S167772, .i32⟩
  | 64 => ⟨S167772, .i32⟩
  | 65 => ⟨S_, .i32⟩
  | 66 => ⟨S167772, .i32⟩
  | 67 => ⟨S167772, .i1⟩
  | 68 => ⟨S_, .i32⟩
  | 69 => ⟨S167772, .i32⟩
  | 70 => ⟨S167772, .i32⟩
  | 71 => ⟨S167772, .i32⟩
  | 72 => ⟨S167772x1, .i32⟩
  | 73 => ⟨S167772x1, .f32⟩
  | 74 => ⟨S_, .i32⟩
  | 75 => ⟨S167772, .i32⟩
  | 76 => ⟨S167772, .i1⟩
  | 77 => ⟨S167772x1, .i1⟩
  | 78 => ⟨S_, .f32⟩
  | 79 => ⟨S_, .f32⟩
  | 80 => ⟨S167772x1, .f32⟩
  | 81 => ⟨S167772x1, .f32⟩
  | 82 => ⟨S167772x1, .f32⟩
  | 83 => ⟨S167772x1, .i1⟩
  | 84 => ⟨S_, .i32⟩
  | 85 => ⟨S_, .i32⟩
  | 86 => ⟨S167772, .i32⟩
  | 87 => ⟨S167772, .i32⟩
  | 88 => ⟨S_, .i32⟩
  | 89 => ⟨S167772, .i32⟩
  | 90 => ⟨S167772, .i1⟩
  | 91 => ⟨S_, .i32⟩
  | 92 => ⟨S167772, .i32⟩
  | 93 => ⟨S167772, .i32⟩
  | 94 => ⟨S167772, .i32⟩
  | 95 => ⟨S167772x1, .i32⟩
  | 96 => ⟨S167772x1, .f32⟩
  | 97 => ⟨S_, .i32⟩
  | 98 => ⟨S167772, .i32⟩
  | 99 => ⟨S167772, .i1⟩
  | 100 => ⟨S167772x1, .i1⟩
  | 101 => ⟨S_, .f32⟩
  | 102 => ⟨S_, .f32⟩
  | 103 => ⟨S167772x1, .f32⟩
  | 104 => ⟨S167772x1, .f32⟩
  | 105 => ⟨S167772x1, .f32⟩
  | 106 => ⟨S167772x1, .i1⟩
  | 107 => ⟨S_, .i32⟩
  | 108 => ⟨S_, .i32⟩
  | 109 => ⟨S167772, .i32⟩
  | 110 => ⟨S167772, .i32⟩
  | 111 => ⟨S_, .i32⟩
  | 112 => ⟨S167772, .i32⟩
  | 113 => ⟨S167772, .i1⟩
  | 114 => ⟨S_, .i32⟩
  | 115 => ⟨S167772, .i32⟩
  | 116 => ⟨S167772, .i32⟩
  | 117 => ⟨S167772, .i32⟩
  | 118 => ⟨S167772x1, .i32⟩
  | 119 => ⟨S167772x1, .f32⟩
  | 120 => ⟨S_, .i32⟩
  | 121 => ⟨S167772, .i32⟩
  | 122 => ⟨S167772, .i1⟩
  | 123 => ⟨S167772x1, .i1⟩
  | 124 => ⟨S_, .f32⟩
  | 125 => ⟨S_, .f32⟩
  | 126 => ⟨S167772x1, .f32⟩
  | 127 => ⟨S167772x1, .f32⟩
  | _ => ⟨S8388608x1, .f32⟩

abbrev hbmTy0_3 (i : Nat) : BufTy := match i % 128 with
  | 0 => ⟨S167772x1, .f32⟩
  | 1 => ⟨S_, .i32⟩
  | 2 => ⟨S167772, .i32⟩
  | 3 => ⟨S167772, .i1⟩
  | 4 => ⟨S167772, .f32⟩
  | 5 => ⟨S_, .i32⟩
  | 6 => ⟨S167772, .i32⟩
  | 7 => ⟨S167772, .i1⟩
  | 8 => ⟨S167772, .f32⟩
  | 9 => ⟨S_, .i32⟩
  | 10 => ⟨S167772, .i32⟩
  | 11 => ⟨S167772, .i1⟩
  | 12 => ⟨S167772, .f32⟩
  | 13 => ⟨S_, .i32⟩
  | 14 => ⟨S167772, .i32⟩
  | 15 => ⟨S167772, .i1⟩
  | 16 => ⟨S167772, .f32⟩
  | 17 => ⟨S167772, .f32⟩
  | 18 => ⟨S167772, .f32⟩
  | 19 => ⟨S167772, .f32⟩
  | 20 => ⟨S167772, .f32⟩
  | 21 => ⟨S1x167772, .f32⟩
  | 22 => ⟨S1x167772, .f32⟩
  | 23 => ⟨S1x167772, .f32⟩
  | 24 => ⟨S1x167772, .f32⟩
  | 25 => ⟨S4x167772, .f32⟩
  | 26 => ⟨S_, .i32⟩
  | 27 => ⟨S_, .f32⟩
  | 28 => ⟨S4x180224, .f32⟩
  | 29 => ⟨S1x167772, .f32⟩
  | 30 => ⟨S1x167772, .f32⟩
  | 31 => ⟨S1x167772, .f32⟩
  | 32 => ⟨S1x167772, .f32⟩
  | 33 => ⟨S4x167772, .f32⟩
  | 34 => ⟨S_, .i32⟩
  | 35 => ⟨S_, .f32⟩
  | 36 => ⟨S4x180224, .f32⟩
  | 37 => ⟨S4x180224, .f32⟩
  | 38 => ⟨S4x167772, .f32⟩
  | 39 => ⟨S_, .i32⟩
  | 40 => ⟨S_, .i32⟩
  | 41 => ⟨S167772, .i32⟩
  | 42 => ⟨S167772, .i32⟩
  | 43 => ⟨S_, .i32⟩
  | 44 => ⟨S_, .i32⟩
  | 45 => ⟨S167772, .i32⟩
  | 46 => ⟨S167772, .i32⟩
  | 47 => ⟨S_, .i32⟩
  | 48 => ⟨S_, .i32⟩
  | 49 => ⟨S167772, .i32⟩
  | 50 => ⟨S167772, .i32⟩
  | 51 => ⟨S_, .i32⟩
  | 52 => ⟨S_, .i32⟩
  | 53 => ⟨S167772, .i32⟩
  | 54 => ⟨S167772, .i32⟩
  | 55 => ⟨S671088, .i32⟩
  | 56 => ⟨S1x167772, .f32⟩
  | 57 => ⟨S167772, .f32⟩
  | 58 => ⟨S1x167772, .f32⟩
  | 59 => ⟨S167772, .f32⟩
  | 60 => ⟨S1x167772, .f32⟩
  | 61 => ⟨S167772, .f32⟩
  | 62 => ⟨S1x167772, .f32⟩
  | 63 => ⟨S167772, .f32⟩
  | 64 => ⟨S671088, .f32⟩
  | 65 => ⟨S671088x1, .f32⟩
  | 66 => ⟨S_, .f32⟩
  | 67 => ⟨S8388608x1, .f32⟩
  | 68 => ⟨S_, .i32⟩
  | 69 => ⟨S671088, .i32⟩
  | 70 => ⟨S671088, .i1⟩
  | 71 => ⟨S_, .i32⟩
  | 72 => ⟨S671088, .i32⟩
  | 73 => ⟨S671088, .i32⟩
  | 74 => ⟨S671088, .i32⟩
  | 75 => ⟨S671088x1, .i32⟩
  | 76 => ⟨S8388608x1, .f32⟩
  | _ => ⟨S8388608x1, .f32⟩

abbrev hbmTy (i : Nat) : BufTy := match i / 128 with
  | 0 => hbmTy0_0 i
  | 1 => hbmTy0_1 i
  | 2 => hbmTy0_2 i
  | 3 => hbmTy0_3 i
  | _ => ⟨S8388608x1, .f32⟩

abbrev bufTy : (tb : Table) → Fin (tcTables nBuf tb) → BufTy
  | .hbm, ⟨i, _⟩ => hbmTy i
  | .local _ .vmem, ⟨0, _⟩ => ⟨S4x16384, .f32⟩
  | .local _ .vmem, ⟨1, _⟩ => ⟨S4x16384, .f32⟩
  | .local _ .vmem, ⟨2, _⟩ => ⟨S4x16384, .f32⟩
  | .local _ .vmem, ⟨3, _⟩ => ⟨S4x16384, .f32⟩
  | .local _ .vmem, ⟨4, _⟩ => ⟨S4x16384, .f32⟩
  | .local _ .vmem, ⟨5, _⟩ => ⟨S4x16384, .f32⟩
  | _, _ => ⟨S8388608x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v1 : Ref sig .tc := ⟨.hbm, 42, rfl⟩
abbrev main_c_1 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v2 : Ref sig .tc := ⟨.hbm, 64, rfl⟩
abbrev main_c_2 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v3 : Ref sig .tc := ⟨.hbm, 82, rfl⟩
abbrev main_c_3 : Ref sig .tc := ⟨.hbm, 83, rfl⟩
abbrev main_v4 : Ref sig .tc := ⟨.hbm, 84, rfl⟩
abbrev main_v5 : Ref sig .tc := ⟨.hbm, 85, rfl⟩
abbrev main_c_4 : Ref sig .tc := ⟨.hbm, 86, rfl⟩
abbrev main_v6 : Ref sig .tc := ⟨.hbm, 87, rfl⟩
abbrev main_v7 : Ref sig .tc := ⟨.hbm, 88, rfl⟩
abbrev main_c_5 : Ref sig .tc := ⟨.hbm, 89, rfl⟩
abbrev main_v8 : Ref sig .tc := ⟨.hbm, 90, rfl⟩
abbrev main_v9 : Ref sig .tc := ⟨.hbm, 91, rfl⟩
abbrev main_c_6 : Ref sig .tc := ⟨.hbm, 92, rfl⟩
abbrev main_v10 : Ref sig .tc := ⟨.hbm, 93, rfl⟩
abbrev main_v11 : Ref sig .tc := ⟨.hbm, 94, rfl⟩
abbrev main_c_7 : Ref sig .tc := ⟨.hbm, 95, rfl⟩
abbrev main_v12 : Ref sig .tc := ⟨.hbm, 96, rfl⟩
abbrev main_v13 : Ref sig .tc := ⟨.hbm, 97, rfl⟩
abbrev main_c_8 : Ref sig .tc := ⟨.hbm, 98, rfl⟩
abbrev main_v14 : Ref sig .tc := ⟨.hbm, 99, rfl⟩
abbrev main_v15 : Ref sig .tc := ⟨.hbm, 100, rfl⟩
abbrev main_c_9 : Ref sig .tc := ⟨.hbm, 101, rfl⟩
abbrev main_v16 : Ref sig .tc := ⟨.hbm, 102, rfl⟩
abbrev main_v17 : Ref sig .tc := ⟨.hbm, 103, rfl⟩
abbrev main_c_10 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_c_11 : Ref sig .tc := ⟨.hbm, 108, rfl⟩
abbrev main_v21 : Ref sig .tc := ⟨.hbm, 109, rfl⟩
abbrev main_v22 : Ref sig .tc := ⟨.hbm, 110, rfl⟩
abbrev main_c_12 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_c_13 : Ref sig .tc := ⟨.hbm, 115, rfl⟩
abbrev main_v26 : Ref sig .tc := ⟨.hbm, 116, rfl⟩
abbrev main_v27 : Ref sig .tc := ⟨.hbm, 117, rfl⟩
abbrev main_c_14 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_c_15 : Ref sig .tc := ⟨.hbm, 127, rfl⟩
abbrev main_v36 : Ref sig .tc := ⟨.hbm, 128, rfl⟩
abbrev main_v37 : Ref sig .tc := ⟨.hbm, 129, rfl⟩
abbrev main_c_16 : Ref sig .tc := ⟨.hbm, 130, rfl⟩
abbrev main_c_17 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_v38 : Ref sig .tc := ⟨.hbm, 137, rfl⟩
abbrev main_c_18 : Ref sig .tc := ⟨.hbm, 138, rfl⟩
abbrev main_c_19 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v39 : Ref sig .tc := ⟨.hbm, 145, rfl⟩
abbrev main_c_20 : Ref sig .tc := ⟨.hbm, 146, rfl⟩
abbrev main_c_21 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_v40 : Ref sig .tc := ⟨.hbm, 153, rfl⟩
abbrev main_c_22 : Ref sig .tc := ⟨.hbm, 154, rfl⟩
abbrev main_v41 : Ref sig .tc := ⟨.hbm, 155, rfl⟩
abbrev main_v42 : Ref sig .tc := ⟨.hbm, 156, rfl⟩
abbrev main_c_23 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_c_24 : Ref sig .tc := ⟨.hbm, 161, rfl⟩
abbrev main_v46 : Ref sig .tc := ⟨.hbm, 162, rfl⟩
abbrev main_v47 : Ref sig .tc := ⟨.hbm, 163, rfl⟩
abbrev main_c_25 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_c_26 : Ref sig .tc := ⟨.hbm, 168, rfl⟩
abbrev main_v51 : Ref sig .tc := ⟨.hbm, 169, rfl⟩
abbrev main_v52 : Ref sig .tc := ⟨.hbm, 170, rfl⟩
abbrev main_c_27 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_c_28 : Ref sig .tc := ⟨.hbm, 180, rfl⟩
abbrev main_call7_v0 : Ref sig .tc := ⟨.hbm, 181, rfl⟩
abbrev main_v61 : Ref sig .tc := ⟨.hbm, 182, rfl⟩
abbrev main_c_29 : Ref sig .tc := ⟨.hbm, 183, rfl⟩
abbrev main_v62 : Ref sig .tc := ⟨.hbm, 184, rfl⟩
abbrev main_v63 : Ref sig .tc := ⟨.hbm, 185, rfl⟩
abbrev main_c_30 : Ref sig .tc := ⟨.hbm, 186, rfl⟩
abbrev main_c_31 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_v64 : Ref sig .tc := ⟨.hbm, 193, rfl⟩
abbrev main_c_32 : Ref sig .tc := ⟨.hbm, 194, rfl⟩
abbrev main_c_33 : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_call9_v3 : Ref sig .tc := ⟨.hbm, 199, rfl⟩
abbrev main_call9_v4 : Ref sig .tc := ⟨.hbm, 200, rfl⟩
abbrev main_v65 : Ref sig .tc := ⟨.hbm, 201, rfl⟩
abbrev main_c_34 : Ref sig .tc := ⟨.hbm, 202, rfl⟩
abbrev main_c_35 : Ref sig .tc := ⟨.hbm, 203, rfl⟩
abbrev main_call10_v0 : Ref sig .tc := ⟨.hbm, 204, rfl⟩
abbrev main_call10_v1 : Ref sig .tc := ⟨.hbm, 205, rfl⟩
abbrev main_call10_v2 : Ref sig .tc := ⟨.hbm, 206, rfl⟩
abbrev main_call10_v3 : Ref sig .tc := ⟨.hbm, 207, rfl⟩
abbrev main_call10_v4 : Ref sig .tc := ⟨.hbm, 208, rfl⟩
abbrev main_v66 : Ref sig .tc := ⟨.hbm, 209, rfl⟩
abbrev main_c_36 : Ref sig .tc := ⟨.hbm, 210, rfl⟩
abbrev main_v67 : Ref sig .tc := ⟨.hbm, 211, rfl⟩
abbrev main_v68 : Ref sig .tc := ⟨.hbm, 212, rfl⟩
abbrev main_c_37 : Ref sig .tc := ⟨.hbm, 213, rfl⟩
abbrev main_v69 : Ref sig .tc := ⟨.hbm, 214, rfl⟩
abbrev main_v70 : Ref sig .tc := ⟨.hbm, 215, rfl⟩
abbrev main_v71 : Ref sig .tc := ⟨.hbm, 216, rfl⟩
abbrev main_c_38 : Ref sig .tc := ⟨.hbm, 217, rfl⟩
abbrev main_v72 : Ref sig .tc := ⟨.hbm, 218, rfl⟩
abbrev main_v73 : Ref sig .tc := ⟨.hbm, 219, rfl⟩
abbrev main_c_39 : Ref sig .tc := ⟨.hbm, 220, rfl⟩
abbrev main_v74 : Ref sig .tc := ⟨.hbm, 221, rfl⟩
abbrev main_v75 : Ref sig .tc := ⟨.hbm, 222, rfl⟩
abbrev main_v76 : Ref sig .tc := ⟨.hbm, 223, rfl⟩
abbrev main_c_40 : Ref sig .tc := ⟨.hbm, 224, rfl⟩
abbrev main_v77 : Ref sig .tc := ⟨.hbm, 225, rfl⟩
abbrev main_v78 : Ref sig .tc := ⟨.hbm, 226, rfl⟩
abbrev main_c_41 : Ref sig .tc := ⟨.hbm, 227, rfl⟩
abbrev main_v79 : Ref sig .tc := ⟨.hbm, 228, rfl⟩
abbrev main_v80 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_c_42 : Ref sig .tc := ⟨.hbm, 236, rfl⟩
abbrev main_call11_v0 : Ref sig .tc := ⟨.hbm, 237, rfl⟩
abbrev main_v87 : Ref sig .tc := ⟨.hbm, 238, rfl⟩
abbrev main_c_43 : Ref sig .tc := ⟨.hbm, 239, rfl⟩
abbrev main_v88 : Ref sig .tc := ⟨.hbm, 240, rfl⟩
abbrev main_v89 : Ref sig .tc := ⟨.hbm, 241, rfl⟩
abbrev main_c_44 : Ref sig .tc := ⟨.hbm, 242, rfl⟩
abbrev main_c_45 : Ref sig .tc := ⟨.hbm, 243, rfl⟩
abbrev main_call12_v0 : Ref sig .tc := ⟨.hbm, 244, rfl⟩
abbrev main_call12_v1 : Ref sig .tc := ⟨.hbm, 245, rfl⟩
abbrev main_call12_v2 : Ref sig .tc := ⟨.hbm, 246, rfl⟩
abbrev main_call12_v3 : Ref sig .tc := ⟨.hbm, 247, rfl⟩
abbrev main_call12_v4 : Ref sig .tc := ⟨.hbm, 248, rfl⟩
abbrev main_v90 : Ref sig .tc := ⟨.hbm, 249, rfl⟩
abbrev main_c_46 : Ref sig .tc := ⟨.hbm, 250, rfl⟩
abbrev main_c_47 : Ref sig .tc := ⟨.hbm, 251, rfl⟩
abbrev main_call13_v0 : Ref sig .tc := ⟨.hbm, 252, rfl⟩
abbrev main_call13_v1 : Ref sig .tc := ⟨.hbm, 253, rfl⟩
abbrev main_call13_v2 : Ref sig .tc := ⟨.hbm, 254, rfl⟩
abbrev main_call13_v3 : Ref sig .tc := ⟨.hbm, 255, rfl⟩
abbrev main_call13_v4 : Ref sig .tc := ⟨.hbm, 256, rfl⟩
abbrev main_v91 : Ref sig .tc := ⟨.hbm, 257, rfl⟩
abbrev main_c_48 : Ref sig .tc := ⟨.hbm, 258, rfl⟩
abbrev main_c_49 : Ref sig .tc := ⟨.hbm, 259, rfl⟩
abbrev main_call14_v0 : Ref sig .tc := ⟨.hbm, 260, rfl⟩
abbrev main_call14_v1 : Ref sig .tc := ⟨.hbm, 261, rfl⟩
abbrev main_call14_v2 : Ref sig .tc := ⟨.hbm, 262, rfl⟩
abbrev main_call14_v3 : Ref sig .tc := ⟨.hbm, 263, rfl⟩
abbrev main_call14_v4 : Ref sig .tc := ⟨.hbm, 264, rfl⟩
abbrev main_v92 : Ref sig .tc := ⟨.hbm, 265, rfl⟩
abbrev main_c_50 : Ref sig .tc := ⟨.hbm, 266, rfl⟩
abbrev main_v93 : Ref sig .tc := ⟨.hbm, 267, rfl⟩
abbrev main_v94 : Ref sig .tc := ⟨.hbm, 268, rfl⟩
abbrev main_c_51 : Ref sig .tc := ⟨.hbm, 269, rfl⟩
abbrev main_v95 : Ref sig .tc := ⟨.hbm, 270, rfl⟩
abbrev main_v96 : Ref sig .tc := ⟨.hbm, 271, rfl⟩
abbrev main_v97 : Ref sig .tc := ⟨.hbm, 272, rfl⟩
abbrev main_c_52 : Ref sig .tc := ⟨.hbm, 273, rfl⟩
abbrev main_v98 : Ref sig .tc := ⟨.hbm, 274, rfl⟩
abbrev main_v99 : Ref sig .tc := ⟨.hbm, 275, rfl⟩
abbrev main_c_53 : Ref sig .tc := ⟨.hbm, 276, rfl⟩
abbrev main_v100 : Ref sig .tc := ⟨.hbm, 277, rfl⟩
abbrev main_v101 : Ref sig .tc := ⟨.hbm, 278, rfl⟩
abbrev main_v102 : Ref sig .tc := ⟨.hbm, 279, rfl⟩
abbrev main_c_54 : Ref sig .tc := ⟨.hbm, 280, rfl⟩
abbrev main_v103 : Ref sig .tc := ⟨.hbm, 281, rfl⟩
abbrev main_v104 : Ref sig .tc := ⟨.hbm, 282, rfl⟩
abbrev main_c_55 : Ref sig .tc := ⟨.hbm, 283, rfl⟩
abbrev main_v105 : Ref sig .tc := ⟨.hbm, 284, rfl⟩
abbrev main_v106 : Ref sig .tc := ⟨.hbm, 285, rfl⟩
abbrev main_v107 : Ref sig .tc := ⟨.hbm, 286, rfl⟩
abbrev main_v108 : Ref sig .tc := ⟨.hbm, 287, rfl⟩
abbrev main_v109 : Ref sig .tc := ⟨.hbm, 288, rfl⟩
abbrev main_v110 : Ref sig .tc := ⟨.hbm, 289, rfl⟩
abbrev main_v111 : Ref sig .tc := ⟨.hbm, 290, rfl⟩
abbrev main_v112 : Ref sig .tc := ⟨.hbm, 291, rfl⟩
abbrev main_c_56 : Ref sig .tc := ⟨.hbm, 292, rfl⟩
abbrev main_call15_v0 : Ref sig .tc := ⟨.hbm, 293, rfl⟩
abbrev main_v113 : Ref sig .tc := ⟨.hbm, 294, rfl⟩
abbrev main_c_57 : Ref sig .tc := ⟨.hbm, 295, rfl⟩
abbrev main_call16_v0 : Ref sig .tc := ⟨.hbm, 296, rfl⟩
abbrev main_call16_v1 : Ref sig .tc := ⟨.hbm, 297, rfl⟩
abbrev main_v114 : Ref sig .tc := ⟨.hbm, 298, rfl⟩
abbrev main_c_58 : Ref sig .tc := ⟨.hbm, 299, rfl⟩
abbrev main_v115 : Ref sig .tc := ⟨.hbm, 300, rfl⟩
abbrev main_v116 : Ref sig .tc := ⟨.hbm, 301, rfl⟩
abbrev main_c_59 : Ref sig .tc := ⟨.hbm, 302, rfl⟩
abbrev main_v117 : Ref sig .tc := ⟨.hbm, 303, rfl⟩
abbrev main_v118 : Ref sig .tc := ⟨.hbm, 304, rfl⟩
abbrev main_v119 : Ref sig .tc := ⟨.hbm, 305, rfl⟩
abbrev main_v120 : Ref sig .tc := ⟨.hbm, 306, rfl⟩
abbrev main_v121 : Ref sig .tc := ⟨.hbm, 307, rfl⟩
abbrev main_c_60 : Ref sig .tc := ⟨.hbm, 308, rfl⟩
abbrev main_v122 : Ref sig .tc := ⟨.hbm, 309, rfl⟩
abbrev main_v123 : Ref sig .tc := ⟨.hbm, 310, rfl⟩
abbrev main_v124 : Ref sig .tc := ⟨.hbm, 311, rfl⟩
abbrev main_cst : Ref sig .tc := ⟨.hbm, 312, rfl⟩
abbrev main_call17_v0 : Ref sig .tc := ⟨.hbm, 313, rfl⟩
abbrev main_call17_v1 : Ref sig .tc := ⟨.hbm, 314, rfl⟩
abbrev main_v125 : Ref sig .tc := ⟨.hbm, 315, rfl⟩
abbrev main_v126 : Ref sig .tc := ⟨.hbm, 316, rfl⟩
abbrev main_c_61 : Ref sig .tc := ⟨.hbm, 317, rfl⟩
abbrev main_call18_v0 : Ref sig .tc := ⟨.hbm, 318, rfl⟩
abbrev main_call18_v1 : Ref sig .tc := ⟨.hbm, 319, rfl⟩
abbrev main_v127 : Ref sig .tc := ⟨.hbm, 320, rfl⟩
abbrev main_c_62 : Ref sig .tc := ⟨.hbm, 321, rfl⟩
abbrev main_v128 : Ref sig .tc := ⟨.hbm, 322, rfl⟩
abbrev main_v129 : Ref sig .tc := ⟨.hbm, 323, rfl⟩
abbrev main_c_63 : Ref sig .tc := ⟨.hbm, 324, rfl⟩
abbrev main_v130 : Ref sig .tc := ⟨.hbm, 325, rfl⟩
abbrev main_v131 : Ref sig .tc := ⟨.hbm, 326, rfl⟩
abbrev main_v132 : Ref sig .tc := ⟨.hbm, 327, rfl⟩
abbrev main_v133 : Ref sig .tc := ⟨.hbm, 328, rfl⟩
abbrev main_v134 : Ref sig .tc := ⟨.hbm, 329, rfl⟩
abbrev main_c_64 : Ref sig .tc := ⟨.hbm, 330, rfl⟩
abbrev main_v135 : Ref sig .tc := ⟨.hbm, 331, rfl⟩
abbrev main_v136 : Ref sig .tc := ⟨.hbm, 332, rfl⟩
abbrev main_v137 : Ref sig .tc := ⟨.hbm, 333, rfl⟩
abbrev main_cst_65 : Ref sig .tc := ⟨.hbm, 334, rfl⟩
abbrev main_call19_v0 : Ref sig .tc := ⟨.hbm, 335, rfl⟩
abbrev main_call19_v1 : Ref sig .tc := ⟨.hbm, 336, rfl⟩
abbrev main_v138 : Ref sig .tc := ⟨.hbm, 337, rfl⟩
abbrev main_v139 : Ref sig .tc := ⟨.hbm, 338, rfl⟩
abbrev main_v140 : Ref sig .tc := ⟨.hbm, 339, rfl⟩
abbrev main_c_66 : Ref sig .tc := ⟨.hbm, 340, rfl⟩
abbrev main_call21_v0 : Ref sig .tc := ⟨.hbm, 341, rfl⟩
abbrev main_call21_v1 : Ref sig .tc := ⟨.hbm, 342, rfl⟩
abbrev main_v141 : Ref sig .tc := ⟨.hbm, 343, rfl⟩
abbrev main_c_67 : Ref sig .tc := ⟨.hbm, 344, rfl⟩
abbrev main_v142 : Ref sig .tc := ⟨.hbm, 345, rfl⟩
abbrev main_v143 : Ref sig .tc := ⟨.hbm, 346, rfl⟩
abbrev main_c_68 : Ref sig .tc := ⟨.hbm, 347, rfl⟩
abbrev main_v144 : Ref sig .tc := ⟨.hbm, 348, rfl⟩
abbrev main_v145 : Ref sig .tc := ⟨.hbm, 349, rfl⟩
abbrev main_v146 : Ref sig .tc := ⟨.hbm, 350, rfl⟩
abbrev main_v147 : Ref sig .tc := ⟨.hbm, 351, rfl⟩
abbrev main_v148 : Ref sig .tc := ⟨.hbm, 352, rfl⟩
abbrev main_c_69 : Ref sig .tc := ⟨.hbm, 353, rfl⟩
abbrev main_v149 : Ref sig .tc := ⟨.hbm, 354, rfl⟩
abbrev main_v150 : Ref sig .tc := ⟨.hbm, 355, rfl⟩
abbrev main_v151 : Ref sig .tc := ⟨.hbm, 356, rfl⟩
abbrev main_cst_70 : Ref sig .tc := ⟨.hbm, 357, rfl⟩
abbrev main_call22_v0 : Ref sig .tc := ⟨.hbm, 358, rfl⟩
abbrev main_call22_v1 : Ref sig .tc := ⟨.hbm, 359, rfl⟩
abbrev main_v152 : Ref sig .tc := ⟨.hbm, 360, rfl⟩
abbrev main_v153 : Ref sig .tc := ⟨.hbm, 361, rfl⟩
abbrev main_v154 : Ref sig .tc := ⟨.hbm, 362, rfl⟩
abbrev main_c_71 : Ref sig .tc := ⟨.hbm, 363, rfl⟩
abbrev main_call24_v0 : Ref sig .tc := ⟨.hbm, 364, rfl⟩
abbrev main_call24_v1 : Ref sig .tc := ⟨.hbm, 365, rfl⟩
abbrev main_v155 : Ref sig .tc := ⟨.hbm, 366, rfl⟩
abbrev main_c_72 : Ref sig .tc := ⟨.hbm, 367, rfl⟩
abbrev main_v156 : Ref sig .tc := ⟨.hbm, 368, rfl⟩
abbrev main_v157 : Ref sig .tc := ⟨.hbm, 369, rfl⟩
abbrev main_c_73 : Ref sig .tc := ⟨.hbm, 370, rfl⟩
abbrev main_v158 : Ref sig .tc := ⟨.hbm, 371, rfl⟩
abbrev main_v159 : Ref sig .tc := ⟨.hbm, 372, rfl⟩
abbrev main_v160 : Ref sig .tc := ⟨.hbm, 373, rfl⟩
abbrev main_v161 : Ref sig .tc := ⟨.hbm, 374, rfl⟩
abbrev main_v162 : Ref sig .tc := ⟨.hbm, 375, rfl⟩
abbrev main_c_74 : Ref sig .tc := ⟨.hbm, 376, rfl⟩
abbrev main_v163 : Ref sig .tc := ⟨.hbm, 377, rfl⟩
abbrev main_v164 : Ref sig .tc := ⟨.hbm, 378, rfl⟩
abbrev main_v165 : Ref sig .tc := ⟨.hbm, 379, rfl⟩
abbrev main_cst_75 : Ref sig .tc := ⟨.hbm, 380, rfl⟩
abbrev main_call25_v0 : Ref sig .tc := ⟨.hbm, 381, rfl⟩
abbrev main_call25_v1 : Ref sig .tc := ⟨.hbm, 382, rfl⟩
abbrev main_v166 : Ref sig .tc := ⟨.hbm, 383, rfl⟩
abbrev main_v167 : Ref sig .tc := ⟨.hbm, 384, rfl⟩
abbrev main_c_76 : Ref sig .tc := ⟨.hbm, 385, rfl⟩
abbrev main_v168 : Ref sig .tc := ⟨.hbm, 386, rfl⟩
abbrev main_v169 : Ref sig .tc := ⟨.hbm, 387, rfl⟩
abbrev main_v170 : Ref sig .tc := ⟨.hbm, 388, rfl⟩
abbrev main_c_77 : Ref sig .tc := ⟨.hbm, 389, rfl⟩
abbrev main_v171 : Ref sig .tc := ⟨.hbm, 390, rfl⟩
abbrev main_v172 : Ref sig .tc := ⟨.hbm, 391, rfl⟩
abbrev main_v173 : Ref sig .tc := ⟨.hbm, 392, rfl⟩
abbrev main_c_78 : Ref sig .tc := ⟨.hbm, 393, rfl⟩
abbrev main_v174 : Ref sig .tc := ⟨.hbm, 394, rfl⟩
abbrev main_v175 : Ref sig .tc := ⟨.hbm, 395, rfl⟩
abbrev main_v176 : Ref sig .tc := ⟨.hbm, 396, rfl⟩
abbrev main_c_79 : Ref sig .tc := ⟨.hbm, 397, rfl⟩
abbrev main_v177 : Ref sig .tc := ⟨.hbm, 398, rfl⟩
abbrev main_v178 : Ref sig .tc := ⟨.hbm, 399, rfl⟩
abbrev main_v179 : Ref sig .tc := ⟨.hbm, 400, rfl⟩
abbrev main_v180 : Ref sig .tc := ⟨.hbm, 401, rfl⟩
abbrev main_v181 : Ref sig .tc := ⟨.hbm, 402, rfl⟩
abbrev main_v182 : Ref sig .tc := ⟨.hbm, 403, rfl⟩
abbrev main_v183 : Ref sig .tc := ⟨.hbm, 404, rfl⟩
abbrev main_v184 : Ref sig .tc := ⟨.hbm, 405, rfl⟩
abbrev main_v185 : Ref sig .tc := ⟨.hbm, 406, rfl⟩
abbrev main_v186 : Ref sig .tc := ⟨.hbm, 407, rfl⟩
abbrev main_v187 : Ref sig .tc := ⟨.hbm, 408, rfl⟩
abbrev main_v188 : Ref sig .tc := ⟨.hbm, 409, rfl⟩
abbrev main_c_80 : Ref sig .tc := ⟨.hbm, 410, rfl⟩
abbrev main_call27_v0 : Ref sig .tc := ⟨.hbm, 411, rfl⟩
abbrev main_v189 : Ref sig .tc := ⟨.hbm, 412, rfl⟩
abbrev main_v190 : Ref sig .tc := ⟨.hbm, 413, rfl⟩
abbrev main_v191 : Ref sig .tc := ⟨.hbm, 414, rfl⟩
abbrev main_v192 : Ref sig .tc := ⟨.hbm, 415, rfl⟩
abbrev main_v193 : Ref sig .tc := ⟨.hbm, 416, rfl⟩
abbrev main_v194 : Ref sig .tc := ⟨.hbm, 417, rfl⟩
abbrev main_c_81 : Ref sig .tc := ⟨.hbm, 418, rfl⟩
abbrev main_call28_v0 : Ref sig .tc := ⟨.hbm, 419, rfl⟩
abbrev main_v195 : Ref sig .tc := ⟨.hbm, 420, rfl⟩
abbrev main_v196 : Ref sig .tc := ⟨.hbm, 421, rfl⟩
abbrev main_v197 : Ref sig .tc := ⟨.hbm, 422, rfl⟩
abbrev main_c_82 : Ref sig .tc := ⟨.hbm, 423, rfl⟩
abbrev main_call29_v0 : Ref sig .tc := ⟨.hbm, 424, rfl⟩
abbrev main_call29_v1 : Ref sig .tc := ⟨.hbm, 425, rfl⟩
abbrev main_v198 : Ref sig .tc := ⟨.hbm, 426, rfl⟩
abbrev main_c_83 : Ref sig .tc := ⟨.hbm, 427, rfl⟩
abbrev main_call30_v0 : Ref sig .tc := ⟨.hbm, 428, rfl⟩
abbrev main_call30_v1 : Ref sig .tc := ⟨.hbm, 429, rfl⟩
abbrev main_v199 : Ref sig .tc := ⟨.hbm, 430, rfl⟩
abbrev main_c_84 : Ref sig .tc := ⟨.hbm, 431, rfl⟩
abbrev main_call31_v0 : Ref sig .tc := ⟨.hbm, 432, rfl⟩
abbrev main_call31_v1 : Ref sig .tc := ⟨.hbm, 433, rfl⟩
abbrev main_v200 : Ref sig .tc := ⟨.hbm, 434, rfl⟩
abbrev main_c_85 : Ref sig .tc := ⟨.hbm, 435, rfl⟩
abbrev main_call32_v0 : Ref sig .tc := ⟨.hbm, 436, rfl⟩
abbrev main_call32_v1 : Ref sig .tc := ⟨.hbm, 437, rfl⟩
abbrev main_v201 : Ref sig .tc := ⟨.hbm, 438, rfl⟩
abbrev main_v202 : Ref sig .tc := ⟨.hbm, 439, rfl⟩
abbrev main_v203 : Ref sig .tc := ⟨.hbm, 440, rfl⟩
abbrev main_v204 : Ref sig .tc := ⟨.hbm, 441, rfl⟩
abbrev main_v205 : Ref sig .tc := ⟨.hbm, 442, rfl⟩
abbrev main_v206 : Ref sig .tc := ⟨.hbm, 443, rfl⟩
abbrev main_v207 : Ref sig .tc := ⟨.hbm, 444, rfl⟩
abbrev main_v208 : Ref sig .tc := ⟨.hbm, 445, rfl⟩
abbrev main_v209 : Ref sig .tc := ⟨.hbm, 446, rfl⟩
abbrev main_v210 : Ref sig .tc := ⟨.hbm, 447, rfl⟩
abbrev main_v211 : Ref sig .tc := ⟨.hbm, 448, rfl⟩
abbrev main_v212 : Ref sig .tc := ⟨.hbm, 449, rfl⟩
abbrev main_cst_86 : Ref sig .tc := ⟨.hbm, 450, rfl⟩
abbrev main_v213 : Ref sig .tc := ⟨.hbm, 451, rfl⟩
abbrev main_c_87 : Ref sig .tc := ⟨.hbm, 452, rfl⟩
abbrev main_v214 : Ref sig .tc := ⟨.hbm, 453, rfl⟩
abbrev main_v215 : Ref sig .tc := ⟨.hbm, 454, rfl⟩
abbrev main_c_88 : Ref sig .tc := ⟨.hbm, 455, rfl⟩
abbrev main_v216 : Ref sig .tc := ⟨.hbm, 456, rfl⟩
abbrev main_v217 : Ref sig .tc := ⟨.hbm, 457, rfl⟩
abbrev main_v218 : Ref sig .tc := ⟨.hbm, 458, rfl⟩
abbrev main_v219 : Ref sig .tc := ⟨.hbm, 459, rfl⟩
abbrev main_v220 : Ref sig .tc := ⟨.hbm, 460, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S167772 : S_.BroadcastsInDim S167772 (![] : Fin 0 → Fin S167772.rank)
  bcast_S167772_S167772x1_0 : S167772.BroadcastsInDim S167772x1 (![0] : Fin 1 → Fin S167772x1.rank)
  concatenates_S167772x1_S167772x1_S167772x1_S167772x3_d1 : Shape.Concatenates [S167772x1, S167772x1, S167772x1] S167772x3 1
  bcast_S_S167772x1 : S_.BroadcastsInDim S167772x1 (![] : Fin 0 → Fin S167772x1.rank)
  shapeCasts_S167772x1_S167772 : S167772x1.ShapeCasts S167772
  bcast_S167772_S1x167772_1 : S167772.BroadcastsInDim S1x167772 (![1] : Fin 1 → Fin S1x167772.rank)
  concatenates_S1x167772_S1x167772_S1x167772_S1x167772_S4x167772_d0 : Shape.Concatenates [S1x167772, S1x167772, S1x167772, S1x167772] S4x167772 0
  pads_S4x167772_S4x180224_000_0124520 : S4x167772.Pads (![0, 0] : Fin 2 → Nat) ![0, 12452] ![0, 0] S4x180224
  h_S_ : 0 < S_.numel
  inb_S4x16384_S4x16384_0_0 : ∀ a, (![0, 0] : Fin 2 → Nat) a + S4x16384.size a ≤ S4x16384.size a
  h_S4x16384 : 0 < S4x16384.numel
  shapeCasts_S4x16384_S4x16384 : S4x16384.ShapeCasts S4x16384
  slices_S4x16384_o0_0_S1x16384 : S4x16384.Slices ![0, 0] S1x16384
  slices_S4x16384_o1_0_S1x16384 : S4x16384.Slices ![1, 0] S1x16384
  slices_S4x16384_o2_0_S1x16384 : S4x16384.Slices ![2, 0] S1x16384
  slices_S4x16384_o3_0_S1x16384 : S4x16384.Slices ![3, 0] S1x16384
  concatenates_S1x16384_S1x16384_S1x16384_S1x16384_S4x16384_d0 : Shape.Concatenates [S1x16384, S1x16384, S1x16384, S1x16384] S4x16384 0
  slices_S4x180224_S4x167772_0_0 : S4x180224.Slices ![0, 0] S4x167772
  concatenates_S167772_S167772_S167772_S167772_S671088_d0 : Shape.Concatenates [S167772, S167772, S167772, S167772] S671088 0
  slices_S4x167772_S1x167772_0_0 : S4x167772.Slices ![0, 0] S1x167772
  shapeCasts_S1x167772_S167772 : S1x167772.ShapeCasts S167772
  slices_S4x167772_S1x167772_1_0 : S4x167772.Slices ![1, 0] S1x167772
  slices_S4x167772_S1x167772_2_0 : S4x167772.Slices ![2, 0] S1x167772
  slices_S4x167772_S1x167772_3_0 : S4x167772.Slices ![3, 0] S1x167772
  bcast_S671088_S671088x1_0 : S671088.BroadcastsInDim S671088x1 (![0] : Fin 1 → Fin S671088x1.rank)
  bcast_S_S8388608x1 : S_.BroadcastsInDim S8388608x1 (![] : Fin 0 → Fin S8388608x1.rank)
  bcast_S_S671088 : S_.BroadcastsInDim S671088 (![] : Fin 0 → Fin S671088.rank)
  gather_S256x256x256_S167772x3_S167772_n_012_n_n_012_1_111_wf : GatherDims.WF S256x256x256 S167772x3 S167772 [] [0, 1, 2] [] [0, 1, 2] [] 1 ![1, 1, 1]
  gather_S8388608x1_S167772x1_S167772x1_1_0_n_n_0_1_11_wf : GatherDims.WF S8388608x1 S167772x1 S167772x1 [1] [0] [] [0] [] 1 ![1, 1]
  scatter_S8388608x1_S671088x1_S671088x1_1_0_0_1_wf : ScatterDims.WF S8388608x1 S671088x1 S671088x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x16384.size a ≤ S4x180224.size a
  hwx0_0 : ∀ i : grid0.Coords, EltTy.bits .f32 = 32 ∨ (Rect.block (s := S4x180224) S4x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x16384.size a ≤ S4x180224.size a
  hwx0_1 : ∀ i : grid0.Coords, EltTy.bits .f32 = 32 ∨ (Rect.block (s := S4x180224) S4x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x16384.size a ≤ S4x180224.size a
  hwx0_2 : ∀ i : grid0.Coords, EltTy.bits .f32 = 32 ∨ (Rect.block (s := S4x180224) S4x16384.size (cc0_transform_2 i) (hinb0_2 i)).WholeWords (EltTy.packing .f32)

variable [Facts₀]

def gather_S256x256x256_S167772x3_S167772_n_012_n_n_012_1_111 : GatherDims S256x256x256 S167772x3 S167772 where
  offsetDims := []
  collapsedSliceDims := [0, 1, 2]
  operandBatchingDims := []
  startIndicesBatchingDims := []
  startIndexMap := [0, 1, 2]
  indexVectorDim := 1
  sliceSizes := ![1, 1, 1]
  wf := gather_S256x256x256_S167772x3_S167772_n_012_n_n_012_1_111_wf
def gather_S8388608x1_S167772x1_S167772x1_1_0_n_n_0_1_11 : GatherDims S8388608x1 S167772x1 S167772x1 where
  offsetDims := [1]
  collapsedSliceDims := [0]
  operandBatchingDims := []
  startIndicesBatchingDims := []
  startIndexMap := [0]
  indexVectorDim := 1
  sliceSizes := ![1, 1]
  wf := gather_S8388608x1_S167772x1_S167772x1_1_0_n_n_0_1_11_wf
def scatter_S8388608x1_S671088x1_S671088x1_1_0_0_1 : ScatterDims S8388608x1 S671088x1 S671088x1 where
  updateWindowDims := [1]
  insertedWindowDims := [0]
  scatterDimsToOperandDims := [0]
  indexVectorDim := 1
  wf := scatter_S8388608x1_S671088x1_S671088x1_1_0_0_1_wf

abbrev win0_0 : Pipeline.Window sig grid0 :=
  Pipeline.Window.ofSpec (Memref.whole main_v189) S4x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v195) S4x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v196) S4x16384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8388608x1 : Shape := ⟨2, ![8388608, 1]⟩
abbrev S256x256x256 : Shape := ⟨3, ![256, 256, 256]⟩
abbrev S167772 : Shape := ⟨1, ![167772]⟩
abbrev S_ : Shape := ⟨0, ![]⟩
abbrev S167772x1 : Shape := ⟨2, ![167772, 1]⟩
abbrev S167772x3 : Shape := ⟨2, ![167772, 3]⟩
abbrev S8388609x1 : Shape := ⟨2, ![8388609, 1]⟩

abbrev nBuf : Space → Nat
  | .hbm => 479
  | .vmem => 0
  | .smem => 0
  | _ => 0

abbrev hbmTy0_0 (i : Nat) : BufTy := match i % 128 with
  | 0 => ⟨S8388608x1, .f32⟩
  | 1 => ⟨S256x256x256, .i32⟩
  | 2 => ⟨S167772, .i32⟩
  | 3 => ⟨S_, .i32⟩
  | 4 => ⟨S_, .i32⟩
  | 5 => ⟨S_, .i32⟩
  | 6 => ⟨S_, .i1⟩
  | 7 => ⟨S_, .i32⟩
  | 8 => ⟨S_, .i32⟩
  | 9 => ⟨S167772, .i32⟩
  | 10 => ⟨S167772, .i32⟩
  | 11 => ⟨S_, .i32⟩
  | 12 => ⟨S167772, .i32⟩
  | 13 => ⟨S167772, .i1⟩
  | 14 => ⟨S_, .i32⟩
  | 15 => ⟨S167772, .i32⟩
  | 16 => ⟨S167772, .i1⟩
  | 17 => ⟨S_, .i32⟩
  | 18 => ⟨S_, .i1⟩
  | 19 => ⟨S167772, .i1⟩
  | 20 => ⟨S167772, .i1⟩
  | 21 => ⟨S167772, .i1⟩
  | 22 => ⟨S167772, .i32⟩
  | 23 => ⟨S167772, .i32⟩
  | 24 => ⟨S167772, .i32⟩
  | 25 => ⟨S_, .i32⟩
  | 26 => ⟨S_, .i32⟩
  | 27 => ⟨S167772, .i32⟩
  | 28 => ⟨S167772, .i32⟩
  | 29 => ⟨S167772, .i32⟩
  | 30 => ⟨S_, .i32⟩
  | 31 => ⟨S167772, .i32⟩
  | 32 => ⟨S167772, .i1⟩
  | 33 => ⟨S167772, .i32⟩
  | 34 => ⟨S167772, .i32⟩
  | 35 => ⟨S_, .i32⟩
  | 36 => ⟨S167772, .i32⟩
  | 37 => ⟨S167772, .i1⟩
  | 38 => ⟨S167772, .i1⟩
  | 39 => ⟨S_, .i32⟩
  | 40 => ⟨S167772, .i32⟩
  | 41 => ⟨S167772, .i32⟩
  | 42 => ⟨S167772, .i32⟩
  | 43 => ⟨S_, .i32⟩
  | 44 => ⟨S_, .i32⟩
  | 45 => ⟨S_, .i32⟩
  | 46 => ⟨S_, .i1⟩
  | 47 => ⟨S_, .i32⟩
  | 48 => ⟨S_, .i32⟩
  | 49 => ⟨S167772, .i32⟩
  | 50 => ⟨S167772, .i32⟩
  | 51 => ⟨S_, .i32⟩
  | 52 => ⟨S167772, .i32⟩
  | 53 => ⟨S167772, .i1⟩
  | 54 => ⟨S_, .i32⟩
  | 55 => ⟨S167772, .i32⟩
  | 56 => ⟨S167772, .i1⟩
  | 57 => ⟨S_, .i32⟩
  | 58 => ⟨S_, .i1⟩
  | 59 => ⟨S167772, .i1⟩
  | 60 => ⟨S167772, .i1⟩
  | 61 => ⟨S167772, .i1⟩
  | 62 => ⟨S167772, .i32⟩
  | 63 => ⟨S167772, .i32⟩
  | 64 => ⟨S167772, .i32⟩
  | 65 => ⟨S_, .i32⟩
  | 66 => ⟨S_, .i32⟩
  | 67 => ⟨S167772, .i32⟩
  | 68 => ⟨S167772, .i32⟩
  | 69 => ⟨S167772, .i32⟩
  | 70 => ⟨S_, .i32⟩
  | 71 => ⟨S167772, .i32⟩
  | 72 => ⟨S167772, .i1⟩
  | 73 => ⟨S167772, .i32⟩
  | 74 => ⟨S167772, .i32⟩
  | 75 => ⟨S_, .i32⟩
  | 76 => ⟨S167772, .i32⟩
  | 77 => ⟨S167772, .i1⟩
  | 78 => ⟨S167772, .i1⟩
  | 79 => ⟨S_, .i32⟩
  | 80 => ⟨S167772, .i32⟩
  | 81 => ⟨S167772, .i32⟩
  | 82 => ⟨S167772, .i32⟩
  | 83 => ⟨S_, .i32⟩
  | 84 => ⟨S167772, .i32⟩
  | 85 => ⟨S167772, .i32⟩
  | 86 => ⟨S_, .i32⟩
  | 87 => ⟨S167772, .i32⟩
  | 88 => ⟨S167772, .i1⟩
  | 89 => ⟨S_, .i32⟩
  | 90 => ⟨S167772, .i32⟩
  | 91 => ⟨S167772, .i32⟩
  | 92 => ⟨S_, .i32⟩
  | 93 => ⟨S167772, .i32⟩
  | 94 => ⟨S167772, .i1⟩
  | 95 => ⟨S_, .i32⟩
  | 96 => ⟨S167772, .i32⟩
  | 97 => ⟨S167772, .i32⟩
  | 98 => ⟨S_, .i32⟩
  | 99 => ⟨S167772, .i32⟩
  | 100 => ⟨S167772, .i1⟩
  | 101 => ⟨S_, .i32⟩
  | 102 => ⟨S167772, .i32⟩
  | 103 => ⟨S167772, .i1⟩
  | 104 => ⟨S_, .i32⟩
  | 105 => ⟨S167772, .i32⟩
  | 106 => ⟨S167772, .i32⟩
  | 107 => ⟨S167772, .i32⟩
  | 108 => ⟨S_, .i32⟩
  | 109 => ⟨S167772, .i32⟩
  | 110 => ⟨S167772, .i1⟩
  | 111 => ⟨S_, .i32⟩
  | 112 => ⟨S167772, .i32⟩
  | 113 => ⟨S167772, .i32⟩
  | 114 => ⟨S167772, .i32⟩
  | 115 => ⟨S_, .i32⟩
  | 116 => ⟨S167772, .i32⟩
  | 117 => ⟨S167772, .i1⟩
  | 118 => ⟨S_, .i32⟩
  | 119 => ⟨S167772, .i32⟩
  | 120 => ⟨S167772, .i32⟩
  | 121 => ⟨S167772, .i32⟩
  | 122 => ⟨S167772x1, .i32⟩
  | 123 => ⟨S167772x1, .i32⟩
  | 124 => ⟨S167772x1, .i32⟩
  | 125 => ⟨S167772x3, .i32⟩
  | 126 => ⟨S167772, .i32⟩
  | 127 => ⟨S_, .i32⟩
  | _ => ⟨S8388608x1, .f32⟩

abbrev hbmTy0_1 (i : Nat) : BufTy := match i % 128 with
  | 0 => ⟨S167772, .i32⟩
  | 1 => ⟨S167772, .i32⟩
  | 2 => ⟨S_, .i32⟩
  | 3 => ⟨S_, .i32⟩
  | 4 => ⟨S_, .i32⟩
  | 5 => ⟨S167772, .i32⟩
  | 6 => ⟨S167772, .i32⟩
  | 7 => ⟨S_, .i32⟩
  | 8 => ⟨S167772, .i32⟩
  | 9 => ⟨S167772, .i32⟩
  | 10 => ⟨S_, .i32⟩
  | 11 => ⟨S_, .i32⟩
  | 12 => ⟨S_, .i32⟩
  | 13 => ⟨S167772, .i32⟩
  | 14 => ⟨S167772, .i32⟩
  | 15 => ⟨S_, .i32⟩
  | 16 => ⟨S167772, .i32⟩
  | 17 => ⟨S167772, .i32⟩
  | 18 => ⟨S_, .i32⟩
  | 19 => ⟨S_, .i32⟩
  | 20 => ⟨S_, .i32⟩
  | 21 => ⟨S167772, .i32⟩
  | 22 => ⟨S167772, .i32⟩
  | 23 => ⟨S_, .i32⟩
  | 24 => ⟨S167772, .i32⟩
  | 25 => ⟨S167772, .i32⟩
  | 26 => ⟨S_, .i32⟩
  | 27 => ⟨S167772, .i32⟩
  | 28 => ⟨S167772, .i1⟩
  | 29 => ⟨S_, .i32⟩
  | 30 => ⟨S167772, .i32⟩
  | 31 => ⟨S167772, .i32⟩
  | 32 => ⟨S167772, .i32⟩
  | 33 => ⟨S_, .i32⟩
  | 34 => ⟨S167772, .i32⟩
  | 35 => ⟨S167772, .i1⟩
  | 36 => ⟨S_, .i32⟩
  | 37 => ⟨S167772, .i32⟩
  | 38 => ⟨S167772, .i32⟩
  | 39 => ⟨S167772, .i32⟩
  | 40 => ⟨S_, .i32⟩
  | 41 => ⟨S167772, .i32⟩
  | 42 => ⟨S167772, .i1⟩
  | 43 => ⟨S_, .i32⟩
  | 44 => ⟨S167772, .i32⟩
  | 45 => ⟨S167772, .i32⟩
  | 46 => ⟨S167772, .i32⟩
  | 47 => ⟨S167772x1, .i32⟩
  | 48 => ⟨S167772x1, .i32⟩
  | 49 => ⟨S167772x1, .i32⟩
  | 50 => ⟨S167772x3, .i32⟩
  | 51 => ⟨S167772, .i32⟩
  | 52 => ⟨S_, .i32⟩
  | 53 => ⟨S167772, .i32⟩
  | 54 => ⟨S167772, .i32⟩
  | 55 => ⟨S_, .i32⟩
  | 56 => ⟨S167772, .i32⟩
  | 57 => ⟨S167772, .i32⟩
  | 58 => ⟨S_, .i32⟩
  | 59 => ⟨S_, .i32⟩
  | 60 => ⟨S_, .i32⟩
  | 61 => ⟨S167772, .i32⟩
  | 62 => ⟨S167772, .i32⟩
  | 63 => ⟨S_, .i32⟩
  | 64 => ⟨S167772, .i32⟩
  | 65 => ⟨S167772, .i32⟩
  | 66 => ⟨S_, .i32⟩
  | 67 => ⟨S_, .i32⟩
  | 68 => ⟨S_, .i32⟩
  | 69 => ⟨S167772, .i32⟩
  | 70 => ⟨S167772, .i32⟩
  | 71 => ⟨S_, .i32⟩
  | 72 => ⟨S167772, .i32⟩
  | 73 => ⟨S167772, .i32⟩
  | 74 => ⟨S_, .i32⟩
  | 75 => ⟨S_, .i32⟩
  | 76 => ⟨S_, .i32⟩
  | 77 => ⟨S167772, .i32⟩
  | 78 => ⟨S167772, .i32⟩
  | 79 => ⟨S_, .i32⟩
  | 80 => ⟨S167772, .i32⟩
  | 81 => ⟨S167772, .i32⟩
  | 82 => ⟨S_, .i32⟩
  | 83 => ⟨S167772, .i32⟩
  | 84 => ⟨S167772, .i1⟩
  | 85 => ⟨S_, .i32⟩
  | 86 => ⟨S167772, .i32⟩
  | 87 => ⟨S167772, .i32⟩
  | 88 => ⟨S167772, .i32⟩
  | 89 => ⟨S_, .i32⟩
  | 90 => ⟨S167772, .i32⟩
  | 91 => ⟨S167772, .i1⟩
  | 92 => ⟨S_, .i32⟩
  | 93 => ⟨S167772, .i32⟩
  | 94 => ⟨S167772, .i32⟩
  | 95 => ⟨S167772, .i32⟩
  | 96 => ⟨S_, .i32⟩
  | 97 => ⟨S167772, .i32⟩
  | 98 => ⟨S167772, .i1⟩
  | 99 => ⟨S_, .i32⟩
  | 100 => ⟨S167772, .i32⟩
  | 101 => ⟨S167772, .i32⟩
  | 102 => ⟨S167772, .i32⟩
  | 103 => ⟨S167772x1, .i32⟩
  | 104 => ⟨S167772x1, .i32⟩
  | 105 => ⟨S167772x1, .i32⟩
  | 106 => ⟨S167772x3, .i32⟩
  | 107 => ⟨S167772, .i32⟩
  | 108 => ⟨S_, .i32⟩
  | 109 => ⟨S167772, .i32⟩
  | 110 => ⟨S167772, .i32⟩
  | 111 => ⟨S_, .i32⟩
  | 112 => ⟨S167772, .i32⟩
  | 113 => ⟨S167772, .i32⟩
  | 114 => ⟨S_, .i32⟩
  | 115 => ⟨S_, .i32⟩
  | 116 => ⟨S_, .i32⟩
  | 117 => ⟨S167772, .i32⟩
  | 118 => ⟨S167772, .i32⟩
  | 119 => ⟨S_, .i32⟩
  | 120 => ⟨S167772, .i32⟩
  | 121 => ⟨S167772, .i32⟩
  | 122 => ⟨S_, .i32⟩
  | 123 => ⟨S_, .i32⟩
  | 124 => ⟨S_, .i32⟩
  | 125 => ⟨S167772, .i32⟩
  | 126 => ⟨S167772, .i32⟩
  | 127 => ⟨S_, .i32⟩
  | _ => ⟨S8388608x1, .f32⟩

abbrev hbmTy0_2 (i : Nat) : BufTy := match i % 128 with
  | 0 => ⟨S167772, .i32⟩
  | 1 => ⟨S167772, .i32⟩
  | 2 => ⟨S_, .i32⟩
  | 3 => ⟨S_, .i32⟩
  | 4 => ⟨S_, .i32⟩
  | 5 => ⟨S167772, .i32⟩
  | 6 => ⟨S167772, .i32⟩
  | 7 => ⟨S_, .i32⟩
  | 8 => ⟨S167772, .i32⟩
  | 9 => ⟨S167772, .i32⟩
  | 10 => ⟨S_, .i32⟩
  | 11 => ⟨S167772, .i32⟩
  | 12 => ⟨S167772, .i1⟩
  | 13 => ⟨S_, .i32⟩
  | 14 => ⟨S167772, .i32⟩
  | 15 => ⟨S167772, .i32⟩
  | 16 => ⟨S167772, .i32⟩
  | 17 => ⟨S_, .i32⟩
  | 18 => ⟨S167772, .i32⟩
  | 19 => ⟨S167772, .i1⟩
  | 20 => ⟨S_, .i32⟩
  | 21 => ⟨S167772, .i32⟩
  | 22 => ⟨S167772, .i32⟩
  | 23 => ⟨S167772, .i32⟩
  | 24 => ⟨S_, .i32⟩
  | 25 => ⟨S167772, .i32⟩
  | 26 => ⟨S167772, .i1⟩
  | 27 => ⟨S_, .i32⟩
  | 28 => ⟨S167772, .i32⟩
  | 29 => ⟨S167772, .i32⟩
  | 30 => ⟨S167772, .i32⟩
  | 31 => ⟨S167772x1, .i32⟩
  | 32 => ⟨S167772x1, .i32⟩
  | 33 => ⟨S167772x1, .i32⟩
  | 34 => ⟨S167772x3, .i32⟩
  | 35 => ⟨S167772, .i32⟩
  | 36 => ⟨S_, .i32⟩
  | 37 => ⟨S167772, .i32⟩
  | 38 => ⟨S167772, .i32⟩
  | 39 => ⟨S_, .i32⟩
  | 40 => ⟨S_, .i32⟩
  | 41 => ⟨S167772, .i32⟩
  | 42 => ⟨S167772, .i32⟩
  | 43 => ⟨S_, .i32⟩
  | 44 => ⟨S167772, .i32⟩
  | 45 => ⟨S167772, .i1⟩
  | 46 => ⟨S_, .i32⟩
  | 47 => ⟨S167772, .i32⟩
  | 48 => ⟨S167772, .i32⟩
  | 49 => ⟨S167772, .i32⟩
  | 50 => ⟨S167772x1, .i32⟩
  | 51 => ⟨S167772x1, .f32⟩
  | 52 => ⟨S_, .i32⟩
  | 53 => ⟨S167772, .i32⟩
  | 54 => ⟨S167772, .i1⟩
  | 55 => ⟨S167772x1, .i1⟩
  | 56 => ⟨S_, .f32⟩
  | 57 => ⟨S_, .f32⟩
  | 58 => ⟨S167772x1, .f32⟩
  | 59 => ⟨S167772x1, .f32⟩
  | 60 => ⟨S167772x1, .i1⟩
  | 61 => ⟨S_, .i32⟩
  | 62 => ⟨S_, .i32⟩
  | 63 => ⟨S167772, .i32⟩
  | 64 => ⟨S167772, .i32⟩
  | 65 => ⟨S_, .i32⟩
  | 66 => ⟨S167772, .i32⟩
  | 67 => ⟨S167772, .i1⟩
  | 68 => ⟨S_, .i32⟩
  | 69 => ⟨S167772, .i32⟩
  | 70 => ⟨S167772, .i32⟩
  | 71 => ⟨S167772, .i32⟩
  | 72 => ⟨S167772x1, .i32⟩
  | 73 => ⟨S167772x1, .f32⟩
  | 74 => ⟨S_, .i32⟩
  | 75 => ⟨S167772, .i32⟩
  | 76 => ⟨S167772, .i1⟩
  | 77 => ⟨S167772x1, .i1⟩
  | 78 => ⟨S_, .f32⟩
  | 79 => ⟨S_, .f32⟩
  | 80 => ⟨S167772x1, .f32⟩
  | 81 => ⟨S167772x1, .f32⟩
  | 82 => ⟨S167772x1, .f32⟩
  | 83 => ⟨S167772x1, .i1⟩
  | 84 => ⟨S_, .i32⟩
  | 85 => ⟨S_, .i32⟩
  | 86 => ⟨S167772, .i32⟩
  | 87 => ⟨S167772, .i32⟩
  | 88 => ⟨S_, .i32⟩
  | 89 => ⟨S167772, .i32⟩
  | 90 => ⟨S167772, .i1⟩
  | 91 => ⟨S_, .i32⟩
  | 92 => ⟨S167772, .i32⟩
  | 93 => ⟨S167772, .i32⟩
  | 94 => ⟨S167772, .i32⟩
  | 95 => ⟨S167772x1, .i32⟩
  | 96 => ⟨S167772x1, .f32⟩
  | 97 => ⟨S_, .i32⟩
  | 98 => ⟨S167772, .i32⟩
  | 99 => ⟨S167772, .i1⟩
  | 100 => ⟨S167772x1, .i1⟩
  | 101 => ⟨S_, .f32⟩
  | 102 => ⟨S_, .f32⟩
  | 103 => ⟨S167772x1, .f32⟩
  | 104 => ⟨S167772x1, .f32⟩
  | 105 => ⟨S167772x1, .f32⟩
  | 106 => ⟨S167772x1, .i1⟩
  | 107 => ⟨S_, .i32⟩
  | 108 => ⟨S_, .i32⟩
  | 109 => ⟨S167772, .i32⟩
  | 110 => ⟨S167772, .i32⟩
  | 111 => ⟨S_, .i32⟩
  | 112 => ⟨S167772, .i32⟩
  | 113 => ⟨S167772, .i1⟩
  | 114 => ⟨S_, .i32⟩
  | 115 => ⟨S167772, .i32⟩
  | 116 => ⟨S167772, .i32⟩
  | 117 => ⟨S167772, .i32⟩
  | 118 => ⟨S167772x1, .i32⟩
  | 119 => ⟨S167772x1, .f32⟩
  | 120 => ⟨S_, .i32⟩
  | 121 => ⟨S167772, .i32⟩
  | 122 => ⟨S167772, .i1⟩
  | 123 => ⟨S167772x1, .i1⟩
  | 124 => ⟨S_, .f32⟩
  | 125 => ⟨S_, .f32⟩
  | 126 => ⟨S167772x1, .f32⟩
  | 127 => ⟨S167772x1, .f32⟩
  | _ => ⟨S8388608x1, .f32⟩

abbrev hbmTy0_3 (i : Nat) : BufTy := match i % 128 with
  | 0 => ⟨S167772x1, .f32⟩
  | 1 => ⟨S167772x1, .f32⟩
  | 2 => ⟨S_, .f32⟩
  | 3 => ⟨S167772x1, .f32⟩
  | 4 => ⟨S167772x1, .f32⟩
  | 5 => ⟨S167772x1, .f32⟩
  | 6 => ⟨S_, .f32⟩
  | 7 => ⟨S167772x1, .f32⟩
  | 8 => ⟨S167772x1, .f32⟩
  | 9 => ⟨S167772x1, .f32⟩
  | 10 => ⟨S_, .f32⟩
  | 11 => ⟨S167772x1, .f32⟩
  | 12 => ⟨S167772x1, .f32⟩
  | 13 => ⟨S167772x1, .f32⟩
  | 14 => ⟨S_, .f32⟩
  | 15 => ⟨S167772x1, .f32⟩
  | 16 => ⟨S167772x1, .f32⟩
  | 17 => ⟨S167772x1, .f32⟩
  | 18 => ⟨S167772x1, .f32⟩
  | 19 => ⟨S167772x1, .f32⟩
  | 20 => ⟨S167772x1, .f32⟩
  | 21 => ⟨S167772x1, .f32⟩
  | 22 => ⟨S_, .f32⟩
  | 23 => ⟨S167772x1, .f32⟩
  | 24 => ⟨S167772x1, .f32⟩
  | 25 => ⟨S_, .f32⟩
  | 26 => ⟨S8388609x1, .f32⟩
  | 27 => ⟨S167772x1, .f32⟩
  | 28 => ⟨S167772x1, .f32⟩
  | 29 => ⟨S167772x1, .f32⟩
  | 30 => ⟨S167772x1, .f32⟩
  | 31 => ⟨S_, .i32⟩
  | 32 => ⟨S167772, .i32⟩
  | 33 => ⟨S167772, .i1⟩
  | 34 => ⟨S_, .i32⟩
  | 35 => ⟨S167772, .i32⟩
  | 36 => ⟨S167772, .i32⟩
  | 37 => ⟨S_, .i32⟩
  | 38 => ⟨S167772, .i32⟩
  | 39 => ⟨S167772, .i1⟩
  | 40 => ⟨S_, .i32⟩
  | 41 => ⟨S167772, .i32⟩
  | 42 => ⟨S167772, .i32⟩
  | 43 => ⟨S167772, .i32⟩
  | 44 => ⟨S167772x1, .i32⟩
  | 45 => ⟨S8388609x1, .f32⟩
  | 46 => ⟨S167772x1, .f32⟩
  | 47 => ⟨S_, .i32⟩
  | 48 => ⟨S167772, .i32⟩
  | 49 => ⟨S167772, .i1⟩
  | 50 => ⟨S_, .i32⟩
  | 51 => ⟨S167772, .i32⟩
  | 52 => ⟨S167772, .i32⟩
  | 53 => ⟨S_, .i32⟩
  | 54 => ⟨S167772, .i32⟩
  | 55 => ⟨S167772, .i1⟩
  | 56 => ⟨S_, .i32⟩
  | 57 => ⟨S167772, .i32⟩
  | 58 => ⟨S167772, .i32⟩
  | 59 => ⟨S167772, .i32⟩
  | 60 => ⟨S167772x1, .i32⟩
  | 61 => ⟨S8388609x1, .f32⟩
  | 62 => ⟨S167772x1, .f32⟩
  | 63 => ⟨S_, .i32⟩
  | 64 => ⟨S167772, .i32⟩
  | 65 => ⟨S167772, .i1⟩
  | 66 => ⟨S_, .i32⟩
  | 67 => ⟨S167772, .i32⟩
  | 68 => ⟨S167772, .i32⟩
  | 69 => ⟨S_, .i32⟩
  | 70 => ⟨S167772, .i32⟩
  | 71 => ⟨S167772, .i1⟩
  | 72 => ⟨S_, .i32⟩
  | 73 => ⟨S167772, .i32⟩
  | 74 => ⟨S167772, .i32⟩
  | 75 => ⟨S167772, .i32⟩
  | 76 => ⟨S167772x1, .i32⟩
  | 77 => ⟨S8388609x1, .f32⟩
  | 78 => ⟨S167772x1, .f32⟩
  | 79 => ⟨S_, .i32⟩
  | 80 => ⟨S167772, .i32⟩
  | 81 => ⟨S167772, .i1⟩
  | 82 => ⟨S_, .i32⟩
  | 83 => ⟨S167772, .i32⟩
  | 84 => ⟨S167772, .i32⟩
  | 85 => ⟨S_, .i32⟩
  | 86 => ⟨S167772, .i32⟩
  | 87 => ⟨S167772, .i1⟩
  | 88 => ⟨S_, .i32⟩
  | 89 => ⟨S167772, .i32⟩
  | 90 => ⟨S167772, .i32⟩
  | 91 => ⟨S167772, .i32⟩
  | 92 => ⟨S167772x1, .i32⟩
  | 93 => ⟨S8388609x1, .f32⟩
  | 94 => ⟨S8388608x1, .f32⟩
  | _ => ⟨S8388608x1, .f32⟩

abbrev hbmTy (i : Nat) : BufTy := match i / 128 with
  | 0 => hbmTy0_0 i
  | 1 => hbmTy0_1 i
  | 2 => hbmTy0_2 i
  | 3 => hbmTy0_3 i
  | _ => ⟨S8388608x1, .f32⟩

abbrev bufTy : (tb : Table) → Fin (tcTables nBuf tb) → BufTy
  | .hbm, ⟨i, _⟩ => hbmTy i
  | _, _ => ⟨S8388608x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_c_1 : Ref sig .tc := ⟨.hbm, 11, rfl⟩
abbrev main_call0_v5 : Ref sig .tc := ⟨.hbm, 12, rfl⟩
abbrev main_call0_v6 : Ref sig .tc := ⟨.hbm, 13, rfl⟩
abbrev main_call0_c_2 : Ref sig .tc := ⟨.hbm, 14, rfl⟩
abbrev main_call0_v7 : Ref sig .tc := ⟨.hbm, 15, rfl⟩
abbrev main_call0_v8 : Ref sig .tc := ⟨.hbm, 16, rfl⟩
abbrev main_call0_c_3 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_v0 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v1 : Ref sig .tc := ⟨.hbm, 42, rfl⟩
abbrev main_c_1 : Ref sig .tc := ⟨.hbm, 43, rfl⟩
abbrev main_call2_v0 : Ref sig .tc := ⟨.hbm, 44, rfl⟩
abbrev main_call2_c : Ref sig .tc := ⟨.hbm, 45, rfl⟩
abbrev main_call2_v1 : Ref sig .tc := ⟨.hbm, 46, rfl⟩
abbrev main_call2_c_0 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_call2_c_1 : Ref sig .tc := ⟨.hbm, 51, rfl⟩
abbrev main_call2_v5 : Ref sig .tc := ⟨.hbm, 52, rfl⟩
abbrev main_call2_v6 : Ref sig .tc := ⟨.hbm, 53, rfl⟩
abbrev main_call2_c_2 : Ref sig .tc := ⟨.hbm, 54, rfl⟩
abbrev main_call2_v7 : Ref sig .tc := ⟨.hbm, 55, rfl⟩
abbrev main_call2_v8 : Ref sig .tc := ⟨.hbm, 56, rfl⟩
abbrev main_call2_c_3 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_v12 : Ref sig .tc := ⟨.hbm, 61, rfl⟩
abbrev main_call2_v13 : Ref sig .tc := ⟨.hbm, 62, rfl⟩
abbrev main_call2_v14 : Ref sig .tc := ⟨.hbm, 63, rfl⟩
abbrev main_v2 : Ref sig .tc := ⟨.hbm, 64, rfl⟩
abbrev main_c_2 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_call3_v5 : Ref sig .tc := ⟨.hbm, 71, rfl⟩
abbrev main_call3_v6 : Ref sig .tc := ⟨.hbm, 72, rfl⟩
abbrev main_call3_v7 : Ref sig .tc := ⟨.hbm, 73, rfl⟩
abbrev main_call3_v8 : Ref sig .tc := ⟨.hbm, 74, rfl⟩
abbrev main_call3_c : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_0 : Ref sig .tc := ⟨.hbm, 79, rfl⟩
abbrev main_call3_v12 : Ref sig .tc := ⟨.hbm, 80, rfl⟩
abbrev main_call3_v13 : Ref sig .tc := ⟨.hbm, 81, rfl⟩
abbrev main_v3 : Ref sig .tc := ⟨.hbm, 82, rfl⟩
abbrev main_c_3 : Ref sig .tc := ⟨.hbm, 83, rfl⟩
abbrev main_v4 : Ref sig .tc := ⟨.hbm, 84, rfl⟩
abbrev main_v5 : Ref sig .tc := ⟨.hbm, 85, rfl⟩
abbrev main_c_4 : Ref sig .tc := ⟨.hbm, 86, rfl⟩
abbrev main_v6 : Ref sig .tc := ⟨.hbm, 87, rfl⟩
abbrev main_v7 : Ref sig .tc := ⟨.hbm, 88, rfl⟩
abbrev main_c_5 : Ref sig .tc := ⟨.hbm, 89, rfl⟩
abbrev main_v8 : Ref sig .tc := ⟨.hbm, 90, rfl⟩
abbrev main_v9 : Ref sig .tc := ⟨.hbm, 91, rfl⟩
abbrev main_c_6 : Ref sig .tc := ⟨.hbm, 92, rfl⟩
abbrev main_v10 : Ref sig .tc := ⟨.hbm, 93, rfl⟩
abbrev main_v11 : Ref sig .tc := ⟨.hbm, 94, rfl⟩
abbrev main_c_7 : Ref sig .tc := ⟨.hbm, 95, rfl⟩
abbrev main_v12 : Ref sig .tc := ⟨.hbm, 96, rfl⟩
abbrev main_v13 : Ref sig .tc := ⟨.hbm, 97, rfl⟩
abbrev main_c_8 : Ref sig .tc := ⟨.hbm, 98, rfl⟩
abbrev main_v14 : Ref sig .tc := ⟨.hbm, 99, rfl⟩
abbrev main_v15 : Ref sig .tc := ⟨.hbm, 100, rfl⟩
abbrev main_c_9 : Ref sig .tc := ⟨.hbm, 101, rfl⟩
abbrev main_v16 : Ref sig .tc := ⟨.hbm, 102, rfl⟩
abbrev main_v17 : Ref sig .tc := ⟨.hbm, 103, rfl⟩
abbrev main_c_10 : Ref sig .tc := ⟨.hbm, 104, rfl⟩
abbrev main_v18 : Ref sig .tc := ⟨.hbm, 105, rfl⟩
abbrev main_v19 : Ref sig .tc := ⟨.hbm, 106, rfl⟩
abbrev main_v20 : Ref sig .tc := ⟨.hbm, 107, rfl⟩
abbrev main_c_11 : Ref sig .tc := ⟨.hbm, 108, rfl⟩
abbrev main_v21 : Ref sig .tc := ⟨.hbm, 109, rfl⟩
abbrev main_v22 : Ref sig .tc := ⟨.hbm, 110, rfl⟩
abbrev main_c_12 : Ref sig .tc := ⟨.hbm, 111, rfl⟩
abbrev main_v23 : Ref sig .tc := ⟨.hbm, 112, rfl⟩
abbrev main_v24 : Ref sig .tc := ⟨.hbm, 113, rfl⟩
abbrev main_v25 : Ref sig .tc := ⟨.hbm, 114, rfl⟩
abbrev main_c_13 : Ref sig .tc := ⟨.hbm, 115, rfl⟩
abbrev main_v26 : Ref sig .tc := ⟨.hbm, 116, rfl⟩
abbrev main_v27 : Ref sig .tc := ⟨.hbm, 117, rfl⟩
abbrev main_c_14 : Ref sig .tc := ⟨.hbm, 118, rfl⟩
abbrev main_v28 : Ref sig .tc := ⟨.hbm, 119, rfl⟩
abbrev main_v29 : Ref sig .tc := ⟨.hbm, 120, rfl⟩
abbrev main_v30 : Ref sig .tc := ⟨.hbm, 121, rfl⟩
abbrev main_v31 : Ref sig .tc := ⟨.hbm, 122, rfl⟩
abbrev main_v32 : Ref sig .tc := ⟨.hbm, 123, rfl⟩
abbrev main_v33 : Ref sig .tc := ⟨.hbm, 124, rfl⟩
abbrev main_v34 : Ref sig .tc := ⟨.hbm, 125, rfl⟩
abbrev main_v35 : Ref sig .tc := ⟨.hbm, 126, rfl⟩
abbrev main_c_15 : Ref sig .tc := ⟨.hbm, 127, rfl⟩
abbrev main_v36 : Ref sig .tc := ⟨.hbm, 128, rfl⟩
abbrev main_v37 : Ref sig .tc := ⟨.hbm, 129, rfl⟩
abbrev main_c_16 : Ref sig .tc := ⟨.hbm, 130, rfl⟩
abbrev main_c_17 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_call4_v3 : Ref sig .tc := ⟨.hbm, 135, rfl⟩
abbrev main_call4_v4 : Ref sig .tc := ⟨.hbm, 136, rfl⟩
abbrev main_v38 : Ref sig .tc := ⟨.hbm, 137, rfl⟩
abbrev main_c_18 : Ref sig .tc := ⟨.hbm, 138, rfl⟩
abbrev main_c_19 : Ref sig .tc := ⟨.hbm, 139, rfl⟩
abbrev main_call5_v0 : Ref sig .tc := ⟨.hbm, 140, rfl⟩
abbrev main_call5_v1 : Ref sig .tc := ⟨.hbm, 141, rfl⟩
abbrev main_call5_v2 : Ref sig .tc := ⟨.hbm, 142, rfl⟩
abbrev main_call5_v3 : Ref sig .tc := ⟨.hbm, 143, rfl⟩
abbrev main_call5_v4 : Ref sig .tc := ⟨.hbm, 144, rfl⟩
abbrev main_v39 : Ref sig .tc := ⟨.hbm, 145, rfl⟩
abbrev main_c_20 : Ref sig .tc := ⟨.hbm, 146, rfl⟩
abbrev main_c_21 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_v40 : Ref sig .tc := ⟨.hbm, 153, rfl⟩
abbrev main_c_22 : Ref sig .tc := ⟨.hbm, 154, rfl⟩
abbrev main_v41 : Ref sig .tc := ⟨.hbm, 155, rfl⟩
abbrev main_v42 : Ref sig .tc := ⟨.hbm, 156, rfl⟩
abbrev main_c_23 : Ref sig .tc := ⟨.hbm, 157, rfl⟩
abbrev main_v43 : Ref sig .tc := ⟨.hbm, 158, rfl⟩
abbrev main_v44 : Ref sig .tc := ⟨.hbm, 159, rfl⟩
abbrev main_v45 : Ref sig .tc := ⟨.hbm, 160, rfl⟩
abbrev main_c_24 : Ref sig .tc := ⟨.hbm, 161, rfl⟩
abbrev main_v46 : Ref sig .tc := ⟨.hbm, 162, rfl⟩
abbrev main_v47 : Ref sig .tc := ⟨.hbm, 163, rfl⟩
abbrev main_c_25 : Ref sig .tc := ⟨.hbm, 164, rfl⟩
abbrev main_v48 : Ref sig .tc := ⟨.hbm, 165, rfl⟩
abbrev main_v49 : Ref sig .tc := ⟨.hbm, 166, rfl⟩
abbrev main_v50 : Ref sig .tc := ⟨.hbm, 167, rfl⟩
abbrev main_c_26 : Ref sig .tc := ⟨.hbm, 168, rfl⟩
abbrev main_v51 : Ref sig .tc := ⟨.hbm, 169, rfl⟩
abbrev main_v52 : Ref sig .tc := ⟨.hbm, 170, rfl⟩
abbrev main_c_27 : Ref sig .tc := ⟨.hbm, 171, rfl⟩
abbrev main_v53 : Ref sig .tc := ⟨.hbm, 172, rfl⟩
abbrev main_v54 : Ref sig .tc := ⟨.hbm, 173, rfl⟩
abbrev main_v55 : Ref sig .tc := ⟨.hbm, 174, rfl⟩
abbrev main_v56 : Ref sig .tc := ⟨.hbm, 175, rfl⟩
abbrev main_v57 : Ref sig .tc := ⟨.hbm, 176, rfl⟩
abbrev main_v58 : Ref sig .tc := ⟨.hbm, 177, rfl⟩
abbrev main_v59 : Ref sig .tc := ⟨.hbm, 178, rfl⟩
abbrev main_v60 : Ref sig .tc := ⟨.hbm, 179, rfl⟩
abbrev main_c_28 : Ref sig .tc := ⟨.hbm, 180, rfl⟩
abbrev main_call7_v0 : Ref sig .tc := ⟨.hbm, 181, rfl⟩
abbrev main_v61 : Ref sig .tc := ⟨.hbm, 182, rfl⟩
abbrev main_c_29 : Ref sig .tc := ⟨.hbm, 183, rfl⟩
abbrev main_v62 : Ref sig .tc := ⟨.hbm, 184, rfl⟩
abbrev main_v63 : Ref sig .tc := ⟨.hbm, 185, rfl⟩
abbrev main_c_30 : Ref sig .tc := ⟨.hbm, 186, rfl⟩
abbrev main_c_31 : Ref sig .tc := ⟨.hbm, 187, rfl⟩
abbrev main_call8_v0 : Ref sig .tc := ⟨.hbm, 188, rfl⟩
abbrev main_call8_v1 : Ref sig .tc := ⟨.hbm, 189, rfl⟩
abbrev main_call8_v2 : Ref sig .tc := ⟨.hbm, 190, rfl⟩
abbrev main_call8_v3 : Ref sig .tc := ⟨.hbm, 191, rfl⟩
abbrev main_call8_v4 : Ref sig .tc := ⟨.hbm, 192, rfl⟩
abbrev main_v64 : Ref sig .tc := ⟨.hbm, 193, rfl⟩
abbrev main_c_32 : Ref sig .tc := ⟨.hbm, 194, rfl⟩
abbrev main_c_33 : Ref sig .tc := ⟨.hbm, 195, rfl⟩
abbrev main_call9_v0 : Ref sig .tc := ⟨.hbm, 196, rfl⟩
abbrev main_call9_v1 : Ref sig .tc := ⟨.hbm, 197, rfl⟩
abbrev main_call9_v2 : Ref sig .tc := ⟨.hbm, 198, rfl⟩
abbrev main_call9_v3 : Ref sig .tc := ⟨.hbm, 199, rfl⟩
abbrev main_call9_v4 : Ref sig .tc := ⟨.hbm, 200, rfl⟩
abbrev main_v65 : Ref sig .tc := ⟨.hbm, 201, rfl⟩
abbrev main_c_34 : Ref sig .tc := ⟨.hbm, 202, rfl⟩
abbrev main_c_35 : Ref sig .tc := ⟨.hbm, 203, rfl⟩
abbrev main_call10_v0 : Ref sig .tc := ⟨.hbm, 204, rfl⟩
abbrev main_call10_v1 : Ref sig .tc := ⟨.hbm, 205, rfl⟩
abbrev main_call10_v2 : Ref sig .tc := ⟨.hbm, 206, rfl⟩
abbrev main_call10_v3 : Ref sig .tc := ⟨.hbm, 207, rfl⟩
abbrev main_call10_v4 : Ref sig .tc := ⟨.hbm, 208, rfl⟩
abbrev main_v66 : Ref sig .tc := ⟨.hbm, 209, rfl⟩
abbrev main_c_36 : Ref sig .tc := ⟨.hbm, 210, rfl⟩
abbrev main_v67 : Ref sig .tc := ⟨.hbm, 211, rfl⟩
abbrev main_v68 : Ref sig .tc := ⟨.hbm, 212, rfl⟩
abbrev main_c_37 : Ref sig .tc := ⟨.hbm, 213, rfl⟩
abbrev main_v69 : Ref sig .tc := ⟨.hbm, 214, rfl⟩
abbrev main_v70 : Ref sig .tc := ⟨.hbm, 215, rfl⟩
abbrev main_v71 : Ref sig .tc := ⟨.hbm, 216, rfl⟩
abbrev main_c_38 : Ref sig .tc := ⟨.hbm, 217, rfl⟩
abbrev main_v72 : Ref sig .tc := ⟨.hbm, 218, rfl⟩
abbrev main_v73 : Ref sig .tc := ⟨.hbm, 219, rfl⟩
abbrev main_c_39 : Ref sig .tc := ⟨.hbm, 220, rfl⟩
abbrev main_v74 : Ref sig .tc := ⟨.hbm, 221, rfl⟩
abbrev main_v75 : Ref sig .tc := ⟨.hbm, 222, rfl⟩
abbrev main_v76 : Ref sig .tc := ⟨.hbm, 223, rfl⟩
abbrev main_c_40 : Ref sig .tc := ⟨.hbm, 224, rfl⟩
abbrev main_v77 : Ref sig .tc := ⟨.hbm, 225, rfl⟩
abbrev main_v78 : Ref sig .tc := ⟨.hbm, 226, rfl⟩
abbrev main_c_41 : Ref sig .tc := ⟨.hbm, 227, rfl⟩
abbrev main_v79 : Ref sig .tc := ⟨.hbm, 228, rfl⟩
abbrev main_v80 : Ref sig .tc := ⟨.hbm, 229, rfl⟩
abbrev main_v81 : Ref sig .tc := ⟨.hbm, 230, rfl⟩
abbrev main_v82 : Ref sig .tc := ⟨.hbm, 231, rfl⟩
abbrev main_v83 : Ref sig .tc := ⟨.hbm, 232, rfl⟩
abbrev main_v84 : Ref sig .tc := ⟨.hbm, 233, rfl⟩
abbrev main_v85 : Ref sig .tc := ⟨.hbm, 234, rfl⟩
abbrev main_v86 : Ref sig .tc := ⟨.hbm, 235, rfl⟩
abbrev main_c_42 : Ref sig .tc := ⟨.hbm, 236, rfl⟩
abbrev main_call11_v0 : Ref sig .tc := ⟨.hbm, 237, rfl⟩
abbrev main_v87 : Ref sig .tc := ⟨.hbm, 238, rfl⟩
abbrev main_c_43 : Ref sig .tc := ⟨.hbm, 239, rfl⟩
abbrev main_v88 : Ref sig .tc := ⟨.hbm, 240, rfl⟩
abbrev main_v89 : Ref sig .tc := ⟨.hbm, 241, rfl⟩
abbrev main_c_44 : Ref sig .tc := ⟨.hbm, 242, rfl⟩
abbrev main_c_45 : Ref sig .tc := ⟨.hbm, 243, rfl⟩
abbrev main_call12_v0 : Ref sig .tc := ⟨.hbm, 244, rfl⟩
abbrev main_call12_v1 : Ref sig .tc := ⟨.hbm, 245, rfl⟩
abbrev main_call12_v2 : Ref sig .tc := ⟨.hbm, 246, rfl⟩
abbrev main_call12_v3 : Ref sig .tc := ⟨.hbm, 247, rfl⟩
abbrev main_call12_v4 : Ref sig .tc := ⟨.hbm, 248, rfl⟩
abbrev main_v90 : Ref sig .tc := ⟨.hbm, 249, rfl⟩
abbrev main_c_46 : Ref sig .tc := ⟨.hbm, 250, rfl⟩
abbrev main_c_47 : Ref sig .tc := ⟨.hbm, 251, rfl⟩
abbrev main_call13_v0 : Ref sig .tc := ⟨.hbm, 252, rfl⟩
abbrev main_call13_v1 : Ref sig .tc := ⟨.hbm, 253, rfl⟩
abbrev main_call13_v2 : Ref sig .tc := ⟨.hbm, 254, rfl⟩
abbrev main_call13_v3 : Ref sig .tc := ⟨.hbm, 255, rfl⟩
abbrev main_call13_v4 : Ref sig .tc := ⟨.hbm, 256, rfl⟩
abbrev main_v91 : Ref sig .tc := ⟨.hbm, 257, rfl⟩
abbrev main_c_48 : Ref sig .tc := ⟨.hbm, 258, rfl⟩
abbrev main_c_49 : Ref sig .tc := ⟨.hbm, 259, rfl⟩
abbrev main_call14_v0 : Ref sig .tc := ⟨.hbm, 260, rfl⟩
abbrev main_call14_v1 : Ref sig .tc := ⟨.hbm, 261, rfl⟩
abbrev main_call14_v2 : Ref sig .tc := ⟨.hbm, 262, rfl⟩
abbrev main_call14_v3 : Ref sig .tc := ⟨.hbm, 263, rfl⟩
abbrev main_call14_v4 : Ref sig .tc := ⟨.hbm, 264, rfl⟩
abbrev main_v92 : Ref sig .tc := ⟨.hbm, 265, rfl⟩
abbrev main_c_50 : Ref sig .tc := ⟨.hbm, 266, rfl⟩
abbrev main_v93 : Ref sig .tc := ⟨.hbm, 267, rfl⟩
abbrev main_v94 : Ref sig .tc := ⟨.hbm, 268, rfl⟩
abbrev main_c_51 : Ref sig .tc := ⟨.hbm, 269, rfl⟩
abbrev main_v95 : Ref sig .tc := ⟨.hbm, 270, rfl⟩
abbrev main_v96 : Ref sig .tc := ⟨.hbm, 271, rfl⟩
abbrev main_v97 : Ref sig .tc := ⟨.hbm, 272, rfl⟩
abbrev main_c_52 : Ref sig .tc := ⟨.hbm, 273, rfl⟩
abbrev main_v98 : Ref sig .tc := ⟨.hbm, 274, rfl⟩
abbrev main_v99 : Ref sig .tc := ⟨.hbm, 275, rfl⟩
abbrev main_c_53 : Ref sig .tc := ⟨.hbm, 276, rfl⟩
abbrev main_v100 : Ref sig .tc := ⟨.hbm, 277, rfl⟩
abbrev main_v101 : Ref sig .tc := ⟨.hbm, 278, rfl⟩
abbrev main_v102 : Ref sig .tc := ⟨.hbm, 279, rfl⟩
abbrev main_c_54 : Ref sig .tc := ⟨.hbm, 280, rfl⟩
abbrev main_v103 : Ref sig .tc := ⟨.hbm, 281, rfl⟩
abbrev main_v104 : Ref sig .tc := ⟨.hbm, 282, rfl⟩
abbrev main_c_55 : Ref sig .tc := ⟨.hbm, 283, rfl⟩
abbrev main_v105 : Ref sig .tc := ⟨.hbm, 284, rfl⟩
abbrev main_v106 : Ref sig .tc := ⟨.hbm, 285, rfl⟩
abbrev main_v107 : Ref sig .tc := ⟨.hbm, 286, rfl⟩
abbrev main_v108 : Ref sig .tc := ⟨.hbm, 287, rfl⟩
abbrev main_v109 : Ref sig .tc := ⟨.hbm, 288, rfl⟩
abbrev main_v110 : Ref sig .tc := ⟨.hbm, 289, rfl⟩
abbrev main_v111 : Ref sig .tc := ⟨.hbm, 290, rfl⟩
abbrev main_v112 : Ref sig .tc := ⟨.hbm, 291, rfl⟩
abbrev main_c_56 : Ref sig .tc := ⟨.hbm, 292, rfl⟩
abbrev main_call15_v0 : Ref sig .tc := ⟨.hbm, 293, rfl⟩
abbrev main_v113 : Ref sig .tc := ⟨.hbm, 294, rfl⟩
abbrev main_c_57 : Ref sig .tc := ⟨.hbm, 295, rfl⟩
abbrev main_call16_v0 : Ref sig .tc := ⟨.hbm, 296, rfl⟩
abbrev main_call16_v1 : Ref sig .tc := ⟨.hbm, 297, rfl⟩
abbrev main_v114 : Ref sig .tc := ⟨.hbm, 298, rfl⟩
abbrev main_c_58 : Ref sig .tc := ⟨.hbm, 299, rfl⟩
abbrev main_v115 : Ref sig .tc := ⟨.hbm, 300, rfl⟩
abbrev main_v116 : Ref sig .tc := ⟨.hbm, 301, rfl⟩
abbrev main_c_59 : Ref sig .tc := ⟨.hbm, 302, rfl⟩
abbrev main_v117 : Ref sig .tc := ⟨.hbm, 303, rfl⟩
abbrev main_v118 : Ref sig .tc := ⟨.hbm, 304, rfl⟩
abbrev main_v119 : Ref sig .tc := ⟨.hbm, 305, rfl⟩
abbrev main_v120 : Ref sig .tc := ⟨.hbm, 306, rfl⟩
abbrev main_v121 : Ref sig .tc := ⟨.hbm, 307, rfl⟩
abbrev main_c_60 : Ref sig .tc := ⟨.hbm, 308, rfl⟩
abbrev main_v122 : Ref sig .tc := ⟨.hbm, 309, rfl⟩
abbrev main_v123 : Ref sig .tc := ⟨.hbm, 310, rfl⟩
abbrev main_v124 : Ref sig .tc := ⟨.hbm, 311, rfl⟩
abbrev main_cst : Ref sig .tc := ⟨.hbm, 312, rfl⟩
abbrev main_call17_v0 : Ref sig .tc := ⟨.hbm, 313, rfl⟩
abbrev main_call17_v1 : Ref sig .tc := ⟨.hbm, 314, rfl⟩
abbrev main_v125 : Ref sig .tc := ⟨.hbm, 315, rfl⟩
abbrev main_v126 : Ref sig .tc := ⟨.hbm, 316, rfl⟩
abbrev main_c_61 : Ref sig .tc := ⟨.hbm, 317, rfl⟩
abbrev main_call18_v0 : Ref sig .tc := ⟨.hbm, 318, rfl⟩
abbrev main_call18_v1 : Ref sig .tc := ⟨.hbm, 319, rfl⟩
abbrev main_v127 : Ref sig .tc := ⟨.hbm, 320, rfl⟩
abbrev main_c_62 : Ref sig .tc := ⟨.hbm, 321, rfl⟩
abbrev main_v128 : Ref sig .tc := ⟨.hbm, 322, rfl⟩
abbrev main_v129 : Ref sig .tc := ⟨.hbm, 323, rfl⟩
abbrev main_c_63 : Ref sig .tc := ⟨.hbm, 324, rfl⟩
abbrev main_v130 : Ref sig .tc := ⟨.hbm, 325, rfl⟩
abbrev main_v131 : Ref sig .tc := ⟨.hbm, 326, rfl⟩
abbrev main_v132 : Ref sig .tc := ⟨.hbm, 327, rfl⟩
abbrev main_v133 : Ref sig .tc := ⟨.hbm, 328, rfl⟩
abbrev main_v134 : Ref sig .tc := ⟨.hbm, 329, rfl⟩
abbrev main_c_64 : Ref sig .tc := ⟨.hbm, 330, rfl⟩
abbrev main_v135 : Ref sig .tc := ⟨.hbm, 331, rfl⟩
abbrev main_v136 : Ref sig .tc := ⟨.hbm, 332, rfl⟩
abbrev main_v137 : Ref sig .tc := ⟨.hbm, 333, rfl⟩
abbrev main_cst_65 : Ref sig .tc := ⟨.hbm, 334, rfl⟩
abbrev main_call19_v0 : Ref sig .tc := ⟨.hbm, 335, rfl⟩
abbrev main_call19_v1 : Ref sig .tc := ⟨.hbm, 336, rfl⟩
abbrev main_v138 : Ref sig .tc := ⟨.hbm, 337, rfl⟩
abbrev main_v139 : Ref sig .tc := ⟨.hbm, 338, rfl⟩
abbrev main_v140 : Ref sig .tc := ⟨.hbm, 339, rfl⟩
abbrev main_c_66 : Ref sig .tc := ⟨.hbm, 340, rfl⟩
abbrev main_call21_v0 : Ref sig .tc := ⟨.hbm, 341, rfl⟩
abbrev main_call21_v1 : Ref sig .tc := ⟨.hbm, 342, rfl⟩
abbrev main_v141 : Ref sig .tc := ⟨.hbm, 343, rfl⟩
abbrev main_c_67 : Ref sig .tc := ⟨.hbm, 344, rfl⟩
abbrev main_v142 : Ref sig .tc := ⟨.hbm, 345, rfl⟩
abbrev main_v143 : Ref sig .tc := ⟨.hbm, 346, rfl⟩
abbrev main_c_68 : Ref sig .tc := ⟨.hbm, 347, rfl⟩
abbrev main_v144 : Ref sig .tc := ⟨.hbm, 348, rfl⟩
abbrev main_v145 : Ref sig .tc := ⟨.hbm, 349, rfl⟩
abbrev main_v146 : Ref sig .tc := ⟨.hbm, 350, rfl⟩
abbrev main_v147 : Ref sig .tc := ⟨.hbm, 351, rfl⟩
abbrev main_v148 : Ref sig .tc := ⟨.hbm, 352, rfl⟩
abbrev main_c_69 : Ref sig .tc := ⟨.hbm, 353, rfl⟩
abbrev main_v149 : Ref sig .tc := ⟨.hbm, 354, rfl⟩
abbrev main_v150 : Ref sig .tc := ⟨.hbm, 355, rfl⟩
abbrev main_v151 : Ref sig .tc := ⟨.hbm, 356, rfl⟩
abbrev main_cst_70 : Ref sig .tc := ⟨.hbm, 357, rfl⟩
abbrev main_call22_v0 : Ref sig .tc := ⟨.hbm, 358, rfl⟩
abbrev main_call22_v1 : Ref sig .tc := ⟨.hbm, 359, rfl⟩
abbrev main_v152 : Ref sig .tc := ⟨.hbm, 360, rfl⟩
abbrev main_v153 : Ref sig .tc := ⟨.hbm, 361, rfl⟩
abbrev main_v154 : Ref sig .tc := ⟨.hbm, 362, rfl⟩
abbrev main_c_71 : Ref sig .tc := ⟨.hbm, 363, rfl⟩
abbrev main_call24_v0 : Ref sig .tc := ⟨.hbm, 364, rfl⟩
abbrev main_call24_v1 : Ref sig .tc := ⟨.hbm, 365, rfl⟩
abbrev main_v155 : Ref sig .tc := ⟨.hbm, 366, rfl⟩
abbrev main_c_72 : Ref sig .tc := ⟨.hbm, 367, rfl⟩
abbrev main_v156 : Ref sig .tc := ⟨.hbm, 368, rfl⟩
abbrev main_v157 : Ref sig .tc := ⟨.hbm, 369, rfl⟩
abbrev main_c_73 : Ref sig .tc := ⟨.hbm, 370, rfl⟩
abbrev main_v158 : Ref sig .tc := ⟨.hbm, 371, rfl⟩
abbrev main_v159 : Ref sig .tc := ⟨.hbm, 372, rfl⟩
abbrev main_v160 : Ref sig .tc := ⟨.hbm, 373, rfl⟩
abbrev main_v161 : Ref sig .tc := ⟨.hbm, 374, rfl⟩
abbrev main_v162 : Ref sig .tc := ⟨.hbm, 375, rfl⟩
abbrev main_c_74 : Ref sig .tc := ⟨.hbm, 376, rfl⟩
abbrev main_v163 : Ref sig .tc := ⟨.hbm, 377, rfl⟩
abbrev main_v164 : Ref sig .tc := ⟨.hbm, 378, rfl⟩
abbrev main_v165 : Ref sig .tc := ⟨.hbm, 379, rfl⟩
abbrev main_cst_75 : Ref sig .tc := ⟨.hbm, 380, rfl⟩
abbrev main_call25_v0 : Ref sig .tc := ⟨.hbm, 381, rfl⟩
abbrev main_call25_v1 : Ref sig .tc := ⟨.hbm, 382, rfl⟩
abbrev main_v166 : Ref sig .tc := ⟨.hbm, 383, rfl⟩
abbrev main_v167 : Ref sig .tc := ⟨.hbm, 384, rfl⟩
abbrev main_v168 : Ref sig .tc := ⟨.hbm, 385, rfl⟩
abbrev main_cst_76 : Ref sig .tc := ⟨.hbm, 386, rfl⟩
abbrev main_v169 : Ref sig .tc := ⟨.hbm, 387, rfl⟩
abbrev main_v170 : Ref sig .tc := ⟨.hbm, 388, rfl⟩
abbrev main_v171 : Ref sig .tc := ⟨.hbm, 389, rfl⟩
abbrev main_cst_77 : Ref sig .tc := ⟨.hbm, 390, rfl⟩
abbrev main_v172 : Ref sig .tc := ⟨.hbm, 391, rfl⟩
abbrev main_v173 : Ref sig .tc := ⟨.hbm, 392, rfl⟩
abbrev main_v174 : Ref sig .tc := ⟨.hbm, 393, rfl⟩
abbrev main_cst_78 : Ref sig .tc := ⟨.hbm, 394, rfl⟩
abbrev main_v175 : Ref sig .tc := ⟨.hbm, 395, rfl⟩
abbrev main_v176 : Ref sig .tc := ⟨.hbm, 396, rfl⟩
abbrev main_v177 : Ref sig .tc := ⟨.hbm, 397, rfl⟩
abbrev main_cst_79 : Ref sig .tc := ⟨.hbm, 398, rfl⟩
abbrev main_v178 : Ref sig .tc := ⟨.hbm, 399, rfl⟩
abbrev main_v179 : Ref sig .tc := ⟨.hbm, 400, rfl⟩
abbrev main_v180 : Ref sig .tc := ⟨.hbm, 401, rfl⟩
abbrev main_v181 : Ref sig .tc := ⟨.hbm, 402, rfl⟩
abbrev main_v182 : Ref sig .tc := ⟨.hbm, 403, rfl⟩
abbrev main_v183 : Ref sig .tc := ⟨.hbm, 404, rfl⟩
abbrev main_v184 : Ref sig .tc := ⟨.hbm, 405, rfl⟩
abbrev main_cst_80 : Ref sig .tc := ⟨.hbm, 406, rfl⟩
abbrev main_v185 : Ref sig .tc := ⟨.hbm, 407, rfl⟩
abbrev main_v186 : Ref sig .tc := ⟨.hbm, 408, rfl⟩
abbrev main_cst_81 : Ref sig .tc := ⟨.hbm, 409, rfl⟩
abbrev main_v187 : Ref sig .tc := ⟨.hbm, 410, rfl⟩
abbrev main_v188 : Ref sig .tc := ⟨.hbm, 411, rfl⟩
abbrev main_v189 : Ref sig .tc := ⟨.hbm, 412, rfl⟩
abbrev main_v190 : Ref sig .tc := ⟨.hbm, 413, rfl⟩
abbrev main_v191 : Ref sig .tc := ⟨.hbm, 414, rfl⟩
abbrev main_c_82 : Ref sig .tc := ⟨.hbm, 415, rfl⟩
abbrev main_v192 : Ref sig .tc := ⟨.hbm, 416, rfl⟩
abbrev main_v193 : Ref sig .tc := ⟨.hbm, 417, rfl⟩
abbrev main_c_83 : Ref sig .tc := ⟨.hbm, 418, rfl⟩
abbrev main_call27_v0 : Ref sig .tc := ⟨.hbm, 419, rfl⟩
abbrev main_v194 : Ref sig .tc := ⟨.hbm, 420, rfl⟩
abbrev main_c_84 : Ref sig .tc := ⟨.hbm, 421, rfl⟩
abbrev main_v195 : Ref sig .tc := ⟨.hbm, 422, rfl⟩
abbrev main_v196 : Ref sig .tc := ⟨.hbm, 423, rfl⟩
abbrev main_c_85 : Ref sig .tc := ⟨.hbm, 424, rfl⟩
abbrev main_v197 : Ref sig .tc := ⟨.hbm, 425, rfl⟩
abbrev main_v198 : Ref sig .tc := ⟨.hbm, 426, rfl⟩
abbrev main_v199 : Ref sig .tc := ⟨.hbm, 427, rfl⟩
abbrev main_v200 : Ref sig .tc := ⟨.hbm, 428, rfl⟩
abbrev main_v201 : Ref sig .tc := ⟨.hbm, 429, rfl⟩
abbrev main_v202 : Ref sig .tc := ⟨.hbm, 430, rfl⟩
abbrev main_c_86 : Ref sig .tc := ⟨.hbm, 431, rfl⟩
abbrev main_v203 : Ref sig .tc := ⟨.hbm, 432, rfl⟩
abbrev main_v204 : Ref sig .tc := ⟨.hbm, 433, rfl⟩
abbrev main_c_87 : Ref sig .tc := ⟨.hbm, 434, rfl⟩
abbrev main_call28_v0 : Ref sig .tc := ⟨.hbm, 435, rfl⟩
abbrev main_v205 : Ref sig .tc := ⟨.hbm, 436, rfl⟩
abbrev main_c_88 : Ref sig .tc := ⟨.hbm, 437, rfl⟩
abbrev main_v206 : Ref sig .tc := ⟨.hbm, 438, rfl⟩
abbrev main_v207 : Ref sig .tc := ⟨.hbm, 439, rfl⟩
abbrev main_c_89 : Ref sig .tc := ⟨.hbm, 440, rfl⟩
abbrev main_v208 : Ref sig .tc := ⟨.hbm, 441, rfl⟩
abbrev main_v209 : Ref sig .tc := ⟨.hbm, 442, rfl⟩
abbrev main_v210 : Ref sig .tc := ⟨.hbm, 443, rfl⟩
abbrev main_v211 : Ref sig .tc := ⟨.hbm, 444, rfl⟩
abbrev main_v212 : Ref sig .tc := ⟨.hbm, 445, rfl⟩
abbrev main_v213 : Ref sig .tc := ⟨.hbm, 446, rfl⟩
abbrev main_c_90 : Ref sig .tc := ⟨.hbm, 447, rfl⟩
abbrev main_v214 : Ref sig .tc := ⟨.hbm, 448, rfl⟩
abbrev main_v215 : Ref sig .tc := ⟨.hbm, 449, rfl⟩
abbrev main_c_91 : Ref sig .tc := ⟨.hbm, 450, rfl⟩
abbrev main_call29_v0 : Ref sig .tc := ⟨.hbm, 451, rfl⟩
abbrev main_v216 : Ref sig .tc := ⟨.hbm, 452, rfl⟩
abbrev main_c_92 : Ref sig .tc := ⟨.hbm, 453, rfl⟩
abbrev main_v217 : Ref sig .tc := ⟨.hbm, 454, rfl⟩
abbrev main_v218 : Ref sig .tc := ⟨.hbm, 455, rfl⟩
abbrev main_c_93 : Ref sig .tc := ⟨.hbm, 456, rfl⟩
abbrev main_v219 : Ref sig .tc := ⟨.hbm, 457, rfl⟩
abbrev main_v220 : Ref sig .tc := ⟨.hbm, 458, rfl⟩
abbrev main_v221 : Ref sig .tc := ⟨.hbm, 459, rfl⟩
abbrev main_v222 : Ref sig .tc := ⟨.hbm, 460, rfl⟩
abbrev main_v223 : Ref sig .tc := ⟨.hbm, 461, rfl⟩
abbrev main_v224 : Ref sig .tc := ⟨.hbm, 462, rfl⟩
abbrev main_c_94 : Ref sig .tc := ⟨.hbm, 463, rfl⟩
abbrev main_v225 : Ref sig .tc := ⟨.hbm, 464, rfl⟩
abbrev main_v226 : Ref sig .tc := ⟨.hbm, 465, rfl⟩
abbrev main_c_95 : Ref sig .tc := ⟨.hbm, 466, rfl⟩
abbrev main_call30_v0 : Ref sig .tc := ⟨.hbm, 467, rfl⟩
abbrev main_v227 : Ref sig .tc := ⟨.hbm, 468, rfl⟩
abbrev main_c_96 : Ref sig .tc := ⟨.hbm, 469, rfl⟩
abbrev main_v228 : Ref sig .tc := ⟨.hbm, 470, rfl⟩
abbrev main_v229 : Ref sig .tc := ⟨.hbm, 471, rfl⟩
abbrev main_c_97 : Ref sig .tc := ⟨.hbm, 472, rfl⟩
abbrev main_v230 : Ref sig .tc := ⟨.hbm, 473, rfl⟩
abbrev main_v231 : Ref sig .tc := ⟨.hbm, 474, rfl⟩
abbrev main_v232 : Ref sig .tc := ⟨.hbm, 475, rfl⟩
abbrev main_v233 : Ref sig .tc := ⟨.hbm, 476, rfl⟩
abbrev main_v234 : Ref sig .tc := ⟨.hbm, 477, rfl⟩
abbrev main_v235 : Ref sig .tc := ⟨.hbm, 478, rfl⟩

abbrev nD : Nat := 1
abbrev τ : Topo := Topo.v7x

variable {F : FTy → Type} [FloatOps F]

class Facts₀ : Prop where
  bcast_S_S167772 : S_.BroadcastsInDim S167772 (![] : Fin 0 → Fin S167772.rank)
  bcast_S167772_S167772x1_0 : S167772.BroadcastsInDim S167772x1 (![0] : Fin 1 → Fin S167772x1.rank)
  concatenates_S167772x1_S167772x1_S167772x1_S167772x3_d1 : Shape.Concatenates [S167772x1, S167772x1, S167772x1] S167772x3 1
  bcast_S_S167772x1 : S_.BroadcastsInDim S167772x1 (![] : Fin 0 → Fin S167772x1.rank)
  bcast_S_S8388609x1 : S_.BroadcastsInDim S8388609x1 (![] : Fin 0 → Fin S8388609x1.rank)
  slices_S8388609x1_S8388608x1_0_0 : S8388609x1.Slices ![0, 0] S8388608x1
  gather_S256x256x256_S167772x3_S167772_n_012_n_n_012_1_111_wf : GatherDims.WF S256x256x256 S167772x3 S167772 [] [0, 1, 2] [] [0, 1, 2] [] 1 ![1, 1, 1]
  gather_S8388608x1_S167772x1_S167772x1_1_0_n_n_0_1_11_wf : GatherDims.WF S8388608x1 S167772x1 S167772x1 [1] [0] [] [0] [] 1 ![1, 1]
  scatter_S8388609x1_S167772x1_S167772x1_1_0_0_1_wf : ScatterDims.WF S8388609x1 S167772x1 S167772x1 [1] [0] [0] 1

variable [Facts₀]

def gather_S256x256x256_S167772x3_S167772_n_012_n_n_012_1_111 : GatherDims S256x256x256 S167772x3 S167772 where
  offsetDims := []
  collapsedSliceDims := [0, 1, 2]
  operandBatchingDims := []
  startIndicesBatchingDims := []
  startIndexMap := [0, 1, 2]
  indexVectorDim := 1
  sliceSizes := ![1, 1, 1]
  wf := gather_S256x256x256_S167772x3_S167772_n_012_n_n_012_1_111_wf
def gather_S8388608x1_S167772x1_S167772x1_1_0_n_n_0_1_11 : GatherDims S8388608x1 S167772x1 S167772x1 where
  offsetDims := [1]
  collapsedSliceDims := [0]
  operandBatchingDims := []
  startIndicesBatchingDims := []
  startIndexMap := [0]
  indexVectorDim := 1
  sliceSizes := ![1, 1]
  wf := gather_S8388608x1_S167772x1_S167772x1_1_0_n_n_0_1_11_wf
def scatter_S8388609x1_S167772x1_S167772x1_1_0_0_1 : ScatterDims S8388609x1 S167772x1 S167772x1 where
  updateWindowDims := [1]
  insertedWindowDims := [0]
  scatterDimsToOperandDims := [0]
  indexVectorDim := 1
  wf := scatter_S8388609x1_S167772x1_S167772x1_1_0_0_1_wf

class Facts : Prop extends Facts₀ where

variable [Facts]
-- ==== Proof.FrameKernelHost.lean ====
/- The host side of @main's frame: each stretch of host operations around the one region allocates nothing, the
   stretches before the region write none of the three argument arrays, and the stretches after it write neither the
   argument arrays nor the three arrays the region's windows are cut from. Every operation writes exactly its own
   result buffer, so each fact is one inequality of references per operation, decided on the references' indices;
   the facts are stated per stretch and then gathered over the list of stretches, so that the fold of the operations
   over the launch memory is never evaluated. -/
import proofs.«140712_j5016521802106_2_alg».proof.Proof.LaunchKernelP
import Idealize.ShloMosaic.Lib.Pipeline.FrameSuffix

noncomputable section

namespace Cert.Kernel.GenP
open Cert.Kernel.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## Lists of lists -/

/-- A property of every element of every list holds of every element of each member list. -/
theorem forall_mem_of_forall₂ {α : Type} {p : α → Prop} {L : List (List α)} (h : L.Forall fun l => l.Forall p) :
    ∀ l ∈ L, ∀ x ∈ l, p x :=
  fun l hl x hx => List.forall_iff_forall_mem.mp (List.forall_iff_forall_mem.mp h l hl) x hx

/-- And of every element of the concatenation. -/
theorem forall_mem_flatten_of_forall₂ {α : Type} {p : α → Prop} {L : List (List α)} (h : L.Forall fun l => l.Forall p) :
    ∀ x ∈ L.flatten, p x := fun x hx => by
  obtain ⟨l, hl, hxl⟩ := List.mem_flatten.mp hx
  exact forall_mem_of_forall₂ h l hl x hxl

/-! ## Each stretch allocates nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ## No stretch before the region writes an argument array -/

theorem hostOps0_args {r : Ref sig .tc} (hr : r = main_arg0 ∨ r = main_arg1 ∨ r = main_arg2) :
    (hostOps0 : List (HloOp τ sig (Elt F))).Forall fun op => Proc.devRef (τ := τ) .tc r ∉ op.writes := by
  rcases hr with rfl | rfl | rfl <;>
    (simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_1_args {r : Ref sig .tc} (hr : r = main_arg0 ∨ r = main_arg1 ∨ r = main_arg2) :
    (hostOps0_1 : List (HloOp τ sig (Elt F))).Forall fun op => Proc.devRef (τ := τ) .tc r ∉ op.writes := by
  rcases hr with rfl | rfl | rfl <;>
    (simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_2_args {r : Ref sig .tc} (hr : r = main_arg0 ∨ r = main_arg1 ∨ r = main_arg2) :
    (hostOps0_2 : List (HloOp τ sig (Elt F))).Forall fun op => Proc.devRef (τ := τ) .tc r ∉ op.writes := by
  rcases hr with rfl | rfl | rfl <;>
    (simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_3_args {r : Ref sig .tc} (hr : r = main_arg0 ∨ r = main_arg1 ∨ r = main_arg2) :
    (hostOps0_3 : List (HloOp τ sig (Elt F))).Forall fun op => Proc.devRef (τ := τ) .tc r ∉ op.writes := by
  rcases hr with rfl | rfl | rfl <;>
    (simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_4_args {r : Ref sig .tc} (hr : r = main_arg0 ∨ r = main_arg1 ∨ r = main_arg2) :
    (hostOps0_4 : List (HloOp τ sig (Elt F))).Forall fun op => Proc.devRef (τ := τ) .tc r ∉ op.writes := by
  rcases hr with rfl | rfl | rfl <;>
    (simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_5_args {r : Ref sig .tc} (hr : r = main_arg0 ∨ r = main_arg1 ∨ r = main_arg2) :
    (hostOps0_5 : List (HloOp τ sig (Elt F))).Forall fun op => Proc.devRef (τ := τ) .tc r ∉ op.writes := by
  rcases hr with rfl | rfl | rfl <;>
    (simp only [hostOps0_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_6_args {r : Ref sig .tc} (hr : r = main_arg0 ∨ r = main_arg1 ∨ r = main_arg2) :
    (hostOps0_6 : List (HloOp τ sig (Elt F))).Forall fun op => Proc.devRef (τ := τ) .tc r ∉ op.writes := by
  rcases hr with rfl | rfl | rfl <;>
    (simp only [hostOps0_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_7_args {r : Ref sig .tc} (hr : r = main_arg0 ∨ r = main_arg1 ∨ r = main_arg2) :
    (hostOps0_7 : List (HloOp τ sig (Elt F))).Forall fun op => Proc.devRef (τ := τ) .tc r ∉ op.writes := by
  rcases hr with rfl | rfl | rfl <;>
    (simp only [hostOps0_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_8_args {r : Ref sig .tc} (hr : r = main_arg0 ∨ r = main_arg1 ∨ r = main_arg2) :
    (hostOps0_8 : List (HloOp τ sig (Elt F))).Forall fun op => Proc.devRef (τ := τ) .tc r ∉ op.writes := by
  rcases hr with rfl | rfl | rfl <;>
    (simp only [hostOps0_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_9_args {r : Ref sig .tc} (hr : r = main_arg0 ∨ r = main_arg1 ∨ r = main_arg2) :
    (hostOps0_9 : List (HloOp τ sig (Elt F))).Forall fun op => Proc.devRef (τ := τ) .tc r ∉ op.writes := by
  rcases hr with rfl | rfl | rfl <;>
    (simp only [hostOps0_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_10_args {r : Ref sig .tc} (hr : r = main_arg0 ∨ r = main_arg1 ∨ r = main_arg2) :
    (hostOps0_10 : List (HloOp τ sig (Elt F))).Forall fun op => Proc.devRef (τ := τ) .tc r ∉ op.writes := by
  rcases hr with rfl | rfl | rfl <;>
    (simp only [hostOps0_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_11_args {r : Ref sig .tc} (hr : r = main_arg0 ∨ r = main_arg1 ∨ r = main_arg2) :
    (hostOps0_11 : List (HloOp τ sig (Elt F))).Forall fun op => Proc.devRef (τ := τ) .tc r ∉ op.writes := by
  rcases hr with rfl | rfl | rfl <;>
    (simp only [hostOps0_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_12_args {r : Ref sig .tc} (hr : r = main_arg0 ∨ r = main_arg1 ∨ r = main_arg2) :
    (hostOps0_12 : List (HloOp τ sig (Elt F))).Forall fun op => Proc.devRef (τ := τ) .tc r ∉ op.writes := by
  rcases hr with rfl | rfl | rfl <;>
    (simp only [hostOps0_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_13_args {r : Ref sig .tc} (hr : r = main_arg0 ∨ r = main_arg1 ∨ r = main_arg2) :
    (hostOps0_13 : List (HloOp τ sig (Elt F))).Forall fun op => Proc.devRef (τ := τ) .tc r ∉ op.writes := by
  rcases hr with rfl | rfl | rfl <;>
    (simp only [hostOps0_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_14_args {r : Ref sig .tc} (hr : r = main_arg0 ∨ r = main_arg1 ∨ r = main_arg2) :
    (hostOps0_14 : List (HloOp τ sig (Elt F))).Forall fun op => Proc.devRef (τ := τ) .tc r ∉ op.writes := by
  rcases hr with rfl | rfl | rfl <;>
    (simp only [hostOps0_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_15_args {r : Ref sig .tc} (hr : r = main_arg0 ∨ r = main_arg1 ∨ r = main_arg2) :
    (hostOps0_15 : List (HloOp τ sig (Elt F))).Forall fun op => Proc.devRef (τ := τ) .tc r ∉ op.writes := by
  rcases hr with rfl | rfl | rfl <;>
    (simp only [hostOps0_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_16_args {r : Ref sig .tc} (hr : r = main_arg0 ∨ r = main_arg1 ∨ r = main_arg2) :
    (hostOps0_16 : List (HloOp τ sig (Elt F))).Forall fun op => Proc.devRef (τ := τ) .tc r ∉ op.writes := by
  rcases hr with rfl | rfl | rfl <;>
    (simp only [hostOps0_16, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_17_args {r : Ref sig .tc} (hr : r = main_arg0 ∨ r = main_arg1 ∨ r = main_arg2) :
    (hostOps0_17 : List (HloOp τ sig (Elt F))).Forall fun op => Proc.devRef (τ := τ) .tc r ∉ op.writes := by
  rcases hr with rfl | rfl | rfl <;>
    (simp only [hostOps0_17, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_18_args {r : Ref sig .tc} (hr : r = main_arg0 ∨ r = main_arg1 ∨ r = main_arg2) :
    (hostOps0_18 : List (HloOp τ sig (Elt F))).Forall fun op => Proc.devRef (τ := τ) .tc r ∉ op.writes := by
  rcases hr with rfl | rfl | rfl <;>
    (simp only [hostOps0_18, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_19_args {r : Ref sig .tc} (hr : r = main_arg0 ∨ r = main_arg1 ∨ r = main_arg2) :
    (hostOps0_19 : List (HloOp τ sig (Elt F))).Forall fun op => Proc.devRef (τ := τ) .tc r ∉ op.writes := by
  rcases hr with rfl | rfl | rfl <;>
    (simp only [hostOps0_19, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_20_args {r : Ref sig .tc} (hr : r = main_arg0 ∨ r = main_arg1 ∨ r = main_arg2) :
    (hostOps0_20 : List (HloOp τ sig (Elt F))).Forall fun op => Proc.devRef (τ := τ) .tc r ∉ op.writes := by
  rcases hr with rfl | rfl | rfl <;>
    (simp only [hostOps0_20, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_21_args {r : Ref sig .tc} (hr : r = main_arg0 ∨ r = main_arg1 ∨ r = main_arg2) :
    (hostOps0_21 : List (HloOp τ sig (Elt F))).Forall fun op => Proc.devRef (τ := τ) .tc r ∉ op.writes := by
  rcases hr with rfl | rfl | rfl <;>
    (simp only [hostOps0_21, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_22_args {r : Ref sig .tc} (hr : r = main_arg0 ∨ r = main_arg1 ∨ r = main_arg2) :
    (hostOps0_22 : List (HloOp τ sig (Elt F))).Forall fun op => Proc.devRef (τ := τ) .tc r ∉ op.writes := by
  rcases hr with rfl | rfl | rfl <;>
    (simp only [hostOps0_22, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_23_args {r : Ref sig .tc} (hr : r = main_arg0 ∨ r = main_arg1 ∨ r = main_arg2) :
    (hostOps0_23 : List (HloOp τ sig (Elt F))).Forall fun op => Proc.devRef (τ := τ) .tc r ∉ op.writes := by
  rcases hr with rfl | rfl | rfl <;>
    (simp only [hostOps0_23, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_24_args {r : Ref sig .tc} (hr : r = main_arg0 ∨ r = main_arg1 ∨ r = main_arg2) :
    (hostOps0_24 : List (HloOp τ sig (Elt F))).Forall fun op => Proc.devRef (τ := τ) .tc r ∉ op.writes := by
  rcases hr with rfl | rfl | rfl <;>
    (simp only [hostOps0_24, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_25_args {r : Ref sig .tc} (hr : r = main_arg0 ∨ r = main_arg1 ∨ r = main_arg2) :
    (hostOps0_25 : List (HloOp τ sig (Elt F))).Forall fun op => Proc.devRef (τ := τ) .tc r ∉ op.writes := by
  rcases hr with rfl | rfl | rfl <;>
    (simp only [hostOps0_25, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_26_args {r : Ref sig .tc} (hr : r = main_arg0 ∨ r = main_arg1 ∨ r = main_arg2) :
    (hostOps0_26 : List (HloOp τ sig (Elt F))).Forall fun op => Proc.devRef (τ := τ) .tc r ∉ op.writes := by
  rcases hr with rfl | rfl | rfl <;>
    (simp only [hostOps0_26, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_27_args {r : Ref sig .tc} (hr : r = main_arg0 ∨ r = main_arg1 ∨ r = main_arg2) :
    (hostOps0_27 : List (HloOp τ sig (Elt F))).Forall fun op => Proc.devRef (τ := τ) .tc r ∉ op.writes := by
  rcases hr with rfl | rfl | rfl <;>
    (simp only [hostOps0_27, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_28_args {r : Ref sig .tc} (hr : r = main_arg0 ∨ r = main_arg1 ∨ r = main_arg2) :
    (hostOps0_28 : List (HloOp τ sig (Elt F))).Forall fun op => Proc.devRef (τ := τ) .tc r ∉ op.writes := by
  rcases hr with rfl | rfl | rfl <;>
    (simp only [hostOps0_28, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_29_args {r : Ref sig .tc} (hr : r = main_arg0 ∨ r = main_arg1 ∨ r = main_arg2) :
    (hostOps0_29 : List (HloOp τ sig (Elt F))).Forall fun op => Proc.devRef (τ := τ) .tc r ∉ op.writes := by
  rcases hr with rfl | rfl | rfl <;>
    (simp only [hostOps0_29, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_30_args {r : Ref sig .tc} (hr : r = main_arg0 ∨ r = main_arg1 ∨ r = main_arg2) :
    (hostOps0_30 : List (HloOp τ sig (Elt F))).Forall fun op => Proc.devRef (τ := τ) .tc r ∉ op.writes := by
  rcases hr with rfl | rfl | rfl <;>
    (simp only [hostOps0_30, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_31_args {r : Ref sig .tc} (hr : r = main_arg0 ∨ r = main_arg1 ∨ r = main_arg2) :
    (hostOps0_31 : List (HloOp τ sig (Elt F))).Forall fun op => Proc.devRef (τ := τ) .tc r ∉ op.writes := by
  rcases hr with rfl | rfl | rfl <;>
    (simp only [hostOps0_31, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_32_args {r : Ref sig .tc} (hr : r = main_arg0 ∨ r = main_arg1 ∨ r = main_arg2) :
    (hostOps0_32 : List (HloOp τ sig (Elt F))).Forall fun op => Proc.devRef (τ := τ) .tc r ∉ op.writes := by
  rcases hr with rfl | rfl | rfl <;>
    (simp only [hostOps0_32, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_33_args {r : Ref sig .tc} (hr : r = main_arg0 ∨ r = main_arg1 ∨ r = main_arg2) :
    (hostOps0_33 : List (HloOp τ sig (Elt F))).Forall fun op => Proc.devRef (τ := τ) .tc r ∉ op.writes := by
  rcases hr with rfl | rfl | rfl <;>
    (simp only [hostOps0_33, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_34_args {r : Ref sig .tc} (hr : r = main_arg0 ∨ r = main_arg1 ∨ r = main_arg2) :
    (hostOps0_34 : List (HloOp τ sig (Elt F))).Forall fun op => Proc.devRef (τ := τ) .tc r ∉ op.writes := by
  rcases hr with rfl | rfl | rfl <;>
    (simp only [hostOps0_34, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_35_args {r : Ref sig .tc} (hr : r = main_arg0 ∨ r = main_arg1 ∨ r = main_arg2) :
    (hostOps0_35 : List (HloOp τ sig (Elt F))).Forall fun op => Proc.devRef (τ := τ) .tc r ∉ op.writes := by
  rcases hr with rfl | rfl | rfl <;>
    (simp only [hostOps0_35, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_36_args {r : Ref sig .tc} (hr : r = main_arg0 ∨ r = main_arg1 ∨ r = main_arg2) :
    (hostOps0_36 : List (HloOp τ sig (Elt F))).Forall fun op => Proc.devRef (τ := τ) .tc r ∉ op.writes := by
  rcases hr with rfl | rfl | rfl <;>
    (simp only [hostOps0_36, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_37_args {r : Ref sig .tc} (hr : r = main_arg0 ∨ r = main_arg1 ∨ r = main_arg2) :
    (hostOps0_37 : List (HloOp τ sig (Elt F))).Forall fun op => Proc.devRef (τ := τ) .tc r ∉ op.writes := by
  rcases hr with rfl | rfl | rfl <;>
    (simp only [hostOps0_37, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_38_args {r : Ref sig .tc} (hr : r = main_arg0 ∨ r = main_arg1 ∨ r = main_arg2) :
    (hostOps0_38 : List (HloOp τ sig (Elt F))).Forall fun op => Proc.devRef (τ := τ) .tc r ∉ op.writes := by
  rcases hr with rfl | rfl | rfl <;>
    (simp only [hostOps0_38, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_39_args {r : Ref sig .tc} (hr : r = main_arg0 ∨ r = main_arg1 ∨ r = main_arg2) :
    (hostOps0_39 : List (HloOp τ sig (Elt F))).Forall fun op => Proc.devRef (τ := τ) .tc r ∉ op.writes := by
  rcases hr with rfl | rfl | rfl <;>
    (simp only [hostOps0_39, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_40_args {r : Ref sig .tc} (hr : r = main_arg0 ∨ r = main_arg1 ∨ r = main_arg2) :
    (hostOps0_40 : List (HloOp τ sig (Elt F))).Forall fun op => Proc.devRef (τ := τ) .tc r ∉ op.writes := by
  rcases hr with rfl | rfl | rfl <;>
    (simp only [hostOps0_40, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_41_args {r : Ref sig .tc} (hr : r = main_arg0 ∨ r = main_arg1 ∨ r = main_arg2) :
    (hostOps0_41 : List (HloOp τ sig (Elt F))).Forall fun op => Proc.devRef (τ := τ) .tc r ∉ op.writes := by
  rcases hr with rfl | rfl | rfl <;>
    (simp only [hostOps0_41, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_42_args {r : Ref sig .tc} (hr : r = main_arg0 ∨ r = main_arg1 ∨ r = main_arg2) :
    (hostOps0_42 : List (HloOp τ sig (Elt F))).Forall fun op => Proc.devRef (τ := τ) .tc r ∉ op.writes := by
  rcases hr with rfl | rfl | rfl <;>
    (simp only [hostOps0_42, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_43_args {r : Ref sig .tc} (hr : r = main_arg0 ∨ r = main_arg1 ∨ r = main_arg2) :
    (hostOps0_43 : List (HloOp τ sig (Elt F))).Forall fun op => Proc.devRef (τ := τ) .tc r ∉ op.writes := by
  rcases hr with rfl | rfl | rfl <;>
    (simp only [hostOps0_43, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_44_args {r : Ref sig .tc} (hr : r = main_arg0 ∨ r = main_arg1 ∨ r = main_arg2) :
    (hostOps0_44 : List (HloOp τ sig (Elt F))).Forall fun op => Proc.devRef (τ := τ) .tc r ∉ op.writes := by
  rcases hr with rfl | rfl | rfl <;>
    (simp only [hostOps0_44, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_45_args {r : Ref sig .tc} (hr : r = main_arg0 ∨ r = main_arg1 ∨ r = main_arg2) :
    (hostOps0_45 : List (HloOp τ sig (Elt F))).Forall fun op => Proc.devRef (τ := τ) .tc r ∉ op.writes := by
  rcases hr with rfl | rfl | rfl <;>
    (simp only [hostOps0_45, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_46_args {r : Ref sig .tc} (hr : r = main_arg0 ∨ r = main_arg1 ∨ r = main_arg2) :
    (hostOps0_46 : List (HloOp τ sig (Elt F))).Forall fun op => Proc.devRef (τ := τ) .tc r ∉ op.writes := by
  rcases hr with rfl | rfl | rfl <;>
    (simp only [hostOps0_46, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_47_args {r : Ref sig .tc} (hr : r = main_arg0 ∨ r = main_arg1 ∨ r = main_arg2) :
    (hostOps0_47 : List (HloOp τ sig (Elt F))).Forall fun op => Proc.devRef (τ := τ) .tc r ∉ op.writes := by
  rcases hr with rfl | rfl | rfl <;>
    (simp only [hostOps0_47, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_48_args {r : Ref sig .tc} (hr : r = main_arg0 ∨ r = main_arg1 ∨ r = main_arg2) :
    (hostOps0_48 : List (HloOp τ sig (Elt F))).Forall fun op => Proc.devRef (τ := τ) .tc r ∉ op.writes := by
  rcases hr with rfl | rfl | rfl <;>
    (simp only [hostOps0_48, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_49_args {r : Ref sig .tc} (hr : r = main_arg0 ∨ r = main_arg1 ∨ r = main_arg2) :
    (hostOps0_49 : List (HloOp τ sig (Elt F))).Forall fun op => Proc.devRef (τ := τ) .tc r ∉ op.writes := by
  rcases hr with rfl | rfl | rfl <;>
    (simp only [hostOps0_49, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_50_args {r : Ref sig .tc} (hr : r = main_arg0 ∨ r = main_arg1 ∨ r = main_arg2) :
    (hostOps0_50 : List (HloOp τ sig (Elt F))).Forall fun op => Proc.devRef (τ := τ) .tc r ∉ op.writes := by
  rcases hr with rfl | rfl | rfl <;>
    (simp only [hostOps0_50, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_51_args {r : Ref sig .tc} (hr : r = main_arg0 ∨ r = main_arg1 ∨ r = main_arg2) :
    (hostOps0_51 : List (HloOp τ sig (Elt F))).Forall fun op => Proc.devRef (τ := τ) .tc r ∉ op.writes := by
  rcases hr with rfl | rfl | rfl <;>
    (simp only [hostOps0_51, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_52_args {r : Ref sig .tc} (hr : r = main_arg0 ∨ r = main_arg1 ∨ r = main_arg2) :
    (hostOps0_52 : List (HloOp τ sig (Elt F))).Forall fun op => Proc.devRef (τ := τ) .tc r ∉ op.writes := by
  rcases hr with rfl | rfl | rfl <;>
    (simp only [hostOps0_52, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_53_args {r : Ref sig .tc} (hr : r = main_arg0 ∨ r = main_arg1 ∨ r = main_arg2) :
    (hostOps0_53 : List (HloOp τ sig (Elt F))).Forall fun op => Proc.devRef (τ := τ) .tc r ∉ op.writes := by
  rcases hr with rfl | rfl | rfl <;>
    (simp only [hostOps0_53, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_54_args {r : Ref sig .tc} (hr : r = main_arg0 ∨ r = main_arg1 ∨ r = main_arg2) :
    (hostOps0_54 : List (HloOp τ sig (Elt F))).Forall fun op => Proc.devRef (τ := τ) .tc r ∉ op.writes := by
  rcases hr with rfl | rfl | rfl <;>
    (simp only [hostOps0_54, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)

/-! ## No stretch after the region writes an argument array or an array of the pipeline -/

theorem hostOps1_keep {r : Ref sig .tc}
    (hr : r = main_arg0 ∨ r = main_arg1 ∨ r = main_arg2 ∨ r = main_v189 ∨ r = main_v195 ∨ r = main_v196) :
    (hostOps1 : List (HloOp τ sig (Elt F))).Forall fun op => Proc.devRef (τ := τ) .tc r ∉ op.writes := by
  rcases hr with rfl | rfl | rfl | rfl | rfl | rfl <;>
    (simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_1_keep {r : Ref sig .tc}
    (hr : r = main_arg0 ∨ r = main_arg1 ∨ r = main_arg2 ∨ r = main_v189 ∨ r = main_v195 ∨ r = main_v196) :
    (hostOps1_1 : List (HloOp τ sig (Elt F))).Forall fun op => Proc.devRef (τ := τ) .tc r ∉ op.writes := by
  rcases hr with rfl | rfl | rfl | rfl | rfl | rfl <;>
    (simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_2_keep {r : Ref sig .tc}
    (hr : r = main_arg0 ∨ r = main_arg1 ∨ r = main_arg2 ∨ r = main_v189 ∨ r = main_v195 ∨ r = main_v196) :
    (hostOps1_2 : List (HloOp τ sig (Elt F))).Forall fun op => Proc.devRef (τ := τ) .tc r ∉ op.writes := by
  rcases hr with rfl | rfl | rfl | rfl | rfl | rfl <;>
    (simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_3_keep {r : Ref sig .tc}
    (hr : r = main_arg0 ∨ r = main_arg1 ∨ r = main_arg2 ∨ r = main_v189 ∨ r = main_v195 ∨ r = main_v196) :
    (hostOps1_3 : List (HloOp τ sig (Elt F))).Forall fun op => Proc.devRef (τ := τ) .tc r ∉ op.writes := by
  rcases hr with rfl | rfl | rfl | rfl | rfl | rfl <;>
    (simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_4_keep {r : Ref sig .tc}
    (hr : r = main_arg0 ∨ r = main_arg1 ∨ r = main_arg2 ∨ r = main_v189 ∨ r = main_v195 ∨ r = main_v196) :
    (hostOps1_4 : List (HloOp τ sig (Elt F))).Forall fun op => Proc.devRef (τ := τ) .tc r ∉ op.writes := by
  rcases hr with rfl | rfl | rfl | rfl | rfl | rfl <;>
    (simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_5_keep {r : Ref sig .tc}
    (hr : r = main_arg0 ∨ r = main_arg1 ∨ r = main_arg2 ∨ r = main_v189 ∨ r = main_v195 ∨ r = main_v196) :
    (hostOps1_5 : List (HloOp τ sig (Elt F))).Forall fun op => Proc.devRef (τ := τ) .tc r ∉ op.writes := by
  rcases hr with rfl | rfl | rfl | rfl | rfl | rfl <;>
    (simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_6_keep {r : Ref sig .tc}
    (hr : r = main_arg0 ∨ r = main_arg1 ∨ r = main_arg2 ∨ r = main_v189 ∨ r = main_v195 ∨ r = main_v196) :
    (hostOps1_6 : List (HloOp τ sig (Elt F))).Forall fun op => Proc.devRef (τ := τ) .tc r ∉ op.writes := by
  rcases hr with rfl | rfl | rfl | rfl | rfl | rfl <;>
    (simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_7_keep {r : Ref sig .tc}
    (hr : r = main_arg0 ∨ r = main_arg1 ∨ r = main_arg2 ∨ r = main_v189 ∨ r = main_v195 ∨ r = main_v196) :
    (hostOps1_7 : List (HloOp τ sig (Elt F))).Forall fun op => Proc.devRef (τ := τ) .tc r ∉ op.writes := by
  rcases hr with rfl | rfl | rfl | rfl | rfl | rfl <;>
    (simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_8_keep {r : Ref sig .tc}
    (hr : r = main_arg0 ∨ r = main_arg1 ∨ r = main_arg2 ∨ r = main_v189 ∨ r = main_v195 ∨ r = main_v196) :
    (hostOps1_8 : List (HloOp τ sig (Elt F))).Forall fun op => Proc.devRef (τ := τ) .tc r ∉ op.writes := by
  rcases hr with rfl | rfl | rfl | rfl | rfl | rfl <;>
    (simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)

/-! ## Gathered over the stretches -/

/-- The stretches before the region touch TensorCore references only. -/
theorem pre_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54] : List (List (HloOp τ sig (Elt F)))).Forall
    fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub⟩

/-- They allocate nothing. -/
theorem pre_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54] : List (List (HloOp τ sig (Elt F)))).Forall
    fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh⟩

/-- They write no argument array. -/
theorem pre_args {r : Ref sig .tc} (hr : r = main_arg0 ∨ r = main_arg1 ∨ r = main_arg2) : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54] : List (List (HloOp τ sig (Elt F)))).Forall
    fun ops => ops.Forall fun op => Proc.devRef (τ := τ) .tc r ∉ op.writes :=
  ⟨hostOps0_args hr, hostOps0_1_args hr, hostOps0_2_args hr, hostOps0_3_args hr, hostOps0_4_args hr, hostOps0_5_args hr, hostOps0_6_args hr, hostOps0_7_args hr, hostOps0_8_args hr, hostOps0_9_args hr, hostOps0_10_args hr, hostOps0_11_args hr, hostOps0_12_args hr, hostOps0_13_args hr, hostOps0_14_args hr, hostOps0_15_args hr, hostOps0_16_args hr, hostOps0_17_args hr, hostOps0_18_args hr, hostOps0_19_args hr, hostOps0_20_args hr, hostOps0_21_args hr, hostOps0_22_args hr, hostOps0_23_args hr, hostOps0_24_args hr, hostOps0_25_args hr, hostOps0_26_args hr, hostOps0_27_args hr, hostOps0_28_args hr, hostOps0_29_args hr, hostOps0_30_args hr, hostOps0_31_args hr, hostOps0_32_args hr, hostOps0_33_args hr, hostOps0_34_args hr, hostOps0_35_args hr, hostOps0_36_args hr, hostOps0_37_args hr, hostOps0_38_args hr, hostOps0_39_args hr, hostOps0_40_args hr, hostOps0_41_args hr, hostOps0_42_args hr, hostOps0_43_args hr, hostOps0_44_args hr, hostOps0_45_args hr, hostOps0_46_args hr, hostOps0_47_args hr, hostOps0_48_args hr, hostOps0_49_args hr, hostOps0_50_args hr, hostOps0_51_args hr, hostOps0_52_args hr, hostOps0_53_args hr, hostOps0_54_args hr⟩

/-- The stretches after the region touch TensorCore references only. -/
theorem sfx_tc : ([hostOps1, hostOps1_1, hostOps1_2, hostOps1_3, hostOps1_4, hostOps1_5, hostOps1_6, hostOps1_7, hostOps1_8] : List (List (HloOp τ sig (Elt F)))).Forall
    fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub⟩

/-- They allocate nothing. -/
theorem sfx_fresh₂ : ([hostOps1, hostOps1_1, hostOps1_2, hostOps1_3, hostOps1_4, hostOps1_5, hostOps1_6, hostOps1_7, hostOps1_8] : List (List (HloOp τ sig (Elt F)))).Forall
    fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh⟩

/-- They write no argument array and no array of the pipeline. -/
theorem sfx_keep {r : Ref sig .tc}
    (hr : r = main_arg0 ∨ r = main_arg1 ∨ r = main_arg2 ∨ r = main_v189 ∨ r = main_v195 ∨ r = main_v196) : ([hostOps1, hostOps1_1, hostOps1_2, hostOps1_3, hostOps1_4, hostOps1_5, hostOps1_6, hostOps1_7, hostOps1_8] : List (List (HloOp τ sig (Elt F)))).Forall
    fun ops => ops.Forall fun op => Proc.devRef (τ := τ) .tc r ∉ op.writes :=
  ⟨hostOps1_keep hr, hostOps1_1_keep hr, hostOps1_2_keep hr, hostOps1_3_keep hr, hostOps1_4_keep hr, hostOps1_5_keep hr, hostOps1_6_keep hr, hostOps1_7_keep hr, hostOps1_8_keep hr⟩

end Cert.Kernel.GenP

end
-- ==== Proof.FrameKernelBody.lean ====
/- The kernel body's triple. The body reads its two input buffers whole, reads its output buffer whole (the value is
   not used) and stores one value, a function of the two inputs, through the rectangle that is the whole buffer. So
   after the body the inputs are as they were and the output buffer is the canonical reading of that one store, which
   covers the buffer. -/
import proofs.«140712_j5016521802106_2_alg».proof.Proof.LaunchKernelP
import proofs.«140712_j5016521802106_2_alg».proof.Proof.Gen.Kernel.Skeleton
import Idealize.ShloMosaic.Lib.Pipeline.FrameBody
import Idealize.ShloMosaic.Lib.Ring
import Idealize.ShloMosaic.Lib.Tactic

-- membership in a rectangle whose long axis has 16384 coordinates recurses once per coordinate
set_option maxRecDepth 65536

noncomputable section

namespace Cert.Kernel.GenP
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole staging buffer as a rectangle: offset zero, unit strides, the buffer's extents. -/
abbrev r0_0 : Rect S4x16384 := Rect.unit (s := S4x16384) ![0, 0] S4x16384.size inb_S4x16384_S4x16384_0_0

/-! ## What the body leaves in the output window's buffer -/

/-- The output window's staging buffer after the body, from the two input windows' blocks: its one store as a piece. -/
def out0_2 (x0 x1 : Vec F S4x16384 .f32) : Vec F S4x16384 .f32 :=
  View.canon [⟨r0_0, k0_pay1 (View.ld x0 r0_0) (View.ld x1 r0_0)⟩]

/-- The store's rectangle tiles the buffer, so it covers it. -/
theorem cover0_2 (p0 : Vec F S4x16384 .f32) (y : S4x16384.Idx) :
    ∃ pc ∈ ([⟨r0_0, p0⟩] : List (View.Piece (Elt F) S4x16384 .f32)), y ∈ pc.1.set :=
  View.cover_of_tiled [⟨r0_0, p0⟩] S4x16384.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel (c : Dev nD) (E : Set ℕ) (i : grid0.Coords)
    (arg1 : Memref sig .tc .vmem S4x16384 .f32) (harg1 : arg1.IsWhole)
    (arg2 : Memref sig .tc .vmem S4x16384 .f32) (harg2 : arg2.IsWhole)
    (arg3 : Memref sig .tc .vmem S4x16384 .f32) (harg3 : arg3.IsWhole)
    (x0 : Vec F S4x16384 .f32) (x1 : Vec F S4x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__tv_elemwise_kernel i arg1 harg1 arg2 harg2 arg3 harg3) K := by
  simp only [cc0__tv_elemwise_kernel_eq_skeleton]; unfold cc0__tv_elemwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.Kernel.GenP

end
-- ==== Proof.FrameKernel.lean ====
/- The frame of @main: the host operations before the one region, the region, the host operations after it. The region
   is one pipeline over a grid of 11 points with two input windows and one output window; its body reads the inputs
   and stores a function of them over the whole output block. From any memory with zero counters every weakly fair
   execution terminates, and the three argument arrays end as launched: no host operation writes them and no window
   is cut from them. -/
import proofs.«140712_j5016521802106_2_alg».proof.Proof.LaunchKernelP
import proofs.«140712_j5016521802106_2_alg».proof.Proof.Gen.Kernel.Skeleton
import proofs.«140712_j5016521802106_2_alg».proof.Proof.Gen.Kernel.Points
import proofs.«140712_j5016521802106_2_alg».proof.Proof.FrameKernelHost
import proofs.«140712_j5016521802106_2_alg».proof.Proof.FrameKernelBody
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.Kernel.GenP
open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch memory after the host
    operations before the region, stretch by stretch. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]) (fun b => m (c, b))
/-- The same read at a TensorCore reference. -/
abbrev V (c : Dev nD) (b : Ref sig .tc) : Buf (Elt F) ((c : Thread nD τ).loc b) := V0 m c (Proc.devRef .tc b)

/-- @main around the region: the host stretches before it, the region, the host stretches after it; it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]
    [hostOps1, hostOps1_1, hostOps1_2, hostOps1_3, hostOps1_4, hostOps1_5, hostOps1_6, hostOps1_7, hostOps1_8] pre_sub pre_fresh main_chain

/-- The stretches after the region touch the pipeline's arrays and the bypassing buffers only: each operation's buffers
    are unscoped TensorCore references, and with nothing prefetched every such reference is one or the other. -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of_forall₂ sfx_tc ops hops op hop)
/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ :=
  forall_mem_of_forall₂ sfx_fresh₂
/-- Each array of the pipeline is one of the three the windows are cut from. -/
theorem arrRef_cases : ∀ w, Pipeline.arrRef spec0 w = main_arg0 ∨ Pipeline.arrRef spec0 w = main_arg1 ∨ Pipeline.arrRef spec0 w = main_arg2
    ∨ Pipeline.arrRef spec0 w = main_v189 ∨ Pipeline.arrRef spec0 w = main_v195 ∨ Pipeline.arrRef spec0 w = main_v196 := by decide
/-- And the stretches after the region write no array of the pipeline. -/
theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes :=
  fun ops hops op hop w => forall_mem_of_forall₂ (sfx_keep (F := F) (arrRef_cases w)) ops hops op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _
    (forall_mem_flatten_of_forall₂ (pre_args (F := F) (.inl rfl)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg0 = m ((c : Thread nD τ).loc main_arg0) := by
  unfold Pipeline.afterTail₀
  rw [StableHlo.after_of_forall_not_mem (b := Proc.devRef .tc main_arg0) _ _
      (forall_mem_flatten_of_forall₂ (sfx_keep (F := F) (.inl rfl))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _
    (forall_mem_flatten_of_forall₂ (pre_args (F := F) (.inr (.inl rfl))))

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg1 = m ((c : Thread nD τ).loc main_arg1) := by
  unfold Pipeline.afterTail₀
  rw [StableHlo.after_of_forall_not_mem (b := Proc.devRef .tc main_arg1) _ _
      (forall_mem_flatten_of_forall₂ (sfx_keep (F := F) (.inr (.inl rfl)))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _
    (forall_mem_flatten_of_forall₂ (pre_args (F := F) (.inr (.inr rfl))))

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg2 = m ((c : Thread nD τ).loc main_arg2) := by
  unfold Pipeline.afterTail₀
  rw [StableHlo.after_of_forall_not_mem (b := Proc.devRef .tc main_arg2) _ _
      (forall_mem_flatten_of_forall₂ (sfx_keep (F := F) (.inr (.inr (.inl rfl))))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): unfetched means the index has not
    moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s (`hA`) and whose body leaves the block in place (`hafter`): unfetched means the index has not
    moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the argument arrays
    (none of which a window stages, so each is what the stretches after the region leave of the region-entry contents)
    is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The pipeline's proof data -/

/-- The proof data of the one pipeline on core `c`: the arrays as the region finds them (`V`); after the body at point
    `t` each input's buffer at its block and the output's at `out0_2` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V`, a fold over the host
    operations before the region, is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data give and every
    other unscoped buffer as the stretches after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hΦ := fun _ _ => rfl)

/-- info: 'Cert.Kernel.GenP.run_main' depends on axioms: [propext, Classical.choice, Quot.sound] -/
#guard_msgs in #print axioms run_main

/-- The frame: from any memory with zero counters @main terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.GenP

end
-- ==== Proof.FrameKernelIdealHost.lean ====
/- The host side of @main's frame: each stretch of host operations around the one region allocates nothing, the
   stretches before the region write none of the three argument arrays, and the stretches after it write neither the
   argument arrays nor the three arrays the region's windows are cut from. Every operation writes exactly its own
   result buffer, so each fact is one inequality of references per operation, decided on the references' indices;
   the facts are stated per stretch and then gathered over the list of stretches, so that the fold of the operations
   over the launch memory is never evaluated. -/
import proofs.«140712_j5016521802106_2_alg».proof.Proof.LaunchKernelIdealP
import Idealize.ShloMosaic.Lib.Pipeline.FrameSuffix

noncomputable section

namespace Cert.KernelIdeal.GenP
open Cert.KernelIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-! ## Lists of lists -/

/-- A property of every element of every list holds of every element of each member list. -/
theorem forall_mem_of_forall₂ {α : Type} {p : α → Prop} {L : List (List α)} (h : L.Forall fun l => l.Forall p) :
    ∀ l ∈ L, ∀ x ∈ l, p x :=
  fun l hl x hx => List.forall_iff_forall_mem.mp (List.forall_iff_forall_mem.mp h l hl) x hx

/-- And of every element of the concatenation. -/
theorem forall_mem_flatten_of_forall₂ {α : Type} {p : α → Prop} {L : List (List α)} (h : L.Forall fun l => l.Forall p) :
    ∀ x ∈ L.flatten, p x := fun x hx => by
  obtain ⟨l, hl, hxl⟩ := List.mem_flatten.mp hx
  exact forall_mem_of_forall₂ h l hl x hxl

/-! ## Each stretch allocates nothing -/

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor
theorem hostOps0_17_fresh : (hostOps0_17 : List (HloOp τ sig (Elt F))).Forall fun op => op.fresh = ∅ := by
  simp only [List.Forall]; repeat' constructor
theorem hostOps0_18_fresh : (hostOps0_18 : List (HloOp τ sig (Elt F))).Forall fun op => op.fresh = ∅ := by
  simp only [List.Forall]; repeat' constructor
theorem hostOps0_19_fresh : (hostOps0_19 : List (HloOp τ sig (Elt F))).Forall fun op => op.fresh = ∅ := by
  simp only [List.Forall]; repeat' constructor
theorem hostOps0_20_fresh : (hostOps0_20 : List (HloOp τ sig (Elt F))).Forall fun op => op.fresh = ∅ := by
  simp only [List.Forall]; repeat' constructor
theorem hostOps0_21_fresh : (hostOps0_21 : List (HloOp τ sig (Elt F))).Forall fun op => op.fresh = ∅ := by
  simp only [List.Forall]; repeat' constructor
theorem hostOps0_22_fresh : (hostOps0_22 : List (HloOp τ sig (Elt F))).Forall fun op => op.fresh = ∅ := by
  simp only [List.Forall]; repeat' constructor
theorem hostOps0_23_fresh : (hostOps0_23 : List (HloOp τ sig (Elt F))).Forall fun op => op.fresh = ∅ := by
  simp only [List.Forall]; repeat' constructor
theorem hostOps0_24_fresh : (hostOps0_24 : List (HloOp τ sig (Elt F))).Forall fun op => op.fresh = ∅ := by
  simp only [List.Forall]; repeat' constructor
theorem hostOps0_25_fresh : (hostOps0_25 : List (HloOp τ sig (Elt F))).Forall fun op => op.fresh = ∅ := by
  simp only [List.Forall]; repeat' constructor
theorem hostOps0_26_fresh : (hostOps0_26 : List (HloOp τ sig (Elt F))).Forall fun op => op.fresh = ∅ := by
  simp only [List.Forall]; repeat' constructor
theorem hostOps0_27_fresh : (hostOps0_27 : List (HloOp τ sig (Elt F))).Forall fun op => op.fresh = ∅ := by
  simp only [List.Forall]; repeat' constructor
theorem hostOps0_28_fresh : (hostOps0_28 : List (HloOp τ sig (Elt F))).Forall fun op => op.fresh = ∅ := by
  simp only [List.Forall]; repeat' constructor
theorem hostOps0_29_fresh : (hostOps0_29 : List (HloOp τ sig (Elt F))).Forall fun op => op.fresh = ∅ := by
  simp only [List.Forall]; repeat' constructor
theorem hostOps0_30_fresh : (hostOps0_30 : List (HloOp τ sig (Elt F))).Forall fun op => op.fresh = ∅ := by
  simp only [List.Forall]; repeat' constructor
theorem hostOps0_31_fresh : (hostOps0_31 : List (HloOp τ sig (Elt F))).Forall fun op => op.fresh = ∅ := by
  simp only [List.Forall]; repeat' constructor
theorem hostOps0_32_fresh : (hostOps0_32 : List (HloOp τ sig (Elt F))).Forall fun op => op.fresh = ∅ := by
  simp only [List.Forall]; repeat' constructor
theorem hostOps0_33_fresh : (hostOps0_33 : List (HloOp τ sig (Elt F))).Forall fun op => op.fresh = ∅ := by
  simp only [List.Forall]; repeat' constructor
theorem hostOps0_34_fresh : (hostOps0_34 : List (HloOp τ sig (Elt F))).Forall fun op => op.fresh = ∅ := by
  simp only [List.Forall]; repeat' constructor
theorem hostOps0_35_fresh : (hostOps0_35 : List (HloOp τ sig (Elt F))).Forall fun op => op.fresh = ∅ := by
  simp only [List.Forall]; repeat' constructor
theorem hostOps0_36_fresh : (hostOps0_36 : List (HloOp τ sig (Elt F))).Forall fun op => op.fresh = ∅ := by
  simp only [List.Forall]; repeat' constructor
theorem hostOps0_37_fresh : (hostOps0_37 : List (HloOp τ sig (Elt F))).Forall fun op => op.fresh = ∅ := by
  simp only [List.Forall]; repeat' constructor
theorem hostOps0_38_fresh : (hostOps0_38 : List (HloOp τ sig (Elt F))).Forall fun op => op.fresh = ∅ := by
  simp only [List.Forall]; repeat' constructor
theorem hostOps0_39_fresh : (hostOps0_39 : List (HloOp τ sig (Elt F))).Forall fun op => op.fresh = ∅ := by
  simp only [List.Forall]; repeat' constructor
theorem hostOps0_40_fresh : (hostOps0_40 : List (HloOp τ sig (Elt F))).Forall fun op => op.fresh = ∅ := by
  simp only [List.Forall]; repeat' constructor
theorem hostOps0_41_fresh : (hostOps0_41 : List (HloOp τ sig (Elt F))).Forall fun op => op.fresh = ∅ := by
  simp only [List.Forall]; repeat' constructor
theorem hostOps0_42_fresh : (hostOps0_42 : List (HloOp τ sig (Elt F))).Forall fun op => op.fresh = ∅ := by
  simp only [List.Forall]; repeat' constructor
theorem hostOps0_43_fresh : (hostOps0_43 : List (HloOp τ sig (Elt F))).Forall fun op => op.fresh = ∅ := by
  simp only [List.Forall]; repeat' constructor
theorem hostOps0_44_fresh : (hostOps0_44 : List (HloOp τ sig (Elt F))).Forall fun op => op.fresh = ∅ := by
  simp only [List.Forall]; repeat' constructor
theorem hostOps0_45_fresh : (hostOps0_45 : List (HloOp τ sig (Elt F))).Forall fun op => op.fresh = ∅ := by
  simp only [List.Forall]; repeat' constructor
theorem hostOps0_46_fresh : (hostOps0_46 : List (HloOp τ sig (Elt F))).Forall fun op => op.fresh = ∅ := by
  simp only [List.Forall]; repeat' constructor
theorem hostOps0_47_fresh : (hostOps0_47 : List (HloOp τ sig (Elt F))).Forall fun op => op.fresh = ∅ := by
  simp only [List.Forall]; repeat' constructor
theorem hostOps0_48_fresh : (hostOps0_48 : List (HloOp τ sig (Elt F))).Forall fun op => op.fresh = ∅ := by
  simp only [List.Forall]; repeat' constructor
theorem hostOps0_49_fresh : (hostOps0_49 : List (HloOp τ sig (Elt F))).Forall fun op => op.fresh = ∅ := by
  simp only [List.Forall]; repeat' constructor
theorem hostOps0_50_fresh : (hostOps0_50 : List (HloOp τ sig (Elt F))).Forall fun op => op.fresh = ∅ := by
  simp only [List.Forall]; repeat' constructor
theorem hostOps0_51_fresh : (hostOps0_51 : List (HloOp τ sig (Elt F))).Forall fun op => op.fresh = ∅ := by
  simp only [List.Forall]; repeat' constructor
theorem hostOps0_52_fresh : (hostOps0_52 : List (HloOp τ sig (Elt F))).Forall fun op => op.fresh = ∅ := by
  simp only [List.Forall]; repeat' constructor
theorem hostOps0_53_fresh : (hostOps0_53 : List (HloOp τ sig (Elt F))).Forall fun op => op.fresh = ∅ := by
  simp only [List.Forall]; repeat' constructor
theorem hostOps0_54_fresh : (hostOps0_54 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor

/-! ## No stretch before the region writes an argument array -/

theorem hostOps0_args {r : Ref sig .tc} (hr : r = main_arg0 ∨ r = main_arg1 ∨ r = main_arg2) :
    (hostOps0 : List (HloOp τ sig (Elt F))).Forall fun op => Proc.devRef (τ := τ) .tc r ∉ op.writes := by
  rcases hr with rfl | rfl | rfl <;>
    (simp only [hostOps0, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_1_args {r : Ref sig .tc} (hr : r = main_arg0 ∨ r = main_arg1 ∨ r = main_arg2) :
    (hostOps0_1 : List (HloOp τ sig (Elt F))).Forall fun op => Proc.devRef (τ := τ) .tc r ∉ op.writes := by
  rcases hr with rfl | rfl | rfl <;>
    (simp only [hostOps0_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_2_args {r : Ref sig .tc} (hr : r = main_arg0 ∨ r = main_arg1 ∨ r = main_arg2) :
    (hostOps0_2 : List (HloOp τ sig (Elt F))).Forall fun op => Proc.devRef (τ := τ) .tc r ∉ op.writes := by
  rcases hr with rfl | rfl | rfl <;>
    (simp only [hostOps0_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_3_args {r : Ref sig .tc} (hr : r = main_arg0 ∨ r = main_arg1 ∨ r = main_arg2) :
    (hostOps0_3 : List (HloOp τ sig (Elt F))).Forall fun op => Proc.devRef (τ := τ) .tc r ∉ op.writes := by
  rcases hr with rfl | rfl | rfl <;>
    (simp only [hostOps0_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_4_args {r : Ref sig .tc} (hr : r = main_arg0 ∨ r = main_arg1 ∨ r = main_arg2) :
    (hostOps0_4 : List (HloOp τ sig (Elt F))).Forall fun op => Proc.devRef (τ := τ) .tc r ∉ op.writes := by
  rcases hr with rfl | rfl | rfl <;>
    (simp only [hostOps0_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_5_args {r : Ref sig .tc} (hr : r = main_arg0 ∨ r = main_arg1 ∨ r = main_arg2) :
    (hostOps0_5 : List (HloOp τ sig (Elt F))).Forall fun op => Proc.devRef (τ := τ) .tc r ∉ op.writes := by
  rcases hr with rfl | rfl | rfl <;>
    (simp only [hostOps0_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_6_args {r : Ref sig .tc} (hr : r = main_arg0 ∨ r = main_arg1 ∨ r = main_arg2) :
    (hostOps0_6 : List (HloOp τ sig (Elt F))).Forall fun op => Proc.devRef (τ := τ) .tc r ∉ op.writes := by
  rcases hr with rfl | rfl | rfl <;>
    (simp only [hostOps0_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_7_args {r : Ref sig .tc} (hr : r = main_arg0 ∨ r = main_arg1 ∨ r = main_arg2) :
    (hostOps0_7 : List (HloOp τ sig (Elt F))).Forall fun op => Proc.devRef (τ := τ) .tc r ∉ op.writes := by
  rcases hr with rfl | rfl | rfl <;>
    (simp only [hostOps0_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_8_args {r : Ref sig .tc} (hr : r = main_arg0 ∨ r = main_arg1 ∨ r = main_arg2) :
    (hostOps0_8 : List (HloOp τ sig (Elt F))).Forall fun op => Proc.devRef (τ := τ) .tc r ∉ op.writes := by
  rcases hr with rfl | rfl | rfl <;>
    (simp only [hostOps0_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_9_args {r : Ref sig .tc} (hr : r = main_arg0 ∨ r = main_arg1 ∨ r = main_arg2) :
    (hostOps0_9 : List (HloOp τ sig (Elt F))).Forall fun op => Proc.devRef (τ := τ) .tc r ∉ op.writes := by
  rcases hr with rfl | rfl | rfl <;>
    (simp only [hostOps0_9, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_10_args {r : Ref sig .tc} (hr : r = main_arg0 ∨ r = main_arg1 ∨ r = main_arg2) :
    (hostOps0_10 : List (HloOp τ sig (Elt F))).Forall fun op => Proc.devRef (τ := τ) .tc r ∉ op.writes := by
  rcases hr with rfl | rfl | rfl <;>
    (simp only [hostOps0_10, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_11_args {r : Ref sig .tc} (hr : r = main_arg0 ∨ r = main_arg1 ∨ r = main_arg2) :
    (hostOps0_11 : List (HloOp τ sig (Elt F))).Forall fun op => Proc.devRef (τ := τ) .tc r ∉ op.writes := by
  rcases hr with rfl | rfl | rfl <;>
    (simp only [hostOps0_11, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_12_args {r : Ref sig .tc} (hr : r = main_arg0 ∨ r = main_arg1 ∨ r = main_arg2) :
    (hostOps0_12 : List (HloOp τ sig (Elt F))).Forall fun op => Proc.devRef (τ := τ) .tc r ∉ op.writes := by
  rcases hr with rfl | rfl | rfl <;>
    (simp only [hostOps0_12, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_13_args {r : Ref sig .tc} (hr : r = main_arg0 ∨ r = main_arg1 ∨ r = main_arg2) :
    (hostOps0_13 : List (HloOp τ sig (Elt F))).Forall fun op => Proc.devRef (τ := τ) .tc r ∉ op.writes := by
  rcases hr with rfl | rfl | rfl <;>
    (simp only [hostOps0_13, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_14_args {r : Ref sig .tc} (hr : r = main_arg0 ∨ r = main_arg1 ∨ r = main_arg2) :
    (hostOps0_14 : List (HloOp τ sig (Elt F))).Forall fun op => Proc.devRef (τ := τ) .tc r ∉ op.writes := by
  rcases hr with rfl | rfl | rfl <;>
    (simp only [hostOps0_14, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_15_args {r : Ref sig .tc} (hr : r = main_arg0 ∨ r = main_arg1 ∨ r = main_arg2) :
    (hostOps0_15 : List (HloOp τ sig (Elt F))).Forall fun op => Proc.devRef (τ := τ) .tc r ∉ op.writes := by
  rcases hr with rfl | rfl | rfl <;>
    (simp only [hostOps0_15, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_16_args {r : Ref sig .tc} (hr : r = main_arg0 ∨ r = main_arg1 ∨ r = main_arg2) :
    (hostOps0_16 : List (HloOp τ sig (Elt F))).Forall fun op => Proc.devRef (τ := τ) .tc r ∉ op.writes := by
  rcases hr with rfl | rfl | rfl <;>
    (simp only [hostOps0_16, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_17_args {r : Ref sig .tc} (hr : r = main_arg0 ∨ r = main_arg1 ∨ r = main_arg2) :
    (hostOps0_17 : List (HloOp τ sig (Elt F))).Forall fun op => Proc.devRef (τ := τ) .tc r ∉ op.writes := by
  rcases hr with rfl | rfl | rfl <;>
    (simp only [hostOps0_17, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_18_args {r : Ref sig .tc} (hr : r = main_arg0 ∨ r = main_arg1 ∨ r = main_arg2) :
    (hostOps0_18 : List (HloOp τ sig (Elt F))).Forall fun op => Proc.devRef (τ := τ) .tc r ∉ op.writes := by
  rcases hr with rfl | rfl | rfl <;>
    (simp only [hostOps0_18, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_19_args {r : Ref sig .tc} (hr : r = main_arg0 ∨ r = main_arg1 ∨ r = main_arg2) :
    (hostOps0_19 : List (HloOp τ sig (Elt F))).Forall fun op => Proc.devRef (τ := τ) .tc r ∉ op.writes := by
  rcases hr with rfl | rfl | rfl <;>
    (simp only [hostOps0_19, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_20_args {r : Ref sig .tc} (hr : r = main_arg0 ∨ r = main_arg1 ∨ r = main_arg2) :
    (hostOps0_20 : List (HloOp τ sig (Elt F))).Forall fun op => Proc.devRef (τ := τ) .tc r ∉ op.writes := by
  rcases hr with rfl | rfl | rfl <;>
    (simp only [hostOps0_20, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_21_args {r : Ref sig .tc} (hr : r = main_arg0 ∨ r = main_arg1 ∨ r = main_arg2) :
    (hostOps0_21 : List (HloOp τ sig (Elt F))).Forall fun op => Proc.devRef (τ := τ) .tc r ∉ op.writes := by
  rcases hr with rfl | rfl | rfl <;>
    (simp only [hostOps0_21, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_22_args {r : Ref sig .tc} (hr : r = main_arg0 ∨ r = main_arg1 ∨ r = main_arg2) :
    (hostOps0_22 : List (HloOp τ sig (Elt F))).Forall fun op => Proc.devRef (τ := τ) .tc r ∉ op.writes := by
  rcases hr with rfl | rfl | rfl <;>
    (simp only [hostOps0_22, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_23_args {r : Ref sig .tc} (hr : r = main_arg0 ∨ r = main_arg1 ∨ r = main_arg2) :
    (hostOps0_23 : List (HloOp τ sig (Elt F))).Forall fun op => Proc.devRef (τ := τ) .tc r ∉ op.writes := by
  rcases hr with rfl | rfl | rfl <;>
    (simp only [hostOps0_23, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_24_args {r : Ref sig .tc} (hr : r = main_arg0 ∨ r = main_arg1 ∨ r = main_arg2) :
    (hostOps0_24 : List (HloOp τ sig (Elt F))).Forall fun op => Proc.devRef (τ := τ) .tc r ∉ op.writes := by
  rcases hr with rfl | rfl | rfl <;>
    (simp only [hostOps0_24, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_25_args {r : Ref sig .tc} (hr : r = main_arg0 ∨ r = main_arg1 ∨ r = main_arg2) :
    (hostOps0_25 : List (HloOp τ sig (Elt F))).Forall fun op => Proc.devRef (τ := τ) .tc r ∉ op.writes := by
  rcases hr with rfl | rfl | rfl <;>
    (simp only [hostOps0_25, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_26_args {r : Ref sig .tc} (hr : r = main_arg0 ∨ r = main_arg1 ∨ r = main_arg2) :
    (hostOps0_26 : List (HloOp τ sig (Elt F))).Forall fun op => Proc.devRef (τ := τ) .tc r ∉ op.writes := by
  rcases hr with rfl | rfl | rfl <;>
    (simp only [hostOps0_26, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_27_args {r : Ref sig .tc} (hr : r = main_arg0 ∨ r = main_arg1 ∨ r = main_arg2) :
    (hostOps0_27 : List (HloOp τ sig (Elt F))).Forall fun op => Proc.devRef (τ := τ) .tc r ∉ op.writes := by
  rcases hr with rfl | rfl | rfl <;>
    (simp only [hostOps0_27, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_28_args {r : Ref sig .tc} (hr : r = main_arg0 ∨ r = main_arg1 ∨ r = main_arg2) :
    (hostOps0_28 : List (HloOp τ sig (Elt F))).Forall fun op => Proc.devRef (τ := τ) .tc r ∉ op.writes := by
  rcases hr with rfl | rfl | rfl <;>
    (simp only [hostOps0_28, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_29_args {r : Ref sig .tc} (hr : r = main_arg0 ∨ r = main_arg1 ∨ r = main_arg2) :
    (hostOps0_29 : List (HloOp τ sig (Elt F))).Forall fun op => Proc.devRef (τ := τ) .tc r ∉ op.writes := by
  rcases hr with rfl | rfl | rfl <;>
    (simp only [hostOps0_29, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_30_args {r : Ref sig .tc} (hr : r = main_arg0 ∨ r = main_arg1 ∨ r = main_arg2) :
    (hostOps0_30 : List (HloOp τ sig (Elt F))).Forall fun op => Proc.devRef (τ := τ) .tc r ∉ op.writes := by
  rcases hr with rfl | rfl | rfl <;>
    (simp only [hostOps0_30, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_31_args {r : Ref sig .tc} (hr : r = main_arg0 ∨ r = main_arg1 ∨ r = main_arg2) :
    (hostOps0_31 : List (HloOp τ sig (Elt F))).Forall fun op => Proc.devRef (τ := τ) .tc r ∉ op.writes := by
  rcases hr with rfl | rfl | rfl <;>
    (simp only [hostOps0_31, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_32_args {r : Ref sig .tc} (hr : r = main_arg0 ∨ r = main_arg1 ∨ r = main_arg2) :
    (hostOps0_32 : List (HloOp τ sig (Elt F))).Forall fun op => Proc.devRef (τ := τ) .tc r ∉ op.writes := by
  rcases hr with rfl | rfl | rfl <;>
    (simp only [hostOps0_32, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_33_args {r : Ref sig .tc} (hr : r = main_arg0 ∨ r = main_arg1 ∨ r = main_arg2) :
    (hostOps0_33 : List (HloOp τ sig (Elt F))).Forall fun op => Proc.devRef (τ := τ) .tc r ∉ op.writes := by
  rcases hr with rfl | rfl | rfl <;>
    (simp only [hostOps0_33, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_34_args {r : Ref sig .tc} (hr : r = main_arg0 ∨ r = main_arg1 ∨ r = main_arg2) :
    (hostOps0_34 : List (HloOp τ sig (Elt F))).Forall fun op => Proc.devRef (τ := τ) .tc r ∉ op.writes := by
  rcases hr with rfl | rfl | rfl <;>
    (simp only [hostOps0_34, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_35_args {r : Ref sig .tc} (hr : r = main_arg0 ∨ r = main_arg1 ∨ r = main_arg2) :
    (hostOps0_35 : List (HloOp τ sig (Elt F))).Forall fun op => Proc.devRef (τ := τ) .tc r ∉ op.writes := by
  rcases hr with rfl | rfl | rfl <;>
    (simp only [hostOps0_35, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_36_args {r : Ref sig .tc} (hr : r = main_arg0 ∨ r = main_arg1 ∨ r = main_arg2) :
    (hostOps0_36 : List (HloOp τ sig (Elt F))).Forall fun op => Proc.devRef (τ := τ) .tc r ∉ op.writes := by
  rcases hr with rfl | rfl | rfl <;>
    (simp only [hostOps0_36, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_37_args {r : Ref sig .tc} (hr : r = main_arg0 ∨ r = main_arg1 ∨ r = main_arg2) :
    (hostOps0_37 : List (HloOp τ sig (Elt F))).Forall fun op => Proc.devRef (τ := τ) .tc r ∉ op.writes := by
  rcases hr with rfl | rfl | rfl <;>
    (simp only [hostOps0_37, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_38_args {r : Ref sig .tc} (hr : r = main_arg0 ∨ r = main_arg1 ∨ r = main_arg2) :
    (hostOps0_38 : List (HloOp τ sig (Elt F))).Forall fun op => Proc.devRef (τ := τ) .tc r ∉ op.writes := by
  rcases hr with rfl | rfl | rfl <;>
    (simp only [hostOps0_38, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_39_args {r : Ref sig .tc} (hr : r = main_arg0 ∨ r = main_arg1 ∨ r = main_arg2) :
    (hostOps0_39 : List (HloOp τ sig (Elt F))).Forall fun op => Proc.devRef (τ := τ) .tc r ∉ op.writes := by
  rcases hr with rfl | rfl | rfl <;>
    (simp only [hostOps0_39, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_40_args {r : Ref sig .tc} (hr : r = main_arg0 ∨ r = main_arg1 ∨ r = main_arg2) :
    (hostOps0_40 : List (HloOp τ sig (Elt F))).Forall fun op => Proc.devRef (τ := τ) .tc r ∉ op.writes := by
  rcases hr with rfl | rfl | rfl <;>
    (simp only [hostOps0_40, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_41_args {r : Ref sig .tc} (hr : r = main_arg0 ∨ r = main_arg1 ∨ r = main_arg2) :
    (hostOps0_41 : List (HloOp τ sig (Elt F))).Forall fun op => Proc.devRef (τ := τ) .tc r ∉ op.writes := by
  rcases hr with rfl | rfl | rfl <;>
    (simp only [hostOps0_41, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_42_args {r : Ref sig .tc} (hr : r = main_arg0 ∨ r = main_arg1 ∨ r = main_arg2) :
    (hostOps0_42 : List (HloOp τ sig (Elt F))).Forall fun op => Proc.devRef (τ := τ) .tc r ∉ op.writes := by
  rcases hr with rfl | rfl | rfl <;>
    (simp only [hostOps0_42, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_43_args {r : Ref sig .tc} (hr : r = main_arg0 ∨ r = main_arg1 ∨ r = main_arg2) :
    (hostOps0_43 : List (HloOp τ sig (Elt F))).Forall fun op => Proc.devRef (τ := τ) .tc r ∉ op.writes := by
  rcases hr with rfl | rfl | rfl <;>
    (simp only [hostOps0_43, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_44_args {r : Ref sig .tc} (hr : r = main_arg0 ∨ r = main_arg1 ∨ r = main_arg2) :
    (hostOps0_44 : List (HloOp τ sig (Elt F))).Forall fun op => Proc.devRef (τ := τ) .tc r ∉ op.writes := by
  rcases hr with rfl | rfl | rfl <;>
    (simp only [hostOps0_44, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_45_args {r : Ref sig .tc} (hr : r = main_arg0 ∨ r = main_arg1 ∨ r = main_arg2) :
    (hostOps0_45 : List (HloOp τ sig (Elt F))).Forall fun op => Proc.devRef (τ := τ) .tc r ∉ op.writes := by
  rcases hr with rfl | rfl | rfl <;>
    (simp only [hostOps0_45, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_46_args {r : Ref sig .tc} (hr : r = main_arg0 ∨ r = main_arg1 ∨ r = main_arg2) :
    (hostOps0_46 : List (HloOp τ sig (Elt F))).Forall fun op => Proc.devRef (τ := τ) .tc r ∉ op.writes := by
  rcases hr with rfl | rfl | rfl <;>
    (simp only [hostOps0_46, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_47_args {r : Ref sig .tc} (hr : r = main_arg0 ∨ r = main_arg1 ∨ r = main_arg2) :
    (hostOps0_47 : List (HloOp τ sig (Elt F))).Forall fun op => Proc.devRef (τ := τ) .tc r ∉ op.writes := by
  rcases hr with rfl | rfl | rfl <;>
    (simp only [hostOps0_47, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_48_args {r : Ref sig .tc} (hr : r = main_arg0 ∨ r = main_arg1 ∨ r = main_arg2) :
    (hostOps0_48 : List (HloOp τ sig (Elt F))).Forall fun op => Proc.devRef (τ := τ) .tc r ∉ op.writes := by
  rcases hr with rfl | rfl | rfl <;>
    (simp only [hostOps0_48, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_49_args {r : Ref sig .tc} (hr : r = main_arg0 ∨ r = main_arg1 ∨ r = main_arg2) :
    (hostOps0_49 : List (HloOp τ sig (Elt F))).Forall fun op => Proc.devRef (τ := τ) .tc r ∉ op.writes := by
  rcases hr with rfl | rfl | rfl <;>
    (simp only [hostOps0_49, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_50_args {r : Ref sig .tc} (hr : r = main_arg0 ∨ r = main_arg1 ∨ r = main_arg2) :
    (hostOps0_50 : List (HloOp τ sig (Elt F))).Forall fun op => Proc.devRef (τ := τ) .tc r ∉ op.writes := by
  rcases hr with rfl | rfl | rfl <;>
    (simp only [hostOps0_50, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_51_args {r : Ref sig .tc} (hr : r = main_arg0 ∨ r = main_arg1 ∨ r = main_arg2) :
    (hostOps0_51 : List (HloOp τ sig (Elt F))).Forall fun op => Proc.devRef (τ := τ) .tc r ∉ op.writes := by
  rcases hr with rfl | rfl | rfl <;>
    (simp only [hostOps0_51, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_52_args {r : Ref sig .tc} (hr : r = main_arg0 ∨ r = main_arg1 ∨ r = main_arg2) :
    (hostOps0_52 : List (HloOp τ sig (Elt F))).Forall fun op => Proc.devRef (τ := τ) .tc r ∉ op.writes := by
  rcases hr with rfl | rfl | rfl <;>
    (simp only [hostOps0_52, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_53_args {r : Ref sig .tc} (hr : r = main_arg0 ∨ r = main_arg1 ∨ r = main_arg2) :
    (hostOps0_53 : List (HloOp τ sig (Elt F))).Forall fun op => Proc.devRef (τ := τ) .tc r ∉ op.writes := by
  rcases hr with rfl | rfl | rfl <;>
    (simp only [hostOps0_53, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps0_54_args {r : Ref sig .tc} (hr : r = main_arg0 ∨ r = main_arg1 ∨ r = main_arg2) :
    (hostOps0_54 : List (HloOp τ sig (Elt F))).Forall fun op => Proc.devRef (τ := τ) .tc r ∉ op.writes := by
  rcases hr with rfl | rfl | rfl <;>
    (simp only [hostOps0_54, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)

/-! ## No stretch after the region writes an argument array or an array of the pipeline -/

theorem hostOps1_keep {r : Ref sig .tc}
    (hr : r = main_arg0 ∨ r = main_arg1 ∨ r = main_arg2 ∨ r = main_v189 ∨ r = main_v195 ∨ r = main_v196) :
    (hostOps1 : List (HloOp τ sig (Elt F))).Forall fun op => Proc.devRef (τ := τ) .tc r ∉ op.writes := by
  rcases hr with rfl | rfl | rfl | rfl | rfl | rfl <;>
    (simp only [hostOps1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_1_keep {r : Ref sig .tc}
    (hr : r = main_arg0 ∨ r = main_arg1 ∨ r = main_arg2 ∨ r = main_v189 ∨ r = main_v195 ∨ r = main_v196) :
    (hostOps1_1 : List (HloOp τ sig (Elt F))).Forall fun op => Proc.devRef (τ := τ) .tc r ∉ op.writes := by
  rcases hr with rfl | rfl | rfl | rfl | rfl | rfl <;>
    (simp only [hostOps1_1, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_2_keep {r : Ref sig .tc}
    (hr : r = main_arg0 ∨ r = main_arg1 ∨ r = main_arg2 ∨ r = main_v189 ∨ r = main_v195 ∨ r = main_v196) :
    (hostOps1_2 : List (HloOp τ sig (Elt F))).Forall fun op => Proc.devRef (τ := τ) .tc r ∉ op.writes := by
  rcases hr with rfl | rfl | rfl | rfl | rfl | rfl <;>
    (simp only [hostOps1_2, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_3_keep {r : Ref sig .tc}
    (hr : r = main_arg0 ∨ r = main_arg1 ∨ r = main_arg2 ∨ r = main_v189 ∨ r = main_v195 ∨ r = main_v196) :
    (hostOps1_3 : List (HloOp τ sig (Elt F))).Forall fun op => Proc.devRef (τ := τ) .tc r ∉ op.writes := by
  rcases hr with rfl | rfl | rfl | rfl | rfl | rfl <;>
    (simp only [hostOps1_3, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_4_keep {r : Ref sig .tc}
    (hr : r = main_arg0 ∨ r = main_arg1 ∨ r = main_arg2 ∨ r = main_v189 ∨ r = main_v195 ∨ r = main_v196) :
    (hostOps1_4 : List (HloOp τ sig (Elt F))).Forall fun op => Proc.devRef (τ := τ) .tc r ∉ op.writes := by
  rcases hr with rfl | rfl | rfl | rfl | rfl | rfl <;>
    (simp only [hostOps1_4, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_5_keep {r : Ref sig .tc}
    (hr : r = main_arg0 ∨ r = main_arg1 ∨ r = main_arg2 ∨ r = main_v189 ∨ r = main_v195 ∨ r = main_v196) :
    (hostOps1_5 : List (HloOp τ sig (Elt F))).Forall fun op => Proc.devRef (τ := τ) .tc r ∉ op.writes := by
  rcases hr with rfl | rfl | rfl | rfl | rfl | rfl <;>
    (simp only [hostOps1_5, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_6_keep {r : Ref sig .tc}
    (hr : r = main_arg0 ∨ r = main_arg1 ∨ r = main_arg2 ∨ r = main_v189 ∨ r = main_v195 ∨ r = main_v196) :
    (hostOps1_6 : List (HloOp τ sig (Elt F))).Forall fun op => Proc.devRef (τ := τ) .tc r ∉ op.writes := by
  rcases hr with rfl | rfl | rfl | rfl | rfl | rfl <;>
    (simp only [hostOps1_6, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_7_keep {r : Ref sig .tc}
    (hr : r = main_arg0 ∨ r = main_arg1 ∨ r = main_arg2 ∨ r = main_v189 ∨ r = main_v195 ∨ r = main_v196) :
    (hostOps1_7 : List (HloOp τ sig (Elt F))).Forall fun op => Proc.devRef (τ := τ) .tc r ∉ op.writes := by
  rcases hr with rfl | rfl | rfl | rfl | rfl | rfl <;>
    (simp only [hostOps1_7, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)
theorem hostOps1_8_keep {r : Ref sig .tc}
    (hr : r = main_arg0 ∨ r = main_arg1 ∨ r = main_arg2 ∨ r = main_v189 ∨ r = main_v195 ∨ r = main_v196) :
    (hostOps1_8 : List (HloOp τ sig (Elt F))).Forall fun op => Proc.devRef (τ := τ) .tc r ∉ op.writes := by
  rcases hr with rfl | rfl | rfl | rfl | rfl | rfl <;>
    (simp only [hostOps1_8, List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
     repeat' apply And.intro) <;>
    exact StableHlo.devRef_ne_of_ne (by decide)

/-! ## Gathered over the stretches -/

/-- The stretches before the region touch TensorCore references only. -/
theorem pre_sub : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54] : List (List (HloOp τ sig (Elt F)))).Forall
    fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub, hostOps0_51_sub, hostOps0_52_sub, hostOps0_53_sub, hostOps0_54_sub⟩

/-- They allocate nothing. -/
theorem pre_fresh : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54] : List (List (HloOp τ sig (Elt F)))).Forall
    fun ops => ops.Forall fun op => op.fresh = ∅ :=
  ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh, hostOps0_45_fresh, hostOps0_46_fresh, hostOps0_47_fresh, hostOps0_48_fresh, hostOps0_49_fresh, hostOps0_50_fresh, hostOps0_51_fresh, hostOps0_52_fresh, hostOps0_53_fresh, hostOps0_54_fresh⟩

/-- They write no argument array. -/
theorem pre_args {r : Ref sig .tc} (hr : r = main_arg0 ∨ r = main_arg1 ∨ r = main_arg2) : ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54] : List (List (HloOp τ sig (Elt F)))).Forall
    fun ops => ops.Forall fun op => Proc.devRef (τ := τ) .tc r ∉ op.writes :=
  ⟨hostOps0_args hr, hostOps0_1_args hr, hostOps0_2_args hr, hostOps0_3_args hr, hostOps0_4_args hr, hostOps0_5_args hr, hostOps0_6_args hr, hostOps0_7_args hr, hostOps0_8_args hr, hostOps0_9_args hr, hostOps0_10_args hr, hostOps0_11_args hr, hostOps0_12_args hr, hostOps0_13_args hr, hostOps0_14_args hr, hostOps0_15_args hr, hostOps0_16_args hr, hostOps0_17_args hr, hostOps0_18_args hr, hostOps0_19_args hr, hostOps0_20_args hr, hostOps0_21_args hr, hostOps0_22_args hr, hostOps0_23_args hr, hostOps0_24_args hr, hostOps0_25_args hr, hostOps0_26_args hr, hostOps0_27_args hr, hostOps0_28_args hr, hostOps0_29_args hr, hostOps0_30_args hr, hostOps0_31_args hr, hostOps0_32_args hr, hostOps0_33_args hr, hostOps0_34_args hr, hostOps0_35_args hr, hostOps0_36_args hr, hostOps0_37_args hr, hostOps0_38_args hr, hostOps0_39_args hr, hostOps0_40_args hr, hostOps0_41_args hr, hostOps0_42_args hr, hostOps0_43_args hr, hostOps0_44_args hr, hostOps0_45_args hr, hostOps0_46_args hr, hostOps0_47_args hr, hostOps0_48_args hr, hostOps0_49_args hr, hostOps0_50_args hr, hostOps0_51_args hr, hostOps0_52_args hr, hostOps0_53_args hr, hostOps0_54_args hr⟩

/-- The stretches after the region touch TensorCore references only. -/
theorem sfx_tc : ([hostOps1, hostOps1_1, hostOps1_2, hostOps1_3, hostOps1_4, hostOps1_5, hostOps1_6, hostOps1_7, hostOps1_8] : List (List (HloOp τ sig (Elt F)))).Forall
    fun ops => ops.Forall fun op => op.bufs ⊆ StableHlo.tcRefs τ sig :=
  ⟨hostOps1_sub, hostOps1_1_sub, hostOps1_2_sub, hostOps1_3_sub, hostOps1_4_sub, hostOps1_5_sub, hostOps1_6_sub, hostOps1_7_sub, hostOps1_8_sub⟩

/-- They allocate nothing. -/
theorem sfx_fresh₂ : ([hostOps1, hostOps1_1, hostOps1_2, hostOps1_3, hostOps1_4, hostOps1_5, hostOps1_6, hostOps1_7, hostOps1_8] : List (List (HloOp τ sig (Elt F)))).Forall
    fun ops => ops.Forall fun op => op.fresh = ∅ :=
  ⟨hostOps1_fresh, hostOps1_1_fresh, hostOps1_2_fresh, hostOps1_3_fresh, hostOps1_4_fresh, hostOps1_5_fresh, hostOps1_6_fresh, hostOps1_7_fresh, hostOps1_8_fresh⟩

/-- They write no argument array and no array of the pipeline. -/
theorem sfx_keep {r : Ref sig .tc}
    (hr : r = main_arg0 ∨ r = main_arg1 ∨ r = main_arg2 ∨ r = main_v189 ∨ r = main_v195 ∨ r = main_v196) : ([hostOps1, hostOps1_1, hostOps1_2, hostOps1_3, hostOps1_4, hostOps1_5, hostOps1_6, hostOps1_7, hostOps1_8] : List (List (HloOp τ sig (Elt F)))).Forall
    fun ops => ops.Forall fun op => Proc.devRef (τ := τ) .tc r ∉ op.writes :=
  ⟨hostOps1_keep hr, hostOps1_1_keep hr, hostOps1_2_keep hr, hostOps1_3_keep hr, hostOps1_4_keep hr, hostOps1_5_keep hr, hostOps1_6_keep hr, hostOps1_7_keep hr, hostOps1_8_keep hr⟩

end Cert.KernelIdeal.GenP

end
-- ==== Proof.FrameKernelIdealBody.lean ====
/- The kernel body's triple. The body reads its two input buffers whole, reads its output buffer whole (the value is
   not used) and stores one value, a function of the two inputs, through the rectangle that is the whole buffer. So
   after the body the inputs are as they were and the output buffer is the canonical reading of that one store, which
   covers the buffer. -/
import proofs.«140712_j5016521802106_2_alg».proof.Proof.LaunchKernelIdealP
import proofs.«140712_j5016521802106_2_alg».proof.Proof.Gen.KernelIdeal.Skeleton
import Idealize.ShloMosaic.Lib.Pipeline.FrameBody
import Idealize.ShloMosaic.Lib.Ring
import Idealize.ShloMosaic.Lib.Tactic

-- membership in a rectangle whose long axis has 16384 coordinates recurses once per coordinate
set_option maxRecDepth 65536

noncomputable section

namespace Cert.KernelIdeal.GenP
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole staging buffer as a rectangle: offset zero, unit strides, the buffer's extents. -/
abbrev r0_0 : Rect S4x16384 := Rect.unit (s := S4x16384) ![0, 0] S4x16384.size inb_S4x16384_S4x16384_0_0

/-! ## What the body leaves in the output window's buffer -/

/-- The output window's staging buffer after the body, from the two input windows' blocks: its one store as a piece. -/
def out0_2 (x0 x1 : Vec F S4x16384 .f32) : Vec F S4x16384 .f32 :=
  View.canon [⟨r0_0, k0_pay1 (View.ld x0 r0_0) (View.ld x1 r0_0)⟩]

/-- The store's rectangle tiles the buffer, so it covers it. -/
theorem cover0_2 (p0 : Vec F S4x16384 .f32) (y : S4x16384.Idx) :
    ∃ pc ∈ ([⟨r0_0, p0⟩] : List (View.Piece (Elt F) S4x16384 .f32)), y ∈ pc.1.set :=
  View.cover_of_tiled [⟨r0_0, p0⟩] S4x16384.size (by rfl) y

/-! ## The body's triple -/

set_option maxHeartbeats 1000000 in
/-- The kernel body on whole staging memrefs, the inputs' at contents `x0`, `x1` and the output's at anything, runs to
    the continuation holding the inputs' as they were and the output's at `out0_2 x0 x1`. -/
theorem sound_kernel (c : Dev nD) (E : Set ℕ) (i : grid0.Coords)
    (arg1 : Memref sig .tc .vmem S4x16384 .f32) (harg1 : arg1.IsWhole)
    (arg2 : Memref sig .tc .vmem S4x16384 .f32) (harg2 : arg2.IsWhole)
    (arg3 : Memref sig .tc .vmem S4x16384 .f32) (harg3 : arg3.IsWhole)
    (x0 : Vec F S4x16384 .f32) (x1 : Vec F S4x16384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__tv_elemwise_kernel i arg1 harg1 arg2 harg2 arg3 harg3) K := by
  simp only [cc0__tv_elemwise_kernel_eq_skeleton]; unfold cc0__tv_elemwise_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

end Cert.KernelIdeal.GenP

end
-- ==== Proof.FrameKernelIdeal.lean ====
/- The frame of @main: the host operations before the one region, the region, the host operations after it. The region
   is one pipeline over a grid of 11 points with two input windows and one output window; its body reads the inputs
   and stores a function of them over the whole output block. From any memory with zero counters every weakly fair
   execution terminates, and the three argument arrays end as launched: no host operation writes them and no window
   is cut from them. -/
import proofs.«140712_j5016521802106_2_alg».proof.Proof.LaunchKernelIdealP
import proofs.«140712_j5016521802106_2_alg».proof.Proof.Gen.KernelIdeal.Skeleton
import proofs.«140712_j5016521802106_2_alg».proof.Proof.Gen.KernelIdeal.Points
import proofs.«140712_j5016521802106_2_alg».proof.Proof.FrameKernelIdealHost
import proofs.«140712_j5016521802106_2_alg».proof.Proof.FrameKernelIdealBody
import Idealize.ShloMosaic.Lib.Pipeline.FrameBody
import Idealize.ShloMosaic.Lib.Pipeline.FrameSuffix
import Idealize.ShloMosaic.Lib.Ring
import Idealize.ShloMosaic.Lib.Tactic

set_option maxRecDepth 65536

noncomputable section

namespace Cert.KernelIdeal.GenP
open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: the launch memory after the host
    operations before the region, stretch by stretch. -/
abbrev V0 (c : Dev nD) : Valuation τ sig (Elt F) :=
  StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]) (fun b => m (c, b))
/-- The same read at a TensorCore reference. -/
abbrev V (c : Dev nD) (b : Ref sig .tc) : Buf (Elt F) ((c : Thread nD τ).loc b) := V0 m c (Proc.devRef .tc b)

/-- @main around the region: the host stretches before it, the region, the host stretches after it; it reduces to the
    region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8]) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54]
    [hostOps1, hostOps1_1, hostOps1_2, hostOps1_3, hostOps1_4, hostOps1_5, hostOps1_6, hostOps1_7, hostOps1_8] pre_sub pre_fresh main_chain

/-- The stretches after the region touch the pipeline's arrays and the bypassing buffers only: each operation's buffers
    are unscoped TensorCore references, and with nothing prefetched every such reference is one or the other. -/
theorem sfx_sub : ∀ ops ∈ ([hostOps1, hostOps1_1, hostOps1_2, hostOps1_3, hostOps1_4, hostOps1_5, hostOps1_6, hostOps1_7, hostOps1_8] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (forall_mem_of_forall₂ sfx_tc ops hops op hop)
/-- They allocate nothing. -/
theorem sfx_fresh : ∀ ops ∈ ([hostOps1, hostOps1_1, hostOps1_2, hostOps1_3, hostOps1_4, hostOps1_5, hostOps1_6, hostOps1_7, hostOps1_8] : List (List (HloOp τ sig (Elt F)))), ∀ op ∈ ops, op.fresh = ∅ :=
  forall_mem_of_forall₂ sfx_fresh₂
/-- Each array of the pipeline is one of the three the windows are cut from. -/
theorem arrRef_cases : ∀ w, Pipeline.arrRef spec0 w = main_arg0 ∨ Pipeline.arrRef spec0 w = main_arg1 ∨ Pipeline.arrRef spec0 w = main_arg2
    ∨ Pipeline.arrRef spec0 w = main_v189 ∨ Pipeline.arrRef spec0 w = main_v195 ∨ Pipeline.arrRef spec0 w = main_v196 := by decide
/-- And the stretches after the region write no array of the pipeline. -/
theorem sfx_keeps : ∀ ops ∈ ([hostOps1, hostOps1_1, hostOps1_2, hostOps1_3, hostOps1_4, hostOps1_5, hostOps1_6, hostOps1_7, hostOps1_8] : List (List (HloOp τ sig (Elt F)))), ∀ op ∈ ops,
    ∀ w, Proc.devRef .tc (Pipeline.arrRef spec0 w) ∉ op.writes :=
  fun ops hops op hop w => forall_mem_of_forall₂ (sfx_keep (F := F) (arrRef_cases w)) ops hops op hop

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _
    (forall_mem_flatten_of_forall₂ (pre_args (F := F) (.inl rfl)))

/-- No host operation after the region writes `main_arg0`, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg0 = m ((c : Thread nD τ).loc main_arg0) := by
  unfold Pipeline.afterTail₀
  rw [StableHlo.after_of_forall_not_mem (b := Proc.devRef .tc main_arg0) _ _
      (forall_mem_flatten_of_forall₂ (sfx_keep (F := F) (.inl rfl))),
    Pipeline.withArrays_of_ne _ c (V0 m c) _ main_arg0 (by exact (by decide : ∀ w, Pipeline.arrRef spec0 w ≠ main_arg0))]
  exact V_main_arg0 m c

/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _
    (forall_mem_flatten_of_forall₂ (pre_args (F := F) (.inr (.inl rfl))))

/-- No host operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg1 = m ((c : Thread nD τ).loc main_arg1) := by
  unfold Pipeline.afterTail₀
  rw [StableHlo.after_of_forall_not_mem (b := Proc.devRef .tc main_arg1) _ _
      (forall_mem_flatten_of_forall₂ (sfx_keep (F := F) (.inr (.inl rfl)))),
    Pipeline.withArrays_of_ne _ c (V0 m c) _ main_arg1 (by exact (by decide : ∀ w, Pipeline.arrRef spec0 w ≠ main_arg1))]
  exact V_main_arg1 m c

/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _
    (forall_mem_flatten_of_forall₂ (pre_args (F := F) (.inr (.inr rfl))))

/-- No host operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8] c main_arg2 = m ((c : Thread nD τ).loc main_arg2) := by
  unfold Pipeline.afterTail₀
  rw [StableHlo.after_of_forall_not_mem (b := Proc.devRef .tc main_arg2) _ _
      (forall_mem_flatten_of_forall₂ (sfx_keep (F := F) (.inr (.inr (.inl rfl))))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s (`hA`) and whose body leaves the block in place (`hafter`): unfetched means the index has not
    moved; the window is uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof data
    whose array is `V`'s (`hA`) and whose body leaves the block in place (`hafter`): unfetched means the index has not
    moved; the window is uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the argument arrays
    (none of which a window stages, so each is what the stretches after the region leave of the region-entry contents)
    is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

/-! ## The pipeline's proof data -/

/-- The proof data of the one pipeline on core `c`: the arrays as the region finds them (`V`); after the body at point
    `t` each input's buffer at its block and the output's at `out0_2` of the input blocks; the invariant the scoped rest
    and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

/-- The proof data's arrays are the region-entry contents: the definition projected, so that `V`, a fold over the host
    operations before the region, is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the run theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the proof data give and every
    other unscoped buffer as the stretches after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8]) (hsub := sfx_sub) (hfresh := sfx_fresh) (hkeep := sfx_keeps)
    (hmain := hmain m Variants.none) (hA := A_eq m) (hΦ := fun _ _ => rfl)

/-- info: 'Cert.KernelIdeal.GenP.run_main' depends on axioms: [propext, Classical.choice, Quot.sound] -/
#guard_msgs in #print axioms run_main

/-- The frame: from any memory with zero counters @main terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.GenP

end
-- ==== Proof.LibSeqChain.lean ====
/-
  Two facts about straight lines of host operations.

  `seq ops` runs the operations of a list one after the other, and `after ops V` is what the buffers hold afterwards, from
  contents `V`. Running `l₁ ++ l₂` is running `l₁` and then `l₂`, so
  * `after (l₁ ++ l₂) V = after l₂ (after l₁ V)` (`after_append`), and
  * a chain of straight lines is the straight line of their concatenation,
    `chain [seq l₁, …, seq lₙ] = seq (l₁ ++ … ++ lₙ)` (`chain_map_seq`).
  With the second, a host program that calls small outlined functions can be stated as a chain with one item per call
  and one per stretch between calls, each call's body rewritten to the straight line of its own operations, and the
  whole then read as ONE straight line; with the first, that line's effect is read stretch by stretch.
-/
import Idealize.ShloMosaic.Lib.StableHlo.Run
import Idealize.ShloMosaic.Lib.Pipeline.Regions

namespace Idealize.ShloMosaic.StableHlo

open Idealize.SL.Sem

/-- What the buffers hold after `l₁ ++ l₂` is what they hold after `l₂`, run from what they hold after `l₁`. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A chain of straight lines is the straight line of their concatenation. -/
theorem chain_map_seq {nD : Nat} {τ : Topo} {sig : RefSig} {Val : EltTy → Type} {Λ : Labels} (ls : List (List (HloOp τ sig Val))) :
    Pipeline.chain (ls.map (seq (nD := nD) (Λ := Λ))) = seq ls.flatten := by
  induction ls with
  | nil => rfl
  | cons l ls ih => rw [List.map_cons, Pipeline.chain_cons, ih, List.flatten_cons, seq_append]

end Idealize.ShloMosaic.StableHlo
-- ==== Proof.RefRunLib.lean ====
/-
  Facts about straight lines of host operations used to read a long host-only program as ONE straight line.

  * `chainK_map_seq`: a chain of straight lines that ENDS in a straight line (a window of a program whose last
    statement is in tail position) is the straight line of the concatenation.
  * `forall_flatten`, `forall_append`: a property of every operation of each stretch is a property of every operation
    of the concatenation.
  * `KeepsL A op`: the operation `op` writes none of the references of the list `A`; an operation whose written set
    is the singleton of a reference outside `A` has it (`keepsL_of_writes`), and a line all of whose operations
    have it leaves every reference of `A` at its contents (`after_of_keepsL`).
-/
import Idealize.ShloMosaic.Lib.StableHlo.Run
import Idealize.ShloMosaic.Lib.Pipeline.Regions
import proofs.«140712_j5016521802106_2_alg».proof.Proof.LibSeqChain

namespace Cert.ReferenceIdeal.RefRun

open Idealize.ShloMosaic Idealize.SL.Sem

section Lines

variable {nD : Nat} {τ : Topo} {sig : RefSig} {Val : EltTy → Type} {Λ : Labels}

/-- A chain of straight lines ending in the straight line `l` is the straight line of their concatenation. -/
theorem chainK_map_seq (ls : List (List (HloOp τ sig Val))) (l : List (HloOp τ sig Val)) :
    Pipeline.chainK (ls.map (StableHlo.seq (nD := nD) (Λ := Λ))) (StableHlo.seq l) = StableHlo.seq (ls.flatten ++ l) := by
  induction ls with
  | nil => rfl
  | cons a ls ih =>
    rw [List.map_cons, List.flatten_cons, List.append_assoc, StableHlo.seq_append, ← ih]
    rfl

/-- A property of every element of each list is a property of every element of their concatenation. -/
theorem forall_flatten {α : Type} {p : α → Prop} {Ls : List (List α)} (h : Ls.Forall fun l => l.Forall p) :
    Ls.flatten.Forall p :=
  List.forall_iff_forall_mem.2 fun x hx => by
    obtain ⟨l, hl, hxl⟩ := List.mem_flatten.1 hx
    exact List.forall_iff_forall_mem.1 (List.forall_iff_forall_mem.1 h l hl) x hxl

theorem forall_append {α : Type} {p : α → Prop} {l₁ l₂ : List α} (h₁ : l₁.Forall p) (h₂ : l₂.Forall p) :
    (l₁ ++ l₂).Forall p :=
  List.forall_iff_forall_mem.2 fun x hx => (List.mem_append.1 hx).elim
    (List.forall_iff_forall_mem.1 h₁ x) (List.forall_iff_forall_mem.1 h₂ x)

/-- The operation writes none of the references of `A`. -/
def KeepsL (A : List (Ref sig .tc)) (op : HloOp τ sig Val) : Prop :=
  ∀ r ∈ A, Proc.devRef (τ := τ) .tc r ∉ op.writes

/-- An operation that writes exactly the reference `y`, which is not in `A`, writes none of `A`. -/
theorem keepsL_of_writes {A : List (Ref sig .tc)} {op : HloOp τ sig Val} (y : Ref sig .tc)
    (hw : op.writes = {Proc.devRef .tc y}) (hy : y ∉ A) : KeepsL A op := fun r hr hmem => by
  rw [hw, Finset.mem_singleton] at hmem
  exact hy (Proc.devRef_injective _ hmem ▸ hr)

/-- A line of operations none of which writes a reference of `A` leaves every reference of `A` at its contents. -/
theorem after_of_keepsL {A : List (Ref sig .tc)} (ops : List (HloOp τ sig Val)) (V : Valuation τ sig Val)
    (h : ops.Forall (KeepsL A)) {r : Ref sig .tc} (hr : r ∈ A) :
    StableHlo.after ops V (Proc.devRef .tc r) = V (Proc.devRef .tc r) :=
  StableHlo.after_of_forall_not_mem ops V fun op hop => List.forall_iff_forall_mem.1 h op hop r hr

end Lines

end Cert.ReferenceIdeal.RefRun
-- ==== Proof.RefRunArgs.lean ====
/-
  The reference program's three arguments, as a list: what no operation of the program writes.
-/
import proofs.«140712_j5016521802106_2_alg».proof.Proof.Gen.ReferenceIdeal
import proofs.«140712_j5016521802106_2_alg».proof.Proof.RefRunLib

namespace Cert.ReferenceIdeal.RefRun

open Cert.ReferenceIdeal Idealize.ShloMosaic

/-- The program's arguments. -/
abbrev argRefs : List (Ref sig .tc) := [main_arg0, main_arg1, main_arg2]

end Cert.ReferenceIdeal.RefRun
-- ==== Proof.RefRunW0.lean ====
/-
  Window 0 of the reference program's @main (its statements 1 … 60) as straight lines of host operations: one list per
  stretch between calls of outlined functions and one per call (the callee's operations over the call's own buffers,
  a call nested in it inlined in place), each with the three side facts a run of the whole needs (the operations touch
  TensorCore references only, determine their results, and write none of the program's arguments), and the equation of
  the window with the straight line of their concatenation.
-/
import proofs.«140712_j5016521802106_2_alg».proof.Proof.Gen.ReferenceIdeal
import proofs.«140712_j5016521802106_2_alg».proof.Proof.RefRunArgs

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- 1 host operation of @main, window 0 (statements 1 … 60), in order. -/
abbrev main_part0_ops0 : List (HloOp τ sig (Elt F)) :=
  [ StableHlo.nullary main_c (constantI S_ 32 256#32) ]
/-- Each touches TensorCore references only. -/
theorem main_part0_ops0_sub : (main_part0_ops0 : List (HloOp τ sig (Elt F))).Forall fun op => op.bufs ⊆ StableHlo.tcRefs τ sig :=
  StableHlo.nullary_bufs_sub ..
/-- Each determines its results. -/
theorem main_part0_ops0_fresh : (main_part0_ops0 : List (HloOp τ sig (Elt F))).Forall fun op => op.fresh = ∅ :=
  rfl
/-- None writes an argument of the program. -/
theorem main_part0_ops0_keeps : (main_part0_ops0 : List (HloOp τ sig (Elt F))).Forall (KeepsL argRefs) :=
  keepsL_of_writes main_c rfl (by decide)

/-- 21 host operations of @remainder (main_call0), window 0 (statements 1 … 60), in order. -/
abbrev main_part0_ops1 : List (HloOp τ sig (Elt F)) :=
  [ StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.unary main_call0_call0.v0 (.of main_call0_v3 : StableHlo.TRef sig ⟨S167772, .i32⟩) (broadcastInDim S167772 ![] bcast_S_S167772),
    StableHlo.TRef.binary (.of main_arg2 : StableHlo.TRef sig ⟨S167772, .i32⟩) (.of main_call0_v3 : StableHlo.TRef sig ⟨S167772, .i32⟩) (.of main_call0_v4 : StableHlo.TRef sig ⟨S167772, .i32⟩) Host.remsi,
    StableHlo.TRef.nullary (.of main_call0_c_1 : StableHlo.TRef sig ⟨S_, .i32⟩) (constantI S_ 32 0#32),
    StableHlo.TRef.unary (.of main_call0_c_1 : StableHlo.TRef sig ⟨S_, .i32⟩) (.of main_call0_v5 : StableHlo.TRef sig ⟨S167772, .i32⟩) (broadcastInDim S167772 ![] bcast_S_S167772),
    StableHlo.TRef.binary (.of main_call0_v4 : StableHlo.TRef sig ⟨S167772, .i32⟩) (.of main_call0_v5 : StableHlo.TRef sig ⟨S167772, .i32⟩) (.of main_call0_v6 : StableHlo.TRef sig ⟨S167772, .i1⟩) (cmpi .ne),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v7 : StableHlo.TRef sig ⟨S167772, .i32⟩) (broadcastInDim S167772 ![] bcast_S_S167772),
    StableHlo.TRef.binary (.of main_call0_v4 : StableHlo.TRef sig ⟨S167772, .i32⟩) (.of main_call0_v7 : StableHlo.TRef sig ⟨S167772, .i32⟩) (.of main_call0_v8 : StableHlo.TRef sig ⟨S167772, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v9 : StableHlo.TRef sig ⟨S_, .i1⟩) (cmpi .slt),
    StableHlo.TRef.unary (.of main_call0_v9 : StableHlo.TRef sig ⟨S_, .i1⟩) (.of main_call0_v10 : StableHlo.TRef sig ⟨S167772, .i1⟩) (broadcastInDim S167772 ![] bcast_S_S167772),
    StableHlo.TRef.binary (.of main_call0_v8 : StableHlo.TRef sig ⟨S167772, .i1⟩) (.of main_call0_v10 : StableHlo.TRef sig ⟨S167772, .i1⟩) (.of main_call0_v11 : StableHlo.TRef sig ⟨S167772, .i1⟩) (cmpi .ne),
    StableHlo.TRef.binary (.of main_call0_v11 : StableHlo.TRef sig ⟨S167772, .i1⟩) (.of main_call0_v6 : StableHlo.TRef sig ⟨S167772, .i1⟩) (.of main_call0_v12 : StableHlo.TRef sig ⟨S167772, .i1⟩) andi,
    StableHlo.TRef.unary main_call0_call0.v0 (.of main_call0_v13 : StableHlo.TRef sig ⟨S167772, .i32⟩) (broadcastInDim S167772 ![] bcast_S_S167772),
    StableHlo.TRef.binary (.of main_call0_v4 : StableHlo.TRef sig ⟨S167772, .i32⟩) (.of main_call0_v13 : StableHlo.TRef sig ⟨S167772, .i32⟩) (.of main_call0_v14 : StableHlo.TRef sig ⟨S167772, .i32⟩) addi,
    StableHlo.TRef.ternary (.of main_call0_v12 : StableHlo.TRef sig ⟨S167772, .i1⟩) (.of main_call0_v14 : StableHlo.TRef sig ⟨S167772, .i32⟩) (.of main_call0_v4 : StableHlo.TRef sig ⟨S167772, .i32⟩) (.of main_v0 : StableHlo.TRef sig ⟨S167772, .i32⟩) select ]
/-- Each touches TensorCore references only. -/
theorem main_part0_ops1_sub : (main_part0_ops1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- Each determines its results. -/
theorem main_part0_ops1_fresh : (main_part0_ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- None writes an argument of the program. -/
theorem main_part0_ops1_keeps : (main_part0_ops1 : List (HloOp τ sig (Elt F))).Forall (KeepsL argRefs) :=
  ⟨keepsL_of_writes main_call0_v0 rfl (by decide), keepsL_of_writes main_call0_c rfl (by decide), keepsL_of_writes main_call0_v1 rfl (by decide), keepsL_of_writes main_call0_c_0 rfl (by decide), keepsL_of_writes main_call0_v2 rfl (by decide), keepsL_of_writes main_call0_v3 rfl (by decide), keepsL_of_writes main_call0_v4 rfl (by decide), keepsL_of_writes main_call0_c_1 rfl (by decide), keepsL_of_writes main_call0_v5 rfl (by decide), keepsL_of_writes main_call0_v6 rfl (by decide), keepsL_of_writes main_call0_c_2 rfl (by decide), keepsL_of_writes main_call0_v7 rfl (by decide), keepsL_of_writes main_call0_v8 rfl (by decide), keepsL_of_writes main_call0_c_3 rfl (by decide), keepsL_of_writes main_call0_v9 rfl (by decide), keepsL_of_writes main_call0_v10 rfl (by decide), keepsL_of_writes main_call0_v11 rfl (by decide), keepsL_of_writes main_call0_v12 rfl (by decide), keepsL_of_writes main_call0_v13 rfl (by decide), keepsL_of_writes main_call0_v14 rfl (by decide), keepsL_of_writes main_v0 rfl (by decide)⟩

/-- 1 host operation of @main, window 0 (statements 1 … 60), in order. -/
abbrev main_part0_ops2 : List (HloOp τ sig (Elt F)) :=
  [ StableHlo.nullary main_c_0 (constantI S_ 32 256#32) ]
/-- Each touches TensorCore references only. -/
theorem main_part0_ops2_sub : (main_part0_ops2 : List (HloOp τ sig (Elt F))).Forall fun op => op.bufs ⊆ StableHlo.tcRefs τ sig :=
  StableHlo.nullary_bufs_sub ..
/-- Each determines its results. -/
theorem main_part0_ops2_fresh : (main_part0_ops2 : List (HloOp τ sig (Elt F))).Forall fun op => op.fresh = ∅ :=
  rfl
/-- None writes an argument of the program. -/
theorem main_part0_ops2_keeps : (main_part0_ops2 : List (HloOp τ sig (Elt F))).Forall (KeepsL argRefs) :=
  keepsL_of_writes main_c_0 rfl (by decide)

/-- 17 host operations of @floor_divide (main_call1), window 0 (statements 1 … 60), in order. -/
abbrev main_part0_ops3 : List (HloOp τ sig (Elt F)) :=
  [ StableHlo.TRef.unary (.of main_c_0 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S167772, .i32⟩) (broadcastInDim S167772 ![] bcast_S_S167772),
    StableHlo.TRef.binary (.of main_arg2 : StableHlo.TRef sig ⟨S167772, .i32⟩) (.of main_call1_v1 : StableHlo.TRef sig ⟨S167772, .i32⟩) (.of main_call1_v2 : StableHlo.TRef sig ⟨S167772, .i32⟩) Host.divsi,
    StableHlo.TRef.unary (.of main_arg2 : StableHlo.TRef sig ⟨S167772, .i32⟩) (.of main_call1_v3 : StableHlo.TRef sig ⟨S167772, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S167772, .i32⟩) (broadcastInDim S167772 ![] bcast_S_S167772),
    StableHlo.TRef.binary (.of main_call1_v3 : StableHlo.TRef sig ⟨S167772, .i32⟩) (.of main_call1_v5 : StableHlo.TRef sig ⟨S167772, .i32⟩) (.of main_call1_v6 : StableHlo.TRef sig ⟨S167772, .i1⟩) (cmpi .ne),
    StableHlo.TRef.unary (.of main_call1_v0 : StableHlo.TRef sig ⟨S_, .i32⟩) (.of main_call1_v7 : StableHlo.TRef sig ⟨S167772, .i32⟩) (broadcastInDim S167772 ![] bcast_S_S167772),
    StableHlo.TRef.binary (.of main_arg2 : StableHlo.TRef sig ⟨S167772, .i32⟩) (.of main_call1_v7 : StableHlo.TRef sig ⟨S167772, .i32⟩) (.of main_call1_v8 : StableHlo.TRef sig ⟨S167772, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S167772, .i32⟩) (broadcastInDim S167772 ![] bcast_S_S167772),
    StableHlo.TRef.binary (.of main_call1_v8 : StableHlo.TRef sig ⟨S167772, .i32⟩) (.of main_call1_v9 : StableHlo.TRef sig ⟨S167772, .i32⟩) (.of main_call1_v10 : StableHlo.TRef sig ⟨S167772, .i1⟩) (cmpi .ne),
    StableHlo.TRef.binary (.of main_call1_v6 : StableHlo.TRef sig ⟨S167772, .i1⟩) (.of main_call1_v10 : StableHlo.TRef sig ⟨S167772, .i1⟩) (.of main_call1_v11 : StableHlo.TRef sig ⟨S167772, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S167772, .i32⟩) (broadcastInDim S167772 ![] bcast_S_S167772),
    StableHlo.TRef.binary (.of main_call1_v2 : StableHlo.TRef sig ⟨S167772, .i32⟩) (.of main_call1_v12 : StableHlo.TRef sig ⟨S167772, .i32⟩) (.of main_call1_v13 : StableHlo.TRef sig ⟨S167772, .i32⟩) subi,
    StableHlo.TRef.ternary (.of main_call1_v11 : StableHlo.TRef sig ⟨S167772, .i1⟩) (.of main_call1_v13 : StableHlo.TRef sig ⟨S167772, .i32⟩) (.of main_call1_v2 : StableHlo.TRef sig ⟨S167772, .i32⟩) (.of main_v1 : StableHlo.TRef sig ⟨S167772, .i32⟩) select ]
/-- Each touches TensorCore references only. -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- Each determines its results. -/
theorem main_part0_ops3_fresh : (main_part0_ops3 : List (HloOp τ sig (Elt F))).Forall fun op => op.fresh = ∅ :=
  ⟨rfl, rfl, rfl, rfl, rfl, rfl, rfl, rfl, rfl, rfl, rfl, rfl, rfl, rfl, rfl, rfl, rfl⟩
/-- None writes an argument of the program. -/
theorem main_part0_ops3_keeps : (main_part0_ops3 : List (HloOp τ sig (Elt F))).Forall (KeepsL argRefs) :=
  ⟨keepsL_of_writes main_call1_v0 rfl (by decide), keepsL_of_writes main_call1_v1 rfl (by decide), keepsL_of_writes main_call1_v2 rfl (by decide), keepsL_of_writes main_call1_v3 rfl (by decide), keepsL_of_writes main_call1_v4 rfl (by decide), keepsL_of_writes main_call1_v5 rfl (by decide), keepsL_of_writes main_call1_v6 rfl (by decide), keepsL_of_writes main_call1_v7 rfl (by decide), keepsL_of_writes main_call1_v8 rfl (by decide), keepsL_of_writes main_call1_c rfl (by decide), keepsL_of_writes main_call1_v9 rfl (by decide), keepsL_of_writes main_call1_v10 rfl (by decide), keepsL_of_writes main_call1_v11 rfl (by decide), keepsL_of_writes main_call1_c_0 rfl (by decide), keepsL_of_writes main_call1_v12 rfl (by decide), keepsL_of_writes main_call1_v13 rfl (by decide), keepsL_of_writes main_v1 rfl (by decide)⟩

/-- 1 host operation of @main, window 0 (statements 1 … 60), in order. -/
abbrev main_part0_ops4 : List (HloOp τ sig (Elt F)) :=
  [ StableHlo.nullary main_c_1 (constantI S_ 32 256#32) ]
/-- Each touches TensorCore references only. -/
theorem main_part0_ops4_sub : (main_part0_ops4 : List (HloOp τ sig (Elt F))).Forall fun op => op.bufs ⊆ StableHlo.tcRefs τ sig :=
  StableHlo.nullary_bufs_sub ..
/-- Each determines its results. -/
theorem main_part0_ops4_fresh : (main_part0_ops4 : List (HloOp τ sig (Elt F))).Forall fun op => op.fresh = ∅ :=
  rfl
/-- None writes an argument of the program. -/
theorem main_part0_ops4_keeps : (main_part0_ops4 : List (HloOp τ sig (Elt F))).Forall (KeepsL argRefs) :=
  keepsL_of_writes main_c_1 rfl (by decide)

/-- 21 host operations of @remainder_1 (main_call2), window 0 (statements 1 … 60), in order. -/
abbrev main_part0_ops5 : List (HloOp τ sig (Elt F)) :=
  [ StableHlo.TRef.unary (.of main_c_1 : StableHlo.TRef sig ⟨S_, .i32⟩) (.of main_call2_v0 : StableHlo.TRef sig ⟨S_, .i32⟩) id,
    StableHlo.TRef.nullary (.of main_call2_c : StableHlo.TRef sig ⟨S_, .i32⟩) (constantI S_ 32 0#32),
    StableHlo.TRef.binary (.of main_call2_v0 : StableHlo.TRef sig ⟨S_, .i32⟩) (.of main_call2_c : StableHlo.TRef sig ⟨S_, .i32⟩) (.of main_call2_v1 : StableHlo.TRef sig ⟨S_, .i1⟩) (cmpi .eq),
    StableHlo.TRef.nullary (.of main_call2_c_0 : StableHlo.TRef sig ⟨S_, .i32⟩) (constantI S_ 32 1#32),
    StableHlo.TRef.ternary (.of main_call2_v1 : StableHlo.TRef sig ⟨S_, .i1⟩) (.of main_call2_c_0 : StableHlo.TRef sig ⟨S_, .i32⟩) (.of main_call2_v0 : StableHlo.TRef sig ⟨S_, .i32⟩) (.of main_call2_v2 : StableHlo.TRef sig ⟨S_, .i32⟩) select,
    StableHlo.TRef.unary main_call2_call0.v0 (.of main_call2_v3 : StableHlo.TRef sig ⟨S167772, .i32⟩) (broadcastInDim S167772 ![] bcast_S_S167772),
    StableHlo.TRef.binary (.of main_v1 : StableHlo.TRef sig ⟨S167772, .i32⟩) (.of main_call2_v3 : StableHlo.TRef sig ⟨S167772, .i32⟩) (.of main_call2_v4 : StableHlo.TRef sig ⟨S167772, .i32⟩) Host.remsi,
    StableHlo.TRef.nullary (.of main_call2_c_1 : StableHlo.TRef sig ⟨S_, .i32⟩) (constantI S_ 32 0#32),
    StableHlo.TRef.unary (.of main_call2_c_1 : StableHlo.TRef sig ⟨S_, .i32⟩) (.of main_call2_v5 : StableHlo.TRef sig ⟨S167772, .i32⟩) (broadcastInDim S167772 ![] bcast_S_S167772),
    StableHlo.TRef.binary (.of main_call2_v4 : StableHlo.TRef sig ⟨S167772, .i32⟩) (.of main_call2_v5 : StableHlo.TRef sig ⟨S167772, .i32⟩) (.of main_call2_v6 : StableHlo.TRef sig ⟨S167772, .i1⟩) (cmpi .ne),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v7 : StableHlo.TRef sig ⟨S167772, .i32⟩) (broadcastInDim S167772 ![] bcast_S_S167772),
    StableHlo.TRef.binary (.of main_call2_v4 : StableHlo.TRef sig ⟨S167772, .i32⟩) (.of main_call2_v7 : StableHlo.TRef sig ⟨S167772, .i32⟩) (.of main_call2_v8 : StableHlo.TRef sig ⟨S167772, .i1⟩) (cmpi .slt),
    StableHlo.TRef.nullary (.of main_call2_c_3 : StableHlo.TRef sig ⟨S_, .i32⟩) (constantI S_ 32 0#32),
    StableHlo.TRef.binary main_call2_call0.v0 (.of main_call2_c_3 : StableHlo.TRef sig ⟨S_, .i32⟩) (.of main_call2_v9 : StableHlo.TRef sig ⟨S_, .i1⟩) (cmpi .slt),
    StableHlo.TRef.unary (.of main_call2_v9 : StableHlo.TRef sig ⟨S_, .i1⟩) (.of main_call2_v10 : StableHlo.TRef sig ⟨S167772, .i1⟩) (broadcastInDim S167772 ![] bcast_S_S167772),
    StableHlo.TRef.binary (.of main_call2_v8 : StableHlo.TRef sig ⟨S167772, .i1⟩) (.of main_call2_v10 : StableHlo.TRef sig ⟨S167772, .i1⟩) (.of main_call2_v11 : StableHlo.TRef sig ⟨S167772, .i1⟩) (cmpi .ne),
    StableHlo.TRef.binary (.of main_call2_v11 : StableHlo.TRef sig ⟨S167772, .i1⟩) (.of main_call2_v6 : StableHlo.TRef sig ⟨S167772, .i1⟩) (.of main_call2_v12 : StableHlo.TRef sig ⟨S167772, .i1⟩) andi,
    StableHlo.TRef.unary main_call2_call0.v0 (.of main_call2_v13 : StableHlo.TRef sig ⟨S167772, .i32⟩) (broadcastInDim S167772 ![] bcast_S_S167772),
    StableHlo.TRef.binary (.of main_call2_v4 : StableHlo.TRef sig ⟨S167772, .i32⟩) (.of main_call2_v13 : StableHlo.TRef sig ⟨S167772, .i32⟩) (.of main_call2_v14 : StableHlo.TRef sig ⟨S167772, .i32⟩) addi,
    StableHlo.TRef.ternary (.of main_call2_v12 : StableHlo.TRef sig ⟨S167772, .i1⟩) (.of main_call2_v14 : StableHlo.TRef sig ⟨S167772, .i32⟩) (.of main_call2_v4 : StableHlo.TRef sig ⟨S167772, .i32⟩) (.of main_v2 : StableHlo.TRef sig ⟨S167772, .i32⟩) select ]
/-- Each touches TensorCore references only. -/
theorem main_part0_ops5_sub : (main_part0_ops5 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- Each determines its results. -/
theorem main_part0_ops5_fresh : (main_part0_ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- None writes an argument of the program. -/
theorem main_part0_ops5_keeps : (main_part0_ops5 : List (HloOp τ sig (Elt F))).Forall (KeepsL argRefs) :=
  ⟨keepsL_of_writes main_call2_v0 rfl (by decide), keepsL_of_writes main_call2_c rfl (by decide), keepsL_of_writes main_call2_v1 rfl (by decide), keepsL_of_writes main_call2_c_0 rfl (by decide), keepsL_of_writes main_call2_v2 rfl (by decide), keepsL_of_writes main_call2_v3 rfl (by decide), keepsL_of_writes main_call2_v4 rfl (by decide), keepsL_of_writes main_call2_c_1 rfl (by decide), keepsL_of_writes main_call2_v5 rfl (by decide), keepsL_of_writes main_call2_v6 rfl (by decide), keepsL_of_writes main_call2_c_2 rfl (by decide), keepsL_of_writes main_call2_v7 rfl (by decide), keepsL_of_writes main_call2_v8 rfl (by decide), keepsL_of_writes main_call2_c_3 rfl (by decide), keepsL_of_writes main_call2_v9 rfl (by decide), keepsL_of_writes main_call2_v10 rfl (by decide), keepsL_of_writes main_call2_v11 rfl (by decide), keepsL_of_writes main_call2_v12 rfl (by decide), keepsL_of_writes main_call2_v13 rfl (by decide), keepsL_of_writes main_call2_v14 rfl (by decide), keepsL_of_writes main_v2 rfl (by decide)⟩

/-- 1 host operation of @main, window 0 (statements 1 … 60), in order. -/
abbrev main_part0_ops6 : List (HloOp τ sig (Elt F)) :=
  [ StableHlo.nullary main_c_2 (constantI S_ 32 65536#32) ]
/-- Each touches TensorCore references only. -/
theorem main_part0_ops6_sub : (main_part0_ops6 : List (HloOp τ sig (Elt F))).Forall fun op => op.bufs ⊆ StableHlo.tcRefs τ sig :=
  StableHlo.nullary_bufs_sub ..
/-- Each determines its results. -/
theorem main_part0_ops6_fresh : (main_part0_ops6 : List (HloOp τ sig (Elt F))).Forall fun op => op.fresh = ∅ :=
  rfl
/-- None writes an argument of the program. -/
theorem main_part0_ops6_keeps : (main_part0_ops6 : List (HloOp τ sig (Elt F))).Forall (KeepsL argRefs) :=
  keepsL_of_writes main_c_2 rfl (by decide)

/-- 17 host operations of @floor_divide (main_call3), window 0 (statements 1 … 60), in order. -/
abbrev main_part0_ops7 : List (HloOp τ sig (Elt F)) :=
  [ StableHlo.TRef.unary (.of main_c_2 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S167772, .i32⟩) (broadcastInDim S167772 ![] bcast_S_S167772),
    StableHlo.TRef.binary (.of main_arg2 : StableHlo.TRef sig ⟨S167772, .i32⟩) (.of main_call3_v1 : StableHlo.TRef sig ⟨S167772, .i32⟩) (.of main_call3_v2 : StableHlo.TRef sig ⟨S167772, .i32⟩) Host.divsi,
    StableHlo.TRef.unary (.of main_arg2 : StableHlo.TRef sig ⟨S167772, .i32⟩) (.of main_call3_v3 : StableHlo.TRef sig ⟨S167772, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S167772, .i32⟩) (broadcastInDim S167772 ![] bcast_S_S167772),
    StableHlo.TRef.binary (.of main_call3_v3 : StableHlo.TRef sig ⟨S167772, .i32⟩) (.of main_call3_v5 : StableHlo.TRef sig ⟨S167772, .i32⟩) (.of main_call3_v6 : StableHlo.TRef sig ⟨S167772, .i1⟩) (cmpi .ne),
    StableHlo.TRef.unary (.of main_call3_v0 : StableHlo.TRef sig ⟨S_, .i32⟩) (.of main_call3_v7 : StableHlo.TRef sig ⟨S167772, .i32⟩) (broadcastInDim S167772 ![] bcast_S_S167772),
    StableHlo.TRef.binary (.of main_arg2 : StableHlo.TRef sig ⟨S167772, .i32⟩) (.of main_call3_v7 : StableHlo.TRef sig ⟨S167772, .i32⟩) (.of main_call3_v8 : StableHlo.TRef sig ⟨S167772, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S167772, .i32⟩) (broadcastInDim S167772 ![] bcast_S_S167772),
    StableHlo.TRef.binary (.of main_call3_v8 : StableHlo.TRef sig ⟨S167772, .i32⟩) (.of main_call3_v9 : StableHlo.TRef sig ⟨S167772, .i32⟩) (.of main_call3_v10 : StableHlo.TRef sig ⟨S167772, .i1⟩) (cmpi .ne),
    StableHlo.TRef.binary (.of main_call3_v6 : StableHlo.TRef sig ⟨S167772, .i1⟩) (.of main_call3_v10 : StableHlo.TRef sig ⟨S167772, .i1⟩) (.of main_call3_v11 : StableHlo.TRef sig ⟨S167772, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S167772, .i32⟩) (broadcastInDim S167772 ![] bcast_S_S167772),
    StableHlo.TRef.binary (.of main_call3_v2 : StableHlo.TRef sig ⟨S167772, .i32⟩) (.of main_call3_v12 : StableHlo.TRef sig ⟨S167772, .i32⟩) (.of main_call3_v13 : StableHlo.TRef sig ⟨S167772, .i32⟩) subi,
    StableHlo.TRef.ternary (.of main_call3_v11 : StableHlo.TRef sig ⟨S167772, .i1⟩) (.of main_call3_v13 : StableHlo.TRef sig ⟨S167772, .i32⟩) (.of main_call3_v2 : StableHlo.TRef sig ⟨S167772, .i32⟩) (.of main_v3 : StableHlo.TRef sig ⟨S167772, .i32⟩) select ]
/-- Each touches TensorCore references only. -/
theorem main_part0_ops7_sub : (main_part0_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- Each determines its results. -/
theorem main_part0_ops7_fresh : (main_part0_ops7 : List (HloOp τ sig (Elt F))).Forall fun op => op.fresh = ∅ :=
  ⟨rfl, rfl, rfl, rfl, rfl, rfl, rfl, rfl, rfl, rfl, rfl, rfl, rfl, rfl, rfl, rfl, rfl⟩
/-- None writes an argument of the program. -/
theorem main_part0_ops7_keeps : (main_part0_ops7 : List (HloOp τ sig (Elt F))).Forall (KeepsL argRefs) :=
  ⟨keepsL_of_writes main_call3_v0 rfl (by decide), keepsL_of_writes main_call3_v1 rfl (by decide), keepsL_of_writes main_call3_v2 rfl (by decide), keepsL_of_writes main_call3_v3 rfl (by decide), keepsL_of_writes main_call3_v4 rfl (by decide), keepsL_of_writes main_call3_v5 rfl (by decide), keepsL_of_writes main_call3_v6 rfl (by decide), keepsL_of_writes main_call3_v7 rfl (by decide), keepsL_of_writes main_call3_v8 rfl (by decide), keepsL_of_writes main_call3_c rfl (by decide), keepsL_of_writes main_call3_v9 rfl (by decide), keepsL_of_writes main_call3_v10 rfl (by decide), keepsL_of_writes main_call3_v11 rfl (by decide), keepsL_of_writes main_call3_c_0 rfl (by decide), keepsL_of_writes main_call3_v12 rfl (by decide), keepsL_of_writes main_call3_v13 rfl (by decide), keepsL_of_writes main_v3 rfl (by decide)⟩

/-- 49 host operations of @main, window 0 (statements 1 … 60), in order. -/
abbrev main_part0_ops8 : List (HloOp τ sig (Elt F)) :=
  ( StableHlo.nullary main_c_3 (constantI S_ 32 1#32)
  :: StableHlo.unary main_c_3 main_v4 (broadcastInDim S167772 ![] bcast_S_S167772 : (⟨S_, .i32⟩ : BufTy).Contents (Elt F) → (⟨S167772, .i32⟩ : BufTy).Contents (Elt F))
  :: StableHlo.binary main_v3 main_v4 main_v5 (addi : (⟨S167772, .i32⟩ : BufTy).Contents (Elt F) → (⟨S167772, .i32⟩ : BufTy).Contents (Elt F) → (⟨S167772, .i32⟩ : BufTy).Contents (Elt F))
  :: StableHlo.nullary main_c_4 (constantI S_ 32 256#32)
  :: StableHlo.unary main_c_4 main_v6 (broadcastInDim S167772 ![] bcast_S_S167772 : (⟨S_, .i32⟩ : BufTy).Contents (Elt F) → (⟨S167772, .i32⟩ : BufTy).Contents (Elt F))
  :: StableHlo.binary main_v5 main_v6 main_v7 (cmpi .slt : (⟨S167772, .i32⟩ : BufTy).Contents (Elt F) → (⟨S167772, .i32⟩ : BufTy).Contents (Elt F) → (⟨S167772, .i1⟩ : BufTy).Contents (Elt F))
  :: StableHlo.nullary main_c_5 (constantI S_ 32 1#32)
  :: StableHlo.unary main_c_5 main_v8 (broadcastInDim S167772 ![] bcast_S_S167772 : (⟨S_, .i32⟩ : BufTy).Contents (Elt F) → (⟨S167772, .i32⟩ : BufTy).Contents (Elt F))
  :: StableHlo.binary main_v2 main_v8 main_v9 (addi : (⟨S167772, .i32⟩ : BufTy).Contents (Elt F) → (⟨S167772, .i32⟩ : BufTy).Contents (Elt F) → (⟨S167772, .i32⟩ : BufTy).Contents (Elt F))
  :: StableHlo.nullary main_c_6 (constantI S_ 32 256#32)
  :: StableHlo.unary main_c_6 main_v10 (broadcastInDim S167772 ![] bcast_S_S167772 : (⟨S_, .i32⟩ : BufTy).Contents (Elt F) → (⟨S167772, .i32⟩ : BufTy).Contents (Elt F))
  :: StableHlo.binary main_v9 main_v10 main_v11 (cmpi .slt : (⟨S167772, .i32⟩ : BufTy).Contents (Elt F) → (⟨S167772, .i32⟩ : BufTy).Contents (Elt F) → (⟨S167772, .i1⟩ : BufTy).Contents (Elt F))
  :: StableHlo.nullary main_c_7 (constantI S_ 32 1#32)
  :: StableHlo.unary main_c_7 main_v12 (broadcastInDim S167772 ![] bcast_S_S167772 : (⟨S_, .i32⟩ : BufTy).Contents (Elt F) → (⟨S167772, .i32⟩ : BufTy).Contents (Elt F))
  :: StableHlo.binary main_v0 main_v12 main_v13 (addi : (⟨S167772, .i32⟩ : BufTy).Contents (Elt F) → (⟨S167772, .i32⟩ : BufTy).Contents (Elt F) → (⟨S167772, .i32⟩ : BufTy).Contents (Elt F))
  :: StableHlo.nullary main_c_8 (constantI S_ 32 256#32)
  :: StableHlo.unary main_c_8 main_v14 (broadcastInDim S167772 ![] bcast_S_S167772 : (⟨S_, .i32⟩ : BufTy).Contents (Elt F) → (⟨S167772, .i32⟩ : BufTy).Contents (Elt F))
  :: StableHlo.binary main_v13 main_v14 main_v15 (cmpi .slt : (⟨S167772, .i32⟩ : BufTy).Contents (Elt F) → (⟨S167772, .i32⟩ : BufTy).Contents (Elt F) → (⟨S167772, .i1⟩ : BufTy).Contents (Elt F))
  :: StableHlo.nullary main_c_9 (constantI S_ 32 0#32)
  :: StableHlo.unary main_c_9 main_v16 (broadcastInDim S167772 ![] bcast_S_S167772 : (⟨S_, .i32⟩ : BufTy).Contents (Elt F) → (⟨S167772, .i32⟩ : BufTy).Contents (Elt F))
  :: StableHlo.binary main_v3 main_v16 main_v17 (cmpi .slt : (⟨S167772, .i32⟩ : BufTy).Contents (Elt F) → (⟨S167772, .i32⟩ : BufTy).Contents (Elt F) → (⟨S167772, .i1⟩ : BufTy).Contents (Elt F))
  :: StableHlo.nullary main_c_10 (constantI S_ 32 256#32)
  :: StableHlo.unary main_c_10 main_v18 (broadcastInDim S167772 ![] bcast_S_S167772 : (⟨S_, .i32⟩ : BufTy).Contents (Elt F) → (⟨S167772, .i32⟩ : BufTy).Contents (Elt F))
  :: StableHlo.binary main_v3 main_v18 main_v19 (addi : (⟨S167772, .i32⟩ : BufTy).Contents (Elt F) → (⟨S167772, .i32⟩ : BufTy).Contents (Elt F) → (⟨S167772, .i32⟩ : BufTy).Contents (Elt F))
  :: StableHlo.ternary main_v17 main_v19 main_v3 main_v20 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F))
  :: StableHlo.nullary main_c_11 (constantI S_ 32 0#32)
  :: StableHlo.unary main_c_11 main_v21 (broadcastInDim S167772 ![] bcast_S_S167772 : (⟨S_, .i32⟩ : BufTy).Contents (Elt F) → (⟨S167772, .i32⟩ : BufTy).Contents (Elt F))
  :: StableHlo.binary main_v2 main_v21 main_v22 (cmpi .slt : (⟨S167772, .i32⟩ : BufTy).Contents (Elt F) → (⟨S167772, .i32⟩ : BufTy).Contents (Elt F) → (⟨S167772, .i1⟩ : BufTy).Contents (Elt F))
  :: StableHlo.nullary main_c_12 (constantI S_ 32 256#32)
  :: StableHlo.unary main_c_12 main_v23 (broadcastInDim S167772 ![] bcast_S_S167772 : (⟨S_, .i32⟩ : BufTy).Contents (Elt F) → (⟨S167772, .i32⟩ : BufTy).Contents (Elt F))
  :: StableHlo.binary main_v2 main_v23 main_v24 (addi : (⟨S167772, .i32⟩ : BufTy).Contents (Elt F) → (⟨S167772, .i32⟩ : BufTy).Contents (Elt F) → (⟨S167772, .i32⟩ : BufTy).Contents (Elt F))
  :: StableHlo.ternary main_v22 main_v24 main_v2 main_v25 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F))
  :: StableHlo.nullary main_c_13 (constantI S_ 32 0#32)
  :: StableHlo.unary main_c_13 main_v26 (broadcastInDim S167772 ![] bcast_S_S167772 : (⟨S_, .i32⟩ : BufTy).Contents (Elt F) → (⟨S167772, .i32⟩ : BufTy).Contents (Elt F))
  :: StableHlo.binary main_v0 main_v26 main_v27 (cmpi .slt : (⟨S167772, .i32⟩ : BufTy).Contents (Elt F) → (⟨S167772, .i32⟩ : BufTy).Contents (Elt F) → (⟨S167772, .i1⟩ : BufTy).Contents (Elt F))
  :: StableHlo.nullary main_c_14 (constantI S_ 32 256#32)
  :: StableHlo.unary main_c_14 main_v28 (broadcastInDim S167772 ![] bcast_S_S167772 : (⟨S_, .i32⟩ : BufTy).Contents (Elt F) → (⟨S167772, .i32⟩ : BufTy).Contents (Elt F))
  :: StableHlo.binary main_v0 main_v28 main_v29 (addi : (⟨S167772, .i32⟩ : BufTy).Contents (Elt F) → (⟨S167772, .i32⟩ : BufTy).Contents (Elt F) → (⟨S167772, .i32⟩ : BufTy).Contents (Elt F))
  :: StableHlo.ternary main_v27 main_v29 main_v0 main_v30 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F))
  :: StableHlo.unary main_v20 main_v31 (broadcastInDim S167772x1 ![0] bcast_S167772_S167772x1_0 : (⟨S167772, .i32⟩ : BufTy).Contents (Elt F) → (⟨S167772x1, .i32⟩ : BufTy).Contents (Elt F))
  :: StableHlo.unary main_v25 main_v32 (broadcastInDim S167772x1 ![0] bcast_S167772_S167772x1_0 : (⟨S167772, .i32⟩ : BufTy).Contents (Elt F) → (⟨S167772x1, .i32⟩ : BufTy).Contents (Elt F))
  :: StableHlo.unary main_v30 main_v33 (broadcastInDim S167772x1 ![0] bcast_S167772_S167772x1_0 : (⟨S167772, .i32⟩ : BufTy).Contents (Elt F) → (⟨S167772x1, .i32⟩ : BufTy).Contents (Elt F))
  :: StableHlo.nary ![main_v31, main_v32, main_v33] main_v34 (fun u => concatenate S167772x3 1 [⟨S167772x1, u 0⟩, ⟨S167772x1, u 1⟩, ⟨S167772x1, u 2⟩] concatenates_S167772x1_S167772x1_S167772x1_S167772x3_d1)
  :: StableHlo.binary main_arg1 main_v34 main_v35 ((fun x i => Host.gather gather_S256x256x256_S167772x3_S167772_n_012_n_n_012_1_111 x i) : (⟨S256x256x256, .i32⟩ : BufTy).Contents (Elt F) → (⟨S167772x3, .i32⟩ : BufTy).Contents (Elt F) → (⟨S167772, .i32⟩ : BufTy).Contents (Elt F))
  :: StableHlo.nullary main_c_15 (constantI S_ 32 1#32)
  :: StableHlo.unary main_c_15 main_v36 (broadcastInDim S167772 ![] bcast_S_S167772 : (⟨S_, .i32⟩ : BufTy).Contents (Elt F) → (⟨S167772, .i32⟩ : BufTy).Contents (Elt F))
  :: StableHlo.binary main_v3 main_v36 main_v37 (addi : (⟨S167772, .i32⟩ : BufTy).Contents (Elt F) → (⟨S167772, .i32⟩ : BufTy).Contents (Elt F) → (⟨S167772, .i32⟩ : BufTy).Contents (Elt F))
  :: StableHlo.nullary main_c_16 (constantI S_ 32 0#32)
  :: StableHlo.nullary main_c_17 (constantI S_ 32 255#32)
  :: [] )
/-- Each touches TensorCore references only. -/
theorem main_part0_ops8_sub : (main_part0_ops8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.binary_bufs_sub .., StableHlo.nullary_bufs_sub .., StableHlo.unary_bufs_sub .., StableHlo.binary_bufs_sub .., StableHlo.nullary_bufs_sub .., StableHlo.nullary_bufs_sub ..⟩
/-- Each determines its results. -/
theorem main_part0_ops8_fresh : (main_part0_ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- None writes an argument of the program. -/
theorem main_part0_ops8_keeps : (main_part0_ops8 : List (HloOp τ sig (Elt F))).Forall (KeepsL argRefs) :=
  ⟨keepsL_of_writes main_c_3 rfl (by decide), keepsL_of_writes main_v4 rfl (by decide), keepsL_of_writes main_v5 rfl (by decide), keepsL_of_writes main_c_4 rfl (by decide), keepsL_of_writes main_v6 rfl (by decide), keepsL_of_writes main_v7 rfl (by decide), keepsL_of_writes main_c_5 rfl (by decide), keepsL_of_writes main_v8 rfl (by decide), keepsL_of_writes main_v9 rfl (by decide), keepsL_of_writes main_c_6 rfl (by decide), keepsL_of_writes main_v10 rfl (by decide), keepsL_of_writes main_v11 rfl (by decide), keepsL_of_writes main_c_7 rfl (by decide), keepsL_of_writes main_v12 rfl (by decide), keepsL_of_writes main_v13 rfl (by decide), keepsL_of_writes main_c_8 rfl (by decide), keepsL_of_writes main_v14 rfl (by decide), keepsL_of_writes main_v15 rfl (by decide), keepsL_of_writes main_c_9 rfl (by decide), keepsL_of_writes main_v16 rfl (by decide), keepsL_of_writes main_v17 rfl (by decide), keepsL_of_writes main_c_10 rfl (by decide), keepsL_of_writes main_v18 rfl (by decide), keepsL_of_writes main_v19 rfl (by decide), keepsL_of_writes main_v20 rfl (by decide), keepsL_of_writes main_c_11 rfl (by decide), keepsL_of_writes main_v21 rfl (by decide), keepsL_of_writes main_v22 rfl (by decide), keepsL_of_writes main_c_12 rfl (by decide), keepsL_of_writes main_v23 rfl (by decide), keepsL_of_writes main_v24 rfl (by decide), keepsL_of_writes main_v25 rfl (by decide), keepsL_of_writes main_c_13 rfl (by decide), keepsL_of_writes main_v26 rfl (by decide), keepsL_of_writes main_v27 rfl (by decide), keepsL_of_writes main_c_14 rfl (by decide), keepsL_of_writes main_v28 rfl (by decide), keepsL_of_writes main_v29 rfl (by decide), keepsL_of_writes main_v30 rfl (by decide), keepsL_of_writes main_v31 rfl (by decide), keepsL_of_writes main_v32 rfl (by decide), keepsL_of_writes main_v33 rfl (by decide), keepsL_of_writes main_v34 rfl (by decide), keepsL_of_writes main_v35 rfl (by decide), keepsL_of_writes main_c_15 rfl (by decide), keepsL_of_writes main_v36 rfl (by decide), keepsL_of_writes main_v37 rfl (by decide), keepsL_of_writes main_c_16 rfl (by decide), keepsL_of_writes main_c_17 rfl (by decide)⟩

/-- 6 host operations of @clip (main_call4), window 0 (statements 1 … 60), in order. -/
abbrev main_part0_ops9 : List (HloOp τ sig (Elt F)) :=
  [ StableHlo.TRef.unary (.of main_c_16 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S167772, .i32⟩) (broadcastInDim S167772 ![] bcast_S_S167772),
    StableHlo.TRef.binary (.of main_call4_v1 : StableHlo.TRef sig ⟨S167772, .i32⟩) (.of main_v37 : StableHlo.TRef sig ⟨S167772, .i32⟩) (.of main_call4_v2 : StableHlo.TRef sig ⟨S167772, .i32⟩) maxsi,
    StableHlo.TRef.unary (.of main_c_17 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S167772, .i32⟩) (broadcastInDim S167772 ![] bcast_S_S167772),
    StableHlo.TRef.binary (.of main_call4_v4 : StableHlo.TRef sig ⟨S167772, .i32⟩) (.of main_call4_v2 : StableHlo.TRef sig ⟨S167772, .i32⟩) (.of main_v38 : StableHlo.TRef sig ⟨S167772, .i32⟩) minsi ]
/-- Each touches TensorCore references only. -/
theorem main_part0_ops9_sub : (main_part0_ops9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part0_ops9_fresh : (main_part0_ops9 : List (HloOp τ sig (Elt F))).Forall fun op => op.fresh = ∅ :=
  ⟨rfl, rfl, rfl, rfl, rfl, rfl⟩
/-- None writes an argument of the program. -/
theorem main_part0_ops9_keeps : (main_part0_ops9 : List (HloOp τ sig (Elt F))).Forall (KeepsL argRefs) :=
  ⟨keepsL_of_writes main_call4_v0 rfl (by decide), keepsL_of_writes main_call4_v1 rfl (by decide), keepsL_of_writes main_call4_v2 rfl (by decide), keepsL_of_writes main_call4_v3 rfl (by decide), keepsL_of_writes main_call4_v4 rfl (by decide), keepsL_of_writes main_v38 rfl (by decide)⟩

/-- 2 host operations of @main, window 0 (statements 1 … 60), in order. -/
abbrev main_part0_ops10 : List (HloOp τ sig (Elt F)) :=
  [ StableHlo.nullary main_c_18 (constantI S_ 32 0#32),
    StableHlo.nullary main_c_19 (constantI S_ 32 255#32) ]
/-- Each touches TensorCore references only. -/
theorem main_part0_ops10_sub : (main_part0_ops10 : List (HloOp τ sig (Elt F))).Forall fun op => op.bufs ⊆ StableHlo.tcRefs τ sig :=
  ⟨StableHlo.nullary_bufs_sub .., StableHlo.nullary_bufs_sub ..⟩
/-- Each determines its results. -/
theorem main_part0_ops10_fresh : (main_part0_ops10 : List (HloOp τ sig (Elt F))).Forall fun op => op.fresh = ∅ :=
  ⟨rfl, rfl⟩
/-- None writes an argument of the program. -/
theorem main_part0_ops10_keeps : (main_part0_ops10 : List (HloOp τ sig (Elt F))).Forall (KeepsL argRefs) :=
  ⟨keepsL_of_writes main_c_18 rfl (by decide), keepsL_of_writes main_c_19 rfl (by decide)⟩

/-- Window 0 is the chain of its stretches, ending in the last. -/
theorem main_part0_chain (c : Dev nD) : main_part0 (F := F) c = (Pipeline.chainK
  [ StableHlo.seq main_part0_ops0,
    StableHlo.seq main_part0_ops1,
    StableHlo.seq main_part0_ops2,
    StableHlo.seq main_part0_ops3,
    StableHlo.seq main_part0_ops4,
    StableHlo.seq main_part0_ops5,
    StableHlo.seq main_part0_ops6,
    StableHlo.seq main_part0_ops7,
    StableHlo.seq main_part0_ops8,
    StableHlo.seq main_part0_ops9 ]
  (StableHlo.seq main_part0_ops10) : Prog (TpuEff nD τ sig (Elt F) (Pipeline.Sig Λ₀ (Fin 0) fun p => (pcfgs (F := F) p).Adm) .tc) PUnit) := by
  chain_rfl

/-- Window 0 is the straight line of all its operations. -/
theorem main_part0_eq (c : Dev nD) : main_part0 (F := F) c = (StableHlo.seq (List.flatten [main_part0_ops0, main_part0_ops1, main_part0_ops2, main_part0_ops3, main_part0_ops4, main_part0_ops5, main_part0_ops6, main_part0_ops7, main_part0_ops8, main_part0_ops9] ++ main_part0_ops10) : Prog (TpuEff nD τ sig (Elt F) (Pipeline.Sig Λ₀ (Fin 0) fun p => (pcfgs (F := F) p).Adm) .tc) PUnit) :=
  (main_part0_chain c).trans (chainK_map_seq [main_part0_ops0, main_part0_ops1, main_part0_ops2, main_part0_ops3, main_part0_ops4, main_part0_ops5, main_part0_ops6, main_part0_ops7, main_part0_ops8, main_part0_ops9] main_part0_ops10)

end Cert.ReferenceIdeal.RefRun

end
-- ==== Proof.RefRunW1.lean ====
/-
  Window 1 of the reference program's @main (its statements 61 … 120) as straight lines of host operations: one list per
  stretch between calls of outlined functions and one per call (the callee's operations over the call's own buffers,
  a call nested in it inlined in place), each with the three side facts a run of the whole needs (the operations touch
  TensorCore references only, determine their results, and write none of the program's arguments), and the equation of
  the window with the straight line of their concatenation.
-/
import proofs.«140712_j5016521802106_2_alg».proof.Proof.Gen.ReferenceIdeal
import proofs.«140712_j5016521802106_2_alg».proof.Proof.RefRunArgs

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- 6 host operations of @clip (main_call5), window 1 (statements 61 … 120), in order. -/
abbrev main_part1_ops0 : List (HloOp τ sig (Elt F)) :=
  [ StableHlo.TRef.unary (.of main_c_18 : StableHlo.TRef sig ⟨S_, .i32⟩) (.of main_call5_v0 : StableHlo.TRef sig ⟨S_, .i32⟩) id,
    StableHlo.TRef.unary (.of main_call5_v0 : StableHlo.TRef sig ⟨S_, .i32⟩) (.of main_call5_v1 : StableHlo.TRef sig ⟨S167772, .i32⟩) (broadcastInDim S167772 ![] bcast_S_S167772),
    StableHlo.TRef.binary (.of main_call5_v1 : StableHlo.TRef sig ⟨S167772, .i32⟩) (.of main_v2 : StableHlo.TRef sig ⟨S167772, .i32⟩) (.of main_call5_v2 : StableHlo.TRef sig ⟨S167772, .i32⟩) maxsi,
    StableHlo.TRef.unary (.of main_c_19 : StableHlo.TRef sig ⟨S_, .i32⟩) (.of main_call5_v3 : StableHlo.TRef sig ⟨S_, .i32⟩) id,
    StableHlo.TRef.unary (.of main_call5_v3 : StableHlo.TRef sig ⟨S_, .i32⟩) (.of main_call5_v4 : StableHlo.TRef sig ⟨S167772, .i32⟩) (broadcastInDim S167772 ![] bcast_S_S167772),
    StableHlo.TRef.binary (.of main_call5_v4 : StableHlo.TRef sig ⟨S167772, .i32⟩) (.of main_call5_v2 : StableHlo.TRef sig ⟨S167772, .i32⟩) (.of main_v39 : StableHlo.TRef sig ⟨S167772, .i32⟩) minsi ]
/-- Each touches TensorCore references only. -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part1_ops0_fresh : (main_part1_ops0 : List (HloOp τ sig (Elt F))).Forall fun op => op.fresh = ∅ :=
  ⟨rfl, rfl, rfl, rfl, rfl, rfl⟩
/-- None writes an argument of the program. -/
theorem main_part1_ops0_keeps : (main_part1_ops0 : List (HloOp τ sig (Elt F))).Forall (KeepsL argRefs) :=
  ⟨keepsL_of_writes main_call5_v0 rfl (by decide), keepsL_of_writes main_call5_v1 rfl (by decide), keepsL_of_writes main_call5_v2 rfl (by decide), keepsL_of_writes main_call5_v3 rfl (by decide), keepsL_of_writes main_call5_v4 rfl (by decide), keepsL_of_writes main_v39 rfl (by decide)⟩

/-- 2 host operations of @main, window 1 (statements 61 … 120), in order. -/
abbrev main_part1_ops1 : List (HloOp τ sig (Elt F)) :=
  [ StableHlo.nullary main_c_20 (constantI S_ 32 0#32),
    StableHlo.nullary main_c_21 (constantI S_ 32 255#32) ]
/-- Each touches TensorCore references only. -/
theorem main_part1_ops1_sub : (main_part1_ops1 : List (HloOp τ sig (Elt F))).Forall fun op => op.bufs ⊆ StableHlo.tcRefs τ sig :=
  ⟨StableHlo.nullary_bufs_sub .., StableHlo.nullary_bufs_sub ..⟩
/-- Each determines its results. -/
theorem main_part1_ops1_fresh : (main_part1_ops1 : List (HloOp τ sig (Elt F))).Forall fun op => op.fresh = ∅ :=
  ⟨rfl, rfl⟩
/-- None writes an argument of the program. -/
theorem main_part1_ops1_keeps : (main_part1_ops1 : List (HloOp τ sig (Elt F))).Forall (KeepsL argRefs) :=
  ⟨keepsL_of_writes main_c_20 rfl (by decide), keepsL_of_writes main_c_21 rfl (by decide)⟩

/-- 6 host operations of @clip (main_call6), window 1 (statements 61 … 120), in order. -/
abbrev main_part1_ops2 : List (HloOp τ sig (Elt F)) :=
  [ StableHlo.TRef.unary (.of main_c_20 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S167772, .i32⟩) (broadcastInDim S167772 ![] bcast_S_S167772),
    StableHlo.TRef.binary (.of main_call6_v1 : StableHlo.TRef sig ⟨S167772, .i32⟩) (.of main_v0 : StableHlo.TRef sig ⟨S167772, .i32⟩) (.of main_call6_v2 : StableHlo.TRef sig ⟨S167772, .i32⟩) maxsi,
    StableHlo.TRef.unary (.of main_c_21 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S167772, .i32⟩) (broadcastInDim S167772 ![] bcast_S_S167772),
    StableHlo.TRef.binary (.of main_call6_v4 : StableHlo.TRef sig ⟨S167772, .i32⟩) (.of main_call6_v2 : StableHlo.TRef sig ⟨S167772, .i32⟩) (.of main_v40 : StableHlo.TRef sig ⟨S167772, .i32⟩) minsi ]
/-- Each touches TensorCore references only. -/
theorem main_part1_ops2_sub : (main_part1_ops2 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part1_ops2_fresh : (main_part1_ops2 : List (HloOp τ sig (Elt F))).Forall fun op => op.fresh = ∅ :=
  ⟨rfl, rfl, rfl, rfl, rfl, rfl⟩
/-- None writes an argument of the program. -/
theorem main_part1_ops2_keeps : (main_part1_ops2 : List (HloOp τ sig (Elt F))).Forall (KeepsL argRefs) :=
  ⟨keepsL_of_writes main_call6_v0 rfl (by decide), keepsL_of_writes main_call6_v1 rfl (by decide), keepsL_of_writes main_call6_v2 rfl (by decide), keepsL_of_writes main_call6_v3 rfl (by decide), keepsL_of_writes main_call6_v4 rfl (by decide), keepsL_of_writes main_v40 rfl (by decide)⟩

/-- 27 host operations of @main, window 1 (statements 61 … 120), in order. -/
abbrev main_part1_ops3 : List (HloOp τ sig (Elt F)) :=
  [ StableHlo.nullary main_c_22 (constantI S_ 32 0#32),
    StableHlo.unary main_c_22 main_v41 (broadcastInDim S167772 ![] bcast_S_S167772 : (⟨S_, .i32⟩ : BufTy).Contents (Elt F) → (⟨S167772, .i32⟩ : BufTy).Contents (Elt F)),
    StableHlo.binary main_v38 main_v41 main_v42 (cmpi .slt : (⟨S167772, .i32⟩ : BufTy).Contents (Elt F) → (⟨S167772, .i32⟩ : BufTy).Contents (Elt F) → (⟨S167772, .i1⟩ : BufTy).Contents (Elt F)),
    StableHlo.nullary main_c_23 (constantI S_ 32 256#32),
    StableHlo.unary main_c_23 main_v43 (broadcastInDim S167772 ![] bcast_S_S167772 : (⟨S_, .i32⟩ : BufTy).Contents (Elt F) → (⟨S167772, .i32⟩ : BufTy).Contents (Elt F)),
    StableHlo.binary main_v38 main_v43 main_v44 (addi : (⟨S167772, .i32⟩ : BufTy).Contents (Elt F) → (⟨S167772, .i32⟩ : BufTy).Contents (Elt F) → (⟨S167772, .i32⟩ : BufTy).Contents (Elt F)),
    StableHlo.ternary main_v42 main_v44 main_v38 main_v45 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_24 (constantI S_ 32 0#32),
    StableHlo.unary main_c_24 main_v46 (broadcastInDim S167772 ![] bcast_S_S167772 : (⟨S_, .i32⟩ : BufTy).Contents (Elt F) → (⟨S167772, .i32⟩ : BufTy).Contents (Elt F)),
    StableHlo.binary main_v39 main_v46 main_v47 (cmpi .slt : (⟨S167772, .i32⟩ : BufTy).Contents (Elt F) → (⟨S167772, .i32⟩ : BufTy).Contents (Elt F) → (⟨S167772, .i1⟩ : BufTy).Contents (Elt F)),
    StableHlo.nullary main_c_25 (constantI S_ 32 256#32),
    StableHlo.unary main_c_25 main_v48 (broadcastInDim S167772 ![] bcast_S_S167772 : (⟨S_, .i32⟩ : BufTy).Contents (Elt F) → (⟨S167772, .i32⟩ : BufTy).Contents (Elt F)),
    StableHlo.binary main_v39 main_v48 main_v49 (addi : (⟨S167772, .i32⟩ : BufTy).Contents (Elt F) → (⟨S167772, .i32⟩ : BufTy).Contents (Elt F) → (⟨S167772, .i32⟩ : BufTy).Contents (Elt F)),
    StableHlo.ternary main_v47 main_v49 main_v39 main_v50 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_26 (constantI S_ 32 0#32),
    StableHlo.unary main_c_26 main_v51 (broadcastInDim S167772 ![] bcast_S_S167772 : (⟨S_, .i32⟩ : BufTy).Contents (Elt F) → (⟨S167772, .i32⟩ : BufTy).Contents (Elt F)),
    StableHlo.binary main_v40 main_v51 main_v52 (cmpi .slt : (⟨S167772, .i32⟩ : BufTy).Contents (Elt F) → (⟨S167772, .i32⟩ : BufTy).Contents (Elt F) → (⟨S167772, .i1⟩ : BufTy).Contents (Elt F)),
    StableHlo.nullary main_c_27 (constantI S_ 32 256#32),
    StableHlo.unary main_c_27 main_v53 (broadcastInDim S167772 ![] bcast_S_S167772 : (⟨S_, .i32⟩ : BufTy).Contents (Elt F) → (⟨S167772, .i32⟩ : BufTy).Contents (Elt F)),
    StableHlo.binary main_v40 main_v53 main_v54 (addi : (⟨S167772, .i32⟩ : BufTy).Contents (Elt F) → (⟨S167772, .i32⟩ : BufTy).Contents (Elt F) → (⟨S167772, .i32⟩ : BufTy).Contents (Elt F)),
    StableHlo.ternary main_v52 main_v54 main_v40 main_v55 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v45 main_v56 (broadcastInDim S167772x1 ![0] bcast_S167772_S167772x1_0 : (⟨S167772, .i32⟩ : BufTy).Contents (Elt F) → (⟨S167772x1, .i32⟩ : BufTy).Contents (Elt F)),
    StableHlo.unary main_v50 main_v57 (broadcastInDim S167772x1 ![0] bcast_S167772_S167772x1_0 : (⟨S167772, .i32⟩ : BufTy).Contents (Elt F) → (⟨S167772x1, .i32⟩ : BufTy).Contents (Elt F)),
    StableHlo.unary main_v55 main_v58 (broadcastInDim S167772x1 ![0] bcast_S167772_S167772x1_0 : (⟨S167772, .i32⟩ : BufTy).Contents (Elt F) → (⟨S167772x1, .i32⟩ : BufTy).Contents (Elt F)),
    StableHlo.nary ![main_v56, main_v57, main_v58] main_v59 (fun u => concatenate S167772x3 1 [⟨S167772x1, u 0⟩, ⟨S167772x1, u 1⟩, ⟨S167772x1, u 2⟩] concatenates_S167772x1_S167772x1_S167772x1_S167772x3_d1),
    StableHlo.binary main_arg1 main_v59 main_v60 ((fun x i => Host.gather gather_S256x256x256_S167772x3_S167772_n_012_n_n_012_1_111 x i) : (⟨S256x256x256, .i32⟩ : BufTy).Contents (Elt F) → (⟨S167772x3, .i32⟩ : BufTy).Contents (Elt F) → (⟨S167772, .i32⟩ : BufTy).Contents (Elt F)),
    StableHlo.nullary main_c_28 (constantI S_ 32 4294967295#32) ]
/-- Each touches TensorCore references only. -/
theorem main_part1_ops3_sub : (main_part1_ops3 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.binary_bufs_sub .., StableHlo.nullary_bufs_sub ..⟩
/-- Each determines its results. -/
theorem main_part1_ops3_fresh : (main_part1_ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- None writes an argument of the program. -/
theorem main_part1_ops3_keeps : (main_part1_ops3 : List (HloOp τ sig (Elt F))).Forall (KeepsL argRefs) :=
  ⟨keepsL_of_writes main_c_22 rfl (by decide), keepsL_of_writes main_v41 rfl (by decide), keepsL_of_writes main_v42 rfl (by decide), keepsL_of_writes main_c_23 rfl (by decide), keepsL_of_writes main_v43 rfl (by decide), keepsL_of_writes main_v44 rfl (by decide), keepsL_of_writes main_v45 rfl (by decide), keepsL_of_writes main_c_24 rfl (by decide), keepsL_of_writes main_v46 rfl (by decide), keepsL_of_writes main_v47 rfl (by decide), keepsL_of_writes main_c_25 rfl (by decide), keepsL_of_writes main_v48 rfl (by decide), keepsL_of_writes main_v49 rfl (by decide), keepsL_of_writes main_v50 rfl (by decide), keepsL_of_writes main_c_26 rfl (by decide), keepsL_of_writes main_v51 rfl (by decide), keepsL_of_writes main_v52 rfl (by decide), keepsL_of_writes main_c_27 rfl (by decide), keepsL_of_writes main_v53 rfl (by decide), keepsL_of_writes main_v54 rfl (by decide), keepsL_of_writes main_v55 rfl (by decide), keepsL_of_writes main_v56 rfl (by decide), keepsL_of_writes main_v57 rfl (by decide), keepsL_of_writes main_v58 rfl (by decide), keepsL_of_writes main_v59 rfl (by decide), keepsL_of_writes main_v60 rfl (by decide), keepsL_of_writes main_c_28 rfl (by decide)⟩

/-- 2 host operations of @where_2 (main_call7), window 1 (statements 61 … 120), in order. -/
abbrev main_part1_ops4 : List (HloOp τ sig (Elt F)) :=
  [ StableHlo.TRef.unary (.of main_c_28 : StableHlo.TRef sig ⟨S_, .i32⟩) (.of main_call7_v0 : StableHlo.TRef sig ⟨S167772, .i32⟩) (broadcastInDim S167772 ![] bcast_S_S167772),
    StableHlo.TRef.ternary (.of main_v7 : StableHlo.TRef sig ⟨S167772, .i1⟩) (.of main_v60 : StableHlo.TRef sig ⟨S167772, .i32⟩) (.of main_call7_v0 : StableHlo.TRef sig ⟨S167772, .i32⟩) (.of main_v61 : StableHlo.TRef sig ⟨S167772, .i32⟩) select ]
/-- Each touches TensorCore references only. -/
theorem main_part1_ops4_sub : (main_part1_ops4 : List (HloOp τ sig (Elt F))).Forall fun op => op.bufs ⊆ StableHlo.tcRefs τ sig :=
  ⟨StableHlo.unary_bufs_sub .., StableHlo.ternary_bufs_sub ..⟩
/-- Each determines its results. -/
theorem main_part1_ops4_fresh : (main_part1_ops4 : List (HloOp τ sig (Elt F))).Forall fun op => op.fresh = ∅ :=
  ⟨rfl, rfl⟩
/-- None writes an argument of the program. -/
theorem main_part1_ops4_keeps : (main_part1_ops4 : List (HloOp τ sig (Elt F))).Forall (KeepsL argRefs) :=
  ⟨keepsL_of_writes main_call7_v0 rfl (by decide), keepsL_of_writes main_v61 rfl (by decide)⟩

/-- 5 host operations of @main, window 1 (statements 61 … 120), in order. -/
abbrev main_part1_ops5 : List (HloOp τ sig (Elt F)) :=
  [ StableHlo.nullary main_c_29 (constantI S_ 32 1#32),
    StableHlo.unary main_c_29 main_v62 (broadcastInDim S167772 ![] bcast_S_S167772 : (⟨S_, .i32⟩ : BufTy).Contents (Elt F) → (⟨S167772, .i32⟩ : BufTy).Contents (Elt F)),
    StableHlo.binary main_v2 main_v62 main_v63 (addi : (⟨S167772, .i32⟩ : BufTy).Contents (Elt F) → (⟨S167772, .i32⟩ : BufTy).Contents (Elt F) → (⟨S167772, .i32⟩ : BufTy).Contents (Elt F)),
    StableHlo.nullary main_c_30 (constantI S_ 32 0#32),
    StableHlo.nullary main_c_31 (constantI S_ 32 255#32) ]
/-- Each touches TensorCore references only. -/
theorem main_part1_ops5_sub : (main_part1_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- Each determines its results. -/
theorem main_part1_ops5_fresh : (main_part1_ops5 : List (HloOp τ sig (Elt F))).Forall fun op => op.fresh = ∅ :=
  ⟨rfl, rfl, rfl, rfl, rfl⟩
/-- None writes an argument of the program. -/
theorem main_part1_ops5_keeps : (main_part1_ops5 : List (HloOp τ sig (Elt F))).Forall (KeepsL argRefs) :=
  ⟨keepsL_of_writes main_c_29 rfl (by decide), keepsL_of_writes main_v62 rfl (by decide), keepsL_of_writes main_v63 rfl (by decide), keepsL_of_writes main_c_30 rfl (by decide), keepsL_of_writes main_c_31 rfl (by decide)⟩

/-- 6 host operations of @clip (main_call8), window 1 (statements 61 … 120), in order. -/
abbrev main_part1_ops6 : List (HloOp τ sig (Elt F)) :=
  [ StableHlo.TRef.unary (.of main_c_30 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S167772, .i32⟩) (broadcastInDim S167772 ![] bcast_S_S167772),
    StableHlo.TRef.binary (.of main_call8_v1 : StableHlo.TRef sig ⟨S167772, .i32⟩) (.of main_v3 : StableHlo.TRef sig ⟨S167772, .i32⟩) (.of main_call8_v2 : StableHlo.TRef sig ⟨S167772, .i32⟩) maxsi,
    StableHlo.TRef.unary (.of main_c_31 : StableHlo.TRef sig ⟨S_, .i32⟩) (.of main_call8_v3 : StableHlo.TRef sig ⟨S_, .i32⟩) id,
    StableHlo.TRef.unary (.of main_call8_v3 : StableHlo.TRef sig ⟨S_, .i32⟩) (.of main_call8_v4 : StableHlo.TRef sig ⟨S167772, .i32⟩) (broadcastInDim S167772 ![] bcast_S_S167772),
    StableHlo.TRef.binary (.of main_call8_v4 : StableHlo.TRef sig ⟨S167772, .i32⟩) (.of main_call8_v2 : StableHlo.TRef sig ⟨S167772, .i32⟩) (.of main_v64 : StableHlo.TRef sig ⟨S167772, .i32⟩) minsi ]
/-- Each touches TensorCore references only. -/
theorem main_part1_ops6_sub : (main_part1_ops6 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part1_ops6_fresh : (main_part1_ops6 : List (HloOp τ sig (Elt F))).Forall fun op => op.fresh = ∅ :=
  ⟨rfl, rfl, rfl, rfl, rfl, rfl⟩
/-- None writes an argument of the program. -/
theorem main_part1_ops6_keeps : (main_part1_ops6 : List (HloOp τ sig (Elt F))).Forall (KeepsL argRefs) :=
  ⟨keepsL_of_writes main_call8_v0 rfl (by decide), keepsL_of_writes main_call8_v1 rfl (by decide), keepsL_of_writes main_call8_v2 rfl (by decide), keepsL_of_writes main_call8_v3 rfl (by decide), keepsL_of_writes main_call8_v4 rfl (by decide), keepsL_of_writes main_v64 rfl (by decide)⟩

/-- 2 host operations of @main, window 1 (statements 61 … 120), in order. -/
abbrev main_part1_ops7 : List (HloOp τ sig (Elt F)) :=
  [ StableHlo.nullary main_c_32 (constantI S_ 32 0#32),
    StableHlo.nullary main_c_33 (constantI S_ 32 255#32) ]
/-- Each touches TensorCore references only. -/
theorem main_part1_ops7_sub : (main_part1_ops7 : List (HloOp τ sig (Elt F))).Forall fun op => op.bufs ⊆ StableHlo.tcRefs τ sig :=
  ⟨StableHlo.nullary_bufs_sub .., StableHlo.nullary_bufs_sub ..⟩
/-- Each determines its results. -/
theorem main_part1_ops7_fresh : (main_part1_ops7 : List (HloOp τ sig (Elt F))).Forall fun op => op.fresh = ∅ :=
  ⟨rfl, rfl⟩
/-- None writes an argument of the program. -/
theorem main_part1_ops7_keeps : (main_part1_ops7 : List (HloOp τ sig (Elt F))).Forall (KeepsL argRefs) :=
  ⟨keepsL_of_writes main_c_32 rfl (by decide), keepsL_of_writes main_c_33 rfl (by decide)⟩

/-- 6 host operations of @clip (main_call9), window 1 (statements 61 … 120), in order. -/
abbrev main_part1_ops8 : List (HloOp τ sig (Elt F)) :=
  [ StableHlo.TRef.unary (.of main_c_32 : StableHlo.TRef sig ⟨S_, .i32⟩) (.of main_call9_v0 : StableHlo.TRef sig ⟨S_, .i32⟩) id,
    StableHlo.TRef.unary (.of main_call9_v0 : StableHlo.TRef sig ⟨S_, .i32⟩) (.of main_call9_v1 : StableHlo.TRef sig ⟨S167772, .i32⟩) (broadcastInDim S167772 ![] bcast_S_S167772),
    StableHlo.TRef.binary (.of main_call9_v1 : StableHlo.TRef sig ⟨S167772, .i32⟩) (.of main_v63 : StableHlo.TRef sig ⟨S167772, .i32⟩) (.of main_call9_v2 : StableHlo.TRef sig ⟨S167772, .i32⟩) maxsi,
    StableHlo.TRef.unary (.of main_c_33 : StableHlo.TRef sig ⟨S_, .i32⟩) (.of main_call9_v3 : StableHlo.TRef sig ⟨S_, .i32⟩) id,
    StableHlo.TRef.unary (.of main_call9_v3 : StableHlo.TRef sig ⟨S_, .i32⟩) (.of main_call9_v4 : StableHlo.TRef sig ⟨S167772, .i32⟩) (broadcastInDim S167772 ![] bcast_S_S167772),
    StableHlo.TRef.binary (.of main_call9_v4 : StableHlo.TRef sig ⟨S167772, .i32⟩) (.of main_call9_v2 : StableHlo.TRef sig ⟨S167772, .i32⟩) (.of main_v65 : StableHlo.TRef sig ⟨S167772, .i32⟩) minsi ]
/-- Each touches TensorCore references only. -/
theorem main_part1_ops8_sub : (main_part1_ops8 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part1_ops8_fresh : (main_part1_ops8 : List (HloOp τ sig (Elt F))).Forall fun op => op.fresh = ∅ :=
  ⟨rfl, rfl, rfl, rfl, rfl, rfl⟩
/-- None writes an argument of the program. -/
theorem main_part1_ops8_keeps : (main_part1_ops8 : List (HloOp τ sig (Elt F))).Forall (KeepsL argRefs) :=
  ⟨keepsL_of_writes main_call9_v0 rfl (by decide), keepsL_of_writes main_call9_v1 rfl (by decide), keepsL_of_writes main_call9_v2 rfl (by decide), keepsL_of_writes main_call9_v3 rfl (by decide), keepsL_of_writes main_call9_v4 rfl (by decide), keepsL_of_writes main_v65 rfl (by decide)⟩

/-- 2 host operations of @main, window 1 (statements 61 … 120), in order. -/
abbrev main_part1_ops9 : List (HloOp τ sig (Elt F)) :=
  [ StableHlo.nullary main_c_34 (constantI S_ 32 0#32),
    StableHlo.nullary main_c_35 (constantI S_ 32 255#32) ]
/-- Each touches TensorCore references only. -/
theorem main_part1_ops9_sub : (main_part1_ops9 : List (HloOp τ sig (Elt F))).Forall fun op => op.bufs ⊆ StableHlo.tcRefs τ sig :=
  ⟨StableHlo.nullary_bufs_sub .., StableHlo.nullary_bufs_sub ..⟩
/-- Each determines its results. -/
theorem main_part1_ops9_fresh : (main_part1_ops9 : List (HloOp τ sig (Elt F))).Forall fun op => op.fresh = ∅ :=
  ⟨rfl, rfl⟩
/-- None writes an argument of the program. -/
theorem main_part1_ops9_keeps : (main_part1_ops9 : List (HloOp τ sig (Elt F))).Forall (KeepsL argRefs) :=
  ⟨keepsL_of_writes main_c_34 rfl (by decide), keepsL_of_writes main_c_35 rfl (by decide)⟩

/-- 6 host operations of @clip (main_call10), window 1 (statements 61 … 120), in order. -/
abbrev main_part1_ops10 : List (HloOp τ sig (Elt F)) :=
  [ StableHlo.TRef.unary (.of main_c_34 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S167772, .i32⟩) (broadcastInDim S167772 ![] bcast_S_S167772),
    StableHlo.TRef.binary (.of main_call10_v1 : StableHlo.TRef sig ⟨S167772, .i32⟩) (.of main_v0 : StableHlo.TRef sig ⟨S167772, .i32⟩) (.of main_call10_v2 : StableHlo.TRef sig ⟨S167772, .i32⟩) maxsi,
    StableHlo.TRef.unary (.of main_c_35 : StableHlo.TRef sig ⟨S_, .i32⟩) (.of main_call10_v3 : StableHlo.TRef sig ⟨S_, .i32⟩) id,
    StableHlo.TRef.unary (.of main_call10_v3 : StableHlo.TRef sig ⟨S_, .i32⟩) (.of main_call10_v4 : StableHlo.TRef sig ⟨S167772, .i32⟩) (broadcastInDim S167772 ![] bcast_S_S167772),
    StableHlo.TRef.binary (.of main_call10_v4 : StableHlo.TRef sig ⟨S167772, .i32⟩) (.of main_call10_v2 : StableHlo.TRef sig ⟨S167772, .i32⟩) (.of main_v66 : StableHlo.TRef sig ⟨S167772, .i32⟩) minsi ]
/-- Each touches TensorCore references only. -/
theorem main_part1_ops10_sub : (main_part1_ops10 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part1_ops10_fresh : (main_part1_ops10 : List (HloOp τ sig (Elt F))).Forall fun op => op.fresh = ∅ :=
  ⟨rfl, rfl, rfl, rfl, rfl, rfl⟩
/-- None writes an argument of the program. -/
theorem main_part1_ops10_keeps : (main_part1_ops10 : List (HloOp τ sig (Elt F))).Forall (KeepsL argRefs) :=
  ⟨keepsL_of_writes main_call10_v0 rfl (by decide), keepsL_of_writes main_call10_v1 rfl (by decide), keepsL_of_writes main_call10_v2 rfl (by decide), keepsL_of_writes main_call10_v3 rfl (by decide), keepsL_of_writes main_call10_v4 rfl (by decide), keepsL_of_writes main_v66 rfl (by decide)⟩

/-- 16 host operations of @main, window 1 (statements 61 … 120), in order. -/
abbrev main_part1_ops11 : List (HloOp τ sig (Elt F)) :=
  [ StableHlo.nullary main_c_36 (constantI S_ 32 0#32),
    StableHlo.unary main_c_36 main_v67 (broadcastInDim S167772 ![] bcast_S_S167772 : (⟨S_, .i32⟩ : BufTy).Contents (Elt F) → (⟨S167772, .i32⟩ : BufTy).Contents (Elt F)),
    StableHlo.binary main_v64 main_v67 main_v68 (cmpi .slt : (⟨S167772, .i32⟩ : BufTy).Contents (Elt F) → (⟨S167772, .i32⟩ : BufTy).Contents (Elt F) → (⟨S167772, .i1⟩ : BufTy).Contents (Elt F)),
    StableHlo.nullary main_c_37 (constantI S_ 32 256#32),
    StableHlo.unary main_c_37 main_v69 (broadcastInDim S167772 ![] bcast_S_S167772 : (⟨S_, .i32⟩ : BufTy).Contents (Elt F) → (⟨S167772, .i32⟩ : BufTy).Contents (Elt F)),
    StableHlo.binary main_v64 main_v69 main_v70 (addi : (⟨S167772, .i32⟩ : BufTy).Contents (Elt F) → (⟨S167772, .i32⟩ : BufTy).Contents (Elt F) → (⟨S167772, .i32⟩ : BufTy).Contents (Elt F)),
    StableHlo.ternary main_v68 main_v70 main_v64 main_v71 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_38 (constantI S_ 32 0#32),
    StableHlo.unary main_c_38 main_v72 (broadcastInDim S167772 ![] bcast_S_S167772 : (⟨S_, .i32⟩ : BufTy).Contents (Elt F) → (⟨S167772, .i32⟩ : BufTy).Contents (Elt F)),
    StableHlo.binary main_v65 main_v72 main_v73 (cmpi .slt : (⟨S167772, .i32⟩ : BufTy).Contents (Elt F) → (⟨S167772, .i32⟩ : BufTy).Contents (Elt F) → (⟨S167772, .i1⟩ : BufTy).Contents (Elt F)),
    StableHlo.nullary main_c_39 (constantI S_ 32 256#32),
    StableHlo.unary main_c_39 main_v74 (broadcastInDim S167772 ![] bcast_S_S167772 : (⟨S_, .i32⟩ : BufTy).Contents (Elt F) → (⟨S167772, .i32⟩ : BufTy).Contents (Elt F)),
    StableHlo.binary main_v65 main_v74 main_v75 (addi : (⟨S167772, .i32⟩ : BufTy).Contents (Elt F) → (⟨S167772, .i32⟩ : BufTy).Contents (Elt F) → (⟨S167772, .i32⟩ : BufTy).Contents (Elt F)),
    StableHlo.ternary main_v73 main_v75 main_v65 main_v76 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_40 (constantI S_ 32 0#32),
    StableHlo.unary main_c_40 main_v77 (broadcastInDim S167772 ![] bcast_S_S167772 : (⟨S_, .i32⟩ : BufTy).Contents (Elt F) → (⟨S167772, .i32⟩ : BufTy).Contents (Elt F)) ]
/-- Each touches TensorCore references only. -/
theorem main_part1_ops11_sub : (main_part1_ops11 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub ..⟩
/-- Each determines its results. -/
theorem main_part1_ops11_fresh : (main_part1_ops11 : List (HloOp τ sig (Elt F))).Forall fun op => op.fresh = ∅ :=
  ⟨rfl, rfl, rfl, rfl, rfl, rfl, rfl, rfl, rfl, rfl, rfl, rfl, rfl, rfl, rfl, rfl⟩
/-- None writes an argument of the program. -/
theorem main_part1_ops11_keeps : (main_part1_ops11 : List (HloOp τ sig (Elt F))).Forall (KeepsL argRefs) :=
  ⟨keepsL_of_writes main_c_36 rfl (by decide), keepsL_of_writes main_v67 rfl (by decide), keepsL_of_writes main_v68 rfl (by decide), keepsL_of_writes main_c_37 rfl (by decide), keepsL_of_writes main_v69 rfl (by decide), keepsL_of_writes main_v70 rfl (by decide), keepsL_of_writes main_v71 rfl (by decide), keepsL_of_writes main_c_38 rfl (by decide), keepsL_of_writes main_v72 rfl (by decide), keepsL_of_writes main_v73 rfl (by decide), keepsL_of_writes main_c_39 rfl (by decide), keepsL_of_writes main_v74 rfl (by decide), keepsL_of_writes main_v75 rfl (by decide), keepsL_of_writes main_v76 rfl (by decide), keepsL_of_writes main_c_40 rfl (by decide), keepsL_of_writes main_v77 rfl (by decide)⟩

/-- Window 1 is the chain of its stretches, ending in the last. -/
theorem main_part1_chain (c : Dev nD) : main_part1 (F := F) c = (Pipeline.chainK
  [ StableHlo.seq main_part1_ops0,
    StableHlo.seq main_part1_ops1,
    StableHlo.seq main_part1_ops2,
    StableHlo.seq main_part1_ops3,
    StableHlo.seq main_part1_ops4,
    StableHlo.seq main_part1_ops5,
    StableHlo.seq main_part1_ops6,
    StableHlo.seq main_part1_ops7,
    StableHlo.seq main_part1_ops8,
    StableHlo.seq main_part1_ops9,
    StableHlo.seq main_part1_ops10 ]
  (StableHlo.seq main_part1_ops11) : Prog (TpuEff nD τ sig (Elt F) (Pipeline.Sig Λ₀ (Fin 0) fun p => (pcfgs (F := F) p).Adm) .tc) PUnit) := by
  chain_rfl

/-- Window 1 is the straight line of all its operations. -/
theorem main_part1_eq (c : Dev nD) : main_part1 (F := F) c = (StableHlo.seq (List.flatten [main_part1_ops0, main_part1_ops1, main_part1_ops2, main_part1_ops3, main_part1_ops4, main_part1_ops5, main_part1_ops6, main_part1_ops7, main_part1_ops8, main_part1_ops9, main_part1_ops10] ++ main_part1_ops11) : Prog (TpuEff nD τ sig (Elt F) (Pipeline.Sig Λ₀ (Fin 0) fun p => (pcfgs (F := F) p).Adm) .tc) PUnit) :=
  (main_part1_chain c).trans (chainK_map_seq [main_part1_ops0, main_part1_ops1, main_part1_ops2, main_part1_ops3, main_part1_ops4, main_part1_ops5, main_part1_ops6, main_part1_ops7, main_part1_ops8, main_part1_ops9, main_part1_ops10] main_part1_ops11)

end Cert.ReferenceIdeal.RefRun

end
-- ==== Proof.RefRunW2.lean ====
/-
  Window 2 of the reference program's @main (its statements 121 … 180) as straight lines of host operations: one list per
  stretch between calls of outlined functions and one per call (the callee's operations over the call's own buffers,
  a call nested in it inlined in place), each with the three side facts a run of the whole needs (the operations touch
  TensorCore references only, determine their results, and write none of the program's arguments), and the equation of
  the window with the straight line of their concatenation.
-/
import proofs.«140712_j5016521802106_2_alg».proof.Proof.Gen.ReferenceIdeal
import proofs.«140712_j5016521802106_2_alg».proof.Proof.RefRunArgs

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- 11 host operations of @main, window 2 (statements 121 … 180), in order. -/
abbrev main_part2_ops0 : List (HloOp τ sig (Elt F)) :=
  [ StableHlo.binary main_v66 main_v77 main_v78 (cmpi .slt : (⟨S167772, .i32⟩ : BufTy).Contents (Elt F) → (⟨S167772, .i32⟩ : BufTy).Contents (Elt F) → (⟨S167772, .i1⟩ : BufTy).Contents (Elt F)),
    StableHlo.nullary main_c_41 (constantI S_ 32 256#32),
    StableHlo.unary main_c_41 main_v79 (broadcastInDim S167772 ![] bcast_S_S167772 : (⟨S_, .i32⟩ : BufTy).Contents (Elt F) → (⟨S167772, .i32⟩ : BufTy).Contents (Elt F)),
    StableHlo.binary main_v66 main_v79 main_v80 (addi : (⟨S167772, .i32⟩ : BufTy).Contents (Elt F) → (⟨S167772, .i32⟩ : BufTy).Contents (Elt F) → (⟨S167772, .i32⟩ : BufTy).Contents (Elt F)),
    StableHlo.ternary main_v78 main_v80 main_v66 main_v81 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v71 main_v82 (broadcastInDim S167772x1 ![0] bcast_S167772_S167772x1_0 : (⟨S167772, .i32⟩ : BufTy).Contents (Elt F) → (⟨S167772x1, .i32⟩ : BufTy).Contents (Elt F)),
    StableHlo.unary main_v76 main_v83 (broadcastInDim S167772x1 ![0] bcast_S167772_S167772x1_0 : (⟨S167772, .i32⟩ : BufTy).Contents (Elt F) → (⟨S167772x1, .i32⟩ : BufTy).Contents (Elt F)),
    StableHlo.unary main_v81 main_v84 (broadcastInDim S167772x1 ![0] bcast_S167772_S167772x1_0 : (⟨S167772, .i32⟩ : BufTy).Contents (Elt F) → (⟨S167772x1, .i32⟩ : BufTy).Contents (Elt F)),
    StableHlo.nary ![main_v82, main_v83, main_v84] main_v85 (fun u => concatenate S167772x3 1 [⟨S167772x1, u 0⟩, ⟨S167772x1, u 1⟩, ⟨S167772x1, u 2⟩] concatenates_S167772x1_S167772x1_S167772x1_S167772x3_d1),
    StableHlo.binary main_arg1 main_v85 main_v86 ((fun x i => Host.gather gather_S256x256x256_S167772x3_S167772_n_012_n_n_012_1_111 x i) : (⟨S256x256x256, .i32⟩ : BufTy).Contents (Elt F) → (⟨S167772x3, .i32⟩ : BufTy).Contents (Elt F) → (⟨S167772, .i32⟩ : BufTy).Contents (Elt F)),
    StableHlo.nullary main_c_42 (constantI S_ 32 4294967295#32) ]
/-- Each touches TensorCore references only. -/
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.binary_bufs_sub .., StableHlo.nullary_bufs_sub ..⟩
/-- Each determines its results. -/
theorem main_part2_ops0_fresh : (main_part2_ops0 : List (HloOp τ sig (Elt F))).Forall fun op => op.fresh = ∅ :=
  ⟨rfl, rfl, rfl, rfl, rfl, rfl, rfl, rfl, rfl, rfl, rfl⟩
/-- None writes an argument of the program. -/
theorem main_part2_ops0_keeps : (main_part2_ops0 : List (HloOp τ sig (Elt F))).Forall (KeepsL argRefs) :=
  ⟨keepsL_of_writes main_v78 rfl (by decide), keepsL_of_writes main_c_41 rfl (by decide), keepsL_of_writes main_v79 rfl (by decide), keepsL_of_writes main_v80 rfl (by decide), keepsL_of_writes main_v81 rfl (by decide), keepsL_of_writes main_v82 rfl (by decide), keepsL_of_writes main_v83 rfl (by decide), keepsL_of_writes main_v84 rfl (by decide), keepsL_of_writes main_v85 rfl (by decide), keepsL_of_writes main_v86 rfl (by decide), keepsL_of_writes main_c_42 rfl (by decide)⟩

/-- 2 host operations of @where_2 (main_call11), window 2 (statements 121 … 180), in order. -/
abbrev main_part2_ops1 : List (HloOp τ sig (Elt F)) :=
  [ StableHlo.TRef.unary (.of main_c_42 : StableHlo.TRef sig ⟨S_, .i32⟩) (.of main_call11_v0 : StableHlo.TRef sig ⟨S167772, .i32⟩) (broadcastInDim S167772 ![] bcast_S_S167772),
    StableHlo.TRef.ternary (.of main_v11 : StableHlo.TRef sig ⟨S167772, .i1⟩) (.of main_v86 : StableHlo.TRef sig ⟨S167772, .i32⟩) (.of main_call11_v0 : StableHlo.TRef sig ⟨S167772, .i32⟩) (.of main_v87 : StableHlo.TRef sig ⟨S167772, .i32⟩) select ]
/-- Each touches TensorCore references only. -/
theorem main_part2_ops1_sub : (main_part2_ops1 : List (HloOp τ sig (Elt F))).Forall fun op => op.bufs ⊆ StableHlo.tcRefs τ sig :=
  ⟨StableHlo.unary_bufs_sub .., StableHlo.ternary_bufs_sub ..⟩
/-- Each determines its results. -/
theorem main_part2_ops1_fresh : (main_part2_ops1 : List (HloOp τ sig (Elt F))).Forall fun op => op.fresh = ∅ :=
  ⟨rfl, rfl⟩
/-- None writes an argument of the program. -/
theorem main_part2_ops1_keeps : (main_part2_ops1 : List (HloOp τ sig (Elt F))).Forall (KeepsL argRefs) :=
  ⟨keepsL_of_writes main_call11_v0 rfl (by decide), keepsL_of_writes main_v87 rfl (by decide)⟩

/-- 5 host operations of @main, window 2 (statements 121 … 180), in order. -/
abbrev main_part2_ops2 : List (HloOp τ sig (Elt F)) :=
  [ StableHlo.nullary main_c_43 (constantI S_ 32 1#32),
    StableHlo.unary main_c_43 main_v88 (broadcastInDim S167772 ![] bcast_S_S167772 : (⟨S_, .i32⟩ : BufTy).Contents (Elt F) → (⟨S167772, .i32⟩ : BufTy).Contents (Elt F)),
    StableHlo.binary main_v0 main_v88 main_v89 (addi : (⟨S167772, .i32⟩ : BufTy).Contents (Elt F) → (⟨S167772, .i32⟩ : BufTy).Contents (Elt F) → (⟨S167772, .i32⟩ : BufTy).Contents (Elt F)),
    StableHlo.nullary main_c_44 (constantI S_ 32 0#32),
    StableHlo.nullary main_c_45 (constantI S_ 32 255#32) ]
/-- Each touches TensorCore references only. -/
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.nullary_bufs_sub ..⟩
/-- Each determines its results. -/
theorem main_part2_ops2_fresh : (main_part2_ops2 : List (HloOp τ sig (Elt F))).Forall fun op => op.fresh = ∅ :=
  ⟨rfl, rfl, rfl, rfl, rfl⟩
/-- None writes an argument of the program. -/
theorem main_part2_ops2_keeps : (main_part2_ops2 : List (HloOp τ sig (Elt F))).Forall (KeepsL argRefs) :=
  ⟨keepsL_of_writes main_c_43 rfl (by decide), keepsL_of_writes main_v88 rfl (by decide), keepsL_of_writes main_v89 rfl (by decide), keepsL_of_writes main_c_44 rfl (by decide), keepsL_of_writes main_c_45 rfl (by decide)⟩

/-- 6 host operations of @clip (main_call12), window 2 (statements 121 … 180), in order. -/
abbrev main_part2_ops3 : List (HloOp τ sig (Elt F)) :=
  [ StableHlo.TRef.unary (.of main_c_44 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S167772, .i32⟩) (broadcastInDim S167772 ![] bcast_S_S167772),
    StableHlo.TRef.binary (.of main_call12_v1 : StableHlo.TRef sig ⟨S167772, .i32⟩) (.of main_v3 : StableHlo.TRef sig ⟨S167772, .i32⟩) (.of main_call12_v2 : StableHlo.TRef sig ⟨S167772, .i32⟩) maxsi,
    StableHlo.TRef.unary (.of main_c_45 : StableHlo.TRef sig ⟨S_, .i32⟩) (.of main_call12_v3 : StableHlo.TRef sig ⟨S_, .i32⟩) id,
    StableHlo.TRef.unary (.of main_call12_v3 : StableHlo.TRef sig ⟨S_, .i32⟩) (.of main_call12_v4 : StableHlo.TRef sig ⟨S167772, .i32⟩) (broadcastInDim S167772 ![] bcast_S_S167772),
    StableHlo.TRef.binary (.of main_call12_v4 : StableHlo.TRef sig ⟨S167772, .i32⟩) (.of main_call12_v2 : StableHlo.TRef sig ⟨S167772, .i32⟩) (.of main_v90 : StableHlo.TRef sig ⟨S167772, .i32⟩) minsi ]
/-- Each touches TensorCore references only. -/
theorem main_part2_ops3_sub : (main_part2_ops3 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part2_ops3_fresh : (main_part2_ops3 : List (HloOp τ sig (Elt F))).Forall fun op => op.fresh = ∅ :=
  ⟨rfl, rfl, rfl, rfl, rfl, rfl⟩
/-- None writes an argument of the program. -/
theorem main_part2_ops3_keeps : (main_part2_ops3 : List (HloOp τ sig (Elt F))).Forall (KeepsL argRefs) :=
  ⟨keepsL_of_writes main_call12_v0 rfl (by decide), keepsL_of_writes main_call12_v1 rfl (by decide), keepsL_of_writes main_call12_v2 rfl (by decide), keepsL_of_writes main_call12_v3 rfl (by decide), keepsL_of_writes main_call12_v4 rfl (by decide), keepsL_of_writes main_v90 rfl (by decide)⟩

/-- 2 host operations of @main, window 2 (statements 121 … 180), in order. -/
abbrev main_part2_ops4 : List (HloOp τ sig (Elt F)) :=
  [ StableHlo.nullary main_c_46 (constantI S_ 32 0#32),
    StableHlo.nullary main_c_47 (constantI S_ 32 255#32) ]
/-- Each touches TensorCore references only. -/
theorem main_part2_ops4_sub : (main_part2_ops4 : List (HloOp τ sig (Elt F))).Forall fun op => op.bufs ⊆ StableHlo.tcRefs τ sig :=
  ⟨StableHlo.nullary_bufs_sub .., StableHlo.nullary_bufs_sub ..⟩
/-- Each determines its results. -/
theorem main_part2_ops4_fresh : (main_part2_ops4 : List (HloOp τ sig (Elt F))).Forall fun op => op.fresh = ∅ :=
  ⟨rfl, rfl⟩
/-- None writes an argument of the program. -/
theorem main_part2_ops4_keeps : (main_part2_ops4 : List (HloOp τ sig (Elt F))).Forall (KeepsL argRefs) :=
  ⟨keepsL_of_writes main_c_46 rfl (by decide), keepsL_of_writes main_c_47 rfl (by decide)⟩

/-- 6 host operations of @clip (main_call13), window 2 (statements 121 … 180), in order. -/
abbrev main_part2_ops5 : List (HloOp τ sig (Elt F)) :=
  [ StableHlo.TRef.unary (.of main_c_46 : StableHlo.TRef sig ⟨S_, .i32⟩) (.of main_call13_v0 : StableHlo.TRef sig ⟨S_, .i32⟩) id,
    StableHlo.TRef.unary (.of main_call13_v0 : StableHlo.TRef sig ⟨S_, .i32⟩) (.of main_call13_v1 : StableHlo.TRef sig ⟨S167772, .i32⟩) (broadcastInDim S167772 ![] bcast_S_S167772),
    StableHlo.TRef.binary (.of main_call13_v1 : StableHlo.TRef sig ⟨S167772, .i32⟩) (.of main_v2 : StableHlo.TRef sig ⟨S167772, .i32⟩) (.of main_call13_v2 : StableHlo.TRef sig ⟨S167772, .i32⟩) maxsi,
    StableHlo.TRef.unary (.of main_c_47 : StableHlo.TRef sig ⟨S_, .i32⟩) (.of main_call13_v3 : StableHlo.TRef sig ⟨S_, .i32⟩) id,
    StableHlo.TRef.unary (.of main_call13_v3 : StableHlo.TRef sig ⟨S_, .i32⟩) (.of main_call13_v4 : StableHlo.TRef sig ⟨S167772, .i32⟩) (broadcastInDim S167772 ![] bcast_S_S167772),
    StableHlo.TRef.binary (.of main_call13_v4 : StableHlo.TRef sig ⟨S167772, .i32⟩) (.of main_call13_v2 : StableHlo.TRef sig ⟨S167772, .i32⟩) (.of main_v91 : StableHlo.TRef sig ⟨S167772, .i32⟩) minsi ]
/-- Each touches TensorCore references only. -/
theorem main_part2_ops5_sub : (main_part2_ops5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part2_ops5_fresh : (main_part2_ops5 : List (HloOp τ sig (Elt F))).Forall fun op => op.fresh = ∅ :=
  ⟨rfl, rfl, rfl, rfl, rfl, rfl⟩
/-- None writes an argument of the program. -/
theorem main_part2_ops5_keeps : (main_part2_ops5 : List (HloOp τ sig (Elt F))).Forall (KeepsL argRefs) :=
  ⟨keepsL_of_writes main_call13_v0 rfl (by decide), keepsL_of_writes main_call13_v1 rfl (by decide), keepsL_of_writes main_call13_v2 rfl (by decide), keepsL_of_writes main_call13_v3 rfl (by decide), keepsL_of_writes main_call13_v4 rfl (by decide), keepsL_of_writes main_v91 rfl (by decide)⟩

/-- 2 host operations of @main, window 2 (statements 121 … 180), in order. -/
abbrev main_part2_ops6 : List (HloOp τ sig (Elt F)) :=
  [ StableHlo.nullary main_c_48 (constantI S_ 32 0#32),
    StableHlo.nullary main_c_49 (constantI S_ 32 255#32) ]
/-- Each touches TensorCore references only. -/
theorem main_part2_ops6_sub : (main_part2_ops6 : List (HloOp τ sig (Elt F))).Forall fun op => op.bufs ⊆ StableHlo.tcRefs τ sig :=
  ⟨StableHlo.nullary_bufs_sub .., StableHlo.nullary_bufs_sub ..⟩
/-- Each determines its results. -/
theorem main_part2_ops6_fresh : (main_part2_ops6 : List (HloOp τ sig (Elt F))).Forall fun op => op.fresh = ∅ :=
  ⟨rfl, rfl⟩
/-- None writes an argument of the program. -/
theorem main_part2_ops6_keeps : (main_part2_ops6 : List (HloOp τ sig (Elt F))).Forall (KeepsL argRefs) :=
  ⟨keepsL_of_writes main_c_48 rfl (by decide), keepsL_of_writes main_c_49 rfl (by decide)⟩

/-- 6 host operations of @clip (main_call14), window 2 (statements 121 … 180), in order. -/
abbrev main_part2_ops7 : List (HloOp τ sig (Elt F)) :=
  [ StableHlo.TRef.unary (.of main_c_48 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S167772, .i32⟩) (broadcastInDim S167772 ![] bcast_S_S167772),
    StableHlo.TRef.binary (.of main_call14_v1 : StableHlo.TRef sig ⟨S167772, .i32⟩) (.of main_v89 : StableHlo.TRef sig ⟨S167772, .i32⟩) (.of main_call14_v2 : StableHlo.TRef sig ⟨S167772, .i32⟩) maxsi,
    StableHlo.TRef.unary (.of main_c_49 : StableHlo.TRef sig ⟨S_, .i32⟩) (.of main_call14_v3 : StableHlo.TRef sig ⟨S_, .i32⟩) id,
    StableHlo.TRef.unary (.of main_call14_v3 : StableHlo.TRef sig ⟨S_, .i32⟩) (.of main_call14_v4 : StableHlo.TRef sig ⟨S167772, .i32⟩) (broadcastInDim S167772 ![] bcast_S_S167772),
    StableHlo.TRef.binary (.of main_call14_v4 : StableHlo.TRef sig ⟨S167772, .i32⟩) (.of main_call14_v2 : StableHlo.TRef sig ⟨S167772, .i32⟩) (.of main_v92 : StableHlo.TRef sig ⟨S167772, .i32⟩) minsi ]
/-- Each touches TensorCore references only. -/
theorem main_part2_ops7_sub : (main_part2_ops7 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.binary_bufs_sub ..⟩
/-- Each determines its results. -/
theorem main_part2_ops7_fresh : (main_part2_ops7 : List (HloOp τ sig (Elt F))).Forall fun op => op.fresh = ∅ :=
  ⟨rfl, rfl, rfl, rfl, rfl, rfl⟩
/-- None writes an argument of the program. -/
theorem main_part2_ops7_keeps : (main_part2_ops7 : List (HloOp τ sig (Elt F))).Forall (KeepsL argRefs) :=
  ⟨keepsL_of_writes main_call14_v0 rfl (by decide), keepsL_of_writes main_call14_v1 rfl (by decide), keepsL_of_writes main_call14_v2 rfl (by decide), keepsL_of_writes main_call14_v3 rfl (by decide), keepsL_of_writes main_call14_v4 rfl (by decide), keepsL_of_writes main_v92 rfl (by decide)⟩

/-- 27 host operations of @main, window 2 (statements 121 … 180), in order. -/
abbrev main_part2_ops8 : List (HloOp τ sig (Elt F)) :=
  [ StableHlo.nullary main_c_50 (constantI S_ 32 0#32),
    StableHlo.unary main_c_50 main_v93 (broadcastInDim S167772 ![] bcast_S_S167772 : (⟨S_, .i32⟩ : BufTy).Contents (Elt F) → (⟨S167772, .i32⟩ : BufTy).Contents (Elt F)),
    StableHlo.binary main_v90 main_v93 main_v94 (cmpi .slt : (⟨S167772, .i32⟩ : BufTy).Contents (Elt F) → (⟨S167772, .i32⟩ : BufTy).Contents (Elt F) → (⟨S167772, .i1⟩ : BufTy).Contents (Elt F)),
    StableHlo.nullary main_c_51 (constantI S_ 32 256#32),
    StableHlo.unary main_c_51 main_v95 (broadcastInDim S167772 ![] bcast_S_S167772 : (⟨S_, .i32⟩ : BufTy).Contents (Elt F) → (⟨S167772, .i32⟩ : BufTy).Contents (Elt F)),
    StableHlo.binary main_v90 main_v95 main_v96 (addi : (⟨S167772, .i32⟩ : BufTy).Contents (Elt F) → (⟨S167772, .i32⟩ : BufTy).Contents (Elt F) → (⟨S167772, .i32⟩ : BufTy).Contents (Elt F)),
    StableHlo.ternary main_v94 main_v96 main_v90 main_v97 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_52 (constantI S_ 32 0#32),
    StableHlo.unary main_c_52 main_v98 (broadcastInDim S167772 ![] bcast_S_S167772 : (⟨S_, .i32⟩ : BufTy).Contents (Elt F) → (⟨S167772, .i32⟩ : BufTy).Contents (Elt F)),
    StableHlo.binary main_v91 main_v98 main_v99 (cmpi .slt : (⟨S167772, .i32⟩ : BufTy).Contents (Elt F) → (⟨S167772, .i32⟩ : BufTy).Contents (Elt F) → (⟨S167772, .i1⟩ : BufTy).Contents (Elt F)),
    StableHlo.nullary main_c_53 (constantI S_ 32 256#32),
    StableHlo.unary main_c_53 main_v100 (broadcastInDim S167772 ![] bcast_S_S167772 : (⟨S_, .i32⟩ : BufTy).Contents (Elt F) → (⟨S167772, .i32⟩ : BufTy).Contents (Elt F)),
    StableHlo.binary main_v91 main_v100 main_v101 (addi : (⟨S167772, .i32⟩ : BufTy).Contents (Elt F) → (⟨S167772, .i32⟩ : BufTy).Contents (Elt F) → (⟨S167772, .i32⟩ : BufTy).Contents (Elt F)),
    StableHlo.ternary main_v99 main_v101 main_v91 main_v102 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.nullary main_c_54 (constantI S_ 32 0#32),
    StableHlo.unary main_c_54 main_v103 (broadcastInDim S167772 ![] bcast_S_S167772 : (⟨S_, .i32⟩ : BufTy).Contents (Elt F) → (⟨S167772, .i32⟩ : BufTy).Contents (Elt F)),
    StableHlo.binary main_v92 main_v103 main_v104 (cmpi .slt : (⟨S167772, .i32⟩ : BufTy).Contents (Elt F) → (⟨S167772, .i32⟩ : BufTy).Contents (Elt F) → (⟨S167772, .i1⟩ : BufTy).Contents (Elt F)),
    StableHlo.nullary main_c_55 (constantI S_ 32 256#32),
    StableHlo.unary main_c_55 main_v105 (broadcastInDim S167772 ![] bcast_S_S167772 : (⟨S_, .i32⟩ : BufTy).Contents (Elt F) → (⟨S167772, .i32⟩ : BufTy).Contents (Elt F)),
    StableHlo.binary main_v92 main_v105 main_v106 (addi : (⟨S167772, .i32⟩ : BufTy).Contents (Elt F) → (⟨S167772, .i32⟩ : BufTy).Contents (Elt F) → (⟨S167772, .i32⟩ : BufTy).Contents (Elt F)),
    StableHlo.ternary main_v104 main_v106 main_v92 main_v107 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v97 main_v108 (broadcastInDim S167772x1 ![0] bcast_S167772_S167772x1_0 : (⟨S167772, .i32⟩ : BufTy).Contents (Elt F) → (⟨S167772x1, .i32⟩ : BufTy).Contents (Elt F)),
    StableHlo.unary main_v102 main_v109 (broadcastInDim S167772x1 ![0] bcast_S167772_S167772x1_0 : (⟨S167772, .i32⟩ : BufTy).Contents (Elt F) → (⟨S167772x1, .i32⟩ : BufTy).Contents (Elt F)),
    StableHlo.unary main_v107 main_v110 (broadcastInDim S167772x1 ![0] bcast_S167772_S167772x1_0 : (⟨S167772, .i32⟩ : BufTy).Contents (Elt F) → (⟨S167772x1, .i32⟩ : BufTy).Contents (Elt F)),
    StableHlo.nary ![main_v108, main_v109, main_v110] main_v111 (fun u => concatenate S167772x3 1 [⟨S167772x1, u 0⟩, ⟨S167772x1, u 1⟩, ⟨S167772x1, u 2⟩] concatenates_S167772x1_S167772x1_S167772x1_S167772x3_d1),
    StableHlo.binary main_arg1 main_v111 main_v112 ((fun x i => Host.gather gather_S256x256x256_S167772x3_S167772_n_012_n_n_012_1_111 x i) : (⟨S256x256x256, .i32⟩ : BufTy).Contents (Elt F) → (⟨S167772x3, .i32⟩ : BufTy).Contents (Elt F) → (⟨S167772, .i32⟩ : BufTy).Contents (Elt F)),
    StableHlo.nullary main_c_56 (constantI S_ 32 4294967295#32) ]
/-- Each touches TensorCore references only. -/
theorem main_part2_ops8_sub : (main_part2_ops8 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.unary_bufs_sub .., StableHlo.nary_bufs_sub .., StableHlo.binary_bufs_sub .., StableHlo.nullary_bufs_sub ..⟩
/-- Each determines its results. -/
theorem main_part2_ops8_fresh : (main_part2_ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- None writes an argument of the program. -/
theorem main_part2_ops8_keeps : (main_part2_ops8 : List (HloOp τ sig (Elt F))).Forall (KeepsL argRefs) :=
  ⟨keepsL_of_writes main_c_50 rfl (by decide), keepsL_of_writes main_v93 rfl (by decide), keepsL_of_writes main_v94 rfl (by decide), keepsL_of_writes main_c_51 rfl (by decide), keepsL_of_writes main_v95 rfl (by decide), keepsL_of_writes main_v96 rfl (by decide), keepsL_of_writes main_v97 rfl (by decide), keepsL_of_writes main_c_52 rfl (by decide), keepsL_of_writes main_v98 rfl (by decide), keepsL_of_writes main_v99 rfl (by decide), keepsL_of_writes main_c_53 rfl (by decide), keepsL_of_writes main_v100 rfl (by decide), keepsL_of_writes main_v101 rfl (by decide), keepsL_of_writes main_v102 rfl (by decide), keepsL_of_writes main_c_54 rfl (by decide), keepsL_of_writes main_v103 rfl (by decide), keepsL_of_writes main_v104 rfl (by decide), keepsL_of_writes main_c_55 rfl (by decide), keepsL_of_writes main_v105 rfl (by decide), keepsL_of_writes main_v106 rfl (by decide), keepsL_of_writes main_v107 rfl (by decide), keepsL_of_writes main_v108 rfl (by decide), keepsL_of_writes main_v109 rfl (by decide), keepsL_of_writes main_v110 rfl (by decide), keepsL_of_writes main_v111 rfl (by decide), keepsL_of_writes main_v112 rfl (by decide), keepsL_of_writes main_c_56 rfl (by decide)⟩

/-- 2 host operations of @where_2 (main_call15), window 2 (statements 121 … 180), in order. -/
abbrev main_part2_ops9 : List (HloOp τ sig (Elt F)) :=
  [ StableHlo.TRef.unary (.of main_c_56 : StableHlo.TRef sig ⟨S_, .i32⟩) (.of main_call15_v0 : StableHlo.TRef sig ⟨S167772, .i32⟩) (broadcastInDim S167772 ![] bcast_S_S167772),
    StableHlo.TRef.ternary (.of main_v15 : StableHlo.TRef sig ⟨S167772, .i1⟩) (.of main_v112 : StableHlo.TRef sig ⟨S167772, .i32⟩) (.of main_call15_v0 : StableHlo.TRef sig ⟨S167772, .i32⟩) (.of main_v113 : StableHlo.TRef sig ⟨S167772, .i32⟩) select ]
/-- Each touches TensorCore references only. -/
theorem main_part2_ops9_sub : (main_part2_ops9 : List (HloOp τ sig (Elt F))).Forall fun op => op.bufs ⊆ StableHlo.tcRefs τ sig :=
  ⟨StableHlo.unary_bufs_sub .., StableHlo.ternary_bufs_sub ..⟩
/-- Each determines its results. -/
theorem main_part2_ops9_fresh : (main_part2_ops9 : List (HloOp τ sig (Elt F))).Forall fun op => op.fresh = ∅ :=
  ⟨rfl, rfl⟩
/-- None writes an argument of the program. -/
theorem main_part2_ops9_keeps : (main_part2_ops9 : List (HloOp τ sig (Elt F))).Forall (KeepsL argRefs) :=
  ⟨keepsL_of_writes main_call15_v0 rfl (by decide), keepsL_of_writes main_v113 rfl (by decide)⟩

/-- 1 host operation of @main, window 2 (statements 121 … 180), in order. -/
abbrev main_part2_ops10 : List (HloOp τ sig (Elt F)) :=
  [ StableHlo.nullary main_c_57 (constantI S_ 32 0#32) ]
/-- Each touches TensorCore references only. -/
theorem main_part2_ops10_sub : (main_part2_ops10 : List (HloOp τ sig (Elt F))).Forall fun op => op.bufs ⊆ StableHlo.tcRefs τ sig :=
  StableHlo.nullary_bufs_sub ..
/-- Each determines its results. -/
theorem main_part2_ops10_fresh : (main_part2_ops10 : List (HloOp τ sig (Elt F))).Forall fun op => op.fresh = ∅ :=
  rfl
/-- None writes an argument of the program. -/
theorem main_part2_ops10_keeps : (main_part2_ops10 : List (HloOp τ sig (Elt F))).Forall (KeepsL argRefs) :=
  keepsL_of_writes main_c_57 rfl (by decide)

/-- 3 host operations of @clip_3 (main_call16), window 2 (statements 121 … 180), in order. -/
abbrev main_part2_ops11 : List (HloOp τ sig (Elt F)) :=
  [ StableHlo.TRef.unary (.of main_c_57 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S167772, .i32⟩) (broadcastInDim S167772 ![] bcast_S_S167772),
    StableHlo.TRef.binary (.of main_call16_v1 : StableHlo.TRef sig ⟨S167772, .i32⟩) (.of main_v35 : StableHlo.TRef sig ⟨S167772, .i32⟩) (.of main_v114 : StableHlo.TRef sig ⟨S167772, .i32⟩) maxsi ]
/-- Each touches TensorCore references only. -/
theorem main_part2_ops11_sub : (main_part2_ops11 : List (HloOp τ sig (Elt F))).Forall fun op => op.bufs ⊆ StableHlo.tcRefs τ sig :=
  ⟨StableHlo.unary_bufs_sub .., StableHlo.unary_bufs_sub .., StableHlo.binary_bufs_sub ..⟩
/-- Each determines its results. -/
theorem main_part2_ops11_fresh : (main_part2_ops11 : List (HloOp τ sig (Elt F))).Forall fun op => op.fresh = ∅ :=
  ⟨rfl, rfl, rfl⟩
/-- None writes an argument of the program. -/
theorem main_part2_ops11_keeps : (main_part2_ops11 : List (HloOp τ sig (Elt F))).Forall (KeepsL argRefs) :=
  ⟨keepsL_of_writes main_call16_v0 rfl (by decide), keepsL_of_writes main_call16_v1 rfl (by decide), keepsL_of_writes main_v114 rfl (by decide)⟩

/-- 6 host operations of @main, window 2 (statements 121 … 180), in order. -/
abbrev main_part2_ops12 : List (HloOp τ sig (Elt F)) :=
  [ StableHlo.nullary main_c_58 (constantI S_ 32 0#32),
    StableHlo.unary main_c_58 main_v115 (broadcastInDim S167772 ![] bcast_S_S167772 : (⟨S_, .i32⟩ : BufTy).Contents (Elt F) → (⟨S167772, .i32⟩ : BufTy).Contents (Elt F)),
    StableHlo.binary main_v114 main_v115 main_v116 (cmpi .slt : (⟨S167772, .i32⟩ : BufTy).Contents (Elt F) → (⟨S167772, .i32⟩ : BufTy).Contents (Elt F) → (⟨S167772, .i1⟩ : BufTy).Contents (Elt F)),
    StableHlo.nullary main_c_59 (constantI S_ 32 8388608#32),
    StableHlo.unary main_c_59 main_v117 (broadcastInDim S167772 ![] bcast_S_S167772 : (⟨S_, .i32⟩ : BufTy).Contents (Elt F) → (⟨S167772, .i32⟩ : BufTy).Contents (Elt F)),
    StableHlo.binary main_v114 main_v117 main_v118 (addi : (⟨S167772, .i32⟩ : BufTy).Contents (Elt F) → (⟨S167772, .i32⟩ : BufTy).Contents (Elt F) → (⟨S167772, .i32⟩ : BufTy).Contents (Elt F)) ]
/-- Each touches TensorCore references only. -/
theorem main_part2_ops12_sub : (main_part2_ops12 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..⟩
/-- Each determines its results. -/
theorem main_part2_ops12_fresh : (main_part2_ops12 : List (HloOp τ sig (Elt F))).Forall fun op => op.fresh = ∅ :=
  ⟨rfl, rfl, rfl, rfl, rfl, rfl⟩
/-- None writes an argument of the program. -/
theorem main_part2_ops12_keeps : (main_part2_ops12 : List (HloOp τ sig (Elt F))).Forall (KeepsL argRefs) :=
  ⟨keepsL_of_writes main_c_58 rfl (by decide), keepsL_of_writes main_v115 rfl (by decide), keepsL_of_writes main_v116 rfl (by decide), keepsL_of_writes main_c_59 rfl (by decide), keepsL_of_writes main_v117 rfl (by decide), keepsL_of_writes main_v118 rfl (by decide)⟩

/-- Window 2 is the chain of its stretches, ending in the last. -/
theorem main_part2_chain (c : Dev nD) : main_part2 (F := F) c = (Pipeline.chainK
  [ StableHlo.seq main_part2_ops0,
    StableHlo.seq main_part2_ops1,
    StableHlo.seq main_part2_ops2,
    StableHlo.seq main_part2_ops3,
    StableHlo.seq main_part2_ops4,
    StableHlo.seq main_part2_ops5,
    StableHlo.seq main_part2_ops6,
    StableHlo.seq main_part2_ops7,
    StableHlo.seq main_part2_ops8,
    StableHlo.seq main_part2_ops9,
    StableHlo.seq main_part2_ops10,
    StableHlo.seq main_part2_ops11 ]
  (StableHlo.seq main_part2_ops12) : Prog (TpuEff nD τ sig (Elt F) (Pipeline.Sig Λ₀ (Fin 0) fun p => (pcfgs (F := F) p).Adm) .tc) PUnit) := by
  chain_rfl

/-- Window 2 is the straight line of all its operations. -/
theorem main_part2_eq (c : Dev nD) : main_part2 (F := F) c = (StableHlo.seq (List.flatten [main_part2_ops0, main_part2_ops1, main_part2_ops2, main_part2_ops3, main_part2_ops4, main_part2_ops5, main_part2_ops6, main_part2_ops7, main_part2_ops8, main_part2_ops9, main_part2_ops10, main_part2_ops11] ++ main_part2_ops12) : Prog (TpuEff nD τ sig (Elt F) (Pipeline.Sig Λ₀ (Fin 0) fun p => (pcfgs (F := F) p).Adm) .tc) PUnit) :=
  (main_part2_chain c).trans (chainK_map_seq [main_part2_ops0, main_part2_ops1, main_part2_ops2, main_part2_ops3, main_part2_ops4, main_part2_ops5, main_part2_ops6, main_part2_ops7, main_part2_ops8, main_part2_ops9, main_part2_ops10, main_part2_ops11] main_part2_ops12)

end Cert.ReferenceIdeal.RefRun

end
-- ==== Proof.RefRunW3.lean ====
/-
  Window 3 of the reference program's @main (its statements 181 … 240) as straight lines of host operations: one list per
  stretch between calls of outlined functions and one per call (the callee's operations over the call's own buffers,
  a call nested in it inlined in place), each with the three side facts a run of the whole needs (the operations touch
  TensorCore references only, determine their results, and write none of the program's arguments), and the equation of
  the window with the straight line of their concatenation.
-/
import proofs.«140712_j5016521802106_2_alg».proof.Proof.Gen.ReferenceIdeal
import proofs.«140712_j5016521802106_2_alg».proof.Proof.RefRunArgs

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- 8 host operations of @main, window 3 (statements 181 … 240), in order. -/
abbrev main_part3_ops0 : List (HloOp τ sig (Elt F)) :=
  [ StableHlo.ternary main_v116 main_v118 main_v114 main_v119 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v119 main_v120 (broadcastInDim S167772x1 ![0] bcast_S167772_S167772x1_0 : (⟨S167772, .i32⟩ : BufTy).Contents (Elt F) → (⟨S167772x1, .i32⟩ : BufTy).Contents (Elt F)),
    StableHlo.binary main_arg0 main_v120 main_v121 ((fun x i => Host.gather gather_S8388608x1_S167772x1_S167772x1_1_0_n_n_0_1_11 x i) : (⟨S8388608x1, .f32⟩ : BufTy).Contents (Elt F) → (⟨S167772x1, .i32⟩ : BufTy).Contents (Elt F) → (⟨S167772x1, .f32⟩ : BufTy).Contents (Elt F)),
    StableHlo.nullary main_c_60 (constantI S_ 32 0#32),
    StableHlo.unary main_c_60 main_v122 (broadcastInDim S167772 ![] bcast_S_S167772 : (⟨S_, .i32⟩ : BufTy).Contents (Elt F) → (⟨S167772, .i32⟩ : BufTy).Contents (Elt F)),
    StableHlo.binary main_v35 main_v122 main_v123 (cmpi .sge : (⟨S167772, .i32⟩ : BufTy).Contents (Elt F) → (⟨S167772, .i32⟩ : BufTy).Contents (Elt F) → (⟨S167772, .i1⟩ : BufTy).Contents (Elt F)),
    StableHlo.unary main_v123 main_v124 (broadcastInDim S167772x1 ![0] bcast_S167772_S167772x1_0 : (⟨S167772, .i1⟩ : BufTy).Contents (Elt F) → (⟨S167772x1, .i1⟩ : BufTy).Contents (Elt F)),
    StableHlo.nullary main_cst (constant S_ .f32 0x00000000#32) ]
/-- Each touches TensorCore references only. -/
theorem main_part3_ops0_sub : (main_part3_ops0 : List (HloOp τ sig (Elt F))).Forall fun op => op.bufs ⊆ StableHlo.tcRefs τ sig :=
  ⟨StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩
/-- Each determines its results. -/
theorem main_part3_ops0_fresh : (main_part3_ops0 : List (HloOp τ sig (Elt F))).Forall fun op => op.fresh = ∅ :=
  ⟨rfl, rfl, rfl, rfl, rfl, rfl, rfl, rfl⟩
/-- None writes an argument of the program. -/
theorem main_part3_ops0_keeps : (main_part3_ops0 : List (HloOp τ sig (Elt F))).Forall (KeepsL argRefs) :=
  ⟨keepsL_of_writes main_v119 rfl (by decide), keepsL_of_writes main_v120 rfl (by decide), keepsL_of_writes main_v121 rfl (by decide), keepsL_of_writes main_c_60 rfl (by decide), keepsL_of_writes main_v122 rfl (by decide), keepsL_of_writes main_v123 rfl (by decide), keepsL_of_writes main_v124 rfl (by decide), keepsL_of_writes main_cst rfl (by decide)⟩

/-- 3 host operations of @where_4 (main_call17), window 3 (statements 181 … 240), in order. -/
abbrev main_part3_ops1 : List (HloOp τ sig (Elt F)) :=
  [ StableHlo.TRef.unary (.of main_cst : StableHlo.TRef sig ⟨S_, .f32⟩) (.of main_call17_v0 : StableHlo.TRef sig ⟨S_, .f32⟩) id,
    StableHlo.TRef.unary (.of main_call17_v0 : StableHlo.TRef sig ⟨S_, .f32⟩) (.of main_call17_v1 : StableHlo.TRef sig ⟨S167772x1, .f32⟩) (broadcastInDim S167772x1 ![] bcast_S_S167772x1),
    StableHlo.TRef.ternary (.of main_v124 : StableHlo.TRef sig ⟨S167772x1, .i1⟩) (.of main_v121 : StableHlo.TRef sig ⟨S167772x1, .f32⟩) (.of main_call17_v1 : StableHlo.TRef sig ⟨S167772x1, .f32⟩) (.of main_v125 : StableHlo.TRef sig ⟨S167772x1, .f32⟩) select ]
/-- Each touches TensorCore references only. -/
theorem main_part3_ops1_sub : (main_part3_ops1 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem main_part3_ops1_fresh : (main_part3_ops1 : List (HloOp τ sig (Elt F))).Forall fun op => op.fresh = ∅ :=
  ⟨rfl, rfl, rfl⟩
/-- None writes an argument of the program. -/
theorem main_part3_ops1_keeps : (main_part3_ops1 : List (HloOp τ sig (Elt F))).Forall (KeepsL argRefs) :=
  ⟨keepsL_of_writes main_call17_v0 rfl (by decide), keepsL_of_writes main_call17_v1 rfl (by decide), keepsL_of_writes main_v125 rfl (by decide)⟩

/-- 2 host operations of @main, window 3 (statements 181 … 240), in order. -/
abbrev main_part3_ops2 : List (HloOp τ sig (Elt F)) :=
  [ StableHlo.unary main_v7 main_v126 (broadcastInDim S167772x1 ![0] bcast_S167772_S167772x1_0 : (⟨S167772, .i1⟩ : BufTy).Contents (Elt F) → (⟨S167772x1, .i1⟩ : BufTy).Contents (Elt F)),
    StableHlo.nullary main_c_61 (constantI S_ 32 0#32) ]
/-- Each touches TensorCore references only. -/
theorem main_part3_ops2_sub : (main_part3_ops2 : List (HloOp τ sig (Elt F))).Forall fun op => op.bufs ⊆ StableHlo.tcRefs τ sig :=
  ⟨StableHlo.unary_bufs_sub .., StableHlo.nullary_bufs_sub ..⟩
/-- Each determines its results. -/
theorem main_part3_ops2_fresh : (main_part3_ops2 : List (HloOp τ sig (Elt F))).Forall fun op => op.fresh = ∅ :=
  ⟨rfl, rfl⟩
/-- None writes an argument of the program. -/
theorem main_part3_ops2_keeps : (main_part3_ops2 : List (HloOp τ sig (Elt F))).Forall (KeepsL argRefs) :=
  ⟨keepsL_of_writes main_v126 rfl (by decide), keepsL_of_writes main_c_61 rfl (by decide)⟩

/-- 3 host operations of @clip_3 (main_call18), window 3 (statements 181 … 240), in order. -/
abbrev main_part3_ops3 : List (HloOp τ sig (Elt F)) :=
  [ StableHlo.TRef.unary (.of main_c_61 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S167772, .i32⟩) (broadcastInDim S167772 ![] bcast_S_S167772),
    StableHlo.TRef.binary (.of main_call18_v1 : StableHlo.TRef sig ⟨S167772, .i32⟩) (.of main_v61 : StableHlo.TRef sig ⟨S167772, .i32⟩) (.of main_v127 : StableHlo.TRef sig ⟨S167772, .i32⟩) maxsi ]
/-- Each touches TensorCore references only. -/
theorem main_part3_ops3_sub : (main_part3_ops3 : List (HloOp τ sig (Elt F))).Forall fun op => op.bufs ⊆ StableHlo.tcRefs τ sig :=
  ⟨StableHlo.unary_bufs_sub .., StableHlo.unary_bufs_sub .., StableHlo.binary_bufs_sub ..⟩
/-- Each determines its results. -/
theorem main_part3_ops3_fresh : (main_part3_ops3 : List (HloOp τ sig (Elt F))).Forall fun op => op.fresh = ∅ :=
  ⟨rfl, rfl, rfl⟩
/-- None writes an argument of the program. -/
theorem main_part3_ops3_keeps : (main_part3_ops3 : List (HloOp τ sig (Elt F))).Forall (KeepsL argRefs) :=
  ⟨keepsL_of_writes main_call18_v0 rfl (by decide), keepsL_of_writes main_call18_v1 rfl (by decide), keepsL_of_writes main_v127 rfl (by decide)⟩

/-- 14 host operations of @main, window 3 (statements 181 … 240), in order. -/
abbrev main_part3_ops4 : List (HloOp τ sig (Elt F)) :=
  [ StableHlo.nullary main_c_62 (constantI S_ 32 0#32),
    StableHlo.unary main_c_62 main_v128 (broadcastInDim S167772 ![] bcast_S_S167772 : (⟨S_, .i32⟩ : BufTy).Contents (Elt F) → (⟨S167772, .i32⟩ : BufTy).Contents (Elt F)),
    StableHlo.binary main_v127 main_v128 main_v129 (cmpi .slt : (⟨S167772, .i32⟩ : BufTy).Contents (Elt F) → (⟨S167772, .i32⟩ : BufTy).Contents (Elt F) → (⟨S167772, .i1⟩ : BufTy).Contents (Elt F)),
    StableHlo.nullary main_c_63 (constantI S_ 32 8388608#32),
    StableHlo.unary main_c_63 main_v130 (broadcastInDim S167772 ![] bcast_S_S167772 : (⟨S_, .i32⟩ : BufTy).Contents (Elt F) → (⟨S167772, .i32⟩ : BufTy).Contents (Elt F)),
    StableHlo.binary main_v127 main_v130 main_v131 (addi : (⟨S167772, .i32⟩ : BufTy).Contents (Elt F) → (⟨S167772, .i32⟩ : BufTy).Contents (Elt F) → (⟨S167772, .i32⟩ : BufTy).Contents (Elt F)),
    StableHlo.ternary main_v129 main_v131 main_v127 main_v132 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v132 main_v133 (broadcastInDim S167772x1 ![0] bcast_S167772_S167772x1_0 : (⟨S167772, .i32⟩ : BufTy).Contents (Elt F) → (⟨S167772x1, .i32⟩ : BufTy).Contents (Elt F)),
    StableHlo.binary main_arg0 main_v133 main_v134 ((fun x i => Host.gather gather_S8388608x1_S167772x1_S167772x1_1_0_n_n_0_1_11 x i) : (⟨S8388608x1, .f32⟩ : BufTy).Contents (Elt F) → (⟨S167772x1, .i32⟩ : BufTy).Contents (Elt F) → (⟨S167772x1, .f32⟩ : BufTy).Contents (Elt F)),
    StableHlo.nullary main_c_64 (constantI S_ 32 0#32),
    StableHlo.unary main_c_64 main_v135 (broadcastInDim S167772 ![] bcast_S_S167772 : (⟨S_, .i32⟩ : BufTy).Contents (Elt F) → (⟨S167772, .i32⟩ : BufTy).Contents (Elt F)),
    StableHlo.binary main_v61 main_v135 main_v136 (cmpi .sge : (⟨S167772, .i32⟩ : BufTy).Contents (Elt F) → (⟨S167772, .i32⟩ : BufTy).Contents (Elt F) → (⟨S167772, .i1⟩ : BufTy).Contents (Elt F)),
    StableHlo.unary main_v136 main_v137 (broadcastInDim S167772x1 ![0] bcast_S167772_S167772x1_0 : (⟨S167772, .i1⟩ : BufTy).Contents (Elt F) → (⟨S167772x1, .i1⟩ : BufTy).Contents (Elt F)),
    StableHlo.nullary main_cst_65 (constant S_ .f32 0x00000000#32) ]
/-- Each touches TensorCore references only. -/
theorem main_part3_ops4_sub : (main_part3_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩
/-- Each determines its results. -/
theorem main_part3_ops4_fresh : (main_part3_ops4 : List (HloOp τ sig (Elt F))).Forall fun op => op.fresh = ∅ :=
  ⟨rfl, rfl, rfl, rfl, rfl, rfl, rfl, rfl, rfl, rfl, rfl, rfl, rfl, rfl⟩
/-- None writes an argument of the program. -/
theorem main_part3_ops4_keeps : (main_part3_ops4 : List (HloOp τ sig (Elt F))).Forall (KeepsL argRefs) :=
  ⟨keepsL_of_writes main_c_62 rfl (by decide), keepsL_of_writes main_v128 rfl (by decide), keepsL_of_writes main_v129 rfl (by decide), keepsL_of_writes main_c_63 rfl (by decide), keepsL_of_writes main_v130 rfl (by decide), keepsL_of_writes main_v131 rfl (by decide), keepsL_of_writes main_v132 rfl (by decide), keepsL_of_writes main_v133 rfl (by decide), keepsL_of_writes main_v134 rfl (by decide), keepsL_of_writes main_c_64 rfl (by decide), keepsL_of_writes main_v135 rfl (by decide), keepsL_of_writes main_v136 rfl (by decide), keepsL_of_writes main_v137 rfl (by decide), keepsL_of_writes main_cst_65 rfl (by decide)⟩

/-- 3 host operations of @where_4 (main_call19), window 3 (statements 181 … 240), in order. -/
abbrev main_part3_ops5 : List (HloOp τ sig (Elt F)) :=
  [ StableHlo.TRef.unary (.of main_cst_65 : StableHlo.TRef sig ⟨S_, .f32⟩) (.of main_call19_v0 : StableHlo.TRef sig ⟨S_, .f32⟩) id,
    StableHlo.TRef.unary (.of main_call19_v0 : StableHlo.TRef sig ⟨S_, .f32⟩) (.of main_call19_v1 : StableHlo.TRef sig ⟨S167772x1, .f32⟩) (broadcastInDim S167772x1 ![] bcast_S_S167772x1),
    StableHlo.TRef.ternary (.of main_v137 : StableHlo.TRef sig ⟨S167772x1, .i1⟩) (.of main_v134 : StableHlo.TRef sig ⟨S167772x1, .f32⟩) (.of main_call19_v1 : StableHlo.TRef sig ⟨S167772x1, .f32⟩) (.of main_v138 : StableHlo.TRef sig ⟨S167772x1, .f32⟩) select ]
/-- Each touches TensorCore references only. -/
theorem main_part3_ops5_sub : (main_part3_ops5 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem main_part3_ops5_fresh : (main_part3_ops5 : List (HloOp τ sig (Elt F))).Forall fun op => op.fresh = ∅ :=
  ⟨rfl, rfl, rfl⟩
/-- None writes an argument of the program. -/
theorem main_part3_ops5_keeps : (main_part3_ops5 : List (HloOp τ sig (Elt F))).Forall (KeepsL argRefs) :=
  ⟨keepsL_of_writes main_call19_v0 rfl (by decide), keepsL_of_writes main_call19_v1 rfl (by decide), keepsL_of_writes main_v138 rfl (by decide)⟩

/-- 1 host operation of @where_5 (main_call20), window 3 (statements 181 … 240), in order. -/
abbrev main_part3_ops6 : List (HloOp τ sig (Elt F)) :=
  [ StableHlo.TRef.ternary (.of main_v126 : StableHlo.TRef sig ⟨S167772x1, .i1⟩) (.of main_v138 : StableHlo.TRef sig ⟨S167772x1, .f32⟩) (.of main_v125 : StableHlo.TRef sig ⟨S167772x1, .f32⟩) (.of main_v139 : StableHlo.TRef sig ⟨S167772x1, .f32⟩) select ]
/-- Each touches TensorCore references only. -/
theorem main_part3_ops6_sub : (main_part3_ops6 : List (HloOp τ sig (Elt F))).Forall fun op => op.bufs ⊆ StableHlo.tcRefs τ sig :=
  StableHlo.ternary_bufs_sub ..
/-- Each determines its results. -/
theorem main_part3_ops6_fresh : (main_part3_ops6 : List (HloOp τ sig (Elt F))).Forall fun op => op.fresh = ∅ :=
  rfl
/-- None writes an argument of the program. -/
theorem main_part3_ops6_keeps : (main_part3_ops6 : List (HloOp τ sig (Elt F))).Forall (KeepsL argRefs) :=
  keepsL_of_writes main_v139 rfl (by decide)

/-- 2 host operations of @main, window 3 (statements 181 … 240), in order. -/
abbrev main_part3_ops7 : List (HloOp τ sig (Elt F)) :=
  [ StableHlo.unary main_v11 main_v140 (broadcastInDim S167772x1 ![0] bcast_S167772_S167772x1_0 : (⟨S167772, .i1⟩ : BufTy).Contents (Elt F) → (⟨S167772x1, .i1⟩ : BufTy).Contents (Elt F)),
    StableHlo.nullary main_c_66 (constantI S_ 32 0#32) ]
/-- Each touches TensorCore references only. -/
theorem main_part3_ops7_sub : (main_part3_ops7 : List (HloOp τ sig (Elt F))).Forall fun op => op.bufs ⊆ StableHlo.tcRefs τ sig :=
  ⟨StableHlo.unary_bufs_sub .., StableHlo.nullary_bufs_sub ..⟩
/-- Each determines its results. -/
theorem main_part3_ops7_fresh : (main_part3_ops7 : List (HloOp τ sig (Elt F))).Forall fun op => op.fresh = ∅ :=
  ⟨rfl, rfl⟩
/-- None writes an argument of the program. -/
theorem main_part3_ops7_keeps : (main_part3_ops7 : List (HloOp τ sig (Elt F))).Forall (KeepsL argRefs) :=
  ⟨keepsL_of_writes main_v140 rfl (by decide), keepsL_of_writes main_c_66 rfl (by decide)⟩

/-- 3 host operations of @clip_3 (main_call21), window 3 (statements 181 … 240), in order. -/
abbrev main_part3_ops8 : List (HloOp τ sig (Elt F)) :=
  [ StableHlo.TRef.unary (.of main_c_66 : StableHlo.TRef sig ⟨S_, .i32⟩) (.of main_call21_v0 : StableHlo.TRef sig ⟨S_, .i32⟩) id,
    StableHlo.TRef.unary (.of main_call21_v0 : StableHlo.TRef sig ⟨S_, .i32⟩) (.of main_call21_v1 : StableHlo.TRef sig ⟨S167772, .i32⟩) (broadcastInDim S167772 ![] bcast_S_S167772),
    StableHlo.TRef.binary (.of main_call21_v1 : StableHlo.TRef sig ⟨S167772, .i32⟩) (.of main_v87 : StableHlo.TRef sig ⟨S167772, .i32⟩) (.of main_v141 : StableHlo.TRef sig ⟨S167772, .i32⟩) maxsi ]
/-- Each touches TensorCore references only. -/
theorem main_part3_ops8_sub : (main_part3_ops8 : List (HloOp τ sig (Elt F))).Forall fun op => op.bufs ⊆ StableHlo.tcRefs τ sig :=
  ⟨StableHlo.unary_bufs_sub .., StableHlo.unary_bufs_sub .., StableHlo.binary_bufs_sub ..⟩
/-- Each determines its results. -/
theorem main_part3_ops8_fresh : (main_part3_ops8 : List (HloOp τ sig (Elt F))).Forall fun op => op.fresh = ∅ :=
  ⟨rfl, rfl, rfl⟩
/-- None writes an argument of the program. -/
theorem main_part3_ops8_keeps : (main_part3_ops8 : List (HloOp τ sig (Elt F))).Forall (KeepsL argRefs) :=
  ⟨keepsL_of_writes main_call21_v0 rfl (by decide), keepsL_of_writes main_call21_v1 rfl (by decide), keepsL_of_writes main_v141 rfl (by decide)⟩

/-- 14 host operations of @main, window 3 (statements 181 … 240), in order. -/
abbrev main_part3_ops9 : List (HloOp τ sig (Elt F)) :=
  [ StableHlo.nullary main_c_67 (constantI S_ 32 0#32),
    StableHlo.unary main_c_67 main_v142 (broadcastInDim S167772 ![] bcast_S_S167772 : (⟨S_, .i32⟩ : BufTy).Contents (Elt F) → (⟨S167772, .i32⟩ : BufTy).Contents (Elt F)),
    StableHlo.binary main_v141 main_v142 main_v143 (cmpi .slt : (⟨S167772, .i32⟩ : BufTy).Contents (Elt F) → (⟨S167772, .i32⟩ : BufTy).Contents (Elt F) → (⟨S167772, .i1⟩ : BufTy).Contents (Elt F)),
    StableHlo.nullary main_c_68 (constantI S_ 32 8388608#32),
    StableHlo.unary main_c_68 main_v144 (broadcastInDim S167772 ![] bcast_S_S167772 : (⟨S_, .i32⟩ : BufTy).Contents (Elt F) → (⟨S167772, .i32⟩ : BufTy).Contents (Elt F)),
    StableHlo.binary main_v141 main_v144 main_v145 (addi : (⟨S167772, .i32⟩ : BufTy).Contents (Elt F) → (⟨S167772, .i32⟩ : BufTy).Contents (Elt F) → (⟨S167772, .i32⟩ : BufTy).Contents (Elt F)),
    StableHlo.ternary main_v143 main_v145 main_v141 main_v146 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v146 main_v147 (broadcastInDim S167772x1 ![0] bcast_S167772_S167772x1_0 : (⟨S167772, .i32⟩ : BufTy).Contents (Elt F) → (⟨S167772x1, .i32⟩ : BufTy).Contents (Elt F)),
    StableHlo.binary main_arg0 main_v147 main_v148 ((fun x i => Host.gather gather_S8388608x1_S167772x1_S167772x1_1_0_n_n_0_1_11 x i) : (⟨S8388608x1, .f32⟩ : BufTy).Contents (Elt F) → (⟨S167772x1, .i32⟩ : BufTy).Contents (Elt F) → (⟨S167772x1, .f32⟩ : BufTy).Contents (Elt F)),
    StableHlo.nullary main_c_69 (constantI S_ 32 0#32),
    StableHlo.unary main_c_69 main_v149 (broadcastInDim S167772 ![] bcast_S_S167772 : (⟨S_, .i32⟩ : BufTy).Contents (Elt F) → (⟨S167772, .i32⟩ : BufTy).Contents (Elt F)),
    StableHlo.binary main_v87 main_v149 main_v150 (cmpi .sge : (⟨S167772, .i32⟩ : BufTy).Contents (Elt F) → (⟨S167772, .i32⟩ : BufTy).Contents (Elt F) → (⟨S167772, .i1⟩ : BufTy).Contents (Elt F)),
    StableHlo.unary main_v150 main_v151 (broadcastInDim S167772x1 ![0] bcast_S167772_S167772x1_0 : (⟨S167772, .i1⟩ : BufTy).Contents (Elt F) → (⟨S167772x1, .i1⟩ : BufTy).Contents (Elt F)),
    StableHlo.nullary main_cst_70 (constant S_ .f32 0x00000000#32) ]
/-- Each touches TensorCore references only. -/
theorem main_part3_ops9_sub : (main_part3_ops9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub ..⟩
/-- Each determines its results. -/
theorem main_part3_ops9_fresh : (main_part3_ops9 : List (HloOp τ sig (Elt F))).Forall fun op => op.fresh = ∅ :=
  ⟨rfl, rfl, rfl, rfl, rfl, rfl, rfl, rfl, rfl, rfl, rfl, rfl, rfl, rfl⟩
/-- None writes an argument of the program. -/
theorem main_part3_ops9_keeps : (main_part3_ops9 : List (HloOp τ sig (Elt F))).Forall (KeepsL argRefs) :=
  ⟨keepsL_of_writes main_c_67 rfl (by decide), keepsL_of_writes main_v142 rfl (by decide), keepsL_of_writes main_v143 rfl (by decide), keepsL_of_writes main_c_68 rfl (by decide), keepsL_of_writes main_v144 rfl (by decide), keepsL_of_writes main_v145 rfl (by decide), keepsL_of_writes main_v146 rfl (by decide), keepsL_of_writes main_v147 rfl (by decide), keepsL_of_writes main_v148 rfl (by decide), keepsL_of_writes main_c_69 rfl (by decide), keepsL_of_writes main_v149 rfl (by decide), keepsL_of_writes main_v150 rfl (by decide), keepsL_of_writes main_v151 rfl (by decide), keepsL_of_writes main_cst_70 rfl (by decide)⟩

/-- 3 host operations of @where_4 (main_call22), window 3 (statements 181 … 240), in order. -/
abbrev main_part3_ops10 : List (HloOp τ sig (Elt F)) :=
  [ StableHlo.TRef.unary (.of main_cst_70 : StableHlo.TRef sig ⟨S_, .f32⟩) (.of main_call22_v0 : StableHlo.TRef sig ⟨S_, .f32⟩) id,
    StableHlo.TRef.unary (.of main_call22_v0 : StableHlo.TRef sig ⟨S_, .f32⟩) (.of main_call22_v1 : StableHlo.TRef sig ⟨S167772x1, .f32⟩) (broadcastInDim S167772x1 ![] bcast_S_S167772x1),
    StableHlo.TRef.ternary (.of main_v151 : StableHlo.TRef sig ⟨S167772x1, .i1⟩) (.of main_v148 : StableHlo.TRef sig ⟨S167772x1, .f32⟩) (.of main_call22_v1 : StableHlo.TRef sig ⟨S167772x1, .f32⟩) (.of main_v152 : StableHlo.TRef sig ⟨S167772x1, .f32⟩) select ]
/-- Each touches TensorCore references only. -/
theorem main_part3_ops10_sub : (main_part3_ops10 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem main_part3_ops10_fresh : (main_part3_ops10 : List (HloOp τ sig (Elt F))).Forall fun op => op.fresh = ∅ :=
  ⟨rfl, rfl, rfl⟩
/-- None writes an argument of the program. -/
theorem main_part3_ops10_keeps : (main_part3_ops10 : List (HloOp τ sig (Elt F))).Forall (KeepsL argRefs) :=
  ⟨keepsL_of_writes main_call22_v0 rfl (by decide), keepsL_of_writes main_call22_v1 rfl (by decide), keepsL_of_writes main_v152 rfl (by decide)⟩

/-- 1 host operation of @where_5 (main_call23), window 3 (statements 181 … 240), in order. -/
abbrev main_part3_ops11 : List (HloOp τ sig (Elt F)) :=
  [ StableHlo.TRef.ternary (.of main_v140 : StableHlo.TRef sig ⟨S167772x1, .i1⟩) (.of main_v152 : StableHlo.TRef sig ⟨S167772x1, .f32⟩) (.of main_v125 : StableHlo.TRef sig ⟨S167772x1, .f32⟩) (.of main_v153 : StableHlo.TRef sig ⟨S167772x1, .f32⟩) select ]
/-- Each touches TensorCore references only. -/
theorem main_part3_ops11_sub : (main_part3_ops11 : List (HloOp τ sig (Elt F))).Forall fun op => op.bufs ⊆ StableHlo.tcRefs τ sig :=
  StableHlo.ternary_bufs_sub ..
/-- Each determines its results. -/
theorem main_part3_ops11_fresh : (main_part3_ops11 : List (HloOp τ sig (Elt F))).Forall fun op => op.fresh = ∅ :=
  rfl
/-- None writes an argument of the program. -/
theorem main_part3_ops11_keeps : (main_part3_ops11 : List (HloOp τ sig (Elt F))).Forall (KeepsL argRefs) :=
  keepsL_of_writes main_v153 rfl (by decide)

/-- 2 host operations of @main, window 3 (statements 181 … 240), in order. -/
abbrev main_part3_ops12 : List (HloOp τ sig (Elt F)) :=
  [ StableHlo.unary main_v15 main_v154 (broadcastInDim S167772x1 ![0] bcast_S167772_S167772x1_0 : (⟨S167772, .i1⟩ : BufTy).Contents (Elt F) → (⟨S167772x1, .i1⟩ : BufTy).Contents (Elt F)),
    StableHlo.nullary main_c_71 (constantI S_ 32 0#32) ]
/-- Each touches TensorCore references only. -/
theorem main_part3_ops12_sub : (main_part3_ops12 : List (HloOp τ sig (Elt F))).Forall fun op => op.bufs ⊆ StableHlo.tcRefs τ sig :=
  ⟨StableHlo.unary_bufs_sub .., StableHlo.nullary_bufs_sub ..⟩
/-- Each determines its results. -/
theorem main_part3_ops12_fresh : (main_part3_ops12 : List (HloOp τ sig (Elt F))).Forall fun op => op.fresh = ∅ :=
  ⟨rfl, rfl⟩
/-- None writes an argument of the program. -/
theorem main_part3_ops12_keeps : (main_part3_ops12 : List (HloOp τ sig (Elt F))).Forall (KeepsL argRefs) :=
  ⟨keepsL_of_writes main_v154 rfl (by decide), keepsL_of_writes main_c_71 rfl (by decide)⟩

/-- 3 host operations of @clip_3 (main_call24), window 3 (statements 181 … 240), in order. -/
abbrev main_part3_ops13 : List (HloOp τ sig (Elt F)) :=
  [ StableHlo.TRef.unary (.of main_c_71 : StableHlo.TRef sig ⟨S_, .i32⟩) (.of main_call24_v0 : StableHlo.TRef sig ⟨S_, .i32⟩) id,
    StableHlo.TRef.unary (.of main_call24_v0 : StableHlo.TRef sig ⟨S_, .i32⟩) (.of main_call24_v1 : StableHlo.TRef sig ⟨S167772, .i32⟩) (broadcastInDim S167772 ![] bcast_S_S167772),
    StableHlo.TRef.binary (.of main_call24_v1 : StableHlo.TRef sig ⟨S167772, .i32⟩) (.of main_v113 : StableHlo.TRef sig ⟨S167772, .i32⟩) (.of main_v155 : StableHlo.TRef sig ⟨S167772, .i32⟩) maxsi ]
/-- Each touches TensorCore references only. -/
theorem main_part3_ops13_sub : (main_part3_ops13 : List (HloOp τ sig (Elt F))).Forall fun op => op.bufs ⊆ StableHlo.tcRefs τ sig :=
  ⟨StableHlo.unary_bufs_sub .., StableHlo.unary_bufs_sub .., StableHlo.binary_bufs_sub ..⟩
/-- Each determines its results. -/
theorem main_part3_ops13_fresh : (main_part3_ops13 : List (HloOp τ sig (Elt F))).Forall fun op => op.fresh = ∅ :=
  ⟨rfl, rfl, rfl⟩
/-- None writes an argument of the program. -/
theorem main_part3_ops13_keeps : (main_part3_ops13 : List (HloOp τ sig (Elt F))).Forall (KeepsL argRefs) :=
  ⟨keepsL_of_writes main_call24_v0 rfl (by decide), keepsL_of_writes main_call24_v1 rfl (by decide), keepsL_of_writes main_v155 rfl (by decide)⟩

/-- 10 host operations of @main, window 3 (statements 181 … 240), in order. -/
abbrev main_part3_ops14 : List (HloOp τ sig (Elt F)) :=
  [ StableHlo.nullary main_c_72 (constantI S_ 32 0#32),
    StableHlo.unary main_c_72 main_v156 (broadcastInDim S167772 ![] bcast_S_S167772 : (⟨S_, .i32⟩ : BufTy).Contents (Elt F) → (⟨S167772, .i32⟩ : BufTy).Contents (Elt F)),
    StableHlo.binary main_v155 main_v156 main_v157 (cmpi .slt : (⟨S167772, .i32⟩ : BufTy).Contents (Elt F) → (⟨S167772, .i32⟩ : BufTy).Contents (Elt F) → (⟨S167772, .i1⟩ : BufTy).Contents (Elt F)),
    StableHlo.nullary main_c_73 (constantI S_ 32 8388608#32),
    StableHlo.unary main_c_73 main_v158 (broadcastInDim S167772 ![] bcast_S_S167772 : (⟨S_, .i32⟩ : BufTy).Contents (Elt F) → (⟨S167772, .i32⟩ : BufTy).Contents (Elt F)),
    StableHlo.binary main_v155 main_v158 main_v159 (addi : (⟨S167772, .i32⟩ : BufTy).Contents (Elt F) → (⟨S167772, .i32⟩ : BufTy).Contents (Elt F) → (⟨S167772, .i32⟩ : BufTy).Contents (Elt F)),
    StableHlo.ternary main_v157 main_v159 main_v155 main_v160 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v160 main_v161 (broadcastInDim S167772x1 ![0] bcast_S167772_S167772x1_0 : (⟨S167772, .i32⟩ : BufTy).Contents (Elt F) → (⟨S167772x1, .i32⟩ : BufTy).Contents (Elt F)),
    StableHlo.binary main_arg0 main_v161 main_v162 ((fun x i => Host.gather gather_S8388608x1_S167772x1_S167772x1_1_0_n_n_0_1_11 x i) : (⟨S8388608x1, .f32⟩ : BufTy).Contents (Elt F) → (⟨S167772x1, .i32⟩ : BufTy).Contents (Elt F) → (⟨S167772x1, .f32⟩ : BufTy).Contents (Elt F)),
    StableHlo.nullary main_c_74 (constantI S_ 32 0#32) ]
/-- Each touches TensorCore references only. -/
theorem main_part3_ops14_sub : (main_part3_ops14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- Each determines its results. -/
theorem main_part3_ops14_fresh : (main_part3_ops14 : List (HloOp τ sig (Elt F))).Forall fun op => op.fresh = ∅ :=
  ⟨rfl, rfl, rfl, rfl, rfl, rfl, rfl, rfl, rfl, rfl⟩
/-- None writes an argument of the program. -/
theorem main_part3_ops14_keeps : (main_part3_ops14 : List (HloOp τ sig (Elt F))).Forall (KeepsL argRefs) :=
  ⟨keepsL_of_writes main_c_72 rfl (by decide), keepsL_of_writes main_v156 rfl (by decide), keepsL_of_writes main_v157 rfl (by decide), keepsL_of_writes main_c_73 rfl (by decide), keepsL_of_writes main_v158 rfl (by decide), keepsL_of_writes main_v159 rfl (by decide), keepsL_of_writes main_v160 rfl (by decide), keepsL_of_writes main_v161 rfl (by decide), keepsL_of_writes main_v162 rfl (by decide), keepsL_of_writes main_c_74 rfl (by decide)⟩

/-- Window 3 is the chain of its stretches, ending in the last. -/
theorem main_part3_chain (c : Dev nD) : main_part3 (F := F) c = (Pipeline.chainK
  [ StableHlo.seq main_part3_ops0,
    StableHlo.seq main_part3_ops1,
    StableHlo.seq main_part3_ops2,
    StableHlo.seq main_part3_ops3,
    StableHlo.seq main_part3_ops4,
    StableHlo.seq main_part3_ops5,
    StableHlo.seq main_part3_ops6,
    StableHlo.seq main_part3_ops7,
    StableHlo.seq main_part3_ops8,
    StableHlo.seq main_part3_ops9,
    StableHlo.seq main_part3_ops10,
    StableHlo.seq main_part3_ops11,
    StableHlo.seq main_part3_ops12,
    StableHlo.seq main_part3_ops13 ]
  (StableHlo.seq main_part3_ops14) : Prog (TpuEff nD τ sig (Elt F) (Pipeline.Sig Λ₀ (Fin 0) fun p => (pcfgs (F := F) p).Adm) .tc) PUnit) := by
  unfold main_part3 fn_where_4.body fn_clip_3.body fn_where_5.body
  simp only [Pipeline.chainK, StableHlo.seq, main_part3_ops0, main_part3_ops1, main_part3_ops2, main_part3_ops3, main_part3_ops4, main_part3_ops5, main_part3_ops6, main_part3_ops7, main_part3_ops8, main_part3_ops9, main_part3_ops10, main_part3_ops11, main_part3_ops12, main_part3_ops13, main_part3_ops14, bind_assoc, pure_bind]
  rfl

/-- Window 3 is the straight line of all its operations. -/
theorem main_part3_eq (c : Dev nD) : main_part3 (F := F) c = (StableHlo.seq (List.flatten [main_part3_ops0, main_part3_ops1, main_part3_ops2, main_part3_ops3, main_part3_ops4, main_part3_ops5, main_part3_ops6, main_part3_ops7, main_part3_ops8, main_part3_ops9, main_part3_ops10, main_part3_ops11, main_part3_ops12, main_part3_ops13] ++ main_part3_ops14) : Prog (TpuEff nD τ sig (Elt F) (Pipeline.Sig Λ₀ (Fin 0) fun p => (pcfgs (F := F) p).Adm) .tc) PUnit) :=
  (main_part3_chain c).trans (chainK_map_seq [main_part3_ops0, main_part3_ops1, main_part3_ops2, main_part3_ops3, main_part3_ops4, main_part3_ops5, main_part3_ops6, main_part3_ops7, main_part3_ops8, main_part3_ops9, main_part3_ops10, main_part3_ops11, main_part3_ops12, main_part3_ops13] main_part3_ops14)

end Cert.ReferenceIdeal.RefRun

end
-- ==== Proof.RefRunW4.lean ====
/-
  Window 4 of the reference program's @main (its statements 241 … 300) as straight lines of host operations: one list per
  stretch between calls of outlined functions and one per call (the callee's operations over the call's own buffers,
  a call nested in it inlined in place), each with the three side facts a run of the whole needs (the operations touch
  TensorCore references only, determine their results, and write none of the program's arguments), and the equation of
  the window with the straight line of their concatenation.
-/
import proofs.«140712_j5016521802106_2_alg».proof.Proof.Gen.ReferenceIdeal
import proofs.«140712_j5016521802106_2_alg».proof.Proof.RefRunArgs

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- 4 host operations of @main, window 4 (statements 241 … 300), in order. -/
abbrev main_part4_ops0 : List (HloOp τ sig (Elt F)) :=
  [ StableHlo.unary main_c_74 main_v163 (broadcastInDim S167772 ![] bcast_S_S167772 : (⟨S_, .i32⟩ : BufTy).Contents (Elt F) → (⟨S167772, .i32⟩ : BufTy).Contents (Elt F)),
    StableHlo.binary main_v113 main_v163 main_v164 (cmpi .sge : (⟨S167772, .i32⟩ : BufTy).Contents (Elt F) → (⟨S167772, .i32⟩ : BufTy).Contents (Elt F) → (⟨S167772, .i1⟩ : BufTy).Contents (Elt F)),
    StableHlo.unary main_v164 main_v165 (broadcastInDim S167772x1 ![0] bcast_S167772_S167772x1_0 : (⟨S167772, .i1⟩ : BufTy).Contents (Elt F) → (⟨S167772x1, .i1⟩ : BufTy).Contents (Elt F)),
    StableHlo.nullary main_cst_75 (constant S_ .f32 0x00000000#32) ]
/-- Each touches TensorCore references only. -/
theorem main_part4_ops0_sub : (main_part4_ops0 : List (HloOp τ sig (Elt F))).Forall fun op => op.bufs ⊆ StableHlo.tcRefs τ sig :=
  ⟨StableHlo.unary_bufs_sub .., StableHlo.binary_bufs_sub .., StableHlo.unary_bufs_sub .., StableHlo.nullary_bufs_sub ..⟩
/-- Each determines its results. -/
theorem main_part4_ops0_fresh : (main_part4_ops0 : List (HloOp τ sig (Elt F))).Forall fun op => op.fresh = ∅ :=
  ⟨rfl, rfl, rfl, rfl⟩
/-- None writes an argument of the program. -/
theorem main_part4_ops0_keeps : (main_part4_ops0 : List (HloOp τ sig (Elt F))).Forall (KeepsL argRefs) :=
  ⟨keepsL_of_writes main_v163 rfl (by decide), keepsL_of_writes main_v164 rfl (by decide), keepsL_of_writes main_v165 rfl (by decide), keepsL_of_writes main_cst_75 rfl (by decide)⟩

/-- 3 host operations of @where_4 (main_call25), window 4 (statements 241 … 300), in order. -/
abbrev main_part4_ops1 : List (HloOp τ sig (Elt F)) :=
  [ StableHlo.TRef.unary (.of main_cst_75 : StableHlo.TRef sig ⟨S_, .f32⟩) (.of main_call25_v0 : StableHlo.TRef sig ⟨S_, .f32⟩) id,
    StableHlo.TRef.unary (.of main_call25_v0 : StableHlo.TRef sig ⟨S_, .f32⟩) (.of main_call25_v1 : StableHlo.TRef sig ⟨S167772x1, .f32⟩) (broadcastInDim S167772x1 ![] bcast_S_S167772x1),
    StableHlo.TRef.ternary (.of main_v165 : StableHlo.TRef sig ⟨S167772x1, .i1⟩) (.of main_v162 : StableHlo.TRef sig ⟨S167772x1, .f32⟩) (.of main_call25_v1 : StableHlo.TRef sig ⟨S167772x1, .f32⟩) (.of main_v166 : StableHlo.TRef sig ⟨S167772x1, .f32⟩) select ]
/-- Each touches TensorCore references only. -/
theorem main_part4_ops1_sub : (main_part4_ops1 : List (HloOp τ sig (Elt F))).Forall fun op => op.bufs ⊆ StableHlo.tcRefs τ sig :=
  ⟨StableHlo.unary_bufs_sub .., StableHlo.unary_bufs_sub .., StableHlo.ternary_bufs_sub ..⟩
/-- Each determines its results. -/
theorem main_part4_ops1_fresh : (main_part4_ops1 : List (HloOp τ sig (Elt F))).Forall fun op => op.fresh = ∅ :=
  ⟨rfl, rfl, rfl⟩
/-- None writes an argument of the program. -/
theorem main_part4_ops1_keeps : (main_part4_ops1 : List (HloOp τ sig (Elt F))).Forall (KeepsL argRefs) :=
  ⟨keepsL_of_writes main_call25_v0 rfl (by decide), keepsL_of_writes main_call25_v1 rfl (by decide), keepsL_of_writes main_v166 rfl (by decide)⟩

/-- 1 host operation of @where_5 (main_call26), window 4 (statements 241 … 300), in order. -/
abbrev main_part4_ops2 : List (HloOp τ sig (Elt F)) :=
  [ StableHlo.TRef.ternary (.of main_v154 : StableHlo.TRef sig ⟨S167772x1, .i1⟩) (.of main_v166 : StableHlo.TRef sig ⟨S167772x1, .f32⟩) (.of main_v125 : StableHlo.TRef sig ⟨S167772x1, .f32⟩) (.of main_v167 : StableHlo.TRef sig ⟨S167772x1, .f32⟩) select ]
/-- Each touches TensorCore references only. -/
theorem main_part4_ops2_sub : (main_part4_ops2 : List (HloOp τ sig (Elt F))).Forall fun op => op.bufs ⊆ StableHlo.tcRefs τ sig :=
  StableHlo.ternary_bufs_sub ..
/-- Each determines its results. -/
theorem main_part4_ops2_fresh : (main_part4_ops2 : List (HloOp τ sig (Elt F))).Forall fun op => op.fresh = ∅ :=
  rfl
/-- None writes an argument of the program. -/
theorem main_part4_ops2_keeps : (main_part4_ops2 : List (HloOp τ sig (Elt F))).Forall (KeepsL argRefs) :=
  keepsL_of_writes main_v167 rfl (by decide)

/-- 34 host operations of @main, window 4 (statements 241 … 300), in order. -/
abbrev main_part4_ops3 : List (HloOp τ sig (Elt F)) :=
  ( StableHlo.binary main_v139 main_v125 main_v168 (subf : (⟨S167772x1, .f32⟩ : BufTy).Contents (Elt F) → (⟨S167772x1, .f32⟩ : BufTy).Contents (Elt F) → (⟨S167772x1, .f32⟩ : BufTy).Contents (Elt F))
  :: StableHlo.nullary main_cst_76 (constant S_ .f32 0x43000000#32)
  :: StableHlo.unary main_cst_76 main_v169 (broadcastInDim S167772x1 ![] bcast_S_S167772x1 : (⟨S_, .f32⟩ : BufTy).Contents (Elt F) → (⟨S167772x1, .f32⟩ : BufTy).Contents (Elt F))
  :: StableHlo.binary main_v168 main_v169 main_v170 (mulf : (⟨S167772x1, .f32⟩ : BufTy).Contents (Elt F) → (⟨S167772x1, .f32⟩ : BufTy).Contents (Elt F) → (⟨S167772x1, .f32⟩ : BufTy).Contents (Elt F))
  :: StableHlo.binary main_v153 main_v125 main_v171 (subf : (⟨S167772x1, .f32⟩ : BufTy).Contents (Elt F) → (⟨S167772x1, .f32⟩ : BufTy).Contents (Elt F) → (⟨S167772x1, .f32⟩ : BufTy).Contents (Elt F))
  :: StableHlo.nullary main_cst_77 (constant S_ .f32 0x43000000#32)
  :: StableHlo.unary main_cst_77 main_v172 (broadcastInDim S167772x1 ![] bcast_S_S167772x1 : (⟨S_, .f32⟩ : BufTy).Contents (Elt F) → (⟨S167772x1, .f32⟩ : BufTy).Contents (Elt F))
  :: StableHlo.binary main_v171 main_v172 main_v173 (mulf : (⟨S167772x1, .f32⟩ : BufTy).Contents (Elt F) → (⟨S167772x1, .f32⟩ : BufTy).Contents (Elt F) → (⟨S167772x1, .f32⟩ : BufTy).Contents (Elt F))
  :: StableHlo.binary main_v167 main_v125 main_v174 (subf : (⟨S167772x1, .f32⟩ : BufTy).Contents (Elt F) → (⟨S167772x1, .f32⟩ : BufTy).Contents (Elt F) → (⟨S167772x1, .f32⟩ : BufTy).Contents (Elt F))
  :: StableHlo.nullary main_cst_78 (constant S_ .f32 0x43000000#32)
  :: StableHlo.unary main_cst_78 main_v175 (broadcastInDim S167772x1 ![] bcast_S_S167772x1 : (⟨S_, .f32⟩ : BufTy).Contents (Elt F) → (⟨S167772x1, .f32⟩ : BufTy).Contents (Elt F))
  :: StableHlo.binary main_v174 main_v175 main_v176 (mulf : (⟨S167772x1, .f32⟩ : BufTy).Contents (Elt F) → (⟨S167772x1, .f32⟩ : BufTy).Contents (Elt F) → (⟨S167772x1, .f32⟩ : BufTy).Contents (Elt F))
  :: StableHlo.binary main_v170 main_v170 main_v177 (mulf : (⟨S167772x1, .f32⟩ : BufTy).Contents (Elt F) → (⟨S167772x1, .f32⟩ : BufTy).Contents (Elt F) → (⟨S167772x1, .f32⟩ : BufTy).Contents (Elt F))
  :: StableHlo.nullary main_cst_79 (constant S_ .f32 0x3089705F#32)
  :: StableHlo.unary main_cst_79 main_v178 (broadcastInDim S167772x1 ![] bcast_S_S167772x1 : (⟨S_, .f32⟩ : BufTy).Contents (Elt F) → (⟨S167772x1, .f32⟩ : BufTy).Contents (Elt F))
  :: StableHlo.binary main_v178 main_v177 main_v179 (addf : (⟨S167772x1, .f32⟩ : BufTy).Contents (Elt F) → (⟨S167772x1, .f32⟩ : BufTy).Contents (Elt F) → (⟨S167772x1, .f32⟩ : BufTy).Contents (Elt F))
  :: StableHlo.binary main_v173 main_v173 main_v180 (mulf : (⟨S167772x1, .f32⟩ : BufTy).Contents (Elt F) → (⟨S167772x1, .f32⟩ : BufTy).Contents (Elt F) → (⟨S167772x1, .f32⟩ : BufTy).Contents (Elt F))
  :: StableHlo.binary main_v179 main_v180 main_v181 (addf : (⟨S167772x1, .f32⟩ : BufTy).Contents (Elt F) → (⟨S167772x1, .f32⟩ : BufTy).Contents (Elt F) → (⟨S167772x1, .f32⟩ : BufTy).Contents (Elt F))
  :: StableHlo.binary main_v176 main_v176 main_v182 (mulf : (⟨S167772x1, .f32⟩ : BufTy).Contents (Elt F) → (⟨S167772x1, .f32⟩ : BufTy).Contents (Elt F) → (⟨S167772x1, .f32⟩ : BufTy).Contents (Elt F))
  :: StableHlo.binary main_v181 main_v182 main_v183 (addf : (⟨S167772x1, .f32⟩ : BufTy).Contents (Elt F) → (⟨S167772x1, .f32⟩ : BufTy).Contents (Elt F) → (⟨S167772x1, .f32⟩ : BufTy).Contents (Elt F))
  :: StableHlo.unary main_v183 main_v184 (Host.rsqrt : (⟨S167772x1, .f32⟩ : BufTy).Contents (Elt F) → (⟨S167772x1, .f32⟩ : BufTy).Contents (Elt F))
  :: StableHlo.nullary main_cst_80 (constant S_ .f32 0x3727C5AC#32)
  :: StableHlo.unary main_cst_80 main_v185 (broadcastInDim S167772x1 ![] bcast_S_S167772x1 : (⟨S_, .f32⟩ : BufTy).Contents (Elt F) → (⟨S167772x1, .f32⟩ : BufTy).Contents (Elt F))
  :: StableHlo.binary main_v185 main_v184 main_v186 (mulf : (⟨S167772x1, .f32⟩ : BufTy).Contents (Elt F) → (⟨S167772x1, .f32⟩ : BufTy).Contents (Elt F) → (⟨S167772x1, .f32⟩ : BufTy).Contents (Elt F))
  :: StableHlo.nullary main_cst_81 (constant S_ .f32 0x00000000#32)
  :: StableHlo.unary main_cst_81 main_v187 (broadcastInDim S8388609x1 ![] bcast_S_S8388609x1 : (⟨S_, .f32⟩ : BufTy).Contents (Elt F) → (⟨S8388609x1, .f32⟩ : BufTy).Contents (Elt F))
  :: StableHlo.binary main_v170 main_v173 main_v188 (addf : (⟨S167772x1, .f32⟩ : BufTy).Contents (Elt F) → (⟨S167772x1, .f32⟩ : BufTy).Contents (Elt F) → (⟨S167772x1, .f32⟩ : BufTy).Contents (Elt F))
  :: StableHlo.binary main_v188 main_v176 main_v189 (addf : (⟨S167772x1, .f32⟩ : BufTy).Contents (Elt F) → (⟨S167772x1, .f32⟩ : BufTy).Contents (Elt F) → (⟨S167772x1, .f32⟩ : BufTy).Contents (Elt F))
  :: StableHlo.unary main_v189 main_v190 (Host.negf : (⟨S167772x1, .f32⟩ : BufTy).Contents (Elt F) → (⟨S167772x1, .f32⟩ : BufTy).Contents (Elt F))
  :: StableHlo.binary main_v190 main_v186 main_v191 (mulf : (⟨S167772x1, .f32⟩ : BufTy).Contents (Elt F) → (⟨S167772x1, .f32⟩ : BufTy).Contents (Elt F) → (⟨S167772x1, .f32⟩ : BufTy).Contents (Elt F))
  :: StableHlo.nullary main_c_82 (constantI S_ 32 0#32)
  :: StableHlo.unary main_c_82 main_v192 (broadcastInDim S167772 ![] bcast_S_S167772 : (⟨S_, .i32⟩ : BufTy).Contents (Elt F) → (⟨S167772, .i32⟩ : BufTy).Contents (Elt F))
  :: StableHlo.binary main_v35 main_v192 main_v193 (cmpi .sge : (⟨S167772, .i32⟩ : BufTy).Contents (Elt F) → (⟨S167772, .i32⟩ : BufTy).Contents (Elt F) → (⟨S167772, .i1⟩ : BufTy).Contents (Elt F))
  :: StableHlo.nullary main_c_83 (constantI S_ 32 8388608#32)
  :: [] )
/-- Each touches TensorCore references only. -/
theorem main_part4_ops3_sub : (main_part4_ops3 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub ..⟩
/-- Each determines its results. -/
theorem main_part4_ops3_fresh : (main_part4_ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- None writes an argument of the program. -/
theorem main_part4_ops3_keeps : (main_part4_ops3 : List (HloOp τ sig (Elt F))).Forall (KeepsL argRefs) :=
  ⟨keepsL_of_writes main_v168 rfl (by decide), keepsL_of_writes main_cst_76 rfl (by decide), keepsL_of_writes main_v169 rfl (by decide), keepsL_of_writes main_v170 rfl (by decide), keepsL_of_writes main_v171 rfl (by decide), keepsL_of_writes main_cst_77 rfl (by decide), keepsL_of_writes main_v172 rfl (by decide), keepsL_of_writes main_v173 rfl (by decide), keepsL_of_writes main_v174 rfl (by decide), keepsL_of_writes main_cst_78 rfl (by decide), keepsL_of_writes main_v175 rfl (by decide), keepsL_of_writes main_v176 rfl (by decide), keepsL_of_writes main_v177 rfl (by decide), keepsL_of_writes main_cst_79 rfl (by decide), keepsL_of_writes main_v178 rfl (by decide), keepsL_of_writes main_v179 rfl (by decide), keepsL_of_writes main_v180 rfl (by decide), keepsL_of_writes main_v181 rfl (by decide), keepsL_of_writes main_v182 rfl (by decide), keepsL_of_writes main_v183 rfl (by decide), keepsL_of_writes main_v184 rfl (by decide), keepsL_of_writes main_cst_80 rfl (by decide), keepsL_of_writes main_v185 rfl (by decide), keepsL_of_writes main_v186 rfl (by decide), keepsL_of_writes main_cst_81 rfl (by decide), keepsL_of_writes main_v187 rfl (by decide), keepsL_of_writes main_v188 rfl (by decide), keepsL_of_writes main_v189 rfl (by decide), keepsL_of_writes main_v190 rfl (by decide), keepsL_of_writes main_v191 rfl (by decide), keepsL_of_writes main_c_82 rfl (by decide), keepsL_of_writes main_v192 rfl (by decide), keepsL_of_writes main_v193 rfl (by decide), keepsL_of_writes main_c_83 rfl (by decide)⟩

/-- 2 host operations of @where_2 (main_call27), window 4 (statements 241 … 300), in order. -/
abbrev main_part4_ops4 : List (HloOp τ sig (Elt F)) :=
  [ StableHlo.TRef.unary (.of main_c_83 : StableHlo.TRef sig ⟨S_, .i32⟩) (.of main_call27_v0 : StableHlo.TRef sig ⟨S167772, .i32⟩) (broadcastInDim S167772 ![] bcast_S_S167772),
    StableHlo.TRef.ternary (.of main_v193 : StableHlo.TRef sig ⟨S167772, .i1⟩) (.of main_v35 : StableHlo.TRef sig ⟨S167772, .i32⟩) (.of main_call27_v0 : StableHlo.TRef sig ⟨S167772, .i32⟩) (.of main_v194 : StableHlo.TRef sig ⟨S167772, .i32⟩) select ]
/-- Each touches TensorCore references only. -/
theorem main_part4_ops4_sub : (main_part4_ops4 : List (HloOp τ sig (Elt F))).Forall fun op => op.bufs ⊆ StableHlo.tcRefs τ sig :=
  ⟨StableHlo.unary_bufs_sub .., StableHlo.ternary_bufs_sub ..⟩
/-- Each determines its results. -/
theorem main_part4_ops4_fresh : (main_part4_ops4 : List (HloOp τ sig (Elt F))).Forall fun op => op.fresh = ∅ :=
  ⟨rfl, rfl⟩
/-- None writes an argument of the program. -/
theorem main_part4_ops4_keeps : (main_part4_ops4 : List (HloOp τ sig (Elt F))).Forall (KeepsL argRefs) :=
  ⟨keepsL_of_writes main_call27_v0 rfl (by decide), keepsL_of_writes main_v194 rfl (by decide)⟩

/-- 14 host operations of @main, window 4 (statements 241 … 300), in order. -/
abbrev main_part4_ops5 : List (HloOp τ sig (Elt F)) :=
  [ StableHlo.nullary main_c_84 (constantI S_ 32 0#32),
    StableHlo.unary main_c_84 main_v195 (broadcastInDim S167772 ![] bcast_S_S167772 : (⟨S_, .i32⟩ : BufTy).Contents (Elt F) → (⟨S167772, .i32⟩ : BufTy).Contents (Elt F)),
    StableHlo.binary main_v194 main_v195 main_v196 (cmpi .slt : (⟨S167772, .i32⟩ : BufTy).Contents (Elt F) → (⟨S167772, .i32⟩ : BufTy).Contents (Elt F) → (⟨S167772, .i1⟩ : BufTy).Contents (Elt F)),
    StableHlo.nullary main_c_85 (constantI S_ 32 8388609#32),
    StableHlo.unary main_c_85 main_v197 (broadcastInDim S167772 ![] bcast_S_S167772 : (⟨S_, .i32⟩ : BufTy).Contents (Elt F) → (⟨S167772, .i32⟩ : BufTy).Contents (Elt F)),
    StableHlo.binary main_v194 main_v197 main_v198 (addi : (⟨S167772, .i32⟩ : BufTy).Contents (Elt F) → (⟨S167772, .i32⟩ : BufTy).Contents (Elt F) → (⟨S167772, .i32⟩ : BufTy).Contents (Elt F)),
    StableHlo.ternary main_v196 main_v198 main_v194 main_v199 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v199 main_v200 (broadcastInDim S167772x1 ![0] bcast_S167772_S167772x1_0 : (⟨S167772, .i32⟩ : BufTy).Contents (Elt F) → (⟨S167772x1, .i32⟩ : BufTy).Contents (Elt F)),
    StableHlo.ternary main_v187 main_v200 main_v191 main_v201 ((fun x i u => Host.scatterAdd scatter_S8388609x1_S167772x1_S167772x1_1_0_0_1 x i u) : (⟨S8388609x1, .f32⟩ : BufTy).Contents (Elt F) → (⟨S167772x1, .i32⟩ : BufTy).Contents (Elt F) → (⟨S167772x1, .f32⟩ : BufTy).Contents (Elt F) → (⟨S8388609x1, .f32⟩ : BufTy).Contents (Elt F)),
    StableHlo.binary main_v170 main_v186 main_v202 (mulf : (⟨S167772x1, .f32⟩ : BufTy).Contents (Elt F) → (⟨S167772x1, .f32⟩ : BufTy).Contents (Elt F) → (⟨S167772x1, .f32⟩ : BufTy).Contents (Elt F)),
    StableHlo.nullary main_c_86 (constantI S_ 32 0#32),
    StableHlo.unary main_c_86 main_v203 (broadcastInDim S167772 ![] bcast_S_S167772 : (⟨S_, .i32⟩ : BufTy).Contents (Elt F) → (⟨S167772, .i32⟩ : BufTy).Contents (Elt F)),
    StableHlo.binary main_v61 main_v203 main_v204 (cmpi .sge : (⟨S167772, .i32⟩ : BufTy).Contents (Elt F) → (⟨S167772, .i32⟩ : BufTy).Contents (Elt F) → (⟨S167772, .i1⟩ : BufTy).Contents (Elt F)),
    StableHlo.nullary main_c_87 (constantI S_ 32 8388608#32) ]
/-- Each touches TensorCore references only. -/
theorem main_part4_ops5_sub : (main_part4_ops5 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub ..⟩
/-- Each determines its results. -/
theorem main_part4_ops5_fresh : (main_part4_ops5 : List (HloOp τ sig (Elt F))).Forall fun op => op.fresh = ∅ :=
  ⟨rfl, rfl, rfl, rfl, rfl, rfl, rfl, rfl, rfl, rfl, rfl, rfl, rfl, rfl⟩
/-- None writes an argument of the program. -/
theorem main_part4_ops5_keeps : (main_part4_ops5 : List (HloOp τ sig (Elt F))).Forall (KeepsL argRefs) :=
  ⟨keepsL_of_writes main_c_84 rfl (by decide), keepsL_of_writes main_v195 rfl (by decide), keepsL_of_writes main_v196 rfl (by decide), keepsL_of_writes main_c_85 rfl (by decide), keepsL_of_writes main_v197 rfl (by decide), keepsL_of_writes main_v198 rfl (by decide), keepsL_of_writes main_v199 rfl (by decide), keepsL_of_writes main_v200 rfl (by decide), keepsL_of_writes main_v201 rfl (by decide), keepsL_of_writes main_v202 rfl (by decide), keepsL_of_writes main_c_86 rfl (by decide), keepsL_of_writes main_v203 rfl (by decide), keepsL_of_writes main_v204 rfl (by decide), keepsL_of_writes main_c_87 rfl (by decide)⟩

/-- 2 host operations of @where_2 (main_call28), window 4 (statements 241 … 300), in order. -/
abbrev main_part4_ops6 : List (HloOp τ sig (Elt F)) :=
  [ StableHlo.TRef.unary (.of main_c_87 : StableHlo.TRef sig ⟨S_, .i32⟩) (.of main_call28_v0 : StableHlo.TRef sig ⟨S167772, .i32⟩) (broadcastInDim S167772 ![] bcast_S_S167772),
    StableHlo.TRef.ternary (.of main_v204 : StableHlo.TRef sig ⟨S167772, .i1⟩) (.of main_v61 : StableHlo.TRef sig ⟨S167772, .i32⟩) (.of main_call28_v0 : StableHlo.TRef sig ⟨S167772, .i32⟩) (.of main_v205 : StableHlo.TRef sig ⟨S167772, .i32⟩) select ]
/-- Each touches TensorCore references only. -/
theorem main_part4_ops6_sub : (main_part4_ops6 : List (HloOp τ sig (Elt F))).Forall fun op => op.bufs ⊆ StableHlo.tcRefs τ sig :=
  ⟨StableHlo.unary_bufs_sub .., StableHlo.ternary_bufs_sub ..⟩
/-- Each determines its results. -/
theorem main_part4_ops6_fresh : (main_part4_ops6 : List (HloOp τ sig (Elt F))).Forall fun op => op.fresh = ∅ :=
  ⟨rfl, rfl⟩
/-- None writes an argument of the program. -/
theorem main_part4_ops6_keeps : (main_part4_ops6 : List (HloOp τ sig (Elt F))).Forall (KeepsL argRefs) :=
  ⟨keepsL_of_writes main_call28_v0 rfl (by decide), keepsL_of_writes main_v205 rfl (by decide)⟩

/-- 4 host operations of @main, window 4 (statements 241 … 300), in order. -/
abbrev main_part4_ops7 : List (HloOp τ sig (Elt F)) :=
  [ StableHlo.nullary main_c_88 (constantI S_ 32 0#32),
    StableHlo.unary main_c_88 main_v206 (broadcastInDim S167772 ![] bcast_S_S167772 : (⟨S_, .i32⟩ : BufTy).Contents (Elt F) → (⟨S167772, .i32⟩ : BufTy).Contents (Elt F)),
    StableHlo.binary main_v205 main_v206 main_v207 (cmpi .slt : (⟨S167772, .i32⟩ : BufTy).Contents (Elt F) → (⟨S167772, .i32⟩ : BufTy).Contents (Elt F) → (⟨S167772, .i1⟩ : BufTy).Contents (Elt F)),
    StableHlo.nullary main_c_89 (constantI S_ 32 8388609#32) ]
/-- Each touches TensorCore references only. -/
theorem main_part4_ops7_sub : (main_part4_ops7 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- Each determines its results. -/
theorem main_part4_ops7_fresh : (main_part4_ops7 : List (HloOp τ sig (Elt F))).Forall fun op => op.fresh = ∅ :=
  ⟨rfl, rfl, rfl, rfl⟩
/-- None writes an argument of the program. -/
theorem main_part4_ops7_keeps : (main_part4_ops7 : List (HloOp τ sig (Elt F))).Forall (KeepsL argRefs) :=
  ⟨keepsL_of_writes main_c_88 rfl (by decide), keepsL_of_writes main_v206 rfl (by decide), keepsL_of_writes main_v207 rfl (by decide), keepsL_of_writes main_c_89 rfl (by decide)⟩

/-- Window 4 is the chain of its stretches, ending in the last. -/
theorem main_part4_chain (c : Dev nD) : main_part4 (F := F) c = (Pipeline.chainK
  [ StableHlo.seq main_part4_ops0,
    StableHlo.seq main_part4_ops1,
    StableHlo.seq main_part4_ops2,
    StableHlo.seq main_part4_ops3,
    StableHlo.seq main_part4_ops4,
    StableHlo.seq main_part4_ops5,
    StableHlo.seq main_part4_ops6 ]
  (StableHlo.seq main_part4_ops7) : Prog (TpuEff nD τ sig (Elt F) (Pipeline.Sig Λ₀ (Fin 0) fun p => (pcfgs (F := F) p).Adm) .tc) PUnit) := by
  chain_rfl

/-- Window 4 is the straight line of all its operations. -/
theorem main_part4_eq (c : Dev nD) : main_part4 (F := F) c = (StableHlo.seq (List.flatten [main_part4_ops0, main_part4_ops1, main_part4_ops2, main_part4_ops3, main_part4_ops4, main_part4_ops5, main_part4_ops6] ++ main_part4_ops7) : Prog (TpuEff nD τ sig (Elt F) (Pipeline.Sig Λ₀ (Fin 0) fun p => (pcfgs (F := F) p).Adm) .tc) PUnit) :=
  (main_part4_chain c).trans (chainK_map_seq [main_part4_ops0, main_part4_ops1, main_part4_ops2, main_part4_ops3, main_part4_ops4, main_part4_ops5, main_part4_ops6] main_part4_ops7)

end Cert.ReferenceIdeal.RefRun

end
-- ==== Proof.RefRunW5.lean ====
/-
  Window 5 of the reference program's @main (its statements 301 … 337) as straight lines of host operations: one list per
  stretch between calls of outlined functions and one per call (the callee's operations over the call's own buffers,
  a call nested in it inlined in place), each with the three side facts a run of the whole needs (the operations touch
  TensorCore references only, determine their results, and write none of the program's arguments), and the equation of
  the window with the straight line of their concatenation.
-/
import proofs.«140712_j5016521802106_2_alg».proof.Proof.Gen.ReferenceIdeal
import proofs.«140712_j5016521802106_2_alg».proof.Proof.RefRunArgs

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- 10 host operations of @main, window 5 (statements 301 … 337), in order. -/
abbrev main_part5_ops0 : List (HloOp τ sig (Elt F)) :=
  [ StableHlo.unary main_c_89 main_v208 (broadcastInDim S167772 ![] bcast_S_S167772 : (⟨S_, .i32⟩ : BufTy).Contents (Elt F) → (⟨S167772, .i32⟩ : BufTy).Contents (Elt F)),
    StableHlo.binary main_v205 main_v208 main_v209 (addi : (⟨S167772, .i32⟩ : BufTy).Contents (Elt F) → (⟨S167772, .i32⟩ : BufTy).Contents (Elt F) → (⟨S167772, .i32⟩ : BufTy).Contents (Elt F)),
    StableHlo.ternary main_v207 main_v209 main_v205 main_v210 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v210 main_v211 (broadcastInDim S167772x1 ![0] bcast_S167772_S167772x1_0 : (⟨S167772, .i32⟩ : BufTy).Contents (Elt F) → (⟨S167772x1, .i32⟩ : BufTy).Contents (Elt F)),
    StableHlo.ternary main_v201 main_v211 main_v202 main_v212 ((fun x i u => Host.scatterAdd scatter_S8388609x1_S167772x1_S167772x1_1_0_0_1 x i u) : (⟨S8388609x1, .f32⟩ : BufTy).Contents (Elt F) → (⟨S167772x1, .i32⟩ : BufTy).Contents (Elt F) → (⟨S167772x1, .f32⟩ : BufTy).Contents (Elt F) → (⟨S8388609x1, .f32⟩ : BufTy).Contents (Elt F)),
    StableHlo.binary main_v173 main_v186 main_v213 (mulf : (⟨S167772x1, .f32⟩ : BufTy).Contents (Elt F) → (⟨S167772x1, .f32⟩ : BufTy).Contents (Elt F) → (⟨S167772x1, .f32⟩ : BufTy).Contents (Elt F)),
    StableHlo.nullary main_c_90 (constantI S_ 32 0#32),
    StableHlo.unary main_c_90 main_v214 (broadcastInDim S167772 ![] bcast_S_S167772 : (⟨S_, .i32⟩ : BufTy).Contents (Elt F) → (⟨S167772, .i32⟩ : BufTy).Contents (Elt F)),
    StableHlo.binary main_v87 main_v214 main_v215 (cmpi .sge : (⟨S167772, .i32⟩ : BufTy).Contents (Elt F) → (⟨S167772, .i32⟩ : BufTy).Contents (Elt F) → (⟨S167772, .i1⟩ : BufTy).Contents (Elt F)),
    StableHlo.nullary main_c_91 (constantI S_ 32 8388608#32) ]
/-- Each touches TensorCore references only. -/
theorem main_part5_ops0_sub : (main_part5_ops0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub ..⟩
/-- Each determines its results. -/
theorem main_part5_ops0_fresh : (main_part5_ops0 : List (HloOp τ sig (Elt F))).Forall fun op => op.fresh = ∅ :=
  ⟨rfl, rfl, rfl, rfl, rfl, rfl, rfl, rfl, rfl, rfl⟩
/-- None writes an argument of the program. -/
theorem main_part5_ops0_keeps : (main_part5_ops0 : List (HloOp τ sig (Elt F))).Forall (KeepsL argRefs) :=
  ⟨keepsL_of_writes main_v208 rfl (by decide), keepsL_of_writes main_v209 rfl (by decide), keepsL_of_writes main_v210 rfl (by decide), keepsL_of_writes main_v211 rfl (by decide), keepsL_of_writes main_v212 rfl (by decide), keepsL_of_writes main_v213 rfl (by decide), keepsL_of_writes main_c_90 rfl (by decide), keepsL_of_writes main_v214 rfl (by decide), keepsL_of_writes main_v215 rfl (by decide), keepsL_of_writes main_c_91 rfl (by decide)⟩

/-- 2 host operations of @where_2 (main_call29), window 5 (statements 301 … 337), in order. -/
abbrev main_part5_ops1 : List (HloOp τ sig (Elt F)) :=
  [ StableHlo.TRef.unary (.of main_c_91 : StableHlo.TRef sig ⟨S_, .i32⟩) (.of main_call29_v0 : StableHlo.TRef sig ⟨S167772, .i32⟩) (broadcastInDim S167772 ![] bcast_S_S167772),
    StableHlo.TRef.ternary (.of main_v215 : StableHlo.TRef sig ⟨S167772, .i1⟩) (.of main_v87 : StableHlo.TRef sig ⟨S167772, .i32⟩) (.of main_call29_v0 : StableHlo.TRef sig ⟨S167772, .i32⟩) (.of main_v216 : StableHlo.TRef sig ⟨S167772, .i32⟩) select ]
/-- Each touches TensorCore references only. -/
theorem main_part5_ops1_sub : (main_part5_ops1 : List (HloOp τ sig (Elt F))).Forall fun op => op.bufs ⊆ StableHlo.tcRefs τ sig :=
  ⟨StableHlo.unary_bufs_sub .., StableHlo.ternary_bufs_sub ..⟩
/-- Each determines its results. -/
theorem main_part5_ops1_fresh : (main_part5_ops1 : List (HloOp τ sig (Elt F))).Forall fun op => op.fresh = ∅ :=
  ⟨rfl, rfl⟩
/-- None writes an argument of the program. -/
theorem main_part5_ops1_keeps : (main_part5_ops1 : List (HloOp τ sig (Elt F))).Forall (KeepsL argRefs) :=
  ⟨keepsL_of_writes main_call29_v0 rfl (by decide), keepsL_of_writes main_v216 rfl (by decide)⟩

/-- 14 host operations of @main, window 5 (statements 301 … 337), in order. -/
abbrev main_part5_ops2 : List (HloOp τ sig (Elt F)) :=
  [ StableHlo.nullary main_c_92 (constantI S_ 32 0#32),
    StableHlo.unary main_c_92 main_v217 (broadcastInDim S167772 ![] bcast_S_S167772 : (⟨S_, .i32⟩ : BufTy).Contents (Elt F) → (⟨S167772, .i32⟩ : BufTy).Contents (Elt F)),
    StableHlo.binary main_v216 main_v217 main_v218 (cmpi .slt : (⟨S167772, .i32⟩ : BufTy).Contents (Elt F) → (⟨S167772, .i32⟩ : BufTy).Contents (Elt F) → (⟨S167772, .i1⟩ : BufTy).Contents (Elt F)),
    StableHlo.nullary main_c_93 (constantI S_ 32 8388609#32),
    StableHlo.unary main_c_93 main_v219 (broadcastInDim S167772 ![] bcast_S_S167772 : (⟨S_, .i32⟩ : BufTy).Contents (Elt F) → (⟨S167772, .i32⟩ : BufTy).Contents (Elt F)),
    StableHlo.binary main_v216 main_v219 main_v220 (addi : (⟨S167772, .i32⟩ : BufTy).Contents (Elt F) → (⟨S167772, .i32⟩ : BufTy).Contents (Elt F) → (⟨S167772, .i32⟩ : BufTy).Contents (Elt F)),
    StableHlo.ternary main_v218 main_v220 main_v216 main_v221 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v221 main_v222 (broadcastInDim S167772x1 ![0] bcast_S167772_S167772x1_0 : (⟨S167772, .i32⟩ : BufTy).Contents (Elt F) → (⟨S167772x1, .i32⟩ : BufTy).Contents (Elt F)),
    StableHlo.ternary main_v212 main_v222 main_v213 main_v223 ((fun x i u => Host.scatterAdd scatter_S8388609x1_S167772x1_S167772x1_1_0_0_1 x i u) : (⟨S8388609x1, .f32⟩ : BufTy).Contents (Elt F) → (⟨S167772x1, .i32⟩ : BufTy).Contents (Elt F) → (⟨S167772x1, .f32⟩ : BufTy).Contents (Elt F) → (⟨S8388609x1, .f32⟩ : BufTy).Contents (Elt F)),
    StableHlo.binary main_v176 main_v186 main_v224 (mulf : (⟨S167772x1, .f32⟩ : BufTy).Contents (Elt F) → (⟨S167772x1, .f32⟩ : BufTy).Contents (Elt F) → (⟨S167772x1, .f32⟩ : BufTy).Contents (Elt F)),
    StableHlo.nullary main_c_94 (constantI S_ 32 0#32),
    StableHlo.unary main_c_94 main_v225 (broadcastInDim S167772 ![] bcast_S_S167772 : (⟨S_, .i32⟩ : BufTy).Contents (Elt F) → (⟨S167772, .i32⟩ : BufTy).Contents (Elt F)),
    StableHlo.binary main_v113 main_v225 main_v226 (cmpi .sge : (⟨S167772, .i32⟩ : BufTy).Contents (Elt F) → (⟨S167772, .i32⟩ : BufTy).Contents (Elt F) → (⟨S167772, .i1⟩ : BufTy).Contents (Elt F)),
    StableHlo.nullary main_c_95 (constantI S_ 32 8388608#32) ]
/-- Each touches TensorCore references only. -/
theorem main_part5_ops2_sub : (main_part5_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.binary_bufs_sub .., StableHlo.nullary_bufs_sub .., StableHlo.unary_bufs_sub .., StableHlo.binary_bufs_sub .., StableHlo.nullary_bufs_sub ..⟩
/-- Each determines its results. -/
theorem main_part5_ops2_fresh : (main_part5_ops2 : List (HloOp τ sig (Elt F))).Forall fun op => op.fresh = ∅ :=
  ⟨rfl, rfl, rfl, rfl, rfl, rfl, rfl, rfl, rfl, rfl, rfl, rfl, rfl, rfl⟩
/-- None writes an argument of the program. -/
theorem main_part5_ops2_keeps : (main_part5_ops2 : List (HloOp τ sig (Elt F))).Forall (KeepsL argRefs) :=
  ⟨keepsL_of_writes main_c_92 rfl (by decide), keepsL_of_writes main_v217 rfl (by decide), keepsL_of_writes main_v218 rfl (by decide), keepsL_of_writes main_c_93 rfl (by decide), keepsL_of_writes main_v219 rfl (by decide), keepsL_of_writes main_v220 rfl (by decide), keepsL_of_writes main_v221 rfl (by decide), keepsL_of_writes main_v222 rfl (by decide), keepsL_of_writes main_v223 rfl (by decide), keepsL_of_writes main_v224 rfl (by decide), keepsL_of_writes main_c_94 rfl (by decide), keepsL_of_writes main_v225 rfl (by decide), keepsL_of_writes main_v226 rfl (by decide), keepsL_of_writes main_c_95 rfl (by decide)⟩

/-- 2 host operations of @where_2 (main_call30), window 5 (statements 301 … 337), in order. -/
abbrev main_part5_ops3 : List (HloOp τ sig (Elt F)) :=
  [ StableHlo.TRef.unary (.of main_c_95 : StableHlo.TRef sig ⟨S_, .i32⟩) (.of main_call30_v0 : StableHlo.TRef sig ⟨S167772, .i32⟩) (broadcastInDim S167772 ![] bcast_S_S167772),
    StableHlo.TRef.ternary (.of main_v226 : StableHlo.TRef sig ⟨S167772, .i1⟩) (.of main_v113 : StableHlo.TRef sig ⟨S167772, .i32⟩) (.of main_call30_v0 : StableHlo.TRef sig ⟨S167772, .i32⟩) (.of main_v227 : StableHlo.TRef sig ⟨S167772, .i32⟩) select ]
/-- Each touches TensorCore references only. -/
theorem main_part5_ops3_sub : (main_part5_ops3 : List (HloOp τ sig (Elt F))).Forall fun op => op.bufs ⊆ StableHlo.tcRefs τ sig :=
  ⟨StableHlo.unary_bufs_sub .., StableHlo.ternary_bufs_sub ..⟩
/-- Each determines its results. -/
theorem main_part5_ops3_fresh : (main_part5_ops3 : List (HloOp τ sig (Elt F))).Forall fun op => op.fresh = ∅ :=
  ⟨rfl, rfl⟩
/-- None writes an argument of the program. -/
theorem main_part5_ops3_keeps : (main_part5_ops3 : List (HloOp τ sig (Elt F))).Forall (KeepsL argRefs) :=
  ⟨keepsL_of_writes main_call30_v0 rfl (by decide), keepsL_of_writes main_v227 rfl (by decide)⟩

/-- 10 host operations of @main, window 5 (statements 301 … 337), in order. -/
abbrev main_part5_ops4 : List (HloOp τ sig (Elt F)) :=
  [ StableHlo.nullary main_c_96 (constantI S_ 32 0#32),
    StableHlo.unary main_c_96 main_v228 (broadcastInDim S167772 ![] bcast_S_S167772 : (⟨S_, .i32⟩ : BufTy).Contents (Elt F) → (⟨S167772, .i32⟩ : BufTy).Contents (Elt F)),
    StableHlo.binary main_v227 main_v228 main_v229 (cmpi .slt : (⟨S167772, .i32⟩ : BufTy).Contents (Elt F) → (⟨S167772, .i32⟩ : BufTy).Contents (Elt F) → (⟨S167772, .i1⟩ : BufTy).Contents (Elt F)),
    StableHlo.nullary main_c_97 (constantI S_ 32 8388609#32),
    StableHlo.unary main_c_97 main_v230 (broadcastInDim S167772 ![] bcast_S_S167772 : (⟨S_, .i32⟩ : BufTy).Contents (Elt F) → (⟨S167772, .i32⟩ : BufTy).Contents (Elt F)),
    StableHlo.binary main_v227 main_v230 main_v231 (addi : (⟨S167772, .i32⟩ : BufTy).Contents (Elt F) → (⟨S167772, .i32⟩ : BufTy).Contents (Elt F) → (⟨S167772, .i32⟩ : BufTy).Contents (Elt F)),
    StableHlo.ternary main_v229 main_v231 main_v227 main_v232 (select : (⟨S167772, .i1⟩ : BufTy).Contents (Elt F) → (⟨S167772, .i32⟩ : BufTy).Contents (Elt F) → (⟨S167772, .i32⟩ : BufTy).Contents (Elt F) → (⟨S167772, .i32⟩ : BufTy).Contents (Elt F)),
    StableHlo.unary main_v232 main_v233 (broadcastInDim S167772x1 ![0] bcast_S167772_S167772x1_0 : (⟨S167772, .i32⟩ : BufTy).Contents (Elt F) → (⟨S167772x1, .i32⟩ : BufTy).Contents (Elt F)),
    StableHlo.ternary main_v223 main_v233 main_v224 main_v234 ((fun x i u => Host.scatterAdd scatter_S8388609x1_S167772x1_S167772x1_1_0_0_1 x i u) : (⟨S8388609x1, .f32⟩ : BufTy).Contents (Elt F) → (⟨S167772x1, .i32⟩ : BufTy).Contents (Elt F) → (⟨S167772x1, .f32⟩ : BufTy).Contents (Elt F) → (⟨S8388609x1, .f32⟩ : BufTy).Contents (Elt F)),
    StableHlo.unary main_v234 main_v235 ((extractStridedSlice S8388608x1 ![0, 0] · slices_S8388609x1_S8388608x1_0_0) : (⟨S8388609x1, .f32⟩ : BufTy).Contents (Elt F) → (⟨S8388608x1, .f32⟩ : BufTy).Contents (Elt F)) ]
/-- Each touches TensorCore references only. -/
theorem main_part5_ops4_sub : (main_part5_ops4 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub ..⟩
/-- Each determines its results. -/
theorem main_part5_ops4_fresh : (main_part5_ops4 : List (HloOp τ sig (Elt F))).Forall fun op => op.fresh = ∅ :=
  ⟨rfl, rfl, rfl, rfl, rfl, rfl, rfl, rfl, rfl, rfl⟩
/-- None writes an argument of the program. -/
theorem main_part5_ops4_keeps : (main_part5_ops4 : List (HloOp τ sig (Elt F))).Forall (KeepsL argRefs) :=
  ⟨keepsL_of_writes main_c_96 rfl (by decide), keepsL_of_writes main_v228 rfl (by decide), keepsL_of_writes main_v229 rfl (by decide), keepsL_of_writes main_c_97 rfl (by decide), keepsL_of_writes main_v230 rfl (by decide), keepsL_of_writes main_v231 rfl (by decide), keepsL_of_writes main_v232 rfl (by decide), keepsL_of_writes main_v233 rfl (by decide), keepsL_of_writes main_v234 rfl (by decide), keepsL_of_writes main_v235 rfl (by decide)⟩

/-- Window 5, the last, is the chain of its stretches. -/
theorem main_part5_chain (c : Dev nD) : main_part5 (F := F) c = (Pipeline.chain
  [ StableHlo.seq main_part5_ops0,
    StableHlo.seq main_part5_ops1,
    StableHlo.seq main_part5_ops2,
    StableHlo.seq main_part5_ops3,
    StableHlo.seq main_part5_ops4 ] : Prog (TpuEff nD τ sig (Elt F) (Pipeline.Sig Λ₀ (Fin 0) fun p => (pcfgs (F := F) p).Adm) .tc) PUnit) := by
  chain_rfl

/-- Window 5 is the straight line of all its operations. -/
theorem main_part5_eq (c : Dev nD) : main_part5 (F := F) c = (StableHlo.seq (List.flatten [main_part5_ops0, main_part5_ops1, main_part5_ops2, main_part5_ops3, main_part5_ops4]) : Prog (TpuEff nD τ sig (Elt F) (Pipeline.Sig Λ₀ (Fin 0) fun p => (pcfgs (F := F) p).Adm) .tc) PUnit) :=
  (main_part5_chain c).trans (StableHlo.chain_map_seq [main_part5_ops0, main_part5_ops1, main_part5_ops2, main_part5_ops3, main_part5_ops4])

end Cert.ReferenceIdeal.RefRun

end
-- ==== Proof.RefRun.lean ====
/-
  The run of the reference program: a host-only @main of 337 statements, ten outlined functions called from it
  (one of them from inside another), no kernel.

  Each window of @main is the straight line of its operations (the window modules); @main runs its windows in order, so
  it is the straight line of all 476 operations, `StableHlo.seq (opsPre ++ opsPost)` — the line is cut where the
  select writing `main_v167` ends: `opsPre` is every operation up to and including that one, `opsPost` the rest.
  From any memory with zero counters every weakly fair execution terminates, the result buffer `main_v235` holding
  what the fold of `opsPost` over the fold of `opsPre` over the launch contents gives it, and the three arguments
  what they held: no operation writes them.
-/
import proofs.«140712_j5016521802106_2_alg».proof.Proof.RefRunW0
import proofs.«140712_j5016521802106_2_alg».proof.Proof.RefRunW1
import proofs.«140712_j5016521802106_2_alg».proof.Proof.RefRunW2
import proofs.«140712_j5016521802106_2_alg».proof.Proof.RefRunW3
import proofs.«140712_j5016521802106_2_alg».proof.Proof.RefRunW4
import proofs.«140712_j5016521802106_2_alg».proof.Proof.RefRunW5

set_option maxRecDepth 4000

noncomputable section

namespace Cert.ReferenceIdeal.RefRun

open Cert.ReferenceIdeal Cert.ReferenceIdeal.Gen
open Idealize.ShloMosaic Idealize.ShloMosaic.TcCoe
open Idealize.SL.Sem

variable {F : FTy → Type} [FloatOps F]

/-- The operations of @main up to and including the one that writes `main_v167`, in order: 54 stretches. -/
abbrev opsPre : List (HloOp τ sig (Elt F)) := List.flatten
  [ main_part0_ops0, main_part0_ops1, main_part0_ops2, main_part0_ops3, main_part0_ops4, main_part0_ops5, main_part0_ops6,
    main_part0_ops7, main_part0_ops8, main_part0_ops9, main_part0_ops10, main_part1_ops0, main_part1_ops1, main_part1_ops2,
    main_part1_ops3, main_part1_ops4, main_part1_ops5, main_part1_ops6, main_part1_ops7, main_part1_ops8, main_part1_ops9,
    main_part1_ops10, main_part1_ops11, main_part2_ops0, main_part2_ops1, main_part2_ops2, main_part2_ops3, main_part2_ops4,
    main_part2_ops5, main_part2_ops6, main_part2_ops7, main_part2_ops8, main_part2_ops9, main_part2_ops10, main_part2_ops11,
    main_part2_ops12, main_part3_ops0, main_part3_ops1, main_part3_ops2, main_part3_ops3, main_part3_ops4, main_part3_ops5,
    main_part3_ops6, main_part3_ops7, main_part3_ops8, main_part3_ops9, main_part3_ops10, main_part3_ops11, main_part3_ops12,
    main_part3_ops13, main_part3_ops14, main_part4_ops0, main_part4_ops1, main_part4_ops2 ]

/-- The operations of @main after the one that writes `main_v167`, in order: 10 stretches. -/
abbrev opsPost : List (HloOp τ sig (Elt F)) := List.flatten
  [ main_part4_ops3, main_part4_ops4, main_part4_ops5, main_part4_ops6, main_part4_ops7, main_part5_ops0, main_part5_ops1,
    main_part5_ops2, main_part5_ops3, main_part5_ops4 ]

/-- @main is the straight line of its operations. -/
theorem main_eq (c : Dev nD) : main (F := F) c = (StableHlo.seq (opsPre ++ opsPost) : Prog (TpuEff nD τ sig (Elt F) (Pipeline.Sig Λ₀ (Fin 0) fun p => (pcfgs (F := F) p).Adm) .tc) PUnit) := by
  have h : main (F := F) c = (main_part0 c >>= fun _ => main_part1 c >>= fun _ => main_part2 c >>= fun _ =>
      main_part3 c >>= fun _ => main_part4 c >>= fun _ => main_part5 c) := rfl
  rw [h, main_part0_eq, main_part1_eq, main_part2_eq, main_part3_eq, main_part4_eq, main_part5_eq]
  simp only [← StableHlo.seq_append]
  refine congrArg StableHlo.seq ?_
  simp only [opsPre, opsPost, List.flatten_cons, List.flatten_nil, List.append_nil, List.append_assoc]

set_option maxRecDepth 100000 in  -- the signature's 479 references, each looked up in its table
theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (opsPre ++ opsPost : List (HloOp τ sig (Elt F))).Forall fun op => op.bufs ⊆ StableHlo.tcRefs τ sig :=
  forall_append
    (forall_flatten ⟨main_part0_ops0_sub, main_part0_ops1_sub, main_part0_ops2_sub, main_part0_ops3_sub, main_part0_ops4_sub,
     main_part0_ops5_sub, main_part0_ops6_sub, main_part0_ops7_sub, main_part0_ops8_sub, main_part0_ops9_sub,
     main_part0_ops10_sub, main_part1_ops0_sub, main_part1_ops1_sub, main_part1_ops2_sub, main_part1_ops3_sub,
     main_part1_ops4_sub, main_part1_ops5_sub, main_part1_ops6_sub, main_part1_ops7_sub, main_part1_ops8_sub,
     main_part1_ops9_sub, main_part1_ops10_sub, main_part1_ops11_sub, main_part2_ops0_sub, main_part2_ops1_sub,
     main_part2_ops2_sub, main_part2_ops3_sub, main_part2_ops4_sub, main_part2_ops5_sub, main_part2_ops6_sub,
     main_part2_ops7_sub, main_part2_ops8_sub, main_part2_ops9_sub, main_part2_ops10_sub, main_part2_ops11_sub,
     main_part2_ops12_sub, main_part3_ops0_sub, main_part3_ops1_sub, main_part3_ops2_sub, main_part3_ops3_sub,
     main_part3_ops4_sub, main_part3_ops5_sub, main_part3_ops6_sub, main_part3_ops7_sub, main_part3_ops8_sub,
     main_part3_ops9_sub, main_part3_ops10_sub, main_part3_ops11_sub, main_part3_ops12_sub, main_part3_ops13_sub,
     main_part3_ops14_sub, main_part4_ops0_sub, main_part4_ops1_sub, main_part4_ops2_sub⟩)
    (forall_flatten ⟨main_part4_ops3_sub, main_part4_ops4_sub, main_part4_ops5_sub, main_part4_ops6_sub, main_part4_ops7_sub,
     main_part5_ops0_sub, main_part5_ops1_sub, main_part5_ops2_sub, main_part5_ops3_sub, main_part5_ops4_sub⟩)

/-- Every operation determines its results. -/
theorem ops_fresh : (opsPre ++ opsPost : List (HloOp τ sig (Elt F))).Forall fun op => op.fresh = ∅ :=
  forall_append
    (forall_flatten ⟨main_part0_ops0_fresh, main_part0_ops1_fresh, main_part0_ops2_fresh, main_part0_ops3_fresh, main_part0_ops4_fresh,
     main_part0_ops5_fresh, main_part0_ops6_fresh, main_part0_ops7_fresh, main_part0_ops8_fresh, main_part0_ops9_fresh,
     main_part0_ops10_fresh, main_part1_ops0_fresh, main_part1_ops1_fresh, main_part1_ops2_fresh, main_part1_ops3_fresh,
     main_part1_ops4_fresh, main_part1_ops5_fresh, main_part1_ops6_fresh, main_part1_ops7_fresh, main_part1_ops8_fresh,
     main_part1_ops9_fresh, main_part1_ops10_fresh, main_part1_ops11_fresh, main_part2_ops0_fresh, main_part2_ops1_fresh,
     main_part2_ops2_fresh, main_part2_ops3_fresh, main_part2_ops4_fresh, main_part2_ops5_fresh, main_part2_ops6_fresh,
     main_part2_ops7_fresh, main_part2_ops8_fresh, main_part2_ops9_fresh, main_part2_ops10_fresh, main_part2_ops11_fresh,
     main_part2_ops12_fresh, main_part3_ops0_fresh, main_part3_ops1_fresh, main_part3_ops2_fresh, main_part3_ops3_fresh,
     main_part3_ops4_fresh, main_part3_ops5_fresh, main_part3_ops6_fresh, main_part3_ops7_fresh, main_part3_ops8_fresh,
     main_part3_ops9_fresh, main_part3_ops10_fresh, main_part3_ops11_fresh, main_part3_ops12_fresh, main_part3_ops13_fresh,
     main_part3_ops14_fresh, main_part4_ops0_fresh, main_part4_ops1_fresh, main_part4_ops2_fresh⟩)
    (forall_flatten ⟨main_part4_ops3_fresh, main_part4_ops4_fresh, main_part4_ops5_fresh, main_part4_ops6_fresh, main_part4_ops7_fresh,
     main_part5_ops0_fresh, main_part5_ops1_fresh, main_part5_ops2_fresh, main_part5_ops3_fresh, main_part5_ops4_fresh⟩)

/-- No operation writes an argument. -/
theorem ops_keeps : (opsPre ++ opsPost : List (HloOp τ sig (Elt F))).Forall (KeepsL argRefs) :=
  forall_append
    (forall_flatten ⟨main_part0_ops0_keeps, main_part0_ops1_keeps, main_part0_ops2_keeps, main_part0_ops3_keeps, main_part0_ops4_keeps,
     main_part0_ops5_keeps, main_part0_ops6_keeps, main_part0_ops7_keeps, main_part0_ops8_keeps, main_part0_ops9_keeps,
     main_part0_ops10_keeps, main_part1_ops0_keeps, main_part1_ops1_keeps, main_part1_ops2_keeps, main_part1_ops3_keeps,
     main_part1_ops4_keeps, main_part1_ops5_keeps, main_part1_ops6_keeps, main_part1_ops7_keeps, main_part1_ops8_keeps,
     main_part1_ops9_keeps, main_part1_ops10_keeps, main_part1_ops11_keeps, main_part2_ops0_keeps, main_part2_ops1_keeps,
     main_part2_ops2_keeps, main_part2_ops3_keeps, main_part2_ops4_keeps, main_part2_ops5_keeps, main_part2_ops6_keeps,
     main_part2_ops7_keeps, main_part2_ops8_keeps, main_part2_ops9_keeps, main_part2_ops10_keeps, main_part2_ops11_keeps,
     main_part2_ops12_keeps, main_part3_ops0_keeps, main_part3_ops1_keeps, main_part3_ops2_keeps, main_part3_ops3_keeps,
     main_part3_ops4_keeps, main_part3_ops5_keeps, main_part3_ops6_keeps, main_part3_ops7_keeps, main_part3_ops8_keeps,
     main_part3_ops9_keeps, main_part3_ops10_keeps, main_part3_ops11_keeps, main_part3_ops12_keeps, main_part3_ops13_keeps,
     main_part3_ops14_keeps, main_part4_ops0_keeps, main_part4_ops1_keeps, main_part4_ops2_keeps⟩)
    (forall_flatten ⟨main_part4_ops3_keeps, main_part4_ops4_keeps, main_part4_ops5_keeps, main_part4_ops6_keeps, main_part4_ops7_keeps,
     main_part5_ops0_keeps, main_part5_ops1_keeps, main_part5_ops2_keeps, main_part5_ops3_keeps, main_part5_ops4_keeps⟩)

/-- On every device, for any float values, from any memory with zero counters: every weakly fair execution of @main
    terminates with the result at the fold of the operations over the launch contents and the arguments unchanged. -/
theorem run (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v235)
        = StableHlo.after opsPost (StableHlo.after opsPre (fun b => m (c, b))) (Proc.devRef .tc main_v235)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c main_v235).trans (congrFun (StableHlo.after_append opsPre opsPost (StableHlo.launchContents m c)) _),
       (h c main_arg0).trans (after_of_keepsL _ _ ops_keeps (List.Mem.head _)),
       (h c main_arg1).trans (after_of_keepsL _ _ ops_keeps (List.Mem.tail _ (List.Mem.head _))),
       (h c main_arg2).trans (after_of_keepsL _ _ ops_keeps (List.Mem.tail _ (List.Mem.tail _ (List.Mem.head _))))⟩)
    (StableHlo.run_seq scopedRefs_eq scopedSems_eq defs main (fun _ => opsPre ++ opsPost) main_eq (fun _ => ops_sub) m ρ
      (fun _ => List.forall_iff_forall_mem.1 ops_fresh))

/-- The same run, keeping only that the arguments end unchanged. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.RefRun

end
-- ==== Proof.LibRowStack.lean ====
/-
  Four `[1, n]` rows stacked into a `[4, n]` block: row `r` of the block is the `r`-th piece.
-/
import Idealize.ShloMosaic.Lib.Pipeline.Value
import Idealize.ShloMosaic.Lib.ValueIdx

noncomputable section

namespace LibRowStack

open Idealize.ShloMosaic Idealize.ShloMosaic.ValueIdx

variable {α : Type}

/-- The `r`-th of four rows. -/
def pick4 {β : Type} (y0 y1 y2 y3 : β) (r : Fin 4) : β :=
  match r with
  | ⟨0, _⟩ => y0
  | ⟨1, _⟩ => y1
  | ⟨2, _⟩ => y2
  | ⟨3, _⟩ => y3

/-- Entry `(r, q)` of the stack is entry `(0, q)` of piece `r`. -/
theorem stack4_apply {n : ℕ} (x0 x1 x2 x3 : (⟨2, ![1, n]⟩ : Shape).Idx → α)
    (h : Shape.Concatenates [(⟨2, ![1, n]⟩ : Shape), ⟨2, ![1, n]⟩, ⟨2, ![1, n]⟩, ⟨2, ![1, n]⟩] ⟨2, ![4, n]⟩ 0)
    (r : Fin 4) (q : Fin n) :
    concatenate ⟨2, ![4, n]⟩ 0 [⟨⟨2, ![1, n]⟩, x0⟩, ⟨⟨2, ![1, n]⟩, x1⟩, ⟨⟨2, ![1, n]⟩, x2⟩, ⟨⟨2, ![1, n]⟩, x3⟩] h (ix2 r q)
      = pick4 x0 x1 x2 x3 r (ix2 (0 : Fin 1) q) := by
  have off : ∀ (b : Fin 2), b.cast (rfl : (⟨2, ![1, n]⟩ : Shape).rank = (⟨2, ![4, n]⟩ : Shape).rank) ≠ (0 : Fin 2) →
      ((ix2 (0 : Fin 1) q : (⟨2, ![1, n]⟩ : Shape).Idx) b).val = ((ix2 r q : (⟨2, ![4, n]⟩ : Shape).Idx) (b.cast rfl)).val := by
    intro b hb
    match b with
    | ⟨0, _⟩ => exact absurd rfl hb
    | ⟨1, _⟩ => rfl
  match r with
  | ⟨0, _⟩ =>
    exact concatenate_apply_piece 0 ([⟨⟨2, ![1, n]⟩, x0⟩, ⟨⟨2, ![1, n]⟩, x1⟩, ⟨⟨2, ![1, n]⟩, x2⟩, ⟨⟨2, ![1, n]⟩, x3⟩] : List ((s : Shape) × (s.Idx → α))) h _ 0 (by simp) ⟨2, ![1, n]⟩ x0 rfl rfl 0 rfl (ix2 (0 : Fin 1) q) off rfl
  | ⟨1, _⟩ =>
    exact concatenate_apply_piece 0 ([⟨⟨2, ![1, n]⟩, x0⟩, ⟨⟨2, ![1, n]⟩, x1⟩, ⟨⟨2, ![1, n]⟩, x2⟩, ⟨⟨2, ![1, n]⟩, x3⟩] : List ((s : Shape) × (s.Idx → α))) h _ 1 (by simp) ⟨2, ![1, n]⟩ x1 rfl rfl 1 rfl (ix2 (0 : Fin 1) q) off rfl
  | ⟨2, _⟩ =>
    exact concatenate_apply_piece 0 ([⟨⟨2, ![1, n]⟩, x0⟩, ⟨⟨2, ![1, n]⟩, x1⟩, ⟨⟨2, ![1, n]⟩, x2⟩, ⟨⟨2, ![1, n]⟩, x3⟩] : List ((s : Shape) × (s.Idx → α))) h _ 2 (by simp) ⟨2, ![1, n]⟩ x2 rfl rfl 2 rfl (ix2 (0 : Fin 1) q) off rfl
  | ⟨3, _⟩ =>
    exact concatenate_apply_piece 0 ([⟨⟨2, ![1, n]⟩, x0⟩, ⟨⟨2, ![1, n]⟩, x1⟩, ⟨⟨2, ![1, n]⟩, x2⟩, ⟨⟨2, ![1, n]⟩, x3⟩] : List ((s : Shape) × (s.Idx → α))) h _ 3 (by simp) ⟨2, ![1, n]⟩ x3 rfl rfl 3 rfl (ix2 (0 : Fin 1) q) off rfl

end LibRowStack

end
-- ==== Proof.Contrib.lean ====
/-
  The four contributions of one cell to the total-variation gradient, as functions of the four densities the cell reads:
  its own (`a`) and its neighbours' along the three axes (`b`, `c`, `d`). With `δx = (b − a)·128`, `δy`, `δz` alike and
  `ι = λ · (ε + δx² + δy² + δz²)^(−1/2)`, the cell's own row receives `−(δx + δy + δz)·ι` and the three neighbours' rows
  `δx·ι`, `δy·ι`, `δz·ι`. The constants are kept as the words both programs print.
-/
import Idealize.ShloMosaic.PureOps.Ideal
import Idealize.ShloMosaic.PureOps
import proofs.«140712_j5016521802106_2_alg».proof.Proof.LibRowStack

noncomputable section

namespace Cert.TvGrad

open Idealize.ShloMosaic

/-- A scaled finite difference. -/
def dd (a b : EReal) : EReal := (b - a) * Ideal.ofBits .f32 0x43000000#32

/-- The common factor `λ · (ε + δx² + δy² + δz²)^(−1/2)`. -/
def idelta (a b c d : EReal) : EReal :=
  Ideal.ofBits .f32 0x3727C5AC#32
    * Ideal.rsqrt (((Ideal.ofBits .f32 0x3089705F#32 + dd a b * dd a b) + dd a c * dd a c) + dd a d * dd a d)

/-- The contribution to the cell's own row (`r = 0`) and to its three neighbours' rows. -/
def contrib (r : Fin 4) (a b c d : EReal) : EReal :=
  LibRowStack.pick4 (-((dd a b + dd a c) + dd a d) * idelta a b c d) (dd a b * idelta a b c d)
    (dd a c * idelta a b c d) (dd a d * idelta a b c d) r

end Cert.TvGrad

end
-- ==== Proof.LinkAlgebra.lean ====
/-
  The scalar facts behind the two ways of discarding an empty neighbour.

  A link `l` is a signed 32-bit word: a row number of the gradient when it is `≥ 0`, and "no voxel" when it is negative.
  One program sends every link to the row `max 0 l` and multiplies the contribution by the indicator of `l ≥ 0`; the other
  sends a negative link to the extra row `8388608`, which is cut off afterwards, and adds the contribution as it is.
  For a row `p < 8388608` the two give the same term: a link `≥ 0` is its own row on both sides and its indicator is `1`;
  a negative link lands on row `0` with the factor `0` on one side and on the cut-off row on the other.
-/
import Idealize.ShloMosaic.PureOps.Ideal
import Idealize.ShloMosaic.PureOps

noncomputable section

namespace Cert.TvGrad

open Idealize.ShloMosaic

/-- The row a link is sent to where negative links are clamped to row 0 (and a negative row number would wrap by the
    number of rows, which never happens after the clamp). -/
def rowK (l : BitVec 32) : BitVec 32 :=
  Scalar.select (IntOp.cmpi .slt (IntOp.maxsi 0#32 l) 0#32) (IntOp.addi (IntOp.maxsi 0#32 l) 8388608#32) (IntOp.maxsi 0#32 l)

/-- The indicator of `l ≥ 0` as an extended real. -/
def maskK (l : BitVec 32) : EReal := FloatOps.uitofp (F := Ideal) .f32 (IntOp.cmpi .sge l 0#32)

/-- The row a link is sent to where negative links go to the extra row `8388608` of an array one row longer. -/
def rowR (l : BitVec 32) : BitVec 32 :=
  Scalar.select (IntOp.cmpi .slt (Scalar.select (IntOp.cmpi .sge l 0#32) l 8388608#32) 0#32)
    (IntOp.addi (Scalar.select (IntOp.cmpi .sge l 0#32) l 8388608#32) 8388609#32)
    (Scalar.select (IntOp.cmpi .sge l 0#32) l 8388608#32)

theorem sge_zero_of_nonneg {l : BitVec 32} (h : 0 ≤ l.toInt) : IntOp.cmpi .sge l 0#32 = 1#1 := by
  have : (0#32 : BitVec 32).sle l = true := by
    rw [BitVec.sle]; exact decide_eq_true (by simpa using h)
  simp [IntOp.cmpi, this]

theorem sge_zero_of_neg {l : BitVec 32} (h : ¬ 0 ≤ l.toInt) : IntOp.cmpi .sge l 0#32 = 0#1 := by
  have : (0#32 : BitVec 32).sle l = false := by
    rw [BitVec.sle]; exact decide_eq_false (by simpa using h)
  simp [IntOp.cmpi, this]

theorem slt_zero_of_nonneg {l : BitVec 32} (h : 0 ≤ l.toInt) : IntOp.cmpi .slt l 0#32 = 0#1 := by
  have : l.slt (0#32 : BitVec 32) = false := by
    rw [BitVec.slt]; exact decide_eq_false (by simpa using h)
  simp [IntOp.cmpi, this]

theorem maxsi_zero_of_nonneg {l : BitVec 32} (h : 0 ≤ l.toInt) : IntOp.maxsi 0#32 l = l := by
  unfold IntOp.maxsi
  by_cases h0 : l.slt (0#32 : BitVec 32) = true
  · rw [BitVec.slt] at h0
    have : l.toInt < 0 := by simpa using h0
    omega
  · rw [if_neg h0]

theorem maxsi_zero_of_neg {l : BitVec 32} (h : ¬ 0 ≤ l.toInt) : IntOp.maxsi 0#32 l = 0#32 := by
  unfold IntOp.maxsi
  have : l.slt (0#32 : BitVec 32) = true := by
    rw [BitVec.slt]; exact decide_eq_true (by simpa using h)
  rw [if_pos this]

/-- For a row below the cut, a link contributes the same term either way. -/
theorem hit_eq (l : BitVec 32) (c : EReal) (p : ℕ) (hp : p < 8388608) :
    (if (rowK l).toInt = (p : Int) then c * maskK l else 0) = (if (rowR l).toInt = (p : Int) then c else 0) := by
  by_cases h : 0 ≤ l.toInt
  · have hK : rowK l = l := by
      unfold rowK
      rw [maxsi_zero_of_nonneg h, slt_zero_of_nonneg h]
      rfl
    have hR : rowR l = l := by
      unfold rowR
      rw [sge_zero_of_nonneg h]
      show Scalar.select (IntOp.cmpi .slt l 0#32) _ l = l
      rw [slt_zero_of_nonneg h]
      rfl
    have hM : maskK l = 1 := by
      unfold maskK
      rw [sge_zero_of_nonneg h]
      show (((1#1 : BitVec 1).toNat : ℝ) : EReal) = 1
      simp
    rw [hK, hR, hM, mul_one]
  · have hK : rowK l = 0#32 := by
      unfold rowK
      rw [maxsi_zero_of_neg h]
      rfl
    have hR : rowR l = 8388608#32 := by
      unfold rowR
      rw [sge_zero_of_neg h]
      rfl
    have hM : maskK l = 0 := by
      unfold maskK
      rw [sge_zero_of_neg h]
      show (((0#1 : BitVec 1).toNat : ℝ) : EReal) = 0
      simp
    rw [hK, hR, hM, mul_zero]
    have h2 : ¬ ((8388608#32 : BitVec 32).toInt = (p : Int)) := by
      have : (8388608#32 : BitVec 32).toInt = 8388608 := by decide
      rw [this]; omega
    rw [if_neg h2]
    split <;> rfl

end Cert.TvGrad

end
-- ==== Proof.QuarterSums.lean ====
/-
  Four vectors of 167772 entries laid end to end have 671088 entries; a sum over the long vector is the sum, over the
  four pieces, of the sums over each piece. With the scalar facts on links, this gives the identity between the two
  accumulations: ONE accumulation over the long vector, every link clamped to a row and each term carrying its indicator,
  equals FOUR accumulations one after the other over the pieces, negative links sent to a row that is cut off.
  Only commutativity and associativity of the sum, `c * 1 = c` and `c * 0 = 0` are used, so the terms may be any
  extended reals.
-/
import proofs.«140712_j5016521802106_2_alg».proof.Proof.LinkAlgebra
import Mathlib.Algebra.BigOperators.Fin
import Mathlib.Algebra.BigOperators.Group.Finset.Basic

noncomputable section

open scoped BigOperators

namespace Cert.TvGrad

/-- Entry `s` of piece `d` in the long vector. -/
def q4 (d : Fin 4) (s : Fin 167772) : Fin 671088 := ⟨d.val * 167772 + s.val, by have := d.isLt; have := s.isLt; omega⟩

/-- The long vector's positions are the pairs (piece, entry). -/
def e4 : Fin 4 × Fin 167772 ≃ Fin 671088 where
  toFun x := q4 x.1 x.2
  invFun e := (⟨e.val / 167772, by have := e.isLt; omega⟩, ⟨e.val % 167772, Nat.mod_lt _ (by decide)⟩)
  left_inv x := by
    obtain ⟨d, s⟩ := x
    have hd := d.isLt
    have hs := s.isLt
    apply Prod.ext
    · apply Fin.ext
      show (d.val * 167772 + s.val) / 167772 = d.val
      omega
    · apply Fin.ext
      show (d.val * 167772 + s.val) % 167772 = s.val
      omega
  right_inv e := by
    apply Fin.ext
    show e.val / 167772 * 167772 + e.val % 167772 = e.val
    omega

/-- A sum over the long vector, piece by piece. -/
theorem sum_quarters {M : Type} [AddCommMonoid M] (g : Fin 671088 → M) :
    ∑ e : Fin 671088, g e
      = ∑ s : Fin 167772, g (q4 0 s) + ∑ s : Fin 167772, g (q4 1 s) + ∑ s : Fin 167772, g (q4 2 s) + ∑ s : Fin 167772, g (q4 3 s) := by
  rw [← Equiv.sum_comp e4 g, Fintype.sum_prod_type, Fin.sum_univ_four]
  rfl

/-- One accumulation over the long vector against four successive ones over the pieces, at a row below the cut. -/
theorem accumulate_eq (L : Fin 4 → Fin 167772 → BitVec 32) (C : Fin 4 → Fin 167772 → EReal) (p : ℕ) (hp : p < 8388608)
    (idxK : Fin 671088 → BitVec 32) (updK : Fin 671088 → EReal)
    (hidx : ∀ d s, idxK (q4 d s) = rowK (L d s)) (hupd : ∀ d s, updK (q4 d s) = C d s * maskK (L d s)) :
    (0 : EReal) + ∑ e ∈ Finset.univ.filter (fun e : Fin 671088 => (idxK e).toInt = (p : Int)), updK e
      = ((((0 : EReal) + ∑ s ∈ Finset.univ.filter (fun s : Fin 167772 => (rowR (L 0 s)).toInt = (p : Int)), C 0 s)
          + ∑ s ∈ Finset.univ.filter (fun s : Fin 167772 => (rowR (L 1 s)).toInt = (p : Int)), C 1 s)
          + ∑ s ∈ Finset.univ.filter (fun s : Fin 167772 => (rowR (L 2 s)).toInt = (p : Int)), C 2 s)
          + ∑ s ∈ Finset.univ.filter (fun s : Fin 167772 => (rowR (L 3 s)).toInt = (p : Int)), C 3 s := by
  have piece : ∀ d : Fin 4,
      ∑ s : Fin 167772, (if (idxK (q4 d s)).toInt = (p : Int) then updK (q4 d s) else 0)
        = ∑ s ∈ Finset.univ.filter (fun s : Fin 167772 => (rowR (L d s)).toInt = (p : Int)), C d s := by
    intro d
    rw [Finset.sum_filter]
    refine Finset.sum_congr rfl fun s _ => ?_
    rw [hidx, hupd]
    exact hit_eq (L d s) (C d s) p hp
  rw [Finset.sum_filter, sum_quarters, piece 0, piece 1, piece 2, piece 3]
  simp only [zero_add]

end Cert.TvGrad

end
-- ==== Proof.LibVecLayout.lean ====
/-
  Vectors laid along an axis of a rank-two array, read at an index.  A vector of length n placed on axis 1 of a
  [1, n] array reads, at (u, k), its entry k; placed on axis 0 of an [a, 1] array it reads, at (p, u), its entry p; a
  scalar placed everywhere reads the scalar; and a column [a, 1] broadcast over the lanes of [a, b] reads, at (p, c),
  the column's entry of row p.  These are the layout steps of a bias row added to every row of a matrix and of a
  per-row statistic (a maximum, a sum) subtracted from every entry of its row.  General in the extents and the
  element type.
-/
import Idealize.ShloMosaic.Lib.Pipeline.Value
import Idealize.ShloMosaic.Lib.ValueIdx

namespace LibVecLayout

open Idealize.ShloMosaic Idealize.ShloMosaic.ValueIdx

variable {α : Type}

/-- A vector `[n]` placed on axis 1 of `[1, n]` reads, at `(u, k)`, its entry `k`. -/
theorem broadcastInDim_vec_row_apply {n : ℕ} (v : (⟨1, ![n]⟩ : Shape).Idx → α)
    (h : (⟨1, ![n]⟩ : Shape).BroadcastsInDim ⟨2, ![1, n]⟩ ![1]) (u : Fin 1) (k : Fin n) :
    broadcastInDim ⟨2, ![1, n]⟩ ![1] h v (ix2 u k) = v (ix1 k) := by
  refine broadcastInDim_apply _ h v (ix2 u k) (ix1 k) fun ax => ?_
  match ax with
  | ⟨0, _⟩ =>
    show k.val = if n = 1 then 0 else k.val
    split
    · have := k.isLt; omega
    · rfl

/-- A vector `[a]` placed on axis 0 of `[a, 1]` reads, at `(p, u)`, its entry `p`. -/
theorem broadcastInDim_vec_col_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A scalar placed at every index of any shape reads the scalar. -/
theorem broadcastInDim_scalar_apply {t : Shape} (v : (⟨0, ![]⟩ : Shape).Idx → α)
    (h : (⟨0, ![]⟩ : Shape).BroadcastsInDim t ![]) (j : t.Idx) (z : (⟨0, ![]⟩ : Shape).Idx) :
    broadcastInDim t ![] h v j = v z := by
  unfold broadcastInDim
  exact congrArg v (funext fun a => a.elim0)

/-- A column `[a, 1]` broadcast over the lanes of `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end LibVecLayout
-- ==== Proof.LibReshapeRead.lean ====
import Idealize.ShloMosaic.Lib.ValueIdx
import Idealize.ShloMosaic.Lib.ValueLayout
import Idealize.ShloMosaic.Lib.Pipeline.Value

/-! # Two reshapes read at an index

A reshape keeps the row-major position of every element. A column `[m, 1]` and the vector `[m]` it is reshaped to
hold element `p` at positions `p * 1 + 0` and `p`; a vector `[n]` and the one-row array `[1, n]` it is reshaped to hold
element `k` at positions `k` and `0 * n + k`. -/

namespace Cert.DistSeams

open Idealize.ShloMosaic Idealize.ShloMosaic.ValueIdx

/-- A column `[m, 1]` viewed as a vector of length `m` reads, at `p`, the column at `(p, 0)`. -/
theorem col_to_vec_apply {α : Type} {m : Nat} (x : (⟨2, ![m, 1]⟩ : Shape).Idx → α)
    (h : (⟨2, ![m, 1]⟩ : Shape).ShapeCasts ⟨1, ![m]⟩) (p : Fin m) :
    shapeCast ⟨1, ![m]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- A vector of length `n` viewed as the one row of a `[1, n]` array reads, at `(u, k)`, the vector at `k`, whatever the
    unit coordinate `u`. -/
theorem vec_to_row_apply {α : Type} {n : Nat} (x : (⟨1, ![n]⟩ : Shape).Idx → α)
    (h : (⟨1, ![n]⟩ : Shape).ShapeCasts ⟨2, ![1, n]⟩) (u : Fin 1) (k : Fin n) :
    shapeCast ⟨2, ![1, n]⟩ x h (ix2 u k) = x (ix1 k) :=
  shapeCast_a_1a_apply x h u k

end Cert.DistSeams
-- ==== Proof.HostLayout.lean ====
/-
  Layout steps of the host programs read at an index, at the extents of this kernel: four vectors of 167772 entries
  laid end to end; a column [n, 1] of a vector; a one-row array [1, n] of a vector; an array padded with lanes at the end.
-/
import Idealize.ShloMosaic.Lib.Pipeline.Value
import Idealize.ShloMosaic.Lib.ValueIdx
import Idealize.ShloMosaic.Lib.ValueLayout
import Idealize.ShloMosaic.Lib.KernelVsHost
import proofs.«140712_j5016521802106_2_alg».proof.Proof.LibRowStack
import proofs.«140712_j5016521802106_2_alg».proof.Proof.LibVecLayout
import proofs.«140712_j5016521802106_2_alg».proof.Proof.LibReshapeRead
import proofs.«140712_j5016521802106_2_alg».proof.Proof.QuarterSums

noncomputable section

namespace Cert.TvGrad

open Idealize.ShloMosaic Idealize.ShloMosaic.ValueIdx LibRowStack

variable {α : Type}

/-- Entry `s` of piece `d` of four vectors laid end to end: the position `d · 167772 + s` divided by the pieces' length
    names the piece, and its remainder the entry. -/
theorem cat4_apply (x0 x1 x2 x3 : (⟨1, ![167772]⟩ : Shape).Idx → α)
    (h : Shape.Concatenates [(⟨1, ![167772]⟩ : Shape), ⟨1, ![167772]⟩, ⟨1, ![167772]⟩, ⟨1, ![167772]⟩] ⟨1, ![671088]⟩ 0)
    (d : Fin 4) (s : Fin 167772) :
    concatenate ⟨1, ![671088]⟩ 0 [⟨⟨1, ![167772]⟩, x0⟩, ⟨⟨1, ![167772]⟩, x1⟩, ⟨⟨1, ![167772]⟩, x2⟩, ⟨⟨1, ![167772]⟩, x3⟩] h (ix1 (q4 d s))
      = pick4 x0 x1 x2 x3 d (ix1 s) := by
  have hd := d.isLt
  have hs := s.isLt
  exact concatenate_ofFn_apply (t := ⟨1, ![671088]⟩) (s₁ := ⟨1, ![167772]⟩) 0 (fun n : Fin 4 => pick4 x0 x1 x2 x3 n) h rfl 167772 rfl
    (ix1 (q4 d s)) d (by show (d.val * 167772 + s.val) / 167772 = d.val; omega) (ix1 s)
    (by show s.val = (d.val * 167772 + s.val) % 167772; omega)
    (fun b hb => by
      match b with
      | ⟨0, _⟩ => exact absurd rfl hb)

/-- A [4, 167772] array padded with 12452 lanes at the end, read at a lane of the array. -/
theorem pad_lane_apply (x : (⟨2, ![4, 167772]⟩ : Shape).Idx → α) {u : Shape} (v : u.Idx → α)
    (h : (⟨2, ![4, 167772]⟩ : Shape).Pads ![0, 0] ![0, 12452] ![0, 0] ⟨2, ![4, 180224]⟩) (hu : 0 < u.numel)
    (r : Fin 4) (s : Fin 167772) (s' : Fin 180224) (hs : s'.val = s.val) :
    pad ⟨2, ![4, 180224]⟩ ![0, 0] ![0, 12452] ![0, 0] x v h hu (ix2 r s') = x (ix2 r s) := by
  refine pad_apply_of_inside _ _ _ x v h hu (ix2 r s') (ix2 r s) fun a => ?_
  match a with
  | ⟨0, _⟩ => show r.val = 0 + r.val * (0 + 1); omega
  | ⟨1, _⟩ => show s'.val = 0 + s.val * (0 + 1); omega

end Cert.TvGrad

end
-- ==== Proof.LibScatterAddFinite.lean ====
/-
  The host's accumulating scatter and its gather on the extended reals: what the entries of their results are when the
  entries of their operands are reals.

  At the ideal instance an accumulating scatter's result at an index `i` is the operand's entry at `i` plus the sum of
  the updates whose result index is `i`. A finite sum of reals is a real, so the result's entries are reals when the
  operand's and the updates' are; and when the operand is 0 everywhere and every update is 1, the entry at `i` is the
  NUMBER of updates landing at `i`, a natural number. A gather's result entry is the operand's entry at a computed
  index, so it is a real when the operand's entries are. All of it holds for any shapes, any dimension numbers and any
  index arrays. (A count above 0 is at least 1, and one that is not above 0 is 0: the two facts a guarded mean needs.)
-/
import Idealize.ShloMosaic.PureOps.Ideal
import Idealize.ShloMosaic.PureOps

noncomputable section

open scoped BigOperators

namespace Cert.ScatterAddFinite

open Idealize.ShloMosaic

/-- A finite sum, in the extended reals, of terms that are reals is a real. -/
theorem exists_real_sum {ι : Type} (S : Finset ι) (f : ι → EReal) (hf : ∀ j ∈ S, ∃ r : ℝ, f j = (r : EReal)) :
    ∃ r : ℝ, ∑ j ∈ S, f j = (r : EReal) := by
  classical
  induction S using Finset.induction_on with
  | empty => exact ⟨0, by simp⟩
  | insert a S ha ih =>
    obtain ⟨ra, hra⟩ := hf a (Finset.mem_insert_self a S)
    obtain ⟨rs, hrs⟩ := ih (fun j hj => hf j (Finset.mem_insert_of_mem hj))
    exact ⟨ra + rs, by rw [Finset.sum_insert ha, hra, hrs, EReal.coe_add]⟩

/-- The accumulating scatter at an index, on the extended reals: the operand's entry there plus the sum of the updates
    whose result index is that index. -/
theorem scatterAdd_apply {s si su : Shape} {φ : FTy} {w : Nat} (d : ScatterDims s si su) (x : FVec Ideal s φ)
    (idx : IVec si w) (upd : FVec Ideal su φ) (i : s.Idx) :
    Host.scatterAdd (F := Ideal) d x idx upd i
      = x i + ∑ j ∈ Finset.univ.filter (fun j => d.resultIdx? j idx = some i), upd j := rfl

/-- (a) When every entry of the operand and every update is a real, every entry of the accumulating scatter's result
    is a real, whatever the indices. -/
theorem scatterAdd_real {s si su : Shape} {φ : FTy} {w : Nat} (d : ScatterDims s si su) (x : FVec Ideal s φ)
    (idx : IVec si w) (upd : FVec Ideal su φ) (hx : ∀ i, ∃ r : ℝ, x i = (r : EReal))
    (hu : ∀ j, ∃ r : ℝ, upd j = (r : EReal)) (i : s.Idx) :
    ∃ r : ℝ, Host.scatterAdd (F := Ideal) d x idx upd i = (r : EReal) := by
  obtain ⟨rx, hrx⟩ := hx i
  obtain ⟨rs, hrs⟩ :=
    exists_real_sum (Finset.univ.filter (fun j => d.resultIdx? j idx = some i)) upd (fun j _ => hu j)
  exact ⟨rx + rs, by rw [scatterAdd_apply, hrx, hrs, EReal.coe_add]⟩

/-- (b), with the number named: when the operand is 0 everywhere and every update is 1, the accumulating scatter's
    entry at `i` is the number of updates whose result index is `i`. -/
theorem scatterAdd_zero_one_apply {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    Host.scatterAdd (F := Ideal) d x idx upd i
      = (((Finset.univ.filter (fun j => d.resultIdx? j idx = some i)).card : ℝ) : EReal) := by
  rw [scatterAdd_apply, hx i, zero_add, Finset.sum_congr rfl (fun j _ => hu j), Finset.sum_const,
    EReal.nsmul_eq_mul, mul_one]
  exact (EReal.coe_coe_eq_natCast _).symm

/-- (b) When the operand is 0 everywhere and every update is 1, every entry of the accumulating scatter's result is a
    natural number, whatever the indices. -/
theorem scatterAdd_zero_one_nat {s si su : Shape} {φ : FTy} {w : Nat} (d : ScatterDims s si su) (x : FVec Ideal s φ)
    (idx : IVec si w) (upd : FVec Ideal su φ) (hx : ∀ i, x i = (0 : EReal)) (hu : ∀ j, upd j = (1 : EReal))
    (i : s.Idx) :
    ∃ n : ℕ, Host.scatterAdd (F := Ideal) d x idx upd i = ((n : ℝ) : EReal) :=
  ⟨_, scatterAdd_zero_one_apply d x idx upd hx hu i⟩

/-- A natural number above 0 is at least 1: its maximum with 1, in the extended reals, is itself. -/
theorem natCast_max_one_of_pos (n : ℕ) (h : (0 : EReal) < ((n : ℝ) : EReal)) :
    max ((n : ℝ) : EReal) 1 = ((n : ℝ) : EReal) := by
  have h1 : 0 < n := Nat.cast_pos.1 (EReal.coe_pos.1 h)
  have h2 : (1 : ℝ) ≤ (n : ℝ) := Nat.one_le_cast.2 h1
  refine max_eq_left ?_
  rw [← EReal.coe_one]
  exact EReal.coe_le_coe_iff.2 h2

/-- A natural number not above 0 is 0, in the extended reals. -/
theorem natCast_eq_zero_of_not_pos (n : ℕ) (h : ¬ (0 : EReal) < ((n : ℝ) : EReal)) : ((n : ℝ) : EReal) = 0 := by
  have h1 : ¬ 0 < n := fun hn => h (EReal.coe_pos.2 (Nat.cast_pos.2 hn))
  have h2 : n = 0 := Nat.eq_zero_of_not_pos h1
  rw [h2, Nat.cast_zero, EReal.coe_zero]

/-- A natural number above 0, as an extended real, is not 0. -/
theorem natCast_ne_zero_of_pos (n : ℕ) (h : (0 : EReal) < ((n : ℝ) : EReal)) : ((n : ℝ) : EReal) ≠ 0 :=
  ne_of_gt h

/-- A gather's result entry is the operand's entry at the operand index the dimension numbers compute. -/
theorem gather_apply {s si t : Shape} {α : Type} {w : Nat} (d : GatherDims s si t) (x : s.Idx → α) (idx : IVec si w)
    (j : t.Idx) : Host.gather d x idx j = x (d.operandIdx j idx) := rfl

/-- (c) Every entry of a gather's result is an entry of its operand. -/
theorem gather_mem {s si t : Shape} {α : Type} {w : Nat} (d : GatherDims s si t) (x : s.Idx → α) (idx : IVec si w)
    (j : t.Idx) : ∃ k : s.Idx, Host.gather d x idx j = x k := ⟨_, rfl⟩

/-- (c) Every entry of a gather's result is a real when every entry of its operand is, whatever the indices. -/
theorem gather_real {s si t : Shape} {w : Nat} (d : GatherDims s si t) (x : s.Idx → EReal) (idx : IVec si w)
    (hx : ∀ i, ∃ r : ℝ, x i = (r : EReal)) (j : t.Idx) : ∃ r : ℝ, Host.gather d x idx j = (r : EReal) :=
  hx _

end Cert.ScatterAddFinite

end
-- ==== Proof.LibGraphIdx.lean ====
/-
  The host's row gather and row scatter-add of this graph convolution, read at an index.

  The index array has one start index per edge, shape [E, 1]. A gather of rows reads, for edge `e`, the row whose number
  is the edge's start index read signed, negatives taken to 0, clamped to the last row; it reads the same row of a matrix
  [N, D] and of a vector [N]. An accumulating scatter of rows adds edge `e`'s update row into the row whose number is the
  edge's start index read signed, when that number is a row's, and drops it otherwise; so the entry (p, q) of the result
  is the operand's entry plus the sum, over the edges whose start index is `p`, of the updates' entries (e, q).
-/
import Idealize.ShloMosaic.PureOps.Ideal
import Idealize.ShloMosaic.PureOps
import Idealize.ShloMosaic.Lib.ValueIdx
import proofs.«140712_j5016521802106_2_alg».proof.Proof.LibScatterAddFinite

noncomputable section

open scoped BigOperators

namespace Cert.GraphIdx

open Idealize.ShloMosaic Idealize.ShloMosaic.ValueIdx

variable {N E D : Nat}

/-- The row a start index selects for a gather: read signed, negatives to 0, clamped to the last row. -/
def rowOf (hN : 0 < N) {w : Nat} (idx : IVec ⟨2, ![E, 1]⟩ w) (e : Fin E) : Fin N :=
  ⟨min (idx (ix2 e 0)).toInt.toNat (N - 1), by omega⟩

/-- A start index that IS a row's number selects that row. -/
theorem rowOf_eq (hN : 0 < N) {w : Nat} (idx : IVec ⟨2, ![E, 1]⟩ w) (e : Fin E) (p : Fin N)
    (h : (idx (ix2 e 0)).toInt = (p.val : Int)) : rowOf hN idx e = p := by
  apply Fin.ext
  show min (idx (ix2 e 0)).toInt.toNat (N - 1) = p.val
  rw [h, Int.toNat_natCast]
  have := p.isLt
  omega

/-! ## The gathers -/

/-- The dimension numbers of a gather of rows of an [N, D] matrix by an [E, 1] index array. -/
abbrev gd2 (wf : GatherDims.WF ⟨2, ![N, D]⟩ ⟨2, ![E, 1]⟩ ⟨2, ![E, D]⟩ [1] [0] [] [0] [] 1 ![1, D]) : GatherDims ⟨2, ![N, D]⟩ ⟨2, ![E, 1]⟩ ⟨2, ![E, D]⟩ :=
  { offsetDims := [1], collapsedSliceDims := [0], operandBatchingDims := [], startIndicesBatchingDims := [],
    startIndexMap := [0], indexVectorDim := 1, sliceSizes := ![1, D], wf := wf }

/-- The operand index a row gather of a matrix reads at result index (e, q): (the edge's row, q). -/
theorem gd2_operandIdx (wf : GatherDims.WF ⟨2, ![N, D]⟩ ⟨2, ![E, 1]⟩ ⟨2, ![E, D]⟩ [1] [0] [] [0] [] 1 ![1, D]) (hN : 0 < N) {w : Nat} (idx : IVec ⟨2, ![E, 1]⟩ w) (e : Fin E) (q : Fin D) :
    (gd2 (N := N) (E := E) (D := D) wf).operandIdx (ix2 e q) idx = ix2 (rowOf hN idx e) q := by
  funext a
  apply Fin.ext
  match a with
  | ⟨0, _⟩ =>
    show (gd2 wf).start (ix2 e q) idx 0 + (gd2 wf).batchCoord (ix2 e q) 0 + (gd2 wf).offCoord (ix2 e q) 0 = min (idx (ix2 e 0)).toInt.toNat (N - 1)
    have h1 : (gd2 wf).batchCoord (ix2 e q) 0 = 0 :=
      (gd2 wf).batchCoord_eq_zero _ _ (show (0 : Fin 2) ∉ ([] : List (Fin 2)) by decide)
    have h2 : (gd2 wf).offCoord (ix2 e q) 0 = 0 :=
      (gd2 wf).offCoord_eq_zero _ _ (show (0 : Fin 2) ∉ ([1] : List (Fin 2)) by decide)
    have h3 : (gd2 wf).start (ix2 e q) idx 0 = min (idx (ix2 e 0)).toInt.toNat (N - 1) := by
      unfold GatherDims.start
      rw [dif_pos (show (0 : Fin 2) ∈ ([0] : List (Fin 2)) by decide)]
      have hs : ∀ hh, (gd2 wf).siIdx (ix2 e q) ⟨List.idxOf (0 : Fin 2) ([0] : List (Fin 2)), hh⟩ = ix2 e 0 := by
        intro hh
        funext b
        apply Fin.ext
        match b with
        | ⟨0, _⟩ => rfl
        | ⟨1, _⟩ => rfl
      rw [hs]
      rfl
    omega
  | ⟨1, _⟩ =>
    show (gd2 wf).start (ix2 e q) idx 1 + (gd2 wf).batchCoord (ix2 e q) 1 + (gd2 wf).offCoord (ix2 e q) 1 = q.val
    have h1 : (gd2 wf).batchCoord (ix2 e q) 1 = 0 :=
      (gd2 wf).batchCoord_eq_zero _ _ (show (1 : Fin 2) ∉ ([] : List (Fin 2)) by decide)
    have h0 : (gd2 wf).start (ix2 e q) idx 1 = 0 := by
      unfold GatherDims.start
      rw [dif_neg (show (1 : Fin 2) ∉ ([0] : List (Fin 2)) by decide)]
    have h3 : (gd2 wf).offCoord (ix2 e q) 1 = q.val := by
      unfold GatherDims.offCoord
      have hm : (1 : Fin 2) ∈ (gd2 wf).sKept := (show (1 : Fin 2) ∈ ([1] : List (Fin 2)) by decide)
      rw [dif_pos hm]
      rfl
    omega

/-- A gather of rows of a matrix reads, at (e, q), the matrix at (the edge's row, q). -/
theorem gather2_apply {α : Type} (wf : GatherDims.WF ⟨2, ![N, D]⟩ ⟨2, ![E, 1]⟩ ⟨2, ![E, D]⟩ [1] [0] [] [0] [] 1 ![1, D]) (hN : 0 < N) {w : Nat}
    (x : (⟨2, ![N, D]⟩ : Shape).Idx → α) (idx : IVec ⟨2, ![E, 1]⟩ w) (e : Fin E) (q : Fin D) :
    Host.gather (gd2 wf) x idx (ix2 e q) = x (ix2 (rowOf hN idx e) q) := by
  rw [Cert.ScatterAddFinite.gather_apply, gd2_operandIdx wf hN]

/-- The dimension numbers of a gather of entries of an [N] vector by an [E, 1] index array. -/
abbrev gd1 (wf : GatherDims.WF ⟨1, ![N]⟩ ⟨2, ![E, 1]⟩ ⟨1, ![E]⟩ [] [0] [] [0] [] 1 ![1]) : GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- The operand index a gather of a vector's entries reads at result index e: the edge's row. -/
theorem gd1_operandIdx (wf : GatherDims.WF ⟨1, ![N]⟩ ⟨2, ![E, 1]⟩ ⟨1, ![E]⟩ [] [0] [] [0] [] 1 ![1]) (hN : 0 < N) {w : Nat} (idx : IVec ⟨2, ![E, 1]⟩ w) (e : Fin E) :
    (gd1 (N := N) (E := E) wf).operandIdx (ix1 e) idx = ix1 (rowOf hN idx e) := by
  funext a
  apply Fin.ext
  match a with
  | ⟨0, _⟩ =>
    show (gd1 wf).start (ix1 e) idx 0 + (gd1 wf).batchCoord (ix1 e) 0 + (gd1 wf).offCoord (ix1 e) 0 = min (idx (ix2 e 0)).toInt.toNat (N - 1)
    have h1 : (gd1 wf).batchCoord (ix1 e) 0 = 0 :=
      (gd1 wf).batchCoord_eq_zero _ _ (show (0 : Fin 1) ∉ ([] : List (Fin 1)) by decide)
    have h2 : (gd1 wf).offCoord (ix1 e) 0 = 0 :=
      (gd1 wf).offCoord_eq_zero _ _ (show (0 : Fin 1) ∉ ([] : List (Fin 1)) by decide)
    have h3 : (gd1 wf).start (ix1 e) idx 0 = min (idx (ix2 e 0)).toInt.toNat (N - 1) := by
      unfold GatherDims.start
      rw [dif_pos (show (0 : Fin 1) ∈ ([0] : List (Fin 1)) by decide)]
      have hs : ∀ hh, (gd1 wf).siIdx (ix1 e) ⟨List.idxOf (0 : Fin 1) ([0] : List (Fin 1)), hh⟩ = ix2 e 0 := by
        intro hh
        funext b
        apply Fin.ext
        match b with
        | ⟨0, _⟩ => rfl
        | ⟨1, _⟩ => rfl
      rw [hs]
      rfl
    omega

/-- A gather of entries of a vector reads, at e, the vector at the edge's row: the SAME row as the matrix gather's. -/
theorem gather1_apply {α : Type} (wf : GatherDims.WF ⟨1, ![N]⟩ ⟨2, ![E, 1]⟩ ⟨1, ![E]⟩ [] [0] [] [0] [] 1 ![1]) (hN : 0 < N) {w : Nat}
    (x : (⟨1, ![N]⟩ : Shape).Idx → α) (idx : IVec ⟨2, ![E, 1]⟩ w) (e : Fin E) :
    Host.gather (gd1 wf) x idx (ix1 e) = x (ix1 (rowOf hN idx e)) := by
  rw [Cert.ScatterAddFinite.gather_apply, gd1_operandIdx wf hN]

/-! ## The accumulating scatters -/

/-- The dimension numbers of an accumulating scatter of [E, D] update rows into an [N, D] matrix by an [E, 1] index array. -/
abbrev sd2 (wf : ScatterDims.WF ⟨2, ![N, D]⟩ ⟨2, ![E, 1]⟩ ⟨2, ![E, D]⟩ [1] [0] [0] 1) : ScatterDims ⟨2, ![N, D]⟩ ⟨2, ![E, 1]⟩ ⟨2, ![E, D]⟩ :=
  { updateWindowDims := [1], insertedWindowDims := [0], scatterDimsToOperandDims := [0], indexVectorDim := 1, wf := wf }

theorem sd2_start0 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 0 = (idx (ix2 e 0)).toInt := by
  unfold ScatterDims.start
  rw [dif_pos (show (0 : Fin 2) ∈ ([0] : List (Fin 2)) by decide)]
  have hs : ∀ hh, (sd2 wf).siIdx (ix2 e q) ⟨List.idxOf (0 : Fin 2) ([0] : List (Fin 2)), hh⟩ = ix2 e 0 := by
    intro hh
    funext b
    apply Fin.ext
    match b with
    | ⟨0, _⟩ => rfl
    | ⟨1, _⟩ => rfl
  rw [hs]

theorem sd2_start1 (wf : ScatterDims.WF ⟨2, ![N, D]⟩ ⟨2, ![E, 1]⟩ ⟨2, ![E, D]⟩ [1] [0] [0] 1) {w : Nat} (idx : IVec ⟨2, ![E, 1]⟩ w) (e : Fin E) (q : Fin D) :
    (sd2 (N := N) wf).start (ix2 e q) idx 1 = 0 := by
  unfold ScatterDims.start
  rw [dif_neg (show (1 : Fin 2) ∉ ([0] : List (Fin 2)) by decide)]

theorem sd2_window0 (wf : ScatterDims.WF ⟨2, ![N, D]⟩ ⟨2, ![E, 1]⟩ ⟨2, ![E, D]⟩ [1] [0] [0] 1) (e : Fin E) (q : Fin D) : (sd2 (N := N) wf).window (ix2 e q) 0 = 0 := by
  unfold ScatterDims.window
  have hm : (0 : Fin 2) ∉ (sd2 wf).sKept := (show (0 : Fin 2) ∉ ([1] : List (Fin 2)) by decide)
  rw [dif_neg hm]

theorem sd2_window1 (wf : ScatterDims.WF ⟨2, ![N, D]⟩ ⟨2, ![E, 1]⟩ ⟨2, ![E, D]⟩ [1] [0] [0] 1) (e : Fin E) (q : Fin D) : (sd2 (N := N) wf).window (ix2 e q) 1 = q.val := by
  unfold ScatterDims.window
  have hm : (1 : Fin 2) ∈ (sd2 wf).sKept := (show (1 : Fin 2) ∈ ([1] : List (Fin 2)) by decide)
  rw [dif_pos hm]
  rfl

/-- Update index (e, q) lands on (p, q') exactly when edge e's start index, read signed, is p, and q = q'. -/
theorem sd2_lands (wf : ScatterDims.WF ⟨2, ![N, D]⟩ ⟨2, ![E, 1]⟩ ⟨2, ![E, D]⟩ [1] [0] [0] 1) {w : Nat} (idx : IVec ⟨2, ![E, 1]⟩ w) (e : Fin E) (q : Fin D) (p : Fin N) (q' : Fin D) :
    (sd2 wf).resultIdx? (ix2 e q) idx = some (ix2 p q') ↔ (idx (ix2 e 0)).toInt = (p.val : Int) ∧ q = q' := by
  have s0 := sd2_start0 (N := N) wf idx e q
  have s1 := sd2_start1 (N := N) wf idx e q
  have w0 := sd2_window0 (N := N) wf e q
  have w1 := sd2_window1 (N := N) wf e q
  have hp := p.isLt
  have hq := q.isLt
  unfold ScatterDims.resultIdx?
  split
  · rename_i h
    rw [Option.some.injEq]
    constructor
    · intro hf
      have h0 := congrArg (fun f => (f 0).val) hf
      have h1 := congrArg (fun f => (f 1).val) hf
      have a0 := h 0
      simp only [s0, w0] at h0 a0
      simp only [s1, w1] at h1
      refine ⟨?_, Fin.ext ?_⟩
      · change ((idx (ix2 e 0)).toInt + ((0 : Nat) : Int)).toNat = p.val at h0
        omega
      · change ((0 : Int) + (q.val : Int)).toNat = q'.val at h1
        omega
    · rintro ⟨hi, rfl⟩
      funext a
      apply Fin.ext
      match a with
      | ⟨0, _⟩ =>
        show ((sd2 wf).start (ix2 e q) idx 0 + ((sd2 wf).window (ix2 e q) 0 : Int)).toNat = p.val
        rw [s0, w0]; omega
      | ⟨1, _⟩ =>
        show ((sd2 wf).start (ix2 e q) idx 1 + ((sd2 wf).window (ix2 e q) 1 : Int)).toNat = q.val
        rw [s1, w1]; omega
  · rename_i h
    constructor
    · intro hf; exact absurd hf (by simp)
    · rintro ⟨hi, rfl⟩
      exfalso
      apply h
      intro a
      match a with
      | ⟨0, _⟩ =>
        show 0 ≤ (sd2 wf).start (ix2 e q) idx 0 + ((sd2 wf).window (ix2 e q) 0 : Int) ∧ (sd2 wf).start (ix2 e q) idx 0 + ((sd2 wf).window (ix2 e q) 0 : Int) < (N : Int)
        rw [s0, w0]; omega
      | ⟨1, _⟩ =>
        show 0 ≤ (sd2 wf).start (ix2 e q) idx 1 + ((sd2 wf).window (ix2 e q) 1 : Int) ∧ (sd2 wf).start (ix2 e q) idx 1 + ((sd2 wf).window (ix2 e q) 1 : Int) < (D : Int)
        rw [s1, w1]; omega

/-- An accumulating scatter of rows, at (p, q): the operand's entry plus the sum, over the edges whose start index is p,
    of the updates' entries (e, q). -/
theorem scatterAdd2_apply (wf : ScatterDims.WF ⟨2, ![N, D]⟩ ⟨2, ![E, 1]⟩ ⟨2, ![E, D]⟩ [1] [0] [0] 1) {w : Nat} {φ : FTy} (x : FVec Ideal ⟨2, ![N, D]⟩ φ) (idx : IVec ⟨2, ![E, 1]⟩ w)
    (upd : FVec Ideal ⟨2, ![E, D]⟩ φ) (p : Fin N) (q : Fin D) :
    Host.scatterAdd (F := Ideal) (sd2 wf) x idx upd (ix2 p q)
      = x (ix2 p q) + ∑ e ∈ Finset.univ.filter (fun e : Fin E => (idx (ix2 e 0)).toInt = (p.val : Int)), upd (ix2 e q) := by
  classical
  rw [Cert.ScatterAddFinite.scatterAdd_apply]
  congr 1
  rw [Finset.sum_filter, sum_idx2, Finset.sum_filter]
  refine Finset.sum_congr rfl fun e _ => ?_
  by_cases hL : (idx (ix2 e 0)).toInt = (p.val : Int)
  · rw [if_pos hL]
    have : ∀ b : Fin D, (if (sd2 wf).resultIdx? (ix2 e b) idx = some (ix2 p q) then upd (ix2 e b) else 0)
        = if b = q then upd (ix2 e b) else 0 := by
      intro b
      by_cases hb : b = q
      · rw [if_pos hb, if_pos ((sd2_lands wf idx e b p q).2 ⟨hL, hb⟩)]
      · rw [if_neg hb, if_neg (fun h => hb ((sd2_lands wf idx e b p q).1 h).2)]
    rw [Finset.sum_congr rfl (fun b _ => this b), Finset.sum_ite_eq' Finset.univ q, if_pos (Finset.mem_univ q)]
  · rw [if_neg hL]
    refine Finset.sum_eq_zero fun b _ => ?_
    rw [if_neg (fun h => hL ((sd2_lands wf idx e b p q).1 h).1)]

/-- The dimension numbers of an accumulating scatter of [E] updates into an [N] vector by an [E, 1] index array. -/
abbrev sd1 (wf : ScatterDims.WF ⟨1, ![N]⟩ ⟨2, ![E, 1]⟩ ⟨1, ![E]⟩ [] [0] [0] 1) : ScatterDims ⟨1, ![N]⟩ ⟨2, ![E, 1]⟩ ⟨1, ![E]⟩ :=
  { updateWindowDims := [], insertedWindowDims := [0], scatterDimsToOperandDims := [0], indexVectorDim := 1, wf := wf }

theorem sd1_start0 (wf : ScatterDims.WF ⟨1, ![N]⟩ ⟨2, ![E, 1]⟩ ⟨1, ![E]⟩ [] [0] [0] 1) {w : Nat} (idx : IVec ⟨2, ![E, 1]⟩ w) (e : Fin E) :
    (sd1 (N := N) wf).start (ix1 e) idx 0 = (idx (ix2 e 0)).toInt := by
  unfold ScatterDims.start
  rw [dif_pos (show (0 : Fin 1) ∈ ([0] : List (Fin 1)) by decide)]
  have hs : ∀ hh, (sd1 wf).siIdx (ix1 e) ⟨List.idxOf (0 : Fin 1) ([0] : List (Fin 1)), hh⟩ = ix2 e 0 := by
    intro hh
    funext b
    apply Fin.ext
    match b with
    | ⟨0, _⟩ => rfl
    | ⟨1, _⟩ => rfl
  rw [hs]

theorem sd1_window0 (wf : ScatterDims.WF ⟨1, ![N]⟩ ⟨2, ![E, 1]⟩ ⟨1, ![E]⟩ [] [0] [0] 1) (e : Fin E) : (sd1 (N := N) wf).window (ix1 e) 0 = 0 := by
  unfold ScatterDims.window
  have hm : (0 : Fin 1) ∉ (sd1 wf).sKept := (show (0 : Fin 1) ∉ ([] : List (Fin 1)) by decide)
  rw [dif_neg hm]

/-- Update index e lands on p exactly when edge e's start index, read signed, is p. -/
theorem sd1_lands (wf : ScatterDims.WF ⟨1, ![N]⟩ ⟨2, ![E, 1]⟩ ⟨1, ![E]⟩ [] [0] [0] 1) {w : Nat} (idx : IVec ⟨2, ![E, 1]⟩ w) (e : Fin E) (p : Fin N) :
    (sd1 wf).resultIdx? (ix1 e) idx = some (ix1 p) ↔ (idx (ix2 e 0)).toInt = (p.val : Int) := by
  have s0 := sd1_start0 (N := N) wf idx e
  have w0 := sd1_window0 (N := N) wf e
  have hp := p.isLt
  unfold ScatterDims.resultIdx?
  split
  · rename_i h
    rw [Option.some.injEq]
    constructor
    · intro hf
      have h0 := congrArg (fun f => (f 0).val) hf
      have a0 := h 0
      simp only [s0, w0] at h0 a0
      change ((idx (ix2 e 0)).toInt + ((0 : Nat) : Int)).toNat = p.val at h0
      omega
    · intro hi
      funext a
      apply Fin.ext
      match a with
      | ⟨0, _⟩ =>
        show ((sd1 wf).start (ix1 e) idx 0 + ((sd1 wf).window (ix1 e) 0 : Int)).toNat = p.val
        rw [s0, w0]; omega
  · rename_i h
    constructor
    · intro hf; exact absurd hf (by simp)
    · intro hi
      exfalso
      apply h
      intro a
      match a with
      | ⟨0, _⟩ =>
        show 0 ≤ (sd1 wf).start (ix1 e) idx 0 + ((sd1 wf).window (ix1 e) 0 : Int) ∧ (sd1 wf).start (ix1 e) idx 0 + ((sd1 wf).window (ix1 e) 0 : Int) < (N : Int)
        rw [s0, w0]; omega

/-- A rank-1 index set is its one coordinate's range. -/
def idxEquiv1 {n : Nat} : (⟨1, ![n]⟩ : Shape).Idx ≃ Fin n where
  toFun i := i 0
  invFun a := ix1 a
  left_inv i := (eq_ix1 i).symm
  right_inv _ := rfl

/-- An accumulating scatter into a vector, at p: the operand's entry plus the sum of the updates of the edges whose
    start index is p. -/
theorem scatterAdd1_apply (wf : ScatterDims.WF ⟨1, ![N]⟩ ⟨2, ![E, 1]⟩ ⟨1, ![E]⟩ [] [0] [0] 1) {w : Nat} {φ : FTy} (x : FVec Ideal ⟨1, ![N]⟩ φ) (idx : IVec ⟨2, ![E, 1]⟩ w)
    (upd : FVec Ideal ⟨1, ![E]⟩ φ) (p : Fin N) :
    Host.scatterAdd (F := Ideal) (sd1 wf) x idx upd (ix1 p)
      = x (ix1 p) + ∑ e ∈ Finset.univ.filter (fun e : Fin E => (idx (ix2 e 0)).toInt = (p.val : Int)), upd (ix1 e) := by
  classical
  rw [Cert.ScatterAddFinite.scatterAdd_apply]
  congr 1
  rw [Finset.sum_filter, ← Equiv.sum_comp (idxEquiv1 (n := E)).symm, Finset.sum_filter]
  refine Finset.sum_congr rfl fun e _ => ?_
  show (if (sd1 wf).resultIdx? (ix1 e) idx = some (ix1 p) then upd (ix1 e) else 0) = _
  by_cases hL : (idx (ix2 e 0)).toInt = (p.val : Int)
  · rw [if_pos hL, if_pos ((sd1_lands wf idx e p).2 hL)]
  · rw [if_neg hL, if_neg (fun h => hL ((sd1_lands wf idx e p).1 h))]

end Cert.GraphIdx

end
-- ==== Proof.KTail.lean ====
/-
  The kernel program's host side as functions of the link arrays and the gathered density columns, read at an index.

  Before the launch: the four density columns are laid as the four rows of a [4, 167772] array and padded with 12452
  lanes to [4, 180224]; the four indicator vectors `l ≥ 0` likewise. The launch writes, at row `r` and lane `j`, the
  contribution `r` of the four densities of lane `j` times the indicator at `(r, j)`. After the launch: the padding
  lanes are cut, the four rows laid end to end, every link clamped to a row, and ONE accumulation adds entry `e` of the
  long vector to the row of entry `e` of the long link vector.
-/
import proofs.«140712_j5016521802106_2_alg».proof.Proof.Gen.KernelIdeal
import proofs.«140712_j5016521802106_2_alg».proof.Proof.Contrib
import proofs.«140712_j5016521802106_2_alg».proof.Proof.LinkAlgebra
import proofs.«140712_j5016521802106_2_alg».proof.Proof.QuarterSums
import proofs.«140712_j5016521802106_2_alg».proof.Proof.HostLayout
import proofs.«140712_j5016521802106_2_alg».proof.Proof.LibGraphIdx
import proofs.«140712_j5016521802106_2_alg».proof.Proof.LibVecLayout
import proofs.«140712_j5016521802106_2_alg».proof.Proof.LibReshapeRead
import proofs.«140712_j5016521802106_2_alg».proof.Proof.LibRowStack
import Idealize.ShloMosaic.Lib.ValueIdx
import Idealize.ShloMosaic.Lib.ValueLayout
import Idealize.ShloMosaic.PureOps.Ideal.Laws

noncomputable section

open scoped BigOperators

namespace Cert.KernelIdeal.Bridge

open Idealize.ShloMosaic Idealize.ShloMosaic.ValueIdx Cert.KernelIdeal Cert.KernelIdeal.Gen Cert.TvGrad LibRowStack

/-! ## Before the launch -/

/-- A density column as a one-row array. -/
def rowOfCol (a : FVec Ideal S167772x1 .f32) : FVec Ideal S1x167772 .f32 :=
  broadcastInDim S1x167772 ![1] bcast_S167772_S1x167772_1 (shapeCast S167772 a shapeCasts_S167772x1_S167772)

/-- The four density columns stacked and padded. -/
def stackK (a0 a1 a2 a3 : FVec Ideal S167772x1 .f32) : FVec Ideal S4x180224 .f32 :=
  pad S4x180224 ![0, 0] ![0, 12452] ![0, 0]
    (concatenate S4x167772 0 [⟨S1x167772, rowOfCol a0⟩, ⟨S1x167772, rowOfCol a1⟩, ⟨S1x167772, rowOfCol a2⟩, ⟨S1x167772, rowOfCol a3⟩]
      concatenates_S1x167772_S1x167772_S1x167772_S1x167772_S4x167772_d0)
    (sitofp (F := Ideal) .f32 (constantI S_ 32 0#32)) pads_S4x167772_S4x180224_000_0124520 h_S_

/-- The indicator of `l ≥ 0` as a one-row array. -/
def rowOfMask (l : IVec S167772 32) : FVec Ideal S1x167772 .f32 :=
  broadcastInDim S1x167772 ![1] bcast_S167772_S1x167772_1
    (uitofp (F := Ideal) .f32 (cmpi .sge l (broadcastInDim S167772 ![] bcast_S_S167772 (constantI S_ 32 0#32))))

/-- The four indicator vectors stacked and padded. -/
def maskStack (l0 l1 l2 l3 : IVec S167772 32) : FVec Ideal S4x180224 .f32 :=
  pad S4x180224 ![0, 0] ![0, 12452] ![0, 0]
    (concatenate S4x167772 0 [⟨S1x167772, rowOfMask l0⟩, ⟨S1x167772, rowOfMask l1⟩, ⟨S1x167772, rowOfMask l2⟩, ⟨S1x167772, rowOfMask l3⟩]
      concatenates_S1x167772_S1x167772_S1x167772_S1x167772_S4x167772_d0)
    (sitofp (F := Ideal) .f32 (constantI S_ 32 0#32)) pads_S4x167772_S4x180224_000_0124520 h_S_

/-- The lane of the padded arrays that holds cell `s`. -/
def lane (s : Fin 167772) : Fin 180224 := ⟨s.val, by have := s.isLt; omega⟩

theorem rowOfCol_apply (a : FVec Ideal S167772x1 .f32) (s : Fin 167772) :
    rowOfCol a (ix2 (0 : Fin 1) s) = a (ix2 s (0 : Fin 1)) := by
  unfold rowOfCol
  rw [LibVecLayout.broadcastInDim_vec_row_apply, Cert.DistSeams.col_to_vec_apply]

theorem rowOfMask_apply (l : IVec S167772 32) (s : Fin 167772) :
    rowOfMask l (ix2 (0 : Fin 1) s) = maskK (l (ix1 s)) := by
  unfold rowOfMask
  rw [LibVecLayout.broadcastInDim_vec_row_apply]
  rfl

theorem stackK_apply (a0 a1 a2 a3 : FVec Ideal S167772x1 .f32) (r : Fin 4) (s : Fin 167772) :
    stackK a0 a1 a2 a3 (ix2 r (lane s)) = pick4 a0 a1 a2 a3 r (ix2 s (0 : Fin 1)) := by
  unfold stackK
  rw [pad_lane_apply _ _ _ _ r s (lane s) rfl, stack4_apply]
  match r with
  | ⟨0, _⟩ => exact rowOfCol_apply a0 s
  | ⟨1, _⟩ => exact rowOfCol_apply a1 s
  | ⟨2, _⟩ => exact rowOfCol_apply a2 s
  | ⟨3, _⟩ => exact rowOfCol_apply a3 s

theorem maskStack_apply (l0 l1 l2 l3 : IVec S167772 32) (r : Fin 4) (s : Fin 167772) :
    maskStack l0 l1 l2 l3 (ix2 r (lane s)) = maskK (pick4 l0 l1 l2 l3 r (ix1 s)) := by
  unfold maskStack
  rw [pad_lane_apply _ _ _ _ r s (lane s) rfl, stack4_apply]
  match r with
  | ⟨0, _⟩ => exact rowOfMask_apply l0 s
  | ⟨1, _⟩ => exact rowOfMask_apply l1 s
  | ⟨2, _⟩ => exact rowOfMask_apply l2 s
  | ⟨3, _⟩ => exact rowOfMask_apply l3 s

/-! ## The launch -/

/-- What the launch leaves in its output array, as one function of its two input arrays. -/
def G (A0 A1 : FVec Ideal S4x180224 .f32) : FVec Ideal S4x180224 .f32 := fun i =>
  contrib (i 0) (A0 (ix2 (0 : Fin 4) (i 1))) (A0 (ix2 (1 : Fin 4) (i 1))) (A0 (ix2 (2 : Fin 4) (i 1))) (A0 (ix2 (3 : Fin 4) (i 1))) * A1 i

/-! ## After the launch -/

/-- A link array clamped to rows. -/
def clamp (l : IVec S167772 32) : IVec S167772 32 :=
  maxsi (broadcastInDim S167772 ![] bcast_S_S167772 (constantI S_ 32 0#32)) l

/-- The four clamped link arrays laid end to end. -/
def catIdx (l0 l1 l2 l3 : IVec S167772 32) : IVec S671088 32 :=
  concatenate S671088 0 [⟨S167772, clamp l0⟩, ⟨S167772, clamp l1⟩, ⟨S167772, clamp l2⟩, ⟨S167772, clamp l3⟩]
    concatenates_S167772_S167772_S167772_S167772_S671088_d0

/-- The rows of the one accumulation (a negative row wrapped by the 8388608 rows). -/
def rowsK (l0 l1 l2 l3 : IVec S167772 32) : IVec S671088x1 32 :=
  broadcastInDim S671088x1 ![0] bcast_S671088_S671088x1_0
    (select (cmpi .slt (catIdx l0 l1 l2 l3) (broadcastInDim S671088 ![] bcast_S_S671088 (constantI S_ 32 0#32)))
      (addi (catIdx l0 l1 l2 l3) (broadcastInDim S671088 ![] bcast_S_S671088 (constantI S_ 32 8388608#32)))
      (catIdx l0 l1 l2 l3))

/-- Row `k` of the launch's output, cut to the cells, as a vector. -/
def rowVec (out : FVec Ideal S4x180224 .f32) (k : Nat) (h : S4x167772.Slices ![k, 0] S1x167772) : FVec Ideal S167772 .f32 :=
  shapeCast S167772
    (extractStridedSlice S1x167772 ![k, 0] (extractStridedSlice S4x167772 ![0, 0] out slices_S4x180224_S4x167772_0_0) h)
    shapeCasts_S1x167772_S167772

/-- The updates of the one accumulation. -/
def updK (out : FVec Ideal S4x180224 .f32) : FVec Ideal S671088x1 .f32 :=
  broadcastInDim S671088x1 ![0] bcast_S671088_S671088x1_0
    (concatenate S671088 0 [⟨S167772, rowVec out 0 slices_S4x167772_S1x167772_0_0⟩, ⟨S167772, rowVec out 1 slices_S4x167772_S1x167772_1_0⟩,
        ⟨S167772, rowVec out 2 slices_S4x167772_S1x167772_2_0⟩, ⟨S167772, rowVec out 3 slices_S4x167772_S1x167772_3_0⟩]
      concatenates_S167772_S167772_S167772_S167772_S671088_d0)

/-- The kernel program's last stretch. -/
def tailK (out : FVec Ideal S4x180224 .f32) (l0 l1 l2 l3 : IVec S167772 32) : FVec Ideal S8388608x1 .f32 :=
  Host.scatterAdd scatter_S8388608x1_S671088x1_S671088x1_1_0_0_1
    (broadcastInDim S8388608x1 ![] bcast_S_S8388608x1 (constant S_ .f32 0x00000000#32)) (rowsK l0 l1 l2 l3) (updK out)

theorem rowsK_apply (l0 l1 l2 l3 : IVec S167772 32) (d : Fin 4) (s : Fin 167772) :
    rowsK l0 l1 l2 l3 (ix2 (q4 d s) (0 : Fin 1)) = rowK (pick4 l0 l1 l2 l3 d (ix1 s)) := by
  have hc : catIdx l0 l1 l2 l3 (ix1 (q4 d s)) = IntOp.maxsi 0#32 (pick4 l0 l1 l2 l3 d (ix1 s)) := by
    unfold catIdx
    rw [cat4_apply]
    match d with
    | ⟨0, _⟩ => rfl
    | ⟨1, _⟩ => rfl
    | ⟨2, _⟩ => rfl
    | ⟨3, _⟩ => rfl
  unfold rowsK
  rw [LibVecLayout.broadcastInDim_vec_col_apply]
  show Scalar.select (IntOp.cmpi .slt (catIdx l0 l1 l2 l3 (ix1 (q4 d s))) 0#32)
      (IntOp.addi (catIdx l0 l1 l2 l3 (ix1 (q4 d s))) 8388608#32) (catIdx l0 l1 l2 l3 (ix1 (q4 d s))) = _
  rw [hc]
  rfl

theorem rowVec_apply (out : FVec Ideal S4x180224 .f32) (k : Fin 4) (h : S4x167772.Slices ![k.val, 0] S1x167772) (s : Fin 167772) :
    rowVec out k.val h (ix1 s) = out (ix2 k (lane s)) := by
  unfold rowVec
  rw [shapeCast_1a_a_apply, slice2_axis0_apply k.val _ h 0 s k (by simp),
    slice2_axis1_apply 0 out slices_S4x180224_S4x167772_0_0 k s (lane s) (by simp [lane])]

theorem updK_apply (out : FVec Ideal S4x180224 .f32) (d : Fin 4) (s : Fin 167772) :
    updK out (ix2 (q4 d s) (0 : Fin 1)) = out (ix2 d (lane s)) := by
  unfold updK
  rw [LibVecLayout.broadcastInDim_vec_col_apply, cat4_apply]
  match d with
  | ⟨0, _⟩ => exact rowVec_apply out 0 _ s
  | ⟨1, _⟩ => exact rowVec_apply out 1 _ s
  | ⟨2, _⟩ => exact rowVec_apply out 2 _ s
  | ⟨3, _⟩ => exact rowVec_apply out 3 _ s

theorem tailK_apply (out : FVec Ideal S4x180224 .f32) (l0 l1 l2 l3 : IVec S167772 32) (p : Fin 8388608) :
    tailK out l0 l1 l2 l3 (ix2 p (0 : Fin 1))
      = (0 : EReal) + ∑ e ∈ Finset.univ.filter (fun e : Fin 671088 => (rowsK l0 l1 l2 l3 (ix2 e (0 : Fin 1))).toInt = (p.val : Int)),
          updK out (ix2 e (0 : Fin 1)) := by
  have h := Cert.GraphIdx.scatterAdd2_apply (N := 8388608) (E := 671088) (D := 1) scatter_S8388608x1_S671088x1_S671088x1_1_0_0_1_wf
    (broadcastInDim S8388608x1 ![] bcast_S_S8388608x1 (constant (F := Ideal) S_ .f32 0x00000000#32)) (rowsK l0 l1 l2 l3) (updK out) p 0
  have hz : (broadcastInDim S8388608x1 ![] bcast_S_S8388608x1 (constant (F := Ideal) S_ .f32 0x00000000#32)) (ix2 p (0 : Fin 1)) = (0 : EReal) :=
    Ideal.ofBits_zero_f32
  rw [hz] at h
  exact h

/-- The kernel program's result at a row, from the links and the densities: the four successive accumulations. -/
theorem kernel_rows (l0 l1 l2 l3 : IVec S167772 32) (v0 v1 v2 v3 : FVec Ideal S167772x1 .f32) (p : Fin 8388608) :
    tailK (G (stackK v0 v1 v2 v3) (maskStack l0 l1 l2 l3)) l0 l1 l2 l3 (ix2 p (0 : Fin 1))
      = ((((0 : EReal)
          + ∑ s ∈ Finset.univ.filter (fun s : Fin 167772 => (rowR (l0 (ix1 s))).toInt = (p.val : Int)),
              contrib 0 (v0 (ix2 s (0 : Fin 1))) (v1 (ix2 s (0 : Fin 1))) (v2 (ix2 s (0 : Fin 1))) (v3 (ix2 s (0 : Fin 1))))
          + ∑ s ∈ Finset.univ.filter (fun s : Fin 167772 => (rowR (l1 (ix1 s))).toInt = (p.val : Int)),
              contrib 1 (v0 (ix2 s (0 : Fin 1))) (v1 (ix2 s (0 : Fin 1))) (v2 (ix2 s (0 : Fin 1))) (v3 (ix2 s (0 : Fin 1))))
          + ∑ s ∈ Finset.univ.filter (fun s : Fin 167772 => (rowR (l2 (ix1 s))).toInt = (p.val : Int)),
              contrib 2 (v0 (ix2 s (0 : Fin 1))) (v1 (ix2 s (0 : Fin 1))) (v2 (ix2 s (0 : Fin 1))) (v3 (ix2 s (0 : Fin 1))))
          + ∑ s ∈ Finset.univ.filter (fun s : Fin 167772 => (rowR (l3 (ix1 s))).toInt = (p.val : Int)),
              contrib 3 (v0 (ix2 s (0 : Fin 1))) (v1 (ix2 s (0 : Fin 1))) (v2 (ix2 s (0 : Fin 1))) (v3 (ix2 s (0 : Fin 1))) := by
  rw [tailK_apply]
  exact accumulate_eq (fun d s => pick4 l0 l1 l2 l3 d (ix1 s))
    (fun d s => contrib d (v0 (ix2 s (0 : Fin 1))) (v1 (ix2 s (0 : Fin 1))) (v2 (ix2 s (0 : Fin 1))) (v3 (ix2 s (0 : Fin 1))))
    p.val p.isLt (fun e => rowsK l0 l1 l2 l3 (ix2 e (0 : Fin 1))) (fun e => updK (G (stackK v0 v1 v2 v3) (maskStack l0 l1 l2 l3)) (ix2 e (0 : Fin 1)))
    (fun d s => rowsK_apply l0 l1 l2 l3 d s)
    (fun d s => by
      rw [updK_apply]
      show contrib d (stackK v0 v1 v2 v3 (ix2 (0 : Fin 4) (lane s))) (stackK v0 v1 v2 v3 (ix2 (1 : Fin 4) (lane s)))
          (stackK v0 v1 v2 v3 (ix2 (2 : Fin 4) (lane s))) (stackK v0 v1 v2 v3 (ix2 (3 : Fin 4) (lane s)))
          * maskStack l0 l1 l2 l3 (ix2 d (lane s)) = _
      rw [stackK_apply, stackK_apply, stackK_apply, stackK_apply, maskStack_apply]
      rfl)

end Cert.KernelIdeal.Bridge

end
-- ==== Proof.KHost.lean ====
/-
  The kernel program's host operations around the launch, read as functions.

  The operations before the launch are cut at the operation that writes the last of the four gathered density columns:
  what comes before is the part the two programs share; what comes after lays the columns and the link indicators as
  the launch's two input arrays. The operations after the launch are the one accumulation of the launch's output.
-/
import proofs.«140712_j5016521802106_2_alg».proof.Proof.FrameKernelIdeal
import proofs.«140712_j5016521802106_2_alg».proof.Proof.KTail
import proofs.«140712_j5016521802106_2_alg».proof.Proof.LibSeqChain

noncomputable section

namespace Cert.KernelIdeal.Bridge

open Idealize.ShloMosaic Idealize.ShloMosaic.ValueIdx Idealize.ShloMosaic.TcCoe Idealize.SL.Sem
open Cert.KernelIdeal Cert.KernelIdeal.Gen Cert.KernelIdeal.GenP Cert.TvGrad

/-- The operations up to the one writing the fourth density column. -/
abbrev preK : List (HloOp τ sig (Elt Ideal)) := List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]

/-- The operations from there to the launch. -/
abbrev midK : List (HloOp τ sig (Elt Ideal)) := List.flatten [hostOps0_51, hostOps0_52, hostOps0_53, hostOps0_54]

/-- The operations after the launch. -/
abbrev postK : List (HloOp τ sig (Elt Ideal)) := List.flatten [hostOps1, hostOps1_1, hostOps1_2, hostOps1_3, hostOps1_4, hostOps1_5, hostOps1_6, hostOps1_7, hostOps1_8]

/-- The contents the launch finds: the shared part's, then the laying out. -/
theorem V0_split (m : (ℓ : Loc nD τ sig) → Buf (Elt Ideal) ℓ) (c : Dev nD) :
    GenP.V0 (F := Ideal) m c = StableHlo.after midK (StableHlo.after preK (fun b => m (c, b))) := by
  show StableHlo.after (List.flatten ([hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50] ++ [hostOps0_51, hostOps0_52, hostOps0_53, hostOps0_54])) _ = _
  rw [List.flatten_append, StableHlo.after_append]

/-- The launch's first input array: the four density columns stacked and padded. -/
theorem mid_v189 (W : Valuation τ sig (Elt Ideal)) :
    StableHlo.after midK W (Proc.devRef .tc main_v189)
      = stackK (W (Proc.devRef .tc main_v125)) (W (Proc.devRef .tc main_v139)) (W (Proc.devRef .tc main_v153)) (W (Proc.devRef .tc main_v167)) := by
  simp only [midK, hostOps0_51, hostOps0_52, hostOps0_53, hostOps0_54, List.flatten_cons, List.flatten_nil, List.append_nil, List.cons_append, List.nil_append]
  after_results_simp
  rfl

/-- The launch's second input array: the four link indicators stacked and padded. -/
theorem mid_v195 (W : Valuation τ sig (Elt Ideal)) :
    StableHlo.after midK W (Proc.devRef .tc main_v195)
      = maskStack (W (Proc.devRef .tc main_v35)) (W (Proc.devRef .tc main_v61)) (W (Proc.devRef .tc main_v87)) (W (Proc.devRef .tc main_v113)) := by
  simp only [midK, hostOps0_51, hostOps0_52, hostOps0_53, hostOps0_54, List.flatten_cons, List.flatten_nil, List.append_nil, List.cons_append, List.nil_append]
  after_results_simp
  rfl

/-- The laying out leaves the link arrays as they were. -/
theorem mid_links (W : Valuation τ sig (Elt Ideal)) :
    StableHlo.after midK W (Proc.devRef .tc main_v35) = W (Proc.devRef .tc main_v35)
    ∧ StableHlo.after midK W (Proc.devRef .tc main_v61) = W (Proc.devRef .tc main_v61)
    ∧ StableHlo.after midK W (Proc.devRef .tc main_v87) = W (Proc.devRef .tc main_v87)
    ∧ StableHlo.after midK W (Proc.devRef .tc main_v113) = W (Proc.devRef .tc main_v113) := by
  simp only [midK, hostOps0_51, hostOps0_52, hostOps0_53, hostOps0_54, List.flatten_cons, List.flatten_nil, List.append_nil, List.cons_append, List.nil_append]
  refine ⟨?_, ?_, ?_, ?_⟩ <;> after_results_simp

/-- The operations after the launch: the one accumulation of the launch's output by the clamped links. -/
theorem post_v220 (W : Valuation τ sig (Elt Ideal)) :
    StableHlo.after postK W (Proc.devRef .tc main_v220)
      = tailK (W (Proc.devRef .tc main_v196)) (W (Proc.devRef .tc main_v35)) (W (Proc.devRef .tc main_v61))
          (W (Proc.devRef .tc main_v87)) (W (Proc.devRef .tc main_v113)) := by
  simp only [postK, hostOps1, hostOps1_1, hostOps1_2, hostOps1_3, hostOps1_4, hostOps1_5, hostOps1_6, hostOps1_7, hostOps1_8, List.flatten_cons, List.flatten_nil, List.append_nil, List.cons_append, List.nil_append]
  after_results_simp
  rfl

end Cert.KernelIdeal.Bridge

end
-- ==== Proof.RefTail.lean ====
/-
  The reference's last stretch as one function of the four link arrays and the four gathered density columns, and
  what it holds at a row: four accumulations one after the other into an array of 8388609 rows, a negative link sent
  to the last row, and the last row cut off. At row `p` of the result: zero, plus — for each of the four directions in
  turn — the sum of that direction's contributions over the cells whose link is `p`.
-/
import proofs.«140712_j5016521802106_2_alg».proof.Proof.Gen.ReferenceIdeal
import proofs.«140712_j5016521802106_2_alg».proof.Proof.Contrib
import proofs.«140712_j5016521802106_2_alg».proof.Proof.LinkAlgebra
import proofs.«140712_j5016521802106_2_alg».proof.Proof.LibGraphIdx
import proofs.«140712_j5016521802106_2_alg».proof.Proof.LibVecLayout
import Idealize.ShloMosaic.Lib.ValueIdx
import Idealize.ShloMosaic.Lib.ValueLayout
import Idealize.ShloMosaic.PureOps.Ideal.Laws

noncomputable section

open scoped BigOperators

namespace Cert.ReferenceIdeal.Bridge

open Idealize.ShloMosaic Idealize.ShloMosaic.ValueIdx Cert.ReferenceIdeal Cert.ReferenceIdeal.Gen Cert.TvGrad

/-- A scaled finite difference of two density columns. -/
def dxR (vb va : FVec Ideal S167772x1 .f32) : FVec Ideal S167772x1 .f32 :=
  mulf (subf vb va) (broadcastInDim S167772x1 ![] bcast_S_S167772x1 (constant S_ .f32 0x43000000#32))

/-- The common factor, column-wise. -/
def idR (v0 v1 v2 v3 : FVec Ideal S167772x1 .f32) : FVec Ideal S167772x1 .f32 :=
  mulf (broadcastInDim S167772x1 ![] bcast_S_S167772x1 (constant S_ .f32 0x3727C5AC#32))
    (Host.rsqrt (addf (addf (addf (broadcastInDim S167772x1 ![] bcast_S_S167772x1 (constant S_ .f32 0x3089705F#32))
      (mulf (dxR v1 v0) (dxR v1 v0))) (mulf (dxR v2 v0) (dxR v2 v0))) (mulf (dxR v3 v0) (dxR v3 v0))))

/-- The rows a link array scatters to: a negative link to row 8388608, a negative row wrapped by the 8388609 rows. -/
def rowsR (l : IVec S167772 32) : IVec S167772x1 32 :=
  broadcastInDim S167772x1 ![0] bcast_S167772_S167772x1_0
    (select
      (cmpi .slt
        (select (cmpi .sge l (broadcastInDim S167772 ![] bcast_S_S167772 (constantI S_ 32 0#32))) l
          (broadcastInDim S167772 ![] bcast_S_S167772 (constantI S_ 32 8388608#32)))
        (broadcastInDim S167772 ![] bcast_S_S167772 (constantI S_ 32 0#32)))
      (addi
        (select (cmpi .sge l (broadcastInDim S167772 ![] bcast_S_S167772 (constantI S_ 32 0#32))) l
          (broadcastInDim S167772 ![] bcast_S_S167772 (constantI S_ 32 8388608#32)))
        (broadcastInDim S167772 ![] bcast_S_S167772 (constantI S_ 32 8388609#32)))
      (select (cmpi .sge l (broadcastInDim S167772 ![] bcast_S_S167772 (constantI S_ 32 0#32))) l
        (broadcastInDim S167772 ![] bcast_S_S167772 (constantI S_ 32 8388608#32))))

/-- One accumulation. -/
def scat (x : FVec Ideal S8388609x1 .f32) (l : IVec S167772 32) (u : FVec Ideal S167772x1 .f32) : FVec Ideal S8388609x1 .f32 :=
  Host.scatterAdd scatter_S8388609x1_S167772x1_S167772x1_1_0_0_1 x (rowsR l) u

/-- The reference's last stretch. -/
def tailR (l0 l1 l2 l3 : IVec S167772 32) (v0 v1 v2 v3 : FVec Ideal S167772x1 .f32) : FVec Ideal S8388608x1 .f32 :=
  extractStridedSlice S8388608x1 ![0, 0]
    (scat (scat (scat (scat (broadcastInDim S8388609x1 ![] bcast_S_S8388609x1 (constant S_ .f32 0x00000000#32)) l0
      (mulf (Host.negf (addf (addf (dxR v1 v0) (dxR v2 v0)) (dxR v3 v0))) (idR v0 v1 v2 v3)))
      l1 (mulf (dxR v1 v0) (idR v0 v1 v2 v3))) l2 (mulf (dxR v2 v0) (idR v0 v1 v2 v3))) l3 (mulf (dxR v3 v0) (idR v0 v1 v2 v3)))
    slices_S8388609x1_S8388608x1_0_0

theorem rowsR_apply (l : IVec S167772 32) (s : Fin 167772) : rowsR l (ix2 s (0 : Fin 1)) = rowR (l (ix1 s)) := by
  unfold rowsR
  rw [LibVecLayout.broadcastInDim_vec_col_apply]
  rfl

theorem scat_apply (x : FVec Ideal S8388609x1 .f32) (l : IVec S167772 32) (u : FVec Ideal S167772x1 .f32) (p : Fin 8388609) :
    scat x l u (ix2 p (0 : Fin 1))
      = x (ix2 p (0 : Fin 1)) + ∑ s ∈ Finset.univ.filter (fun s : Fin 167772 => (rowR (l (ix1 s))).toInt = (p.val : Int)), u (ix2 s (0 : Fin 1)) := by
  have h := Cert.GraphIdx.scatterAdd2_apply (N := 8388609) (E := 167772) (D := 1) scatter_S8388609x1_S167772x1_S167772x1_1_0_0_1_wf x (rowsR l) u p 0
  simp only [rowsR_apply] at h
  exact h

theorem tailR_apply (l0 l1 l2 l3 : IVec S167772 32) (v0 v1 v2 v3 : FVec Ideal S167772x1 .f32) (p : Fin 8388608) :
    tailR l0 l1 l2 l3 v0 v1 v2 v3 (ix2 p (0 : Fin 1))
      = ((((0 : EReal)
          + ∑ s ∈ Finset.univ.filter (fun s : Fin 167772 => (rowR (l0 (ix1 s))).toInt = (p.val : Int)),
              contrib 0 (v0 (ix2 s (0 : Fin 1))) (v1 (ix2 s (0 : Fin 1))) (v2 (ix2 s (0 : Fin 1))) (v3 (ix2 s (0 : Fin 1))))
          + ∑ s ∈ Finset.univ.filter (fun s : Fin 167772 => (rowR (l1 (ix1 s))).toInt = (p.val : Int)),
              contrib 1 (v0 (ix2 s (0 : Fin 1))) (v1 (ix2 s (0 : Fin 1))) (v2 (ix2 s (0 : Fin 1))) (v3 (ix2 s (0 : Fin 1))))
          + ∑ s ∈ Finset.univ.filter (fun s : Fin 167772 => (rowR (l2 (ix1 s))).toInt = (p.val : Int)),
              contrib 2 (v0 (ix2 s (0 : Fin 1))) (v1 (ix2 s (0 : Fin 1))) (v2 (ix2 s (0 : Fin 1))) (v3 (ix2 s (0 : Fin 1))))
          + ∑ s ∈ Finset.univ.filter (fun s : Fin 167772 => (rowR (l3 (ix1 s))).toInt = (p.val : Int)),
              contrib 3 (v0 (ix2 s (0 : Fin 1))) (v1 (ix2 s (0 : Fin 1))) (v2 (ix2 s (0 : Fin 1))) (v3 (ix2 s (0 : Fin 1))) := by
  unfold tailR
  rw [slice2_axis0_apply 0 _ slices_S8388609x1_S8388608x1_0_0 p 0 ⟨p.val, by have := p.isLt; omega⟩ (by simp)]
  rw [scat_apply, scat_apply, scat_apply, scat_apply]
  have hz : (broadcastInDim S8388609x1 ![] bcast_S_S8388609x1 (constant (F := Ideal) S_ .f32 0x00000000#32))
      (ix2 (⟨p.val, by have := p.isLt; omega⟩ : Fin 8388609) (0 : Fin 1)) = (0 : EReal) := Ideal.ofBits_zero_f32
  rw [hz]
  rfl

end Cert.ReferenceIdeal.Bridge

end
-- ==== Proof.RHost.lean ====
/-
  The reference's operations after the shared part, read as the function of the link arrays and density columns.
-/
import proofs.«140712_j5016521802106_2_alg».proof.Proof.RefRun
import proofs.«140712_j5016521802106_2_alg».proof.Proof.RefTail

noncomputable section

namespace Cert.ReferenceIdeal.Bridge

open Idealize.ShloMosaic Idealize.ShloMosaic.ValueIdx Idealize.ShloMosaic.TcCoe Idealize.SL.Sem
open Cert.ReferenceIdeal Cert.ReferenceIdeal.Gen Cert.ReferenceIdeal.RefRun Cert.TvGrad

set_option maxHeartbeats 8000000 in
/-- After the shared part the reference computes the four contributions column-wise and accumulates them one direction
    after the other. -/
theorem post_v235 (W : Valuation τ sig (Elt Ideal)) :
    StableHlo.after (opsPost (F := Ideal)) W (Proc.devRef .tc main_v235)
      = tailR (W (Proc.devRef .tc main_v35)) (W (Proc.devRef .tc main_v61)) (W (Proc.devRef .tc main_v87)) (W (Proc.devRef .tc main_v113))
          (W (Proc.devRef .tc main_v125)) (W (Proc.devRef .tc main_v139)) (W (Proc.devRef .tc main_v153)) (W (Proc.devRef .tc main_v167)) := by
  simp only [opsPost, main_part4_ops3, main_part4_ops4, main_part4_ops5, main_part4_ops6, main_part4_ops7, main_part5_ops0, main_part5_ops1, main_part5_ops2, main_part5_ops3, main_part5_ops4, List.flatten_cons, List.flatten_nil, List.append_nil, List.cons_append, List.nil_append]
  after_results_simp
  rfl

end Cert.ReferenceIdeal.Bridge

end
-- ==== Proof.Value.lean ====
/-
  The two programs' results are one array.

  At the ideal instance the kernel program ends with its result at the one accumulation of the launch's output, and the
  reference with its result at four successive accumulations; both are functions of the four link arrays and the four
  gathered density columns, which the two programs compute by the same operations from arguments that agree. Row by row
  the two functions are equal: a link `≥ 0` is its own row on both sides and carries the factor `1`; a negative link adds
  `0` to row `0` on one side and lands on the cut-off row on the other.
-/
import proofs.«140712_j5016521802106_2_alg».proof.Proof.KHost
import proofs.«140712_j5016521802106_2_alg».proof.Proof.RHost

noncomputable section

namespace Cert.Bridge

open Idealize.ShloMosaic Idealize.ShloMosaic.ValueIdx Idealize.ShloMosaic.TcCoe Idealize.SL.Sem Cert.TvGrad

/-- The two last stretches agree as whole arrays. -/
theorem tails_eq (l0 l1 l2 l3 : IVec Cert.KernelIdeal.S167772 32) (v0 v1 v2 v3 : FVec Ideal Cert.KernelIdeal.S167772x1 .f32) :
    Cert.KernelIdeal.Bridge.tailK
        (Cert.KernelIdeal.Bridge.G (Cert.KernelIdeal.Bridge.stackK v0 v1 v2 v3) (Cert.KernelIdeal.Bridge.maskStack l0 l1 l2 l3)) l0 l1 l2 l3
      = Cert.ReferenceIdeal.Bridge.tailR l0 l1 l2 l3 v0 v1 v2 v3 := by
  funext i
  obtain ⟨p, u, rfl⟩ : ∃ (p : Fin 8388608) (u : Fin 1), i = ix2 p u := ⟨i 0, i 1, eq_ix2 i⟩
  obtain rfl : u = 0 := Subsingleton.elim _ _
  exact (Cert.KernelIdeal.Bridge.kernel_rows l0 l1 l2 l3 v0 v1 v2 v3 p).trans
    (Cert.ReferenceIdeal.Bridge.tailR_apply l0 l1 l2 l3 v0 v1 v2 v3 p).symm

namespace K
open Cert.KernelIdeal Cert.KernelIdeal.Gen Cert.KernelIdeal.GenP Cert.KernelIdeal.Bridge

/-- The kernel program's result buffer after the run, from the contents `W` the shared part leaves. -/
theorem result_eq (m : (ℓ : Loc nD τ sig) → Buf (Elt Ideal) ℓ) (c : Dev nD)
    (hfin : (GenP.dats (F := Ideal) m 0 c).arrAt 2 cfg0.N = G (GenP.V m c main_v189) (GenP.V m c main_v195)) :
    Pipeline.afterTail₀ cfgs (GenP.dats (F := Ideal) m) 0 (GenP.V0 m)
        [hostOps1, hostOps1_1, hostOps1_2, hostOps1_3, hostOps1_4, hostOps1_5, hostOps1_6, hostOps1_7, hostOps1_8] c main_v220
      = tailK
          (G (stackK (StableHlo.after preK (fun b => m (c, b)) (Proc.devRef .tc main_v125))
                (StableHlo.after preK (fun b => m (c, b)) (Proc.devRef .tc main_v139))
                (StableHlo.after preK (fun b => m (c, b)) (Proc.devRef .tc main_v153))
                (StableHlo.after preK (fun b => m (c, b)) (Proc.devRef .tc main_v167)))
             (maskStack (StableHlo.after preK (fun b => m (c, b)) (Proc.devRef .tc main_v35))
                (StableHlo.after preK (fun b => m (c, b)) (Proc.devRef .tc main_v61))
                (StableHlo.after preK (fun b => m (c, b)) (Proc.devRef .tc main_v87))
                (StableHlo.after preK (fun b => m (c, b)) (Proc.devRef .tc main_v113))))
          (StableHlo.after preK (fun b => m (c, b)) (Proc.devRef .tc main_v35))
          (StableHlo.after preK (fun b => m (c, b)) (Proc.devRef .tc main_v61))
          (StableHlo.after preK (fun b => m (c, b)) (Proc.devRef .tc main_v87))
          (StableHlo.after preK (fun b => m (c, b)) (Proc.devRef .tc main_v113)) := by
  have h196 : Pipeline.withArrays spec0 c (GenP.V0 m c) (fun w => (GenP.dats (F := Ideal) m 0 c).arrAt w cfg0.N) (Proc.devRef .tc main_v196)
      = (GenP.dats (F := Ideal) m 0 c).arrAt 2 cfg0.N := Pipeline.withArrays_arr spec0 launch0.win.arr_inj c _ _ 2
  have hne : ∀ (b : Ref sig .tc), (∀ w, Pipeline.arrRef spec0 w ≠ b) →
      Pipeline.withArrays spec0 c (GenP.V0 m c) (fun w => (GenP.dats (F := Ideal) m 0 c).arrAt w cfg0.N) (Proc.devRef .tc b)
        = GenP.V0 m c (Proc.devRef .tc b) := fun b hb => Pipeline.withArrays_of_ne _ c _ _ b hb
  have hl := mid_links (StableHlo.after preK (fun b => m (c, b)))
  unfold Pipeline.afterTail₀
  show StableHlo.after postK _ (Proc.devRef .tc main_v220) = _
  rw [post_v220, h196, hfin, hne main_v35 (by decide), hne main_v61 (by decide), hne main_v87 (by decide), hne main_v113 (by decide)]
  show tailK (G (GenP.V0 m c (Proc.devRef .tc main_v189)) (GenP.V0 m c (Proc.devRef .tc main_v195))) _ _ _ _ = _
  rw [V0_split, mid_v189, mid_v195, hl.1, hl.2.1, hl.2.2.1, hl.2.2.2]

end K

end Cert.Bridge

end
-- ==== Proof.KPayload.lean ====
/-
  What the kernel body stores, entry by entry: row `r`, lane `q` of the stored block is the contribution `r` of the four
  densities found in lane `q` of the first input block, times the entry `(r, q)` of the second input block (the mask).
-/
import proofs.«140712_j5016521802106_2_alg».proof.Proof.Gen.KernelIdeal.Skeleton
import proofs.«140712_j5016521802106_2_alg».proof.Proof.Contrib
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Cert.KernelIdeal Cert.KernelIdeal.Gen Cert.TvGrad

/-- Row `k` of the loaded block, as the one-row slice the body cuts, read at lane `q`. -/
theorem row_read (x0 : Vec Ideal S4x16384 .f32) (k : Fin 4) (q : Fin 16384) (h : S4x16384.Slices ![k.val, 0] S1x16384) :
    extractStridedSlice S1x16384 ![k.val, 0] x0 h (ix2 (0 : Fin 1) q) = x0 (ix2 k q) :=
  slice2_axis0_apply k.val x0 h 0 q k (by simp)

theorem pay_apply (x0 x1 : Vec Ideal S4x16384 .f32) (r : Fin 4) (q : Fin 16384) :
    k0_pay1 (F := Ideal) x0 x1 (ix2 r q)
      = contrib r (x0 (ix2 (0 : Fin 4) q)) (x0 (ix2 (1 : Fin 4) q)) (x0 (ix2 (2 : Fin 4) q)) (x0 (ix2 (3 : Fin 4) q))
          * x1 (ix2 r q) := by
  have e0 := row_read x0 0 q slices_S4x16384_o0_0_S1x16384
  have e1 := row_read x0 1 q slices_S4x16384_o1_0_S1x16384
  have e2 := row_read x0 2 q slices_S4x16384_o2_0_S1x16384
  have e3 := row_read x0 3 q slices_S4x16384_o3_0_S1x16384
  unfold k0_pay1
  show (concatenate S4x16384 0 [⟨S1x16384, _⟩, ⟨S1x16384, _⟩, ⟨S1x16384, _⟩, ⟨S1x16384, _⟩] _ (ix2 r q))
      * (shapeCast S4x16384 x1 _ (ix2 r q)) = _
  rw [LibRowStack.stack4_apply]
  simp only [shapeCast_self]
  rw [← e0, ← e1, ← e2, ← e3]
  match r with
  | ⟨0, _⟩ =>
    show ((Ideal.ofBits .f32 0x00000000#32 - _) * _) * _ = (-_ * _) * _
    rw [Ideal.ofBits_zero_f32, zero_sub]
    rfl
  | ⟨1, _⟩ => rfl
  | ⟨2, _⟩ => rfl
  | ⟨3, _⟩ => rfl

end Cert.KernelIdeal.Bridge

end
-- ==== Proof.KArray.lean ====
/- The launch's output array as one function of its two input arrays.

   The grid has 11 points; at point `t` each of the three windows is the block of all 4 rows and the 16384 lanes
   `16384·t … 16384·t + 16383` of its array. The body stores, at row `r` and lane `q` of the block, the contribution
   `r` of the four densities found in lane `q` of the first input block times the entry `(r, q)` of the second. Lane `q`
   of a block is lane `16384·t + q` of the array on every window, so what point `t` writes back is the block at `t` of
   ONE function `G` of the two input arrays; the 11 blocks cover the 180224 lanes, so the output array ends at `G`. -/
import proofs.«140712_j5016521802106_2_alg».proof.Proof.FrameKernelIdeal
import proofs.«140712_j5016521802106_2_alg».proof.Proof.KPayload
import proofs.«140712_j5016521802106_2_alg».proof.Proof.KTail
import Idealize.ShloMosaic.Lib.Pipeline.Value
import Idealize.ShloMosaic.Lib.ValueIdx

noncomputable section

namespace Cert.KernelIdeal.Bridge

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.GenP Cert.TvGrad

/-! ## Where a block sits in its array -/

/-- The whole-buffer rectangle's offsets are zero. -/
theorem zero_offsets : (![0, 0] : Fin 2 → Nat) = fun _ => 0 := funext fun a => by fin_cases a <;> rfl

/-- The three index maps over the 11 grid points: block index 0 along the rows, the point's number along the lanes. -/
theorem index_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Lane `q` of the block at point `t` is a lane of the array. -/
theorem lane_lt (t : Fin cfg0.N) (q : Fin 16384) : t.val * 16384 + q.val < 180224 := by
  have ht : t.val < 11 := lt_of_lt_of_eq t.isLt N_0
  have hq := q.isLt
  omega

/-- The array index of row `k`, lane `q` of the block at point `t`. -/
abbrev blockIdx (t : Fin cfg0.N) (k : Fin 4) (q : Fin 16384) : S4x180224.Idx :=
  ix2 k (⟨t.val * 16384 + q.val, lane_lt t q⟩ : Fin 180224)

/-- An element of window 0's block sits in the array at block index × block size + its own coordinate, axis by axis. -/
theorem emb_w0 (t : Fin cfg0.N) (k : Fin 4) (q : Fin 16384) :
    ((cfg0.win 0).blk t).view.emb (ix2 k q) = blockIdx t k q := by
  obtain ⟨e0, e1, -⟩ := index_facts t
  funext a; apply Fin.ext
  match a with
  | ⟨0, _⟩ => show win0_0.index t (0 : Fin 2) * 4 + 1 * k.val = k.val; rw [e0]; omega
  | ⟨1, _⟩ => show win0_0.index t (1 : Fin 2) * 16384 + 1 * q.val = t.val * 16384 + q.val; rw [e1]; omega
theorem emb_w1 (t : Fin cfg0.N) (k : Fin 4) (q : Fin 16384) :
    ((cfg0.win 1).blk t).view.emb (ix2 k q) = blockIdx t k q := by
  obtain ⟨-, -, e0, e1, -⟩ := index_facts t
  funext a; apply Fin.ext
  match a with
  | ⟨0, _⟩ => show win0_1.index t (0 : Fin 2) * 4 + 1 * k.val = k.val; rw [e0]; omega
  | ⟨1, _⟩ => show win0_1.index t (1 : Fin 2) * 16384 + 1 * q.val = t.val * 16384 + q.val; rw [e1]; omega
theorem emb_w2 (t : Fin cfg0.N) (k : Fin 4) (q : Fin 16384) :
    ((cfg0.win 2).blk t).view.emb (ix2 k q) = blockIdx t k q := by
  obtain ⟨-, -, -, -, e0, e1⟩ := index_facts t
  funext a; apply Fin.ext
  match a with
  | ⟨0, _⟩ => show win0_2.index t (0 : Fin 2) * 4 + 1 * k.val = k.val; rw [e0]; omega
  | ⟨1, _⟩ => show win0_2.index t (1 : Fin 2) * 16384 + 1 * q.val = t.val * 16384 + q.val; rw [e1]; omega

/-- So a block of ANY array read at row `k`, lane `q` is the array at `blockIdx t k q`, window by window. -/
theorem read_w0 (t : Fin cfg0.N) (A : FVec Ideal S4x180224 .f32) (k : Fin 4) (q : Fin 16384) :
    (((cfg0.win 0).blk t).view.read (Elt Ideal) A : Vec Ideal S4x16384 .f32) (ix2 k q) = A (blockIdx t k q) := by
  show A (((cfg0.win 0).blk t).view.emb (ix2 k q)) = A (blockIdx t k q)
  exact congrArg A (emb_w0 t k q)
theorem read_w1 (t : Fin cfg0.N) (A : FVec Ideal S4x180224 .f32) (k : Fin 4) (q : Fin 16384) :
    (((cfg0.win 1).blk t).view.read (Elt Ideal) A : Vec Ideal S4x16384 .f32) (ix2 k q) = A (blockIdx t k q) := by
  show A (((cfg0.win 1).blk t).view.emb (ix2 k q)) = A (blockIdx t k q)
  exact congrArg A (emb_w1 t k q)
theorem read_w2 (t : Fin cfg0.N) (A : FVec Ideal S4x180224 .f32) (k : Fin 4) (q : Fin 16384) :
    (((cfg0.win 2).blk t).view.read (Elt Ideal) A : Vec Ideal S4x16384 .f32) (ix2 k q) = A (blockIdx t k q) := by
  show A (((cfg0.win 2).blk t).view.emb (ix2 k q)) = A (blockIdx t k q)
  exact congrArg A (emb_w2 t k q)

/-! ## One point's stored block is a block of `G` -/

/-- `G` at row `r`, lane `ℓ`. -/
theorem G_apply (A0 A1 : FVec Ideal S4x180224 .f32) (r : Fin 4) (ℓ : Fin 180224) :
    G A0 A1 (ix2 r ℓ) = contrib r (A0 (ix2 (0 : Fin 4) ℓ)) (A0 (ix2 (1 : Fin 4) ℓ)) (A0 (ix2 (2 : Fin 4) ℓ)) (A0 (ix2 (3 : Fin 4) ℓ))
      * A1 (ix2 r ℓ) := rfl

/-- What the body stores at row `r`, lane `q`, from input blocks that are the blocks at `t` of two arrays, is `G` of
    the arrays at that row and lane `16384·t + q`. -/
theorem stored_eq (A0 A1 : FVec Ideal S4x180224 .f32) (x0 x1 : Vec Ideal S4x16384 .f32) (t : Fin cfg0.N)
    (h0 : ∀ (k : Fin 4) (q : Fin 16384), x0 (ix2 k q) = A0 (blockIdx t k q))
    (h1 : ∀ (k : Fin 4) (q : Fin 16384), x1 (ix2 k q) = A1 (blockIdx t k q))
    (r : Fin 4) (q : Fin 16384) :
    k0_pay1 (F := Ideal) x0 x1 (ix2 r q) = G A0 A1 (blockIdx t r q) := by
  refine (pay_apply x0 x1 r q).trans ?_
  rw [h0, h0, h0, h0, h1]
  exact (G_apply A0 A1 r _).symm

/-- What point `t` writes back to the output array is the block at `t` of `G` of the two input arrays as the region
    finds them. -/
theorem flushed_eq (m : (ℓ : Loc nD τ sig) → Buf (Elt Ideal) ℓ) (c : Dev nD) (t : Fin cfg0.N) :
    (GenP.dats (F := Ideal) m 0 c).flushed 2 t
      = ((cfg0.win 2).blk t).view.read (Elt Ideal) (G (GenP.V m c main_v189) (GenP.V m c main_v195)) := by
  show (cfg0.win 2).cut (grid0.coords t) ((GenP.dats m 0 c).after 2 t) = _
  rw [after0_2]
  unfold out0_2
  rw [View.canon_unit_zero zero_offsets]
  simp only [View.ld_unit_zero (S := S4x16384) zero_offsets]
  funext j
  obtain ⟨r, q, rfl⟩ : ∃ (r : Fin 4) (q : Fin 16384), j = ix2 r q := ⟨j 0, j 1, eq_ix2 j⟩
  show k0_pay1 (F := Ideal) (iblk m c 0 t) (iblk m c 1 t) (ix2 r q)
    = (((cfg0.win 2).blk t).view.read (Elt Ideal) (G (GenP.V m c main_v189) (GenP.V m c main_v195)) : Vec Ideal S4x16384 .f32) (ix2 r q)
  rw [read_w2 t (G (GenP.V m c main_v189) (GenP.V m c main_v195)) r q]
  exact stored_eq (GenP.V m c main_v189) (GenP.V m c main_v195) (iblk m c 0 t) (iblk m c 1 t) t
    (fun k q => read_w0 t (GenP.V m c main_v189) k q) (fun k q => read_w1 t (GenP.V m c main_v195) k q) r q

/-! ## The blocks cover the array -/

/-- An index of the output array is in point `t`'s block iff each coordinate is in the block's range on its axis. -/
theorem mem_blk2 (t : Fin cfg0.N) (i : S4x180224.Idx) :
    i ∈ ((cfg0.win 2).blk t).view.set ↔ ∀ a : Fin 2, win0_2.index t a * S4x16384.size a ≤ (i a).val
      ∧ (i a).val < win0_2.index t a * S4x16384.size a + S4x16384.size a := by
  show i ∈ ((View.whole main_v196).slice (win0_2.rect t)).set ↔ _
  rw [View.set_slice_whole, Rect.mem_set_unit]
  exact Iff.rfl

/-- Every index is in the block of the point its lane falls in: lane `j` is covered by point `j / 16384`, every row by
    every block. -/
theorem covered (i : S4x180224.Idx) :
    ∃ t : Fin cfg0.N, (cfg0.win 2).flush t = true ∧ i ∈ ((cfg0.win 2).blk t).view.set := by
  have h0 : (i 0).val < 4 := (i 0).isLt
  have h1 : (i 1).val < 180224 := (i 1).isLt
  obtain ⟨t, ht⟩ : ∃ t : Fin cfg0.N, t.val = (i 1).val / 16384 :=
    ⟨⟨(i 1).val / 16384, lt_of_lt_of_eq (by omega : (i 1).val / 16384 < 11) N_0.symm⟩, rfl⟩
  obtain ⟨-, -, -, -, e0, e1⟩ := index_facts t
  refine ⟨t, flush0_2 t, ?_⟩
  rw [mem_blk2]
  intro a
  match a with
  | ⟨0, _⟩ =>
    show win0_2.index t (0 : Fin 2) * 4 ≤ (i 0).val ∧ (i 0).val < win0_2.index t (0 : Fin 2) * 4 + 4
    rw [e0]; omega
  | ⟨1, _⟩ =>
    show win0_2.index t (1 : Fin 2) * 16384 ≤ (i 1).val ∧ (i 1).val < win0_2.index t (1 : Fin 2) * 16384 + 16384
    rw [e1, ht]; omega

/-! ## The output array after the run -/

/-- The launch's output array ends holding `G` of its two input arrays as the region finds them. -/
theorem final2 (m : (ℓ : Loc nD τ sig) → Buf (Elt Ideal) ℓ) (c : Dev nD) :
    (GenP.dats (F := Ideal) m 0 c).arrAt 2 cfg0.N = G (GenP.V m c main_v189) (GenP.V m c main_v195) :=
  (GenP.dats (F := Ideal) m 0 c).arrAt_eq_of_cover 2 (G (GenP.V m c main_v189) (GenP.V m c main_v195))
    (fun t _ => flushed_eq m c t) covered

end Cert.KernelIdeal.Bridge

end
-- ==== Proof.LibNary3.lean ====
import Idealize.ShloMosaic.Lib.StableHlo.Run

/-!
# A host operation over three operand buffers

A host operation that reads a FAMILY of operand buffers (a concatenation of several arrays) writes, at its result
buffer, its function applied to the family of the operands' contents.  When the family is a literal list of three
buffers, the contents can be named one by one, each at its own buffer: the family `k ↦ contents of buffer k` is the
three contents consed together.  In that form each operand's contents is read at a literal buffer, so whatever wrote
that buffer can be read in turn; in the family form the buffer `k` of the list is not a literal, and the reading stops
there.  (The library has the four-operand form; this is the three-operand one, stated the same way.)
-/

noncomputable section

namespace Idealize.ShloMosaic.StableHlo

variable {τ : Topo} {sig : RefSig} {Val : EltTy → Type}
variable {x a b y : Ref sig .tc}

/-- The result of an operation over the literal family `![x, a, b]`, with each operand's contents at its own buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass: the result buffer is matched up to unfolding. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads the family only through its three entries: the result is that
    function of the three operands' contents, each an ordinary argument at its own buffer. -/
theorem nary3_result_fn
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary3_result]; rfl

end Idealize.ShloMosaic.StableHlo

end
-- ==== Proof.PrefixEqBase.lean ====
/-
  The kernel program and the reference program begin with the same operations: everything up to and including the
  select that writes `main_v167`. This module names the kernel's side of that shared beginning (`preK`: the kernel
  program's first 51 stretches of host operations, in order) and sets up the reading of the two folds.

  Each program concatenates three index columns into an array of index triples four times. The concatenation is
  named here as a plain function of its three columns (`cat3R`, `cat3K`: the same function over the two programs'
  shape abbreviations and facts), and `nary3_result_fn'` reads an operation over a literal family of three buffers
  as its function of the three operands' contents, each at its own buffer — so that whatever wrote each operand can
  be read in turn.
-/
import Idealize.ShloMosaic.PureOps.Ideal
import proofs.«140712_j5016521802106_2_alg».proof.Proof.LaunchKernelIdealP
import proofs.«140712_j5016521802106_2_alg».proof.Proof.RefRun
import proofs.«140712_j5016521802106_2_alg».proof.Proof.LibNary3

noncomputable section

namespace Cert.Bridge

open Idealize.ShloMosaic Idealize.SL.Sem Idealize.ShloMosaic.StableHlo

/-- An operation over a literal family of three buffers whose function reads the family only through its three
    entries: at its result buffer (matched up to unfolding) it holds that function of the three operands' contents. -/
theorem nary3_result_fn' {τ : Topo} {sig : RefSig} {Val : EltTy → Type} {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (no_index (Proc.devRef .tc y))
      = g (F (Proc.devRef .tc x)) (F (Proc.devRef .tc a)) (F (Proc.devRef .tc b)) :=
  nary3_result_fn g hxs hy F

/-- The concatenation of three index columns into one array of index triples, as a function of the three columns. -/
abbrev cat3R (A B C : (⟨Cert.ReferenceIdeal.S167772x1, .i32⟩ : BufTy).Contents (Elt Ideal)) : (⟨Cert.ReferenceIdeal.S167772x3, .i32⟩ : BufTy).Contents (Elt Ideal) :=
  concatenate Cert.ReferenceIdeal.S167772x3 1 [⟨Cert.ReferenceIdeal.S167772x1, A⟩, ⟨Cert.ReferenceIdeal.S167772x1, B⟩, ⟨Cert.ReferenceIdeal.S167772x1, C⟩] Cert.ReferenceIdeal.Gen.concatenates_S167772x1_S167772x1_S167772x1_S167772x3_d1

/-- The concatenation of three index columns into one array of index triples, as a function of the three columns. -/
abbrev cat3K (A B C : (⟨Cert.KernelIdeal.S167772x1, .i32⟩ : BufTy).Contents (Elt Ideal)) : (⟨Cert.KernelIdeal.S167772x3, .i32⟩ : BufTy).Contents (Elt Ideal) :=
  concatenate Cert.KernelIdeal.S167772x3 1 [⟨Cert.KernelIdeal.S167772x1, A⟩, ⟨Cert.KernelIdeal.S167772x1, B⟩, ⟨Cert.KernelIdeal.S167772x1, C⟩] Cert.KernelIdeal.Gen.concatenates_S167772x1_S167772x1_S167772x1_S167772x3_d1

/-- The kernel program's operations up to and including the select that writes `main_v167`, in order. -/
abbrev preK : List (HloOp Cert.KernelIdeal.τ Cert.KernelIdeal.sig (Elt Ideal)) := List.flatten
  [ Cert.KernelIdeal.GenP.hostOps0,
    Cert.KernelIdeal.GenP.hostOps0_1,
    Cert.KernelIdeal.GenP.hostOps0_2,
    Cert.KernelIdeal.GenP.hostOps0_3,
    Cert.KernelIdeal.GenP.hostOps0_4,
    Cert.KernelIdeal.GenP.hostOps0_5,
    Cert.KernelIdeal.GenP.hostOps0_6,
    Cert.KernelIdeal.GenP.hostOps0_7,
    Cert.KernelIdeal.GenP.hostOps0_8,
    Cert.KernelIdeal.GenP.hostOps0_9,
    Cert.KernelIdeal.GenP.hostOps0_10,
    Cert.KernelIdeal.GenP.hostOps0_11,
    Cert.KernelIdeal.GenP.hostOps0_12,
    Cert.KernelIdeal.GenP.hostOps0_13,
    Cert.KernelIdeal.GenP.hostOps0_14,
    Cert.KernelIdeal.GenP.hostOps0_15,
    Cert.KernelIdeal.GenP.hostOps0_16,
    Cert.KernelIdeal.GenP.hostOps0_17,
    Cert.KernelIdeal.GenP.hostOps0_18,
    Cert.KernelIdeal.GenP.hostOps0_19,
    Cert.KernelIdeal.GenP.hostOps0_20,
    Cert.KernelIdeal.GenP.hostOps0_21,
    Cert.KernelIdeal.GenP.hostOps0_22,
    Cert.KernelIdeal.GenP.hostOps0_23,
    Cert.KernelIdeal.GenP.hostOps0_24,
    Cert.KernelIdeal.GenP.hostOps0_25,
    Cert.KernelIdeal.GenP.hostOps0_26,
    Cert.KernelIdeal.GenP.hostOps0_27,
    Cert.KernelIdeal.GenP.hostOps0_28,
    Cert.KernelIdeal.GenP.hostOps0_29,
    Cert.KernelIdeal.GenP.hostOps0_30,
    Cert.KernelIdeal.GenP.hostOps0_31,
    Cert.KernelIdeal.GenP.hostOps0_32,
    Cert.KernelIdeal.GenP.hostOps0_33,
    Cert.KernelIdeal.GenP.hostOps0_34,
    Cert.KernelIdeal.GenP.hostOps0_35,
    Cert.KernelIdeal.GenP.hostOps0_36,
    Cert.KernelIdeal.GenP.hostOps0_37,
    Cert.KernelIdeal.GenP.hostOps0_38,
    Cert.KernelIdeal.GenP.hostOps0_39,
    Cert.KernelIdeal.GenP.hostOps0_40,
    Cert.KernelIdeal.GenP.hostOps0_41,
    Cert.KernelIdeal.GenP.hostOps0_42,
    Cert.KernelIdeal.GenP.hostOps0_43,
    Cert.KernelIdeal.GenP.hostOps0_44,
    Cert.KernelIdeal.GenP.hostOps0_45,
    Cert.KernelIdeal.GenP.hostOps0_46,
    Cert.KernelIdeal.GenP.hostOps0_47,
    Cert.KernelIdeal.GenP.hostOps0_48,
    Cert.KernelIdeal.GenP.hostOps0_49,
    Cert.KernelIdeal.GenP.hostOps0_50 ]

end Cert.Bridge

end
-- ==== Proof.PrefixEqV35.lean ====
/-
  The shared beginning of the two programs computes the same `main_v35` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v35 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v35)
      = StableHlo.after preK MK (Proc.devRef .tc Cert.KernelIdeal.main_v35) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV61.lean ====
/-
  The shared beginning of the two programs computes the same `main_v61` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v61 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v61)
      = StableHlo.after preK MK (Proc.devRef .tc Cert.KernelIdeal.main_v61) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV87.lean ====
/-
  The shared beginning of the two programs computes the same `main_v87` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v87 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v87)
      = StableHlo.after preK MK (Proc.devRef .tc Cert.KernelIdeal.main_v87) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV113.lean ====
/-
  The shared beginning of the two programs computes the same `main_v113` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v113 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v113)
      = StableHlo.after preK MK (Proc.devRef .tc Cert.KernelIdeal.main_v113) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV125.lean ====
/-
  The shared beginning of the two programs computes the same `main_v125` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v125 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v125)
      = StableHlo.after preK MK (Proc.devRef .tc Cert.KernelIdeal.main_v125) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV139.lean ====
/-
  The shared beginning of the two programs computes the same `main_v139` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v139 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v139)
      = StableHlo.after preK MK (Proc.devRef .tc Cert.KernelIdeal.main_v139) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV153.lean ====
/-
  The shared beginning of the two programs computes the same `main_v153` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v153 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v153)
      = StableHlo.after preK MK (Proc.devRef .tc Cert.KernelIdeal.main_v153) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEqV167.lean ====
/-
  The shared beginning of the two programs computes the same `main_v167` from arguments that agree:
  both folds are read, operation by operation, into the composed term over the arguments' contents; the arguments'
  contents are then identified by the hypotheses, and the two terms are the same text over the two programs' shape
  abbreviations and facts, which are the same literals and proofs.
-/
import proofs.«140712_j5016521802106_2_alg».proof.Proof.PrefixEqBase

set_option maxRecDepth 100000
set_option maxHeartbeats 8000000

noncomputable section

namespace Cert.Bridge

open Idealize.ShloMosaic Idealize.SL.Sem Idealize.ShloMosaic.StableHlo

theorem prefix_v167 (MK : Valuation Cert.KernelIdeal.τ Cert.KernelIdeal.sig (Elt Ideal)) (MR : Valuation Cert.ReferenceIdeal.τ Cert.ReferenceIdeal.sig (Elt Ideal))
    (h0 : MR (Proc.devRef .tc Cert.ReferenceIdeal.main_arg0) = MK (Proc.devRef .tc Cert.KernelIdeal.main_arg0))
    (h1 : MR (Proc.devRef .tc Cert.ReferenceIdeal.main_arg1) = MK (Proc.devRef .tc Cert.KernelIdeal.main_arg1))
    (h2 : MR (Proc.devRef .tc Cert.ReferenceIdeal.main_arg2) = MK (Proc.devRef .tc Cert.KernelIdeal.main_arg2)) :
    StableHlo.after (Cert.ReferenceIdeal.RefRun.opsPre (F := Ideal)) MR (Proc.devRef .tc Cert.ReferenceIdeal.main_v167)
      = StableHlo.after preK MK (Proc.devRef .tc Cert.KernelIdeal.main_v167) := by
  simp only [preK, Cert.ReferenceIdeal.RefRun.opsPre, Cert.KernelIdeal.GenP.hostOps0, Cert.KernelIdeal.GenP.hostOps0_1, Cert.KernelIdeal.GenP.hostOps0_2, Cert.KernelIdeal.GenP.hostOps0_3, Cert.KernelIdeal.GenP.hostOps0_4, Cert.KernelIdeal.GenP.hostOps0_5, Cert.KernelIdeal.GenP.hostOps0_6, Cert.KernelIdeal.GenP.hostOps0_7, Cert.KernelIdeal.GenP.hostOps0_8, Cert.KernelIdeal.GenP.hostOps0_9, Cert.KernelIdeal.GenP.hostOps0_10, Cert.KernelIdeal.GenP.hostOps0_11, Cert.KernelIdeal.GenP.hostOps0_12, Cert.KernelIdeal.GenP.hostOps0_13, Cert.KernelIdeal.GenP.hostOps0_14, Cert.KernelIdeal.GenP.hostOps0_15, Cert.KernelIdeal.GenP.hostOps0_16, Cert.KernelIdeal.GenP.hostOps0_17, Cert.KernelIdeal.GenP.hostOps0_18, Cert.KernelIdeal.GenP.hostOps0_19, Cert.KernelIdeal.GenP.hostOps0_20, Cert.KernelIdeal.GenP.hostOps0_21, Cert.KernelIdeal.GenP.hostOps0_22, Cert.KernelIdeal.GenP.hostOps0_23, Cert.KernelIdeal.GenP.hostOps0_24, Cert.KernelIdeal.GenP.hostOps0_25, Cert.KernelIdeal.GenP.hostOps0_26, Cert.KernelIdeal.GenP.hostOps0_27, Cert.KernelIdeal.GenP.hostOps0_28, Cert.KernelIdeal.GenP.hostOps0_29, Cert.KernelIdeal.GenP.hostOps0_30, Cert.KernelIdeal.GenP.hostOps0_31, Cert.KernelIdeal.GenP.hostOps0_32, Cert.KernelIdeal.GenP.hostOps0_33, Cert.KernelIdeal.GenP.hostOps0_34, Cert.KernelIdeal.GenP.hostOps0_35, Cert.KernelIdeal.GenP.hostOps0_36, Cert.KernelIdeal.GenP.hostOps0_37, Cert.KernelIdeal.GenP.hostOps0_38, Cert.KernelIdeal.GenP.hostOps0_39, Cert.KernelIdeal.GenP.hostOps0_40, Cert.KernelIdeal.GenP.hostOps0_41, Cert.KernelIdeal.GenP.hostOps0_42, Cert.KernelIdeal.GenP.hostOps0_43, Cert.KernelIdeal.GenP.hostOps0_44, Cert.KernelIdeal.GenP.hostOps0_45, Cert.KernelIdeal.GenP.hostOps0_46, Cert.KernelIdeal.GenP.hostOps0_47, Cert.KernelIdeal.GenP.hostOps0_48, Cert.KernelIdeal.GenP.hostOps0_49, Cert.KernelIdeal.GenP.hostOps0_50, Cert.ReferenceIdeal.RefRun.main_part0_ops0, Cert.ReferenceIdeal.RefRun.main_part0_ops1, Cert.ReferenceIdeal.RefRun.main_part0_ops2, Cert.ReferenceIdeal.RefRun.main_part0_ops3, Cert.ReferenceIdeal.RefRun.main_part0_ops4, Cert.ReferenceIdeal.RefRun.main_part0_ops5, Cert.ReferenceIdeal.RefRun.main_part0_ops6, Cert.ReferenceIdeal.RefRun.main_part0_ops7, Cert.ReferenceIdeal.RefRun.main_part0_ops8, Cert.ReferenceIdeal.RefRun.main_part0_ops9, Cert.ReferenceIdeal.RefRun.main_part0_ops10, Cert.ReferenceIdeal.RefRun.main_part1_ops0, Cert.ReferenceIdeal.RefRun.main_part1_ops1, Cert.ReferenceIdeal.RefRun.main_part1_ops2, Cert.ReferenceIdeal.RefRun.main_part1_ops3, Cert.ReferenceIdeal.RefRun.main_part1_ops4, Cert.ReferenceIdeal.RefRun.main_part1_ops5, Cert.ReferenceIdeal.RefRun.main_part1_ops6, Cert.ReferenceIdeal.RefRun.main_part1_ops7, Cert.ReferenceIdeal.RefRun.main_part1_ops8, Cert.ReferenceIdeal.RefRun.main_part1_ops9, Cert.ReferenceIdeal.RefRun.main_part1_ops10, Cert.ReferenceIdeal.RefRun.main_part1_ops11, Cert.ReferenceIdeal.RefRun.main_part2_ops0, Cert.ReferenceIdeal.RefRun.main_part2_ops1, Cert.ReferenceIdeal.RefRun.main_part2_ops2, Cert.ReferenceIdeal.RefRun.main_part2_ops3, Cert.ReferenceIdeal.RefRun.main_part2_ops4, Cert.ReferenceIdeal.RefRun.main_part2_ops5, Cert.ReferenceIdeal.RefRun.main_part2_ops6, Cert.ReferenceIdeal.RefRun.main_part2_ops7, Cert.ReferenceIdeal.RefRun.main_part2_ops8, Cert.ReferenceIdeal.RefRun.main_part2_ops9, Cert.ReferenceIdeal.RefRun.main_part2_ops10, Cert.ReferenceIdeal.RefRun.main_part2_ops11, Cert.ReferenceIdeal.RefRun.main_part2_ops12, Cert.ReferenceIdeal.RefRun.main_part3_ops0, Cert.ReferenceIdeal.RefRun.main_part3_ops1, Cert.ReferenceIdeal.RefRun.main_part3_ops2, Cert.ReferenceIdeal.RefRun.main_part3_ops3, Cert.ReferenceIdeal.RefRun.main_part3_ops4, Cert.ReferenceIdeal.RefRun.main_part3_ops5, Cert.ReferenceIdeal.RefRun.main_part3_ops6, Cert.ReferenceIdeal.RefRun.main_part3_ops7, Cert.ReferenceIdeal.RefRun.main_part3_ops8, Cert.ReferenceIdeal.RefRun.main_part3_ops9, Cert.ReferenceIdeal.RefRun.main_part3_ops10, Cert.ReferenceIdeal.RefRun.main_part3_ops11, Cert.ReferenceIdeal.RefRun.main_part3_ops12, Cert.ReferenceIdeal.RefRun.main_part3_ops13, Cert.ReferenceIdeal.RefRun.main_part3_ops14, Cert.ReferenceIdeal.RefRun.main_part4_ops0, Cert.ReferenceIdeal.RefRun.main_part4_ops1, Cert.ReferenceIdeal.RefRun.main_part4_ops2, List.flatten_cons, List.flatten_nil, List.append_nil, List.cons_append, List.nil_append]
  simp (disch := decide) only [after_cons, after_nil,
      nullary_result', unary_result', binary_result', ternary_result', quaternary_result', reshape_result',
      nary3_result_fn' (x := Cert.ReferenceIdeal.main_v31) (a := Cert.ReferenceIdeal.main_v32) (b := Cert.ReferenceIdeal.main_v33) (y := Cert.ReferenceIdeal.main_v34) cat3R,
      nary3_result_fn' (x := Cert.ReferenceIdeal.main_v56) (a := Cert.ReferenceIdeal.main_v57) (b := Cert.ReferenceIdeal.main_v58) (y := Cert.ReferenceIdeal.main_v59) cat3R,
      nary3_result_fn' (x := Cert.ReferenceIdeal.main_v82) (a := Cert.ReferenceIdeal.main_v83) (b := Cert.ReferenceIdeal.main_v84) (y := Cert.ReferenceIdeal.main_v85) cat3R,
      nary3_result_fn' (x := Cert.ReferenceIdeal.main_v108) (a := Cert.ReferenceIdeal.main_v109) (b := Cert.ReferenceIdeal.main_v110) (y := Cert.ReferenceIdeal.main_v111) cat3R,
      nary3_result_fn' (x := Cert.KernelIdeal.main_v31) (a := Cert.KernelIdeal.main_v32) (b := Cert.KernelIdeal.main_v33) (y := Cert.KernelIdeal.main_v34) cat3K,
      nary3_result_fn' (x := Cert.KernelIdeal.main_v56) (a := Cert.KernelIdeal.main_v57) (b := Cert.KernelIdeal.main_v58) (y := Cert.KernelIdeal.main_v59) cat3K,
      nary3_result_fn' (x := Cert.KernelIdeal.main_v82) (a := Cert.KernelIdeal.main_v83) (b := Cert.KernelIdeal.main_v84) (y := Cert.KernelIdeal.main_v85) cat3K,
      nary3_result_fn' (x := Cert.KernelIdeal.main_v108) (a := Cert.KernelIdeal.main_v109) (b := Cert.KernelIdeal.main_v110) (y := Cert.KernelIdeal.main_v111) cat3K,
      unaryIndexed_result', binaryIndexed_result',
      nullary_result_ne', unary_result_ne', binary_result_ne', ternary_result_ne', quaternary_result_ne', reshape_result_ne',
      nary_result_ne', unaryIndexed_result_ne', binaryIndexed_result_ne']
  (try rw [h0]); (try rw [h1]); (try rw [h2])
  rfl

end Cert.Bridge

end
-- ==== Proof.PrefixEq.lean ====
/-
  The two programs' shared beginning computes the same values at the eight buffers the rest of each program reads:
  the four integer columns (`main_v35`, `main_v61`, `main_v87`, `main_v113`) and the four float columns
  (`main_v125`, `main_v139`, `main_v153`, `main_v167`). One module per buffer; this one gathers them.
-/
import proofs.«140712_j5016521802106_2_alg».proof.Proof.PrefixEqV35
import proofs.«140712_j5016521802106_2_alg».proof.Proof.PrefixEqV61
import proofs.«140712_j5016521802106_2_alg».proof.Proof.PrefixEqV87
import proofs.«140712_j5016521802106_2_alg».proof.Proof.PrefixEqV113
import proofs.«140712_j5016521802106_2_alg».proof.Proof.PrefixEqV125
import proofs.«140712_j5016521802106_2_alg».proof.Proof.PrefixEqV139
import proofs.«140712_j5016521802106_2_alg».proof.Proof.PrefixEqV153
import proofs.«140712_j5016521802106_2_alg».proof.Proof.PrefixEqV167
-- ==== Proof.lean ====
/-
  The certificate of the sparse total-variation gradient kernel against its jnp reference.

  Both programs decode each sampled cell into three grid coordinates, look up the cell's own link and its three forward
  neighbours' links (a link is a row of the density table, or negative for an empty or out-of-range voxel), gather the
  four densities, and form from them the four contributions of the cell: `−(δx+δy+δz)·ι` to its own row and `δx·ι`,
  `δy·ι`, `δz·ι` to the neighbours' rows, with `ι = λ·(ε + δx² + δy² + δz²)^(−1/2)`. They differ in how the
  contributions reach the gradient. The reference adds the four directions one after the other into an array with one
  extra row, where every negative link is sent, and cuts that row off. The kernel program computes the contributions
  in a launch over 11 blocks of 16384 cells, multiplies each by the indicator of its link being `≥ 0`, clamps negative
  links to row 0, and adds all four directions in ONE accumulation. On the extended reals the two results are equal row
  by row: sums may be regrouped freely, `c·1 = c` and `c·0 = 0` hold for every extended real `c`, so no finiteness of
  the densities is used.

  The three frames: each program runs to its end without a fault and leaves its three arguments as they were (the
  kernel programs by the launch theorem around their one region, the reference as a straight line of host operations).
  The idealization rewrote nothing, so the preservation claim is trivial.
-/
import proofs.«140712_j5016521802106_2_alg».proof.Defs
import proofs.«140712_j5016521802106_2_alg».proof.Proof.Gen.Kernel
import proofs.«140712_j5016521802106_2_alg».proof.Proof.Gen.KernelIdeal
import proofs.«140712_j5016521802106_2_alg».proof.Proof.Gen.ReferenceIdeal
import proofs.«140712_j5016521802106_2_alg».proof.Proof.Gen.Pre_finite_inputs
import proofs.«140712_j5016521802106_2_alg».proof.Proof.FrameKernel
import proofs.«140712_j5016521802106_2_alg».proof.Proof.FrameKernelIdeal
import proofs.«140712_j5016521802106_2_alg».proof.Proof.RefRun
import proofs.«140712_j5016521802106_2_alg».proof.Proof.Value
import proofs.«140712_j5016521802106_2_alg».proof.Proof.KArray
import proofs.«140712_j5016521802106_2_alg».proof.Proof.PrefixEq
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame m ρ

/-- From memories that agree on the three arguments the two idealized programs end with the same gradient: the kernel
    program's result is the one accumulation of its launch's output, the reference's the four successive accumulations,
    of the links and densities that the shared operations compute from the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Pipeline.afterTail₀ Cert.KernelIdeal.cfgs (Cert.KernelIdeal.GenP.dats (F := Ideal) m) 0 (Cert.KernelIdeal.GenP.V0 m)
      [Cert.KernelIdeal.GenP.hostOps1, Cert.KernelIdeal.GenP.hostOps1_1, Cert.KernelIdeal.GenP.hostOps1_2, Cert.KernelIdeal.GenP.hostOps1_3,
        Cert.KernelIdeal.GenP.hostOps1_4, Cert.KernelIdeal.GenP.hostOps1_5, Cert.KernelIdeal.GenP.hostOps1_6, Cert.KernelIdeal.GenP.hostOps1_7,
        Cert.KernelIdeal.GenP.hostOps1_8] c Cert.KernelIdeal.main_v220, ?_, ?_⟩
  · refine (θ_run Cert.KernelIdeal.defs _ _).mono (fun r h c => ⟨?_, ?_, ?_, ?_⟩) (Cert.KernelIdeal.GenP.run_main (F := Ideal) m ρ)
    · exact (h c).2 Cert.KernelIdeal.main_v220 (Pipeline.mem_restRefs_of Cert.KernelIdeal.main_v220 (by decide) (by decide))
    · exact ((h c).2 Cert.KernelIdeal.main_arg0 (Pipeline.mem_restRefs_of Cert.KernelIdeal.main_arg0 (by decide) (by decide))).trans
        (Cert.KernelIdeal.GenP.W_main_arg0 m (Cert.KernelIdeal.GenP.dats m) c)
    · exact ((h c).2 Cert.KernelIdeal.main_arg1 (Pipeline.mem_restRefs_of Cert.KernelIdeal.main_arg1 (by decide) (by decide))).trans
        (Cert.KernelIdeal.GenP.W_main_arg1 m (Cert.KernelIdeal.GenP.dats m) c)
    · exact ((h c).2 Cert.KernelIdeal.main_arg2 (Pipeline.mem_restRefs_of Cert.KernelIdeal.main_arg2 (by decide) (by decide))).trans
        (Cert.KernelIdeal.GenP.W_main_arg2 m (Cert.KernelIdeal.GenP.dats m) c)
  · refine (θ_run Cert.ReferenceIdeal.defs _ _).mono (fun r h c => ⟨?_, (h c).2⟩) (Cert.ReferenceIdeal.RefRun.run (F := Ideal) m' ρ')
    have h0 := (hagree c).1
    have h1 := (hagree c).2.1
    have h2 := (hagree c).2.2
    rw [(h c).1, Cert.ReferenceIdeal.Bridge.post_v235,
      Cert.Bridge.prefix_v35 (fun b => m (c, b)) (fun b => m' (c, b)) h0 h1 h2,
      Cert.Bridge.prefix_v61 (fun b => m (c, b)) (fun b => m' (c, b)) h0 h1 h2,
      Cert.Bridge.prefix_v87 (fun b => m (c, b)) (fun b => m' (c, b)) h0 h1 h2,
      Cert.Bridge.prefix_v113 (fun b => m (c, b)) (fun b => m' (c, b)) h0 h1 h2,
      Cert.Bridge.prefix_v125 (fun b => m (c, b)) (fun b => m' (c, b)) h0 h1 h2,
      Cert.Bridge.prefix_v139 (fun b => m (c, b)) (fun b => m' (c, b)) h0 h1 h2,
      Cert.Bridge.prefix_v153 (fun b => m (c, b)) (fun b => m' (c, b)) h0 h1 h2,
      Cert.Bridge.prefix_v167 (fun b => m (c, b)) (fun b => m' (c, b)) h0 h1 h2]
    exact (Cert.Bridge.tails_eq _ _ _ _ _ _ _ _).symm.trans (Cert.Bridge.K.result_eq m c (Cert.KernelIdeal.Bridge.final2 m c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
